-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v459) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel

variable [Facts]

def fn {F : FTy → Type} [FloatOps F] (main_arg0 : FVec F S4000000x3 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  main_v3
-- ==== Kernel.lean ====
abbrev S4000000x3 : Shape := ⟨2, ![4000000, 3]⟩
abbrev S4000000x16 : Shape := ⟨2, ![4000000, 16]⟩
abbrev S2000x3 : Shape := ⟨2, ![2000, 3]⟩
abbrev S2000x16 : Shape := ⟨2, ![2000, 16]⟩
abbrev S2000x1 : Shape := ⟨2, ![2000, 1]⟩
abbrev S2000 : Shape := ⟨1, ![2000]⟩

abbrev nBuf : Space → Nat
  | .hbm => 2
  | .vmem => 4
  | .smem => 0
  | _ => 0

abbrev bufTy : (tb : Table) → Fin (tcTables nBuf tb) → BufTy
  | .hbm, ⟨0, _⟩ => ⟨S4000000x3, .f32⟩
  | .hbm, ⟨1, _⟩ => ⟨S4000000x16, .f32⟩
  | .local _ .vmem, ⟨0, _⟩ => ⟨S2000x3, .f32⟩
  | .local _ .vmem, ⟨1, _⟩ => ⟨S2000x3, .f32⟩
  | .local _ .vmem, ⟨2, _⟩ => ⟨S2000x16, .f32⟩
  | .local _ .vmem, ⟨3, _⟩ => ⟨S2000x16, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2000x3_S2000x3_0_0 : ∀ a, (![0, 0] : Fin 2 → Nat) a + S2000x3.size a ≤ S2000x3.size a
  h_S2000x3 : 0 < S2000x3.numel
  slices_S2000x3_o0_0_S2000x1 : S2000x3.Slices ![0, 0] S2000x1
  shapeCasts_S2000x1_S2000 : S2000x1.ShapeCasts S2000
  slices_S2000x3_o0_1_S2000x1 : S2000x3.Slices ![0, 1] S2000x1
  slices_S2000x3_o0_2_S2000x1 : S2000x3.Slices ![0, 2] S2000x1
  shapeCasts_S2000_S2000x1 : S2000.ShapeCasts S2000x1
  concatenates_S2000x1_S2000x1_S2000x1_S2000x1_S2000x1_S2000x1_S2000x1_S2000x1_S2000x1_S2000x1_S2000x1_S2000x1_S2000x1_S2000x1_S2000x1_S2000x1_S2000x16_d1 : Shape.Concatenates [S2000x1, S2000x1, S2000x1, S2000x1, S2000x1, S2000x1, S2000x1, S2000x1, S2000x1, S2000x1, S2000x1, S2000x1, S2000x1, S2000x1, S2000x1, S2000x1] S2000x16 1
  inb_S2000x16_S2000x16_0_0 : ∀ a, (![0, 0] : Fin 2 → Nat) a + S2000x16.size a ≤ S2000x16.size a
  h_S2000x16 : 0 < S2000x16.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S4000000x3.size a
  hwx0_0 : ∀ i : grid0.Coords, EltTy.bits .f32 = 32 ∨ (Rect.block (s := S4000000x3) S2000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x16.size a ≤ S4000000x16.size a
  hwx0_1 : ∀ i : grid0.Coords, EltTy.bits .f32 = 32 ∨ (Rect.block (s := S4000000x16) S2000x16.size (cc0_transform_1 i) (hinb0_1 i)).WholeWords (EltTy.packing .f32)

variable [Facts₀]

abbrev win0_0 : Pipeline.Window sig grid0 :=
  Pipeline.Window.ofSpec (Memref.whole main_arg0) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x3 : Shape := ⟨2, ![4000000, 3]⟩
abbrev S4000000x1 : Shape := ⟨2, ![4000000, 1]⟩
abbrev S4000000 : Shape := ⟨1, ![4000000]⟩
abbrev S_ : Shape := ⟨0, ![]⟩
abbrev S4000000x16 : Shape := ⟨2, ![4000000, 16]⟩

abbrev nBuf : Space → Nat
  | .hbm => 913
  | .vmem => 0
  | .smem => 0
  | _ => 0

abbrev hbmTy0_0 (i : Nat) : BufTy := match i % 128 with
  | 0 => ⟨S4000000x3, .f32⟩
  | 1 => ⟨S4000000x1, .f32⟩
  | 2 => ⟨S4000000, .f32⟩
  | 3 => ⟨S_, .f32⟩
  | 4 => ⟨S4000000, .f32⟩
  | 5 => ⟨S4000000, .f32⟩
  | 6 => ⟨S_, .f32⟩
  | 7 => ⟨S4000000, .f32⟩
  | 8 => ⟨S4000000, .f32⟩
  | 9 => ⟨S_, .f32⟩
  | 10 => ⟨S4000000, .f32⟩
  | 11 => ⟨S4000000, .f32⟩
  | 12 => ⟨S4000000, .f32⟩
  | 13 => ⟨S_, .f32⟩
  | 14 => ⟨S4000000, .f32⟩
  | 15 => ⟨S4000000, .f32⟩
  | 16 => ⟨S_, .f32⟩
  | 17 => ⟨S_, .f32⟩
  | 18 => ⟨S4000000, .f32⟩
  | 19 => ⟨S4000000, .f32⟩
  | 20 => ⟨S4000000, .f32⟩
  | 21 => ⟨S4000000, .f32⟩
  | 22 => ⟨S4000000x1, .f32⟩
  | 23 => ⟨S4000000, .f32⟩
  | 24 => ⟨S_, .f32⟩
  | 25 => ⟨S4000000, .f32⟩
  | 26 => ⟨S4000000, .f32⟩
  | 27 => ⟨S_, .f32⟩
  | 28 => ⟨S4000000, .f32⟩
  | 29 => ⟨S4000000, .f32⟩
  | 30 => ⟨S_, .f32⟩
  | 31 => ⟨S4000000, .f32⟩
  | 32 => ⟨S4000000, .f32⟩
  | 33 => ⟨S4000000, .f32⟩
  | 34 => ⟨S_, .f32⟩
  | 35 => ⟨S4000000, .f32⟩
  | 36 => ⟨S4000000, .f32⟩
  | 37 => ⟨S_, .f32⟩
  | 38 => ⟨S_, .f32⟩
  | 39 => ⟨S4000000, .f32⟩
  | 40 => ⟨S4000000, .f32⟩
  | 41 => ⟨S4000000, .f32⟩
  | 42 => ⟨S4000000, .f32⟩
  | 43 => ⟨S4000000x1, .f32⟩
  | 44 => ⟨S4000000, .f32⟩
  | 45 => ⟨S_, .f32⟩
  | 46 => ⟨S4000000, .f32⟩
  | 47 => ⟨S4000000, .f32⟩
  | 48 => ⟨S_, .f32⟩
  | 49 => ⟨S4000000, .f32⟩
  | 50 => ⟨S4000000, .f32⟩
  | 51 => ⟨S_, .f32⟩
  | 52 => ⟨S4000000, .f32⟩
  | 53 => ⟨S4000000, .f32⟩
  | 54 => ⟨S4000000, .f32⟩
  | 55 => ⟨S_, .f32⟩
  | 56 => ⟨S4000000, .f32⟩
  | 57 => ⟨S4000000, .f32⟩
  | 58 => ⟨S_, .f32⟩
  | 59 => ⟨S_, .f32⟩
  | 60 => ⟨S4000000, .f32⟩
  | 61 => ⟨S4000000, .f32⟩
  | 62 => ⟨S4000000, .f32⟩
  | 63 => ⟨S4000000, .f32⟩
  | 64 => ⟨S4000000, .f32⟩
  | 65 => ⟨S_, .f32⟩
  | 66 => ⟨S4000000, .f32⟩
  | 67 => ⟨S4000000, .f32⟩
  | 68 => ⟨S4000000, .f32⟩
  | 69 => ⟨S_, .f32⟩
  | 70 => ⟨S4000000, .f32⟩
  | 71 => ⟨S4000000, .f32⟩
  | 72 => ⟨S_, .f32⟩
  | 73 => ⟨S_, .f32⟩
  | 74 => ⟨S4000000, .f32⟩
  | 75 => ⟨S4000000, .f32⟩
  | 76 => ⟨S4000000, .f32⟩
  | 77 => ⟨S4000000, .f32⟩
  | 78 => ⟨S4000000, .f32⟩
  | 79 => ⟨S_, .f32⟩
  | 80 => ⟨S4000000, .f32⟩
  | 81 => ⟨S4000000, .f32⟩
  | 82 => ⟨S4000000, .f32⟩
  | 83 => ⟨S_, .f32⟩
  | 84 => ⟨S4000000, .f32⟩
  | 85 => ⟨S4000000, .f32⟩
  | 86 => ⟨S_, .f32⟩
  | 87 => ⟨S_, .f32⟩
  | 88 => ⟨S4000000, .f32⟩
  | 89 => ⟨S4000000, .f32⟩
  | 90 => ⟨S4000000, .f32⟩
  | 91 => ⟨S4000000, .f32⟩
  | 92 => ⟨S4000000, .f32⟩
  | 93 => ⟨S_, .f32⟩
  | 94 => ⟨S4000000, .f32⟩
  | 95 => ⟨S4000000, .f32⟩
  | 96 => ⟨S4000000, .f32⟩
  | 97 => ⟨S_, .f32⟩
  | 98 => ⟨S4000000, .f32⟩
  | 99 => ⟨S4000000, .f32⟩
  | 100 => ⟨S_, .f32⟩
  | 101 => ⟨S_, .f32⟩
  | 102 => ⟨S4000000, .f32⟩
  | 103 => ⟨S4000000, .f32⟩
  | 104 => ⟨S4000000, .f32⟩
  | 105 => ⟨S4000000, .f32⟩
  | 106 => ⟨S4000000, .f32⟩
  | 107 => ⟨S_, .f32⟩
  | 108 => ⟨S4000000, .f32⟩
  | 109 => ⟨S4000000, .f32⟩
  | 110 => ⟨S4000000, .f32⟩
  | 111 => ⟨S_, .f32⟩
  | 112 => ⟨S4000000, .f32⟩
  | 113 => ⟨S4000000, .f32⟩
  | 114 => ⟨S_, .f32⟩
  | 115 => ⟨S_, .f32⟩
  | 116 => ⟨S4000000, .f32⟩
  | 117 => ⟨S4000000, .f32⟩
  | 118 => ⟨S4000000, .f32⟩
  | 119 => ⟨S4000000, .f32⟩
  | 120 => ⟨S4000000, .f32⟩
  | 121 => ⟨S_, .f32⟩
  | 122 => ⟨S4000000, .f32⟩
  | 123 => ⟨S4000000, .f32⟩
  | 124 => ⟨S4000000, .f32⟩
  | 125 => ⟨S_, .f32⟩
  | 126 => ⟨S4000000, .f32⟩
  | 127 => ⟨S4000000, .f32⟩
  | _ => ⟨S4000000x3, .f32⟩

abbrev hbmTy0_1 (i : Nat) : BufTy := match i % 128 with
  | 0 => ⟨S_, .f32⟩
  | 1 => ⟨S_, .f32⟩
  | 2 => ⟨S4000000, .f32⟩
  | 3 => ⟨S4000000, .f32⟩
  | 4 => ⟨S4000000, .f32⟩
  | 5 => ⟨S4000000, .f32⟩
  | 6 => ⟨S4000000, .f32⟩
  | 7 => ⟨S_, .f32⟩
  | 8 => ⟨S4000000, .f32⟩
  | 9 => ⟨S4000000, .f32⟩
  | 10 => ⟨S4000000, .f32⟩
  | 11 => ⟨S_, .f32⟩
  | 12 => ⟨S4000000, .f32⟩
  | 13 => ⟨S4000000, .f32⟩
  | 14 => ⟨S_, .f32⟩
  | 15 => ⟨S_, .f32⟩
  | 16 => ⟨S4000000, .f32⟩
  | 17 => ⟨S4000000, .f32⟩
  | 18 => ⟨S4000000, .f32⟩
  | 19 => ⟨S4000000, .f32⟩
  | 20 => ⟨S_, .f32⟩
  | 21 => ⟨S4000000, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S4000000, .f32⟩
  | 33 => ⟨S4000000, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S4000000, .f32⟩
  | 46 => ⟨S4000000, .f32⟩
  | 47 => ⟨S4000000, .f32⟩
  | 48 => ⟨S_, .f32⟩
  | 49 => ⟨S4000000, .f32⟩
  | 50 => ⟨S4000000, .f32⟩
  | 51 => ⟨S_, .f32⟩
  | 52 => ⟨S_, .f32⟩
  | 53 => ⟨S4000000, .f32⟩
  | 54 => ⟨S4000000, .f32⟩
  | 55 => ⟨S4000000, .f32⟩
  | 56 => ⟨S4000000, .f32⟩
  | 57 => ⟨S4000000, .f32⟩
  | 58 => ⟨S4000000, .f32⟩
  | 59 => ⟨S_, .f32⟩
  | 60 => ⟨S4000000, .f32⟩
  | 61 => ⟨S4000000, .f32⟩
  | 62 => ⟨S4000000, .f32⟩
  | 63 => ⟨S_, .f32⟩
  | 64 => ⟨S4000000, .f32⟩
  | 65 => ⟨S4000000, .f32⟩
  | 66 => ⟨S_, .f32⟩
  | 67 => ⟨S_, .f32⟩
  | 68 => ⟨S4000000, .f32⟩
  | 69 => ⟨S4000000, .f32⟩
  | 70 => ⟨S4000000, .f32⟩
  | 71 => ⟨S4000000, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S4000000, .f32⟩
  | 84 => ⟨S4000000, .f32⟩
  | 85 => ⟨S4000000, .f32⟩
  | 86 => ⟨S_, .f32⟩
  | 87 => ⟨S4000000, .f32⟩
  | 88 => ⟨S4000000, .f32⟩
  | 89 => ⟨S_, .f32⟩
  | 90 => ⟨S_, .f32⟩
  | 91 => ⟨S4000000, .f32⟩
  | 92 => ⟨S4000000, .f32⟩
  | 93 => ⟨S4000000, .f32⟩
  | 94 => ⟨S4000000, .f32⟩
  | 95 => ⟨S4000000, .f32⟩
  | 96 => ⟨S4000000, .f32⟩
  | 97 => ⟨S_, .f32⟩
  | 98 => ⟨S4000000, .f32⟩
  | 99 => ⟨S4000000, .f32⟩
  | 100 => ⟨S4000000, .f32⟩
  | 101 => ⟨S_, .f32⟩
  | 102 => ⟨S4000000, .f32⟩
  | 103 => ⟨S4000000, .f32⟩
  | 104 => ⟨S_, .f32⟩
  | 105 => ⟨S_, .f32⟩
  | 106 => ⟨S4000000, .f32⟩
  | 107 => ⟨S4000000, .f32⟩
  | 108 => ⟨S4000000, .f32⟩
  | 109 => ⟨S4000000, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S4000000, .f32⟩
  | 122 => ⟨S4000000, .f32⟩
  | 123 => ⟨S4000000, .f32⟩
  | 124 => ⟨S_, .f32⟩
  | 125 => ⟨S4000000, .f32⟩
  | 126 => ⟨S4000000, .f32⟩
  | 127 => ⟨S_, .f32⟩
  | _ => ⟨S4000000x3, .f32⟩

abbrev hbmTy0_2 (i : Nat) : BufTy := match i % 128 with
  | 0 => ⟨S_, .f32⟩
  | 1 => ⟨S4000000, .f32⟩
  | 2 => ⟨S4000000, .f32⟩
  | 3 => ⟨S4000000, .f32⟩
  | 4 => ⟨S4000000, .f32⟩
  | 5 => ⟨S4000000, .f32⟩
  | 6 => ⟨S4000000, .f32⟩
  | 7 => ⟨S_, .f32⟩
  | 8 => ⟨S4000000, .f32⟩
  | 9 => ⟨S4000000, .f32⟩
  | 10 => ⟨S4000000, .f32⟩
  | 11 => ⟨S_, .f32⟩
  | 12 => ⟨S4000000, .f32⟩
  | 13 => ⟨S4000000, .f32⟩
  | 14 => ⟨S_, .f32⟩
  | 15 => ⟨S_, .f32⟩
  | 16 => ⟨S4000000, .f32⟩
  | 17 => ⟨S4000000, .f32⟩
  | 18 => ⟨S4000000, .f32⟩
  | 19 => ⟨S4000000, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S4000000, .f32⟩
  | 32 => ⟨S4000000, .f32⟩
  | 33 => ⟨S4000000, .f32⟩
  | 34 => ⟨S_, .f32⟩
  | 35 => ⟨S4000000, .f32⟩
  | 36 => ⟨S4000000, .f32⟩
  | 37 => ⟨S_, .f32⟩
  | 38 => ⟨S_, .f32⟩
  | 39 => ⟨S4000000, .f32⟩
  | 40 => ⟨S4000000, .f32⟩
  | 41 => ⟨S4000000, .f32⟩
  | 42 => ⟨S4000000, .f32⟩
  | 43 => ⟨S4000000, .f32⟩
  | 44 => ⟨S4000000, .f32⟩
  | 45 => ⟨S_, .f32⟩
  | 46 => ⟨S4000000, .f32⟩
  | 47 => ⟨S4000000, .f32⟩
  | 48 => ⟨S4000000, .f32⟩
  | 49 => ⟨S_, .f32⟩
  | 50 => ⟨S4000000, .f32⟩
  | 51 => ⟨S4000000, .f32⟩
  | 52 => ⟨S_, .f32⟩
  | 53 => ⟨S_, .f32⟩
  | 54 => ⟨S4000000, .f32⟩
  | 55 => ⟨S4000000, .f32⟩
  | 56 => ⟨S4000000, .f32⟩
  | 57 => ⟨S4000000, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S4000000, .f32⟩
  | 70 => ⟨S4000000, .f32⟩
  | 71 => ⟨S4000000, .f32⟩
  | 72 => ⟨S_, .f32⟩
  | 73 => ⟨S4000000, .f32⟩
  | 74 => ⟨S4000000, .f32⟩
  | 75 => ⟨S_, .f32⟩
  | 76 => ⟨S_, .f32⟩
  | 77 => ⟨S4000000, .f32⟩
  | 78 => ⟨S4000000, .f32⟩
  | 79 => ⟨S4000000, .f32⟩
  | 80 => ⟨S4000000, .f32⟩
  | 81 => ⟨S4000000, .f32⟩
  | 82 => ⟨S4000000, .f32⟩
  | 83 => ⟨S_, .f32⟩
  | 84 => ⟨S4000000, .f32⟩
  | 85 => ⟨S4000000, .f32⟩
  | 86 => ⟨S4000000, .f32⟩
  | 87 => ⟨S_, .f32⟩
  | 88 => ⟨S4000000, .f32⟩
  | 89 => ⟨S4000000, .f32⟩
  | 90 => ⟨S_, .f32⟩
  | 91 => ⟨S_, .f32⟩
  | 92 => ⟨S4000000, .f32⟩
  | 93 => ⟨S4000000, .f32⟩
  | 94 => ⟨S4000000, .f32⟩
  | 95 => ⟨S4000000, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S4000000, .f32⟩
  | 108 => ⟨S4000000, .f32⟩
  | 109 => ⟨S4000000, .f32⟩
  | 110 => ⟨S_, .f32⟩
  | 111 => ⟨S4000000, .f32⟩
  | 112 => ⟨S4000000, .f32⟩
  | 113 => ⟨S_, .f32⟩
  | 114 => ⟨S_, .f32⟩
  | 115 => ⟨S4000000, .f32⟩
  | 116 => ⟨S4000000, .f32⟩
  | 117 => ⟨S4000000, .f32⟩
  | 118 => ⟨S4000000, .f32⟩
  | 119 => ⟨S4000000, .f32⟩
  | 120 => ⟨S4000000, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4000000x3, .f32⟩

abbrev hbmTy0_3 (i : Nat) : BufTy := match i % 128 with
  | 0 => ⟨S_, .f32⟩
  | 1 => ⟨S_, .f32⟩
  | 2 => ⟨S_, .f32⟩
  | 3 => ⟨S4000000, .f32⟩
  | 4 => ⟨S4000000, .f32⟩
  | 5 => ⟨S_, .f32⟩
  | 6 => ⟨S4000000, .f32⟩
  | 7 => ⟨S4000000, .f32⟩
  | 8 => ⟨S4000000, .f32⟩
  | 9 => ⟨S_, .f32⟩
  | 10 => ⟨S4000000, .f32⟩
  | 11 => ⟨S4000000, .f32⟩
  | 12 => ⟨S_, .f32⟩
  | 13 => ⟨S_, .f32⟩
  | 14 => ⟨S4000000, .f32⟩
  | 15 => ⟨S4000000, .f32⟩
  | 16 => ⟨S4000000, .f32⟩
  | 17 => ⟨S4000000, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S4000000, .f32⟩
  | 30 => ⟨S4000000, .f32⟩
  | 31 => ⟨S4000000, .f32⟩
  | 32 => ⟨S_, .f32⟩
  | 33 => ⟨S4000000, .f32⟩
  | 34 => ⟨S4000000, .f32⟩
  | 35 => ⟨S_, .f32⟩
  | 36 => ⟨S_, .f32⟩
  | 37 => ⟨S4000000, .f32⟩
  | 38 => ⟨S4000000, .f32⟩
  | 39 => ⟨S4000000, .f32⟩
  | 40 => ⟨S4000000, .f32⟩
  | 41 => ⟨S4000000, .f32⟩
  | 42 => ⟨S4000000, .f32⟩
  | 43 => ⟨S_, .f32⟩
  | 44 => ⟨S4000000, .f32⟩
  | 45 => ⟨S4000000, .f32⟩
  | 46 => ⟨S4000000, .f32⟩
  | 47 => ⟨S_, .f32⟩
  | 48 => ⟨S4000000, .f32⟩
  | 49 => ⟨S4000000, .f32⟩
  | 50 => ⟨S_, .f32⟩
  | 51 => ⟨S_, .f32⟩
  | 52 => ⟨S4000000, .f32⟩
  | 53 => ⟨S4000000, .f32⟩
  | 54 => ⟨S4000000, .f32⟩
  | 55 => ⟨S4000000, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S4000000, .f32⟩
  | 68 => ⟨S4000000, .f32⟩
  | 69 => ⟨S4000000, .f32⟩
  | 70 => ⟨S_, .f32⟩
  | 71 => ⟨S4000000, .f32⟩
  | 72 => ⟨S4000000, .f32⟩
  | 73 => ⟨S_, .f32⟩
  | 74 => ⟨S_, .f32⟩
  | 75 => ⟨S4000000, .f32⟩
  | 76 => ⟨S4000000, .f32⟩
  | 77 => ⟨S4000000, .f32⟩
  | 78 => ⟨S4000000, .f32⟩
  | 79 => ⟨S4000000, .f32⟩
  | 80 => ⟨S4000000, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S4000000, .f32⟩
  | 93 => ⟨S4000000, .f32⟩
  | 94 => ⟨S4000000, .f32⟩
  | 95 => ⟨S_, .f32⟩
  | 96 => ⟨S4000000, .f32⟩
  | 97 => ⟨S4000000, .f32⟩
  | 98 => ⟨S_, .f32⟩
  | 99 => ⟨S_, .f32⟩
  | 100 => ⟨S4000000, .f32⟩
  | 101 => ⟨S4000000, .f32⟩
  | 102 => ⟨S4000000, .f32⟩
  | 103 => ⟨S4000000, .f32⟩
  | 104 => ⟨S4000000, .f32⟩
  | 105 => ⟨S4000000, .f32⟩
  | 106 => ⟨S4000000, .f32⟩
  | 107 => ⟨S_, .f32⟩
  | 108 => ⟨S4000000, .f32⟩
  | 109 => ⟨S4000000, .f32⟩
  | 110 => ⟨S4000000, .f32⟩
  | 111 => ⟨S_, .f32⟩
  | 112 => ⟨S4000000, .f32⟩
  | 113 => ⟨S4000000, .f32⟩
  | 114 => ⟨S_, .f32⟩
  | 115 => ⟨S_, .f32⟩
  | 116 => ⟨S4000000, .f32⟩
  | 117 => ⟨S4000000, .f32⟩
  | 118 => ⟨S4000000, .f32⟩
  | 119 => ⟨S4000000, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4000000x3, .f32⟩

abbrev hbmTy0_4 (i : Nat) : BufTy := match i % 128 with
  | 0 => ⟨S_, .f32⟩
  | 1 => ⟨S_, .f32⟩
  | 2 => ⟨S_, .f32⟩
  | 3 => ⟨S4000000, .f32⟩
  | 4 => ⟨S4000000, .f32⟩
  | 5 => ⟨S4000000, .f32⟩
  | 6 => ⟨S_, .f32⟩
  | 7 => ⟨S4000000, .f32⟩
  | 8 => ⟨S4000000, .f32⟩
  | 9 => ⟨S_, .f32⟩
  | 10 => ⟨S_, .f32⟩
  | 11 => ⟨S4000000, .f32⟩
  | 12 => ⟨S4000000, .f32⟩
  | 13 => ⟨S4000000, .f32⟩
  | 14 => ⟨S4000000, .f32⟩
  | 15 => ⟨S4000000, .f32⟩
  | 16 => ⟨S4000000, .f32⟩
  | 17 => ⟨S_, .f32⟩
  | 18 => ⟨S4000000, .f32⟩
  | 19 => ⟨S4000000, .f32⟩
  | 20 => ⟨S4000000, .f32⟩
  | 21 => ⟨S_, .f32⟩
  | 22 => ⟨S4000000, .f32⟩
  | 23 => ⟨S4000000, .f32⟩
  | 24 => ⟨S4000000, .f32⟩
  | 25 => ⟨S_, .f32⟩
  | 26 => ⟨S4000000, .f32⟩
  | 27 => ⟨S4000000, .f32⟩
  | 28 => ⟨S_, .f32⟩
  | 29 => ⟨S_, .f32⟩
  | 30 => ⟨S4000000, .f32⟩
  | 31 => ⟨S4000000, .f32⟩
  | 32 => ⟨S4000000, .f32⟩
  | 33 => ⟨S4000000, .f32⟩
  | 34 => ⟨S4000000, .f32⟩
  | 35 => ⟨S_, .f32⟩
  | 36 => ⟨S4000000, .f32⟩
  | 37 => ⟨S4000000, .f32⟩
  | 38 => ⟨S4000000, .f32⟩
  | 39 => ⟨S_, .f32⟩
  | 40 => ⟨S4000000, .f32⟩
  | 41 => ⟨S4000000, .f32⟩
  | 42 => ⟨S_, .f32⟩
  | 43 => ⟨S_, .f32⟩
  | 44 => ⟨S4000000, .f32⟩
  | 45 => ⟨S4000000, .f32⟩
  | 46 => ⟨S4000000, .f32⟩
  | 47 => ⟨S4000000, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S4000000, .f32⟩
  | 60 => ⟨S4000000, .f32⟩
  | 61 => ⟨S4000000, .f32⟩
  | 62 => ⟨S_, .f32⟩
  | 63 => ⟨S4000000, .f32⟩
  | 64 => ⟨S4000000, .f32⟩
  | 65 => ⟨S_, .f32⟩
  | 66 => ⟨S_, .f32⟩
  | 67 => ⟨S4000000, .f32⟩
  | 68 => ⟨S4000000, .f32⟩
  | 69 => ⟨S4000000, .f32⟩
  | 70 => ⟨S4000000, .f32⟩
  | 71 => ⟨S4000000, .f32⟩
  | 72 => ⟨S4000000, .f32⟩
  | 73 => ⟨S_, .f32⟩
  | 74 => ⟨S4000000, .f32⟩
  | 75 => ⟨S4000000, .f32⟩
  | 76 => ⟨S4000000, .f32⟩
  | 77 => ⟨S_, .f32⟩
  | 78 => ⟨S4000000, .f32⟩
  | 79 => ⟨S4000000, .f32⟩
  | 80 => ⟨S_, .f32⟩
  | 81 => ⟨S_, .f32⟩
  | 82 => ⟨S4000000, .f32⟩
  | 83 => ⟨S4000000, .f32⟩
  | 84 => ⟨S4000000, .f32⟩
  | 85 => ⟨S4000000, .f32⟩
  | 86 => ⟨S4000000, .f32⟩
  | 87 => ⟨S_, .f32⟩
  | 88 => ⟨S4000000, .f32⟩
  | 89 => ⟨S4000000, .f32⟩
  | 90 => ⟨S4000000, .f32⟩
  | 91 => ⟨S_, .f32⟩
  | 92 => ⟨S4000000, .f32⟩
  | 93 => ⟨S4000000, .f32⟩
  | 94 => ⟨S_, .f32⟩
  | 95 => ⟨S_, .f32⟩
  | 96 => ⟨S4000000, .f32⟩
  | 97 => ⟨S4000000, .f32⟩
  | 98 => ⟨S4000000, .f32⟩
  | 99 => ⟨S4000000, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S4000000, .f32⟩
  | 112 => ⟨S4000000, .f32⟩
  | 113 => ⟨S4000000, .f32⟩
  | 114 => ⟨S_, .f32⟩
  | 115 => ⟨S4000000, .f32⟩
  | 116 => ⟨S4000000, .f32⟩
  | 117 => ⟨S_, .f32⟩
  | 118 => ⟨S_, .f32⟩
  | 119 => ⟨S4000000, .f32⟩
  | 120 => ⟨S4000000, .f32⟩
  | 121 => ⟨S4000000, .f32⟩
  | 122 => ⟨S4000000, .f32⟩
  | 123 => ⟨S4000000, .f32⟩
  | 124 => ⟨S4000000, .f32⟩
  | 125 => ⟨S_, .f32⟩
  | 126 => ⟨S4000000, .f32⟩
  | 127 => ⟨S4000000, .f32⟩
  | _ => ⟨S4000000x3, .f32⟩

abbrev hbmTy0_5 (i : Nat) : BufTy := match i % 128 with
  | 0 => ⟨S_, .f32⟩
  | 1 => ⟨S4000000, .f32⟩
  | 2 => ⟨S4000000, .f32⟩
  | 3 => ⟨S_, .f32⟩
  | 4 => ⟨S4000000, .f32⟩
  | 5 => ⟨S4000000, .f32⟩
  | 6 => ⟨S4000000, .f32⟩
  | 7 => ⟨S_, .f32⟩
  | 8 => ⟨S4000000, .f32⟩
  | 9 => ⟨S4000000, .f32⟩
  | 10 => ⟨S_, .f32⟩
  | 11 => ⟨S_, .f32⟩
  | 12 => ⟨S4000000, .f32⟩
  | 13 => ⟨S4000000, .f32⟩
  | 14 => ⟨S4000000, .f32⟩
  | 15 => ⟨S4000000, .f32⟩
  | 16 => ⟨S4000000, .f32⟩
  | 17 => ⟨S_, .f32⟩
  | 18 => ⟨S4000000, .f32⟩
  | 19 => ⟨S4000000, .f32⟩
  | 20 => ⟨S4000000, .f32⟩
  | 21 => ⟨S_, .f32⟩
  | 22 => ⟨S4000000, .f32⟩
  | 23 => ⟨S4000000, .f32⟩
  | 24 => ⟨S_, .f32⟩
  | 25 => ⟨S_, .f32⟩
  | 26 => ⟨S4000000, .f32⟩
  | 27 => ⟨S4000000, .f32⟩
  | 28 => ⟨S4000000, .f32⟩
  | 29 => ⟨S4000000, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S4000000, .f32⟩
  | 42 => ⟨S4000000, .f32⟩
  | 43 => ⟨S4000000, .f32⟩
  | 44 => ⟨S_, .f32⟩
  | 45 => ⟨S4000000, .f32⟩
  | 46 => ⟨S4000000, .f32⟩
  | 47 => ⟨S_, .f32⟩
  | 48 => ⟨S_, .f32⟩
  | 49 => ⟨S4000000, .f32⟩
  | 50 => ⟨S4000000, .f32⟩
  | 51 => ⟨S4000000, .f32⟩
  | 52 => ⟨S4000000, .f32⟩
  | 53 => ⟨S4000000, .f32⟩
  | 54 => ⟨S4000000, .f32⟩
  | 55 => ⟨S_, .f32⟩
  | 56 => ⟨S4000000, .f32⟩
  | 57 => ⟨S4000000, .f32⟩
  | 58 => ⟨S_, .f32⟩
  | 59 => ⟨S4000000, .f32⟩
  | 60 => ⟨S4000000, .f32⟩
  | 61 => ⟨S_, .f32⟩
  | 62 => ⟨S4000000, .f32⟩
  | 63 => ⟨S4000000, .f32⟩
  | 64 => ⟨S4000000, .f32⟩
  | 65 => ⟨S_, .f32⟩
  | 66 => ⟨S4000000, .f32⟩
  | 67 => ⟨S4000000, .f32⟩
  | 68 => ⟨S_, .f32⟩
  | 69 => ⟨S_, .f32⟩
  | 70 => ⟨S4000000, .f32⟩
  | 71 => ⟨S4000000, .f32⟩
  | 72 => ⟨S4000000, .f32⟩
  | 73 => ⟨S4000000, .f32⟩
  | 74 => ⟨S4000000, .f32⟩
  | 75 => ⟨S_, .f32⟩
  | 76 => ⟨S4000000, .f32⟩
  | 77 => ⟨S4000000, .f32⟩
  | 78 => ⟨S4000000, .f32⟩
  | 79 => ⟨S_, .f32⟩
  | 80 => ⟨S4000000, .f32⟩
  | 81 => ⟨S4000000, .f32⟩
  | 82 => ⟨S_, .f32⟩
  | 83 => ⟨S_, .f32⟩
  | 84 => ⟨S4000000, .f32⟩
  | 85 => ⟨S4000000, .f32⟩
  | 86 => ⟨S4000000, .f32⟩
  | 87 => ⟨S4000000, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S4000000, .f32⟩
  | 100 => ⟨S4000000, .f32⟩
  | 101 => ⟨S4000000, .f32⟩
  | 102 => ⟨S_, .f32⟩
  | 103 => ⟨S4000000, .f32⟩
  | 104 => ⟨S4000000, .f32⟩
  | 105 => ⟨S_, .f32⟩
  | 106 => ⟨S_, .f32⟩
  | 107 => ⟨S4000000, .f32⟩
  | 108 => ⟨S4000000, .f32⟩
  | 109 => ⟨S4000000, .f32⟩
  | 110 => ⟨S4000000, .f32⟩
  | 111 => ⟨S4000000, .f32⟩
  | 112 => ⟨S4000000, .f32⟩
  | 113 => ⟨S_, .f32⟩
  | 114 => ⟨S4000000, .f32⟩
  | 115 => ⟨S4000000, .f32⟩
  | 116 => ⟨S_, .f32⟩
  | 117 => ⟨S4000000, .f32⟩
  | 118 => ⟨S4000000, .f32⟩
  | 119 => ⟨S_, .f32⟩
  | 120 => ⟨S4000000, .f32⟩
  | 121 => ⟨S4000000, .f32⟩
  | 122 => ⟨S4000000, .f32⟩
  | 123 => ⟨S_, .f32⟩
  | 124 => ⟨S4000000, .f32⟩
  | 125 => ⟨S4000000, .f32⟩
  | 126 => ⟨S_, .f32⟩
  | 127 => ⟨S_, .f32⟩
  | _ => ⟨S4000000x3, .f32⟩

abbrev hbmTy0_6 (i : Nat) : BufTy := match i % 128 with
  | 0 => ⟨S4000000, .f32⟩
  | 1 => ⟨S4000000, .f32⟩
  | 2 => ⟨S4000000, .f32⟩
  | 3 => ⟨S4000000, .f32⟩
  | 4 => ⟨S4000000, .f32⟩
  | 5 => ⟨S_, .f32⟩
  | 6 => ⟨S4000000, .f32⟩
  | 7 => ⟨S4000000, .f32⟩
  | 8 => ⟨S4000000, .f32⟩
  | 9 => ⟨S_, .f32⟩
  | 10 => ⟨S4000000, .f32⟩
  | 11 => ⟨S4000000, .f32⟩
  | 12 => ⟨S_, .f32⟩
  | 13 => ⟨S_, .f32⟩
  | 14 => ⟨S4000000, .f32⟩
  | 15 => ⟨S4000000, .f32⟩
  | 16 => ⟨S4000000, .f32⟩
  | 17 => ⟨S4000000, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S4000000, .f32⟩
  | 30 => ⟨S4000000, .f32⟩
  | 31 => ⟨S4000000, .f32⟩
  | 32 => ⟨S_, .f32⟩
  | 33 => ⟨S4000000, .f32⟩
  | 34 => ⟨S4000000, .f32⟩
  | 35 => ⟨S_, .f32⟩
  | 36 => ⟨S_, .f32⟩
  | 37 => ⟨S4000000, .f32⟩
  | 38 => ⟨S4000000, .f32⟩
  | 39 => ⟨S4000000, .f32⟩
  | 40 => ⟨S4000000, .f32⟩
  | 41 => ⟨S4000000, .f32⟩
  | 42 => ⟨S4000000, .f32⟩
  | 43 => ⟨S4000000, .f32⟩
  | 44 => ⟨S_, .f32⟩
  | 45 => ⟨S4000000, .f32⟩
  | 46 => ⟨S4000000, .f32⟩
  | 47 => ⟨S4000000, .f32⟩
  | 48 => ⟨S_, .f32⟩
  | 49 => ⟨S4000000, .f32⟩
  | 50 => ⟨S4000000, .f32⟩
  | 51 => ⟨S_, .f32⟩
  | 52 => ⟨S_, .f32⟩
  | 53 => ⟨S4000000, .f32⟩
  | 54 => ⟨S4000000, .f32⟩
  | 55 => ⟨S4000000, .f32⟩
  | 56 => ⟨S4000000, .f32⟩
  | 57 => ⟨S4000000, .f32⟩
  | 58 => ⟨S_, .f32⟩
  | 59 => ⟨S4000000, .f32⟩
  | 60 => ⟨S4000000, .f32⟩
  | 61 => ⟨S4000000, .f32⟩
  | 62 => ⟨S_, .f32⟩
  | 63 => ⟨S4000000, .f32⟩
  | 64 => ⟨S4000000, .f32⟩
  | 65 => ⟨S_, .f32⟩
  | 66 => ⟨S_, .f32⟩
  | 67 => ⟨S4000000, .f32⟩
  | 68 => ⟨S4000000, .f32⟩
  | 69 => ⟨S4000000, .f32⟩
  | 70 => ⟨S4000000, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S4000000, .f32⟩
  | 83 => ⟨S4000000, .f32⟩
  | 84 => ⟨S4000000, .f32⟩
  | 85 => ⟨S_, .f32⟩
  | 86 => ⟨S4000000, .f32⟩
  | 87 => ⟨S4000000, .f32⟩
  | 88 => ⟨S_, .f32⟩
  | 89 => ⟨S_, .f32⟩
  | 90 => ⟨S4000000, .f32⟩
  | 91 => ⟨S4000000, .f32⟩
  | 92 => ⟨S4000000, .f32⟩
  | 93 => ⟨S4000000, .f32⟩
  | 94 => ⟨S4000000, .f32⟩
  | 95 => ⟨S4000000, .f32⟩
  | 96 => ⟨S4000000, .f32⟩
  | 97 => ⟨S_, .f32⟩
  | 98 => ⟨S4000000, .f32⟩
  | 99 => ⟨S4000000, .f32⟩
  | 100 => ⟨S4000000, .f32⟩
  | 101 => ⟨S_, .f32⟩
  | 102 => ⟨S4000000, .f32⟩
  | 103 => ⟨S4000000, .f32⟩
  | 104 => ⟨S4000000, .f32⟩
  | 105 => ⟨S_, .f32⟩
  | 106 => ⟨S4000000, .f32⟩
  | 107 => ⟨S4000000, .f32⟩
  | 108 => ⟨S_, .f32⟩
  | 109 => ⟨S_, .f32⟩
  | 110 => ⟨S4000000, .f32⟩
  | 111 => ⟨S4000000, .f32⟩
  | 112 => ⟨S4000000, .f32⟩
  | 113 => ⟨S4000000, .f32⟩
  | 114 => ⟨S4000000, .f32⟩
  | 115 => ⟨S_, .f32⟩
  | 116 => ⟨S4000000, .f32⟩
  | 117 => ⟨S4000000, .f32⟩
  | 118 => ⟨S4000000, .f32⟩
  | 119 => ⟨S_, .f32⟩
  | 120 => ⟨S4000000, .f32⟩
  | 121 => ⟨S4000000, .f32⟩
  | 122 => ⟨S_, .f32⟩
  | 123 => ⟨S_, .f32⟩
  | 124 => ⟨S4000000, .f32⟩
  | 125 => ⟨S4000000, .f32⟩
  | 126 => ⟨S4000000, .f32⟩
  | 127 => ⟨S4000000, .f32⟩
  | _ => ⟨S4000000x3, .f32⟩

abbrev hbmTy0_7 (i : Nat) : BufTy := match i % 128 with
  | 0 => ⟨S4000000x1, .f32⟩
  | 1 => ⟨S4000000x1, .f32⟩
  | 2 => ⟨S4000000x1, .f32⟩
  | 3 => ⟨S4000000x1, .f32⟩
  | 4 => ⟨S4000000x1, .f32⟩
  | 5 => ⟨S4000000x1, .f32⟩
  | 6 => ⟨S4000000x1, .f32⟩
  | 7 => ⟨S4000000x1, .f32⟩
  | 8 => ⟨S4000000x1, .f32⟩
  | 9 => ⟨S4000000x1, .f32⟩
  | 10 => ⟨S4000000x1, .f32⟩
  | 11 => ⟨S4000000x1, .f32⟩
  | 12 => ⟨S4000000x1, .f32⟩
  | 13 => ⟨S4000000x1, .f32⟩
  | 14 => ⟨S4000000x1, .f32⟩
  | 15 => ⟨S4000000x1, .f32⟩
  | 16 => ⟨S4000000x16, .f32⟩
  | _ => ⟨S4000000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S4000000x3, .f32⟩

abbrev bufTy : (tb : Table) → Fin (tcTables nBuf tb) → BufTy
  | .hbm, ⟨i, _⟩ => hbmTy i
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_cst_4 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_8 : Ref sig .tc := ⟨.hbm, 34, rfl⟩
abbrev main_v21 : Ref sig .tc := ⟨.hbm, 35, rfl⟩
abbrev main_v22 : Ref sig .tc := ⟨.hbm, 36, rfl⟩
abbrev main_cst_9 : Ref sig .tc := ⟨.hbm, 37, rfl⟩
abbrev main_cst_10 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_11 : Ref sig .tc := ⟨.hbm, 45, rfl⟩
abbrev main_v26 : Ref sig .tc := ⟨.hbm, 46, rfl⟩
abbrev main_v27 : Ref sig .tc := ⟨.hbm, 47, rfl⟩
abbrev main_cst_12 : Ref sig .tc := ⟨.hbm, 48, rfl⟩
abbrev main_v28 : Ref sig .tc := ⟨.hbm, 49, rfl⟩
abbrev main_v29 : Ref sig .tc := ⟨.hbm, 50, rfl⟩
abbrev main_cst_13 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_14 : Ref sig .tc := ⟨.hbm, 55, rfl⟩
abbrev main_v33 : Ref sig .tc := ⟨.hbm, 56, rfl⟩
abbrev main_v34 : Ref sig .tc := ⟨.hbm, 57, rfl⟩
abbrev main_cst_15 : Ref sig .tc := ⟨.hbm, 58, rfl⟩
abbrev main_cst_16 : Ref sig .tc := ⟨.hbm, 59, rfl⟩
abbrev main_call5_v0 : Ref sig .tc := ⟨.hbm, 60, rfl⟩
abbrev main_call5_v1 : Ref sig .tc := ⟨.hbm, 61, rfl⟩
abbrev main_call5_v2 : Ref sig .tc := ⟨.hbm, 62, rfl⟩
abbrev main_v35 : Ref sig .tc := ⟨.hbm, 63, rfl⟩
abbrev main_v36 : Ref sig .tc := ⟨.hbm, 64, rfl⟩
abbrev main_cst_17 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_18 : Ref sig .tc := ⟨.hbm, 69, rfl⟩
abbrev main_v40 : Ref sig .tc := ⟨.hbm, 70, rfl⟩
abbrev main_v41 : Ref sig .tc := ⟨.hbm, 71, rfl⟩
abbrev main_cst_19 : Ref sig .tc := ⟨.hbm, 72, rfl⟩
abbrev main_cst_20 : Ref sig .tc := ⟨.hbm, 73, rfl⟩
abbrev main_call7_v0 : Ref sig .tc := ⟨.hbm, 74, rfl⟩
abbrev main_call7_v1 : Ref sig .tc := ⟨.hbm, 75, rfl⟩
abbrev main_call7_v2 : Ref sig .tc := ⟨.hbm, 76, rfl⟩
abbrev main_v42 : Ref sig .tc := ⟨.hbm, 77, rfl⟩
abbrev main_v43 : Ref sig .tc := ⟨.hbm, 78, rfl⟩
abbrev main_cst_21 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_22 : Ref sig .tc := ⟨.hbm, 83, rfl⟩
abbrev main_v47 : Ref sig .tc := ⟨.hbm, 84, rfl⟩
abbrev main_v48 : Ref sig .tc := ⟨.hbm, 85, rfl⟩
abbrev main_cst_23 : Ref sig .tc := ⟨.hbm, 86, rfl⟩
abbrev main_cst_24 : Ref sig .tc := ⟨.hbm, 87, rfl⟩
abbrev main_call9_v0 : Ref sig .tc := ⟨.hbm, 88, rfl⟩
abbrev main_call9_v1 : Ref sig .tc := ⟨.hbm, 89, rfl⟩
abbrev main_call9_v2 : Ref sig .tc := ⟨.hbm, 90, rfl⟩
abbrev main_v49 : Ref sig .tc := ⟨.hbm, 91, rfl⟩
abbrev main_v50 : Ref sig .tc := ⟨.hbm, 92, rfl⟩
abbrev main_cst_25 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_26 : Ref sig .tc := ⟨.hbm, 97, rfl⟩
abbrev main_v54 : Ref sig .tc := ⟨.hbm, 98, rfl⟩
abbrev main_v55 : Ref sig .tc := ⟨.hbm, 99, rfl⟩
abbrev main_cst_27 : Ref sig .tc := ⟨.hbm, 100, rfl⟩
abbrev main_cst_28 : Ref sig .tc := ⟨.hbm, 101, rfl⟩
abbrev main_call11_v0 : Ref sig .tc := ⟨.hbm, 102, rfl⟩
abbrev main_call11_v1 : Ref sig .tc := ⟨.hbm, 103, rfl⟩
abbrev main_call11_v2 : Ref sig .tc := ⟨.hbm, 104, rfl⟩
abbrev main_v56 : Ref sig .tc := ⟨.hbm, 105, rfl⟩
abbrev main_v57 : Ref sig .tc := ⟨.hbm, 106, rfl⟩
abbrev main_cst_29 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_cst_30 : Ref sig .tc := ⟨.hbm, 111, rfl⟩
abbrev main_v61 : Ref sig .tc := ⟨.hbm, 112, rfl⟩
abbrev main_v62 : Ref sig .tc := ⟨.hbm, 113, rfl⟩
abbrev main_cst_31 : Ref sig .tc := ⟨.hbm, 114, rfl⟩
abbrev main_cst_32 : Ref sig .tc := ⟨.hbm, 115, rfl⟩
abbrev main_call13_v0 : Ref sig .tc := ⟨.hbm, 116, rfl⟩
abbrev main_call13_v1 : Ref sig .tc := ⟨.hbm, 117, rfl⟩
abbrev main_call13_v2 : Ref sig .tc := ⟨.hbm, 118, rfl⟩
abbrev main_v63 : Ref sig .tc := ⟨.hbm, 119, rfl⟩
abbrev main_v64 : Ref sig .tc := ⟨.hbm, 120, rfl⟩
abbrev main_cst_33 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_cst_34 : Ref sig .tc := ⟨.hbm, 125, rfl⟩
abbrev main_v68 : Ref sig .tc := ⟨.hbm, 126, rfl⟩
abbrev main_v69 : Ref sig .tc := ⟨.hbm, 127, rfl⟩
abbrev main_cst_35 : Ref sig .tc := ⟨.hbm, 128, rfl⟩
abbrev main_cst_36 : Ref sig .tc := ⟨.hbm, 129, rfl⟩
abbrev main_call15_v0 : Ref sig .tc := ⟨.hbm, 130, rfl⟩
abbrev main_call15_v1 : Ref sig .tc := ⟨.hbm, 131, rfl⟩
abbrev main_call15_v2 : Ref sig .tc := ⟨.hbm, 132, rfl⟩
abbrev main_v70 : Ref sig .tc := ⟨.hbm, 133, rfl⟩
abbrev main_v71 : Ref sig .tc := ⟨.hbm, 134, rfl⟩
abbrev main_cst_37 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_cst_38 : Ref sig .tc := ⟨.hbm, 139, rfl⟩
abbrev main_v75 : Ref sig .tc := ⟨.hbm, 140, rfl⟩
abbrev main_v76 : Ref sig .tc := ⟨.hbm, 141, rfl⟩
abbrev main_cst_39 : Ref sig .tc := ⟨.hbm, 142, rfl⟩
abbrev main_cst_40 : Ref sig .tc := ⟨.hbm, 143, rfl⟩
abbrev main_call17_v0 : Ref sig .tc := ⟨.hbm, 144, rfl⟩
abbrev main_call17_v1 : Ref sig .tc := ⟨.hbm, 145, rfl⟩
abbrev main_call17_v2 : Ref sig .tc := ⟨.hbm, 146, rfl⟩
abbrev main_v77 : Ref sig .tc := ⟨.hbm, 147, rfl⟩
abbrev main_cst_41 : Ref sig .tc := ⟨.hbm, 148, rfl⟩
abbrev main_v78 : Ref sig .tc := ⟨.hbm, 149, rfl⟩
abbrev main_cst_42 : Ref sig .tc := ⟨.hbm, 150, rfl⟩
abbrev main_cst_43 : Ref sig .tc := ⟨.hbm, 151, rfl⟩
abbrev main_v79 : Ref sig .tc := ⟨.hbm, 152, rfl⟩
abbrev main_v80 : Ref sig .tc := ⟨.hbm, 153, rfl⟩
abbrev main_cst_44 : Ref sig .tc := ⟨.hbm, 154, rfl⟩
abbrev main_v81 : Ref sig .tc := ⟨.hbm, 155, rfl⟩
abbrev main_cst_45 : Ref sig .tc := ⟨.hbm, 156, rfl⟩
abbrev main_cst_46 : Ref sig .tc := ⟨.hbm, 157, rfl⟩
abbrev main_call19_v0 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_cst_47 : Ref sig .tc := ⟨.hbm, 162, rfl⟩
abbrev main_cst_48 : Ref sig .tc := ⟨.hbm, 163, rfl⟩
abbrev main_v85 : Ref sig .tc := ⟨.hbm, 164, rfl⟩
abbrev main_v86 : Ref sig .tc := ⟨.hbm, 165, rfl⟩
abbrev main_cst_49 : Ref sig .tc := ⟨.hbm, 166, rfl⟩
abbrev main_v87 : Ref sig .tc := ⟨.hbm, 167, rfl⟩
abbrev main_cst_50 : Ref sig .tc := ⟨.hbm, 168, rfl⟩
abbrev main_cst_51 : Ref sig .tc := ⟨.hbm, 169, rfl⟩
abbrev main_call21_v0 : Ref sig .tc := ⟨.hbm, 170, rfl⟩
abbrev main_v88 : Ref sig .tc := ⟨.hbm, 171, rfl⟩
abbrev main_cst_52 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_cst_53 : Ref sig .tc := ⟨.hbm, 176, rfl⟩
abbrev main_v92 : Ref sig .tc := ⟨.hbm, 177, rfl⟩
abbrev main_v93 : Ref sig .tc := ⟨.hbm, 178, rfl⟩
abbrev main_cst_54 : Ref sig .tc := ⟨.hbm, 179, rfl⟩
abbrev main_cst_55 : Ref sig .tc := ⟨.hbm, 180, rfl⟩
abbrev main_call23_v0 : Ref sig .tc := ⟨.hbm, 181, rfl⟩
abbrev main_call23_v1 : Ref sig .tc := ⟨.hbm, 182, rfl⟩
abbrev main_call23_v2 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_cst_56 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_cst_57 : Ref sig .tc := ⟨.hbm, 191, rfl⟩
abbrev main_v100 : Ref sig .tc := ⟨.hbm, 192, rfl⟩
abbrev main_v101 : Ref sig .tc := ⟨.hbm, 193, rfl⟩
abbrev main_cst_58 : Ref sig .tc := ⟨.hbm, 194, rfl⟩
abbrev main_cst_59 : Ref sig .tc := ⟨.hbm, 195, rfl⟩
abbrev main_call25_v0 : Ref sig .tc := ⟨.hbm, 196, rfl⟩
abbrev main_call25_v1 : Ref sig .tc := ⟨.hbm, 197, rfl⟩
abbrev main_call25_v2 : Ref sig .tc := ⟨.hbm, 198, rfl⟩
abbrev main_v102 : Ref sig .tc := ⟨.hbm, 199, rfl⟩
abbrev main_cst_60 : Ref sig .tc := ⟨.hbm, 200, rfl⟩
abbrev main_cst_61 : Ref sig .tc := ⟨.hbm, 201, rfl⟩
abbrev main_v103 : Ref sig .tc := ⟨.hbm, 202, rfl⟩
abbrev main_v104 : Ref sig .tc := ⟨.hbm, 203, rfl⟩
abbrev main_cst_62 : Ref sig .tc := ⟨.hbm, 204, rfl⟩
abbrev main_v105 : Ref sig .tc := ⟨.hbm, 205, rfl⟩
abbrev main_cst_63 : Ref sig .tc := ⟨.hbm, 206, rfl⟩
abbrev main_cst_64 : Ref sig .tc := ⟨.hbm, 207, rfl⟩
abbrev main_call27_v0 : Ref sig .tc := ⟨.hbm, 208, rfl⟩
abbrev main_v106 : Ref sig .tc := ⟨.hbm, 209, rfl⟩
abbrev main_cst_65 : Ref sig .tc := ⟨.hbm, 210, rfl⟩
abbrev main_v107 : Ref sig .tc := ⟨.hbm, 211, rfl⟩
abbrev main_v108 : Ref sig .tc := ⟨.hbm, 212, rfl⟩
abbrev main_v109 : Ref sig .tc := ⟨.hbm, 213, rfl⟩
abbrev main_cst_66 : Ref sig .tc := ⟨.hbm, 214, rfl⟩
abbrev main_v110 : Ref sig .tc := ⟨.hbm, 215, rfl⟩
abbrev main_v111 : Ref sig .tc := ⟨.hbm, 216, rfl⟩
abbrev main_cst_67 : Ref sig .tc := ⟨.hbm, 217, rfl⟩
abbrev main_cst_68 : Ref sig .tc := ⟨.hbm, 218, rfl⟩
abbrev main_call29_v0 : Ref sig .tc := ⟨.hbm, 219, rfl⟩
abbrev main_call29_v1 : Ref sig .tc := ⟨.hbm, 220, rfl⟩
abbrev main_call29_v2 : Ref sig .tc := ⟨.hbm, 221, rfl⟩
abbrev main_v112 : Ref sig .tc := ⟨.hbm, 222, rfl⟩
abbrev main_v113 : Ref sig .tc := ⟨.hbm, 223, rfl⟩
abbrev main_v114 : Ref sig .tc := ⟨.hbm, 224, rfl⟩
abbrev main_cst_69 : Ref sig .tc := ⟨.hbm, 225, rfl⟩
abbrev main_v115 : Ref sig .tc := ⟨.hbm, 226, rfl⟩
abbrev main_v116 : Ref sig .tc := ⟨.hbm, 227, rfl⟩
abbrev main_v117 : Ref sig .tc := ⟨.hbm, 228, rfl⟩
abbrev main_cst_70 : Ref sig .tc := ⟨.hbm, 229, rfl⟩
abbrev main_v118 : Ref sig .tc := ⟨.hbm, 230, rfl⟩
abbrev main_v119 : Ref sig .tc := ⟨.hbm, 231, rfl⟩
abbrev main_cst_71 : Ref sig .tc := ⟨.hbm, 232, rfl⟩
abbrev main_cst_72 : Ref sig .tc := ⟨.hbm, 233, rfl⟩
abbrev main_call31_v0 : Ref sig .tc := ⟨.hbm, 234, rfl⟩
abbrev main_call31_v1 : Ref sig .tc := ⟨.hbm, 235, rfl⟩
abbrev main_call31_v2 : Ref sig .tc := ⟨.hbm, 236, rfl⟩
abbrev main_v120 : Ref sig .tc := ⟨.hbm, 237, rfl⟩
abbrev main_cst_73 : Ref sig .tc := ⟨.hbm, 238, rfl⟩
abbrev main_cst_74 : Ref sig .tc := ⟨.hbm, 239, rfl⟩
abbrev main_v121 : Ref sig .tc := ⟨.hbm, 240, rfl⟩
abbrev main_v122 : Ref sig .tc := ⟨.hbm, 241, rfl⟩
abbrev main_cst_75 : Ref sig .tc := ⟨.hbm, 242, rfl⟩
abbrev main_v123 : Ref sig .tc := ⟨.hbm, 243, rfl⟩
abbrev main_cst_76 : Ref sig .tc := ⟨.hbm, 244, rfl⟩
abbrev main_cst_77 : Ref sig .tc := ⟨.hbm, 245, rfl⟩
abbrev main_call33_v0 : Ref sig .tc := ⟨.hbm, 246, rfl⟩
abbrev main_v124 : Ref sig .tc := ⟨.hbm, 247, rfl⟩
abbrev main_cst_78 : Ref sig .tc := ⟨.hbm, 248, rfl⟩
abbrev main_v125 : Ref sig .tc := ⟨.hbm, 249, rfl⟩
abbrev main_v126 : Ref sig .tc := ⟨.hbm, 250, rfl⟩
abbrev main_v127 : Ref sig .tc := ⟨.hbm, 251, rfl⟩
abbrev main_cst_79 : Ref sig .tc := ⟨.hbm, 252, rfl⟩
abbrev main_v128 : Ref sig .tc := ⟨.hbm, 253, rfl⟩
abbrev main_v129 : Ref sig .tc := ⟨.hbm, 254, rfl⟩
abbrev main_cst_80 : Ref sig .tc := ⟨.hbm, 255, rfl⟩
abbrev main_cst_81 : Ref sig .tc := ⟨.hbm, 256, rfl⟩
abbrev main_call35_v0 : Ref sig .tc := ⟨.hbm, 257, rfl⟩
abbrev main_call35_v1 : Ref sig .tc := ⟨.hbm, 258, rfl⟩
abbrev main_call35_v2 : Ref sig .tc := ⟨.hbm, 259, rfl⟩
abbrev main_v130 : Ref sig .tc := ⟨.hbm, 260, rfl⟩
abbrev main_v131 : Ref sig .tc := ⟨.hbm, 261, rfl⟩
abbrev main_v132 : Ref sig .tc := ⟨.hbm, 262, rfl⟩
abbrev main_cst_82 : Ref sig .tc := ⟨.hbm, 263, rfl⟩
abbrev main_v133 : Ref sig .tc := ⟨.hbm, 264, rfl⟩
abbrev main_v134 : Ref sig .tc := ⟨.hbm, 265, rfl⟩
abbrev main_v135 : Ref sig .tc := ⟨.hbm, 266, rfl⟩
abbrev main_cst_83 : Ref sig .tc := ⟨.hbm, 267, rfl⟩
abbrev main_v136 : Ref sig .tc := ⟨.hbm, 268, rfl⟩
abbrev main_v137 : Ref sig .tc := ⟨.hbm, 269, rfl⟩
abbrev main_cst_84 : Ref sig .tc := ⟨.hbm, 270, rfl⟩
abbrev main_cst_85 : Ref sig .tc := ⟨.hbm, 271, rfl⟩
abbrev main_call37_v0 : Ref sig .tc := ⟨.hbm, 272, rfl⟩
abbrev main_call37_v1 : Ref sig .tc := ⟨.hbm, 273, rfl⟩
abbrev main_call37_v2 : Ref sig .tc := ⟨.hbm, 274, rfl⟩
abbrev main_v138 : Ref sig .tc := ⟨.hbm, 275, rfl⟩
abbrev main_cst_86 : Ref sig .tc := ⟨.hbm, 276, rfl⟩
abbrev main_cst_87 : Ref sig .tc := ⟨.hbm, 277, rfl⟩
abbrev main_v139 : Ref sig .tc := ⟨.hbm, 278, rfl⟩
abbrev main_v140 : Ref sig .tc := ⟨.hbm, 279, rfl⟩
abbrev main_cst_88 : Ref sig .tc := ⟨.hbm, 280, rfl⟩
abbrev main_v141 : Ref sig .tc := ⟨.hbm, 281, rfl⟩
abbrev main_cst_89 : Ref sig .tc := ⟨.hbm, 282, rfl⟩
abbrev main_cst_90 : Ref sig .tc := ⟨.hbm, 283, rfl⟩
abbrev main_call39_v0 : Ref sig .tc := ⟨.hbm, 284, rfl⟩
abbrev main_v142 : Ref sig .tc := ⟨.hbm, 285, rfl⟩
abbrev main_cst_91 : Ref sig .tc := ⟨.hbm, 286, rfl⟩
abbrev main_v143 : Ref sig .tc := ⟨.hbm, 287, rfl⟩
abbrev main_v144 : Ref sig .tc := ⟨.hbm, 288, rfl⟩
abbrev main_v145 : Ref sig .tc := ⟨.hbm, 289, rfl⟩
abbrev main_cst_92 : Ref sig .tc := ⟨.hbm, 290, rfl⟩
abbrev main_v146 : Ref sig .tc := ⟨.hbm, 291, rfl⟩
abbrev main_v147 : Ref sig .tc := ⟨.hbm, 292, rfl⟩
abbrev main_cst_93 : Ref sig .tc := ⟨.hbm, 293, rfl⟩
abbrev main_cst_94 : Ref sig .tc := ⟨.hbm, 294, rfl⟩
abbrev main_call41_v0 : Ref sig .tc := ⟨.hbm, 295, rfl⟩
abbrev main_call41_v1 : Ref sig .tc := ⟨.hbm, 296, rfl⟩
abbrev main_call41_v2 : Ref sig .tc := ⟨.hbm, 297, rfl⟩
abbrev main_v148 : Ref sig .tc := ⟨.hbm, 298, rfl⟩
abbrev main_v149 : Ref sig .tc := ⟨.hbm, 299, rfl⟩
abbrev main_v150 : Ref sig .tc := ⟨.hbm, 300, rfl⟩
abbrev main_cst_95 : Ref sig .tc := ⟨.hbm, 301, rfl⟩
abbrev main_v151 : Ref sig .tc := ⟨.hbm, 302, rfl⟩
abbrev main_v152 : Ref sig .tc := ⟨.hbm, 303, rfl⟩
abbrev main_v153 : Ref sig .tc := ⟨.hbm, 304, rfl⟩
abbrev main_cst_96 : Ref sig .tc := ⟨.hbm, 305, rfl⟩
abbrev main_v154 : Ref sig .tc := ⟨.hbm, 306, rfl⟩
abbrev main_v155 : Ref sig .tc := ⟨.hbm, 307, rfl⟩
abbrev main_cst_97 : Ref sig .tc := ⟨.hbm, 308, rfl⟩
abbrev main_cst_98 : Ref sig .tc := ⟨.hbm, 309, rfl⟩
abbrev main_call43_v0 : Ref sig .tc := ⟨.hbm, 310, rfl⟩
abbrev main_call43_v1 : Ref sig .tc := ⟨.hbm, 311, rfl⟩
abbrev main_call43_v2 : Ref sig .tc := ⟨.hbm, 312, rfl⟩
abbrev main_v156 : Ref sig .tc := ⟨.hbm, 313, rfl⟩
abbrev main_cst_99 : Ref sig .tc := ⟨.hbm, 314, rfl⟩
abbrev main_cst_100 : Ref sig .tc := ⟨.hbm, 315, rfl⟩
abbrev main_v157 : Ref sig .tc := ⟨.hbm, 316, rfl⟩
abbrev main_v158 : Ref sig .tc := ⟨.hbm, 317, rfl⟩
abbrev main_cst_101 : Ref sig .tc := ⟨.hbm, 318, rfl⟩
abbrev main_v159 : Ref sig .tc := ⟨.hbm, 319, rfl⟩
abbrev main_cst_102 : Ref sig .tc := ⟨.hbm, 320, rfl⟩
abbrev main_cst_103 : Ref sig .tc := ⟨.hbm, 321, rfl⟩
abbrev main_call45_v0 : Ref sig .tc := ⟨.hbm, 322, rfl⟩
abbrev main_v160 : Ref sig .tc := ⟨.hbm, 323, rfl⟩
abbrev main_cst_104 : Ref sig .tc := ⟨.hbm, 324, rfl⟩
abbrev main_v161 : Ref sig .tc := ⟨.hbm, 325, rfl⟩
abbrev main_v162 : Ref sig .tc := ⟨.hbm, 326, rfl⟩
abbrev main_v163 : Ref sig .tc := ⟨.hbm, 327, rfl⟩
abbrev main_cst_105 : Ref sig .tc := ⟨.hbm, 328, rfl⟩
abbrev main_v164 : Ref sig .tc := ⟨.hbm, 329, rfl⟩
abbrev main_v165 : Ref sig .tc := ⟨.hbm, 330, rfl⟩
abbrev main_cst_106 : Ref sig .tc := ⟨.hbm, 331, rfl⟩
abbrev main_cst_107 : Ref sig .tc := ⟨.hbm, 332, rfl⟩
abbrev main_call47_v0 : Ref sig .tc := ⟨.hbm, 333, rfl⟩
abbrev main_call47_v1 : Ref sig .tc := ⟨.hbm, 334, rfl⟩
abbrev main_call47_v2 : Ref sig .tc := ⟨.hbm, 335, rfl⟩
abbrev main_v166 : Ref sig .tc := ⟨.hbm, 336, rfl⟩
abbrev main_v167 : Ref sig .tc := ⟨.hbm, 337, rfl⟩
abbrev main_v168 : Ref sig .tc := ⟨.hbm, 338, rfl⟩
abbrev main_cst_108 : Ref sig .tc := ⟨.hbm, 339, rfl⟩
abbrev main_v169 : Ref sig .tc := ⟨.hbm, 340, rfl⟩
abbrev main_v170 : Ref sig .tc := ⟨.hbm, 341, rfl⟩
abbrev main_v171 : Ref sig .tc := ⟨.hbm, 342, rfl⟩
abbrev main_cst_109 : Ref sig .tc := ⟨.hbm, 343, rfl⟩
abbrev main_v172 : Ref sig .tc := ⟨.hbm, 344, rfl⟩
abbrev main_v173 : Ref sig .tc := ⟨.hbm, 345, rfl⟩
abbrev main_cst_110 : Ref sig .tc := ⟨.hbm, 346, rfl⟩
abbrev main_cst_111 : Ref sig .tc := ⟨.hbm, 347, rfl⟩
abbrev main_call49_v0 : Ref sig .tc := ⟨.hbm, 348, rfl⟩
abbrev main_call49_v1 : Ref sig .tc := ⟨.hbm, 349, rfl⟩
abbrev main_call49_v2 : Ref sig .tc := ⟨.hbm, 350, rfl⟩
abbrev main_v174 : Ref sig .tc := ⟨.hbm, 351, rfl⟩
abbrev main_cst_112 : Ref sig .tc := ⟨.hbm, 352, rfl⟩
abbrev main_cst_113 : Ref sig .tc := ⟨.hbm, 353, rfl⟩
abbrev main_v175 : Ref sig .tc := ⟨.hbm, 354, rfl⟩
abbrev main_v176 : Ref sig .tc := ⟨.hbm, 355, rfl⟩
abbrev main_cst_114 : Ref sig .tc := ⟨.hbm, 356, rfl⟩
abbrev main_v177 : Ref sig .tc := ⟨.hbm, 357, rfl⟩
abbrev main_cst_115 : Ref sig .tc := ⟨.hbm, 358, rfl⟩
abbrev main_cst_116 : Ref sig .tc := ⟨.hbm, 359, rfl⟩
abbrev main_call51_v0 : Ref sig .tc := ⟨.hbm, 360, rfl⟩
abbrev main_v178 : Ref sig .tc := ⟨.hbm, 361, rfl⟩
abbrev main_cst_117 : Ref sig .tc := ⟨.hbm, 362, rfl⟩
abbrev main_v179 : Ref sig .tc := ⟨.hbm, 363, rfl⟩
abbrev main_v180 : Ref sig .tc := ⟨.hbm, 364, rfl⟩
abbrev main_v181 : Ref sig .tc := ⟨.hbm, 365, rfl⟩
abbrev main_cst_118 : Ref sig .tc := ⟨.hbm, 366, rfl⟩
abbrev main_v182 : Ref sig .tc := ⟨.hbm, 367, rfl⟩
abbrev main_v183 : Ref sig .tc := ⟨.hbm, 368, rfl⟩
abbrev main_cst_119 : Ref sig .tc := ⟨.hbm, 369, rfl⟩
abbrev main_cst_120 : Ref sig .tc := ⟨.hbm, 370, rfl⟩
abbrev main_call53_v0 : Ref sig .tc := ⟨.hbm, 371, rfl⟩
abbrev main_call53_v1 : Ref sig .tc := ⟨.hbm, 372, rfl⟩
abbrev main_call53_v2 : Ref sig .tc := ⟨.hbm, 373, rfl⟩
abbrev main_v184 : Ref sig .tc := ⟨.hbm, 374, rfl⟩
abbrev main_v185 : Ref sig .tc := ⟨.hbm, 375, rfl⟩
abbrev main_v186 : Ref sig .tc := ⟨.hbm, 376, rfl⟩
abbrev main_cst_121 : Ref sig .tc := ⟨.hbm, 377, rfl⟩
abbrev main_cst_122 : Ref sig .tc := ⟨.hbm, 378, rfl⟩
abbrev main_v187 : Ref sig .tc := ⟨.hbm, 379, rfl⟩
abbrev main_v188 : Ref sig .tc := ⟨.hbm, 380, rfl⟩
abbrev main_cst_123 : Ref sig .tc := ⟨.hbm, 381, rfl⟩
abbrev main_v189 : Ref sig .tc := ⟨.hbm, 382, rfl⟩
abbrev main_cst_124 : Ref sig .tc := ⟨.hbm, 383, rfl⟩
abbrev main_cst_125 : Ref sig .tc := ⟨.hbm, 384, rfl⟩
abbrev main_call55_v0 : Ref sig .tc := ⟨.hbm, 385, rfl⟩
abbrev main_v190 : Ref sig .tc := ⟨.hbm, 386, rfl⟩
abbrev main_v191 : Ref sig .tc := ⟨.hbm, 387, rfl⟩
abbrev main_v192 : Ref sig .tc := ⟨.hbm, 388, rfl⟩
abbrev main_cst_126 : Ref sig .tc := ⟨.hbm, 389, rfl⟩
abbrev main_v193 : Ref sig .tc := ⟨.hbm, 390, rfl⟩
abbrev main_v194 : Ref sig .tc := ⟨.hbm, 391, rfl⟩
abbrev main_v195 : Ref sig .tc := ⟨.hbm, 392, rfl⟩
abbrev main_cst_127 : Ref sig .tc := ⟨.hbm, 393, rfl⟩
abbrev main_v196 : Ref sig .tc := ⟨.hbm, 394, rfl⟩
abbrev main_v197 : Ref sig .tc := ⟨.hbm, 395, rfl⟩
abbrev main_cst_128 : Ref sig .tc := ⟨.hbm, 396, rfl⟩
abbrev main_cst_129 : Ref sig .tc := ⟨.hbm, 397, rfl⟩
abbrev main_call57_v0 : Ref sig .tc := ⟨.hbm, 398, rfl⟩
abbrev main_call57_v1 : Ref sig .tc := ⟨.hbm, 399, rfl⟩
abbrev main_call57_v2 : Ref sig .tc := ⟨.hbm, 400, rfl⟩
abbrev main_v198 : Ref sig .tc := ⟨.hbm, 401, rfl⟩
abbrev main_cst_130 : Ref sig .tc := ⟨.hbm, 402, rfl⟩
abbrev main_cst_131 : Ref sig .tc := ⟨.hbm, 403, rfl⟩
abbrev main_v199 : Ref sig .tc := ⟨.hbm, 404, rfl⟩
abbrev main_v200 : Ref sig .tc := ⟨.hbm, 405, rfl⟩
abbrev main_cst_132 : Ref sig .tc := ⟨.hbm, 406, rfl⟩
abbrev main_v201 : Ref sig .tc := ⟨.hbm, 407, rfl⟩
abbrev main_cst_133 : Ref sig .tc := ⟨.hbm, 408, rfl⟩
abbrev main_cst_134 : Ref sig .tc := ⟨.hbm, 409, rfl⟩
abbrev main_call59_v0 : Ref sig .tc := ⟨.hbm, 410, rfl⟩
abbrev main_v202 : Ref sig .tc := ⟨.hbm, 411, rfl⟩
abbrev main_cst_135 : Ref sig .tc := ⟨.hbm, 412, rfl⟩
abbrev main_v203 : Ref sig .tc := ⟨.hbm, 413, rfl⟩
abbrev main_v204 : Ref sig .tc := ⟨.hbm, 414, rfl⟩
abbrev main_v205 : Ref sig .tc := ⟨.hbm, 415, rfl⟩
abbrev main_cst_136 : Ref sig .tc := ⟨.hbm, 416, rfl⟩
abbrev main_v206 : Ref sig .tc := ⟨.hbm, 417, rfl⟩
abbrev main_v207 : Ref sig .tc := ⟨.hbm, 418, rfl⟩
abbrev main_cst_137 : Ref sig .tc := ⟨.hbm, 419, rfl⟩
abbrev main_cst_138 : Ref sig .tc := ⟨.hbm, 420, rfl⟩
abbrev main_call61_v0 : Ref sig .tc := ⟨.hbm, 421, rfl⟩
abbrev main_call61_v1 : Ref sig .tc := ⟨.hbm, 422, rfl⟩
abbrev main_call61_v2 : Ref sig .tc := ⟨.hbm, 423, rfl⟩
abbrev main_v208 : Ref sig .tc := ⟨.hbm, 424, rfl⟩
abbrev main_v209 : Ref sig .tc := ⟨.hbm, 425, rfl⟩
abbrev main_v210 : Ref sig .tc := ⟨.hbm, 426, rfl⟩
abbrev main_cst_139 : Ref sig .tc := ⟨.hbm, 427, rfl⟩
abbrev main_v211 : Ref sig .tc := ⟨.hbm, 428, rfl⟩
abbrev main_v212 : Ref sig .tc := ⟨.hbm, 429, rfl⟩
abbrev main_v213 : Ref sig .tc := ⟨.hbm, 430, rfl⟩
abbrev main_cst_140 : Ref sig .tc := ⟨.hbm, 431, rfl⟩
abbrev main_v214 : Ref sig .tc := ⟨.hbm, 432, rfl⟩
abbrev main_v215 : Ref sig .tc := ⟨.hbm, 433, rfl⟩
abbrev main_cst_141 : Ref sig .tc := ⟨.hbm, 434, rfl⟩
abbrev main_cst_142 : Ref sig .tc := ⟨.hbm, 435, rfl⟩
abbrev main_call63_v0 : Ref sig .tc := ⟨.hbm, 436, rfl⟩
abbrev main_call63_v1 : Ref sig .tc := ⟨.hbm, 437, rfl⟩
abbrev main_call63_v2 : Ref sig .tc := ⟨.hbm, 438, rfl⟩
abbrev main_v216 : Ref sig .tc := ⟨.hbm, 439, rfl⟩
abbrev main_cst_143 : Ref sig .tc := ⟨.hbm, 440, rfl⟩
abbrev main_cst_144 : Ref sig .tc := ⟨.hbm, 441, rfl⟩
abbrev main_v217 : Ref sig .tc := ⟨.hbm, 442, rfl⟩
abbrev main_v218 : Ref sig .tc := ⟨.hbm, 443, rfl⟩
abbrev main_cst_145 : Ref sig .tc := ⟨.hbm, 444, rfl⟩
abbrev main_v219 : Ref sig .tc := ⟨.hbm, 445, rfl⟩
abbrev main_cst_146 : Ref sig .tc := ⟨.hbm, 446, rfl⟩
abbrev main_cst_147 : Ref sig .tc := ⟨.hbm, 447, rfl⟩
abbrev main_call65_v0 : Ref sig .tc := ⟨.hbm, 448, rfl⟩
abbrev main_v220 : Ref sig .tc := ⟨.hbm, 449, rfl⟩
abbrev main_cst_148 : Ref sig .tc := ⟨.hbm, 450, rfl⟩
abbrev main_v221 : Ref sig .tc := ⟨.hbm, 451, rfl⟩
abbrev main_v222 : Ref sig .tc := ⟨.hbm, 452, rfl⟩
abbrev main_v223 : Ref sig .tc := ⟨.hbm, 453, rfl⟩
abbrev main_cst_149 : Ref sig .tc := ⟨.hbm, 454, rfl⟩
abbrev main_v224 : Ref sig .tc := ⟨.hbm, 455, rfl⟩
abbrev main_v225 : Ref sig .tc := ⟨.hbm, 456, rfl⟩
abbrev main_cst_150 : Ref sig .tc := ⟨.hbm, 457, rfl⟩
abbrev main_cst_151 : Ref sig .tc := ⟨.hbm, 458, rfl⟩
abbrev main_call67_v0 : Ref sig .tc := ⟨.hbm, 459, rfl⟩
abbrev main_call67_v1 : Ref sig .tc := ⟨.hbm, 460, rfl⟩
abbrev main_call67_v2 : Ref sig .tc := ⟨.hbm, 461, rfl⟩
abbrev main_v226 : Ref sig .tc := ⟨.hbm, 462, rfl⟩
abbrev main_v227 : Ref sig .tc := ⟨.hbm, 463, rfl⟩
abbrev main_v228 : Ref sig .tc := ⟨.hbm, 464, rfl⟩
abbrev main_cst_152 : Ref sig .tc := ⟨.hbm, 465, rfl⟩
abbrev main_cst_153 : Ref sig .tc := ⟨.hbm, 466, rfl⟩
abbrev main_v229 : Ref sig .tc := ⟨.hbm, 467, rfl⟩
abbrev main_v230 : Ref sig .tc := ⟨.hbm, 468, rfl⟩
abbrev main_cst_154 : Ref sig .tc := ⟨.hbm, 469, rfl⟩
abbrev main_v231 : Ref sig .tc := ⟨.hbm, 470, rfl⟩
abbrev main_cst_155 : Ref sig .tc := ⟨.hbm, 471, rfl⟩
abbrev main_cst_156 : Ref sig .tc := ⟨.hbm, 472, rfl⟩
abbrev main_call69_v0 : Ref sig .tc := ⟨.hbm, 473, rfl⟩
abbrev main_v232 : Ref sig .tc := ⟨.hbm, 474, rfl⟩
abbrev main_cst_157 : Ref sig .tc := ⟨.hbm, 475, rfl⟩
abbrev main_v233 : Ref sig .tc := ⟨.hbm, 476, rfl⟩
abbrev main_v234 : Ref sig .tc := ⟨.hbm, 477, rfl⟩
abbrev main_v235 : Ref sig .tc := ⟨.hbm, 478, rfl⟩
abbrev main_cst_158 : Ref sig .tc := ⟨.hbm, 479, rfl⟩
abbrev main_v236 : Ref sig .tc := ⟨.hbm, 480, rfl⟩
abbrev main_v237 : Ref sig .tc := ⟨.hbm, 481, rfl⟩
abbrev main_cst_159 : Ref sig .tc := ⟨.hbm, 482, rfl⟩
abbrev main_cst_160 : Ref sig .tc := ⟨.hbm, 483, rfl⟩
abbrev main_call71_v0 : Ref sig .tc := ⟨.hbm, 484, rfl⟩
abbrev main_call71_v1 : Ref sig .tc := ⟨.hbm, 485, rfl⟩
abbrev main_call71_v2 : Ref sig .tc := ⟨.hbm, 486, rfl⟩
abbrev main_v238 : Ref sig .tc := ⟨.hbm, 487, rfl⟩
abbrev main_v239 : Ref sig .tc := ⟨.hbm, 488, rfl⟩
abbrev main_v240 : Ref sig .tc := ⟨.hbm, 489, rfl⟩
abbrev main_v241 : Ref sig .tc := ⟨.hbm, 490, rfl⟩
abbrev main_cst_161 : Ref sig .tc := ⟨.hbm, 491, rfl⟩
abbrev main_v242 : Ref sig .tc := ⟨.hbm, 492, rfl⟩
abbrev main_v243 : Ref sig .tc := ⟨.hbm, 493, rfl⟩
abbrev main_v244 : Ref sig .tc := ⟨.hbm, 494, rfl⟩
abbrev main_cst_162 : Ref sig .tc := ⟨.hbm, 495, rfl⟩
abbrev main_v245 : Ref sig .tc := ⟨.hbm, 496, rfl⟩
abbrev main_v246 : Ref sig .tc := ⟨.hbm, 497, rfl⟩
abbrev main_cst_163 : Ref sig .tc := ⟨.hbm, 498, rfl⟩
abbrev main_cst_164 : Ref sig .tc := ⟨.hbm, 499, rfl⟩
abbrev main_call73_v0 : Ref sig .tc := ⟨.hbm, 500, rfl⟩
abbrev main_call73_v1 : Ref sig .tc := ⟨.hbm, 501, rfl⟩
abbrev main_call73_v2 : Ref sig .tc := ⟨.hbm, 502, rfl⟩
abbrev main_v247 : Ref sig .tc := ⟨.hbm, 503, rfl⟩
abbrev main_cst_165 : Ref sig .tc := ⟨.hbm, 504, rfl⟩
abbrev main_cst_166 : Ref sig .tc := ⟨.hbm, 505, rfl⟩
abbrev main_v248 : Ref sig .tc := ⟨.hbm, 506, rfl⟩
abbrev main_v249 : Ref sig .tc := ⟨.hbm, 507, rfl⟩
abbrev main_cst_167 : Ref sig .tc := ⟨.hbm, 508, rfl⟩
abbrev main_v250 : Ref sig .tc := ⟨.hbm, 509, rfl⟩
abbrev main_cst_168 : Ref sig .tc := ⟨.hbm, 510, rfl⟩
abbrev main_cst_169 : Ref sig .tc := ⟨.hbm, 511, rfl⟩
abbrev main_call75_v0 : Ref sig .tc := ⟨.hbm, 512, rfl⟩
abbrev main_v251 : Ref sig .tc := ⟨.hbm, 513, rfl⟩
abbrev main_cst_170 : Ref sig .tc := ⟨.hbm, 514, rfl⟩
abbrev main_v252 : Ref sig .tc := ⟨.hbm, 515, rfl⟩
abbrev main_v253 : Ref sig .tc := ⟨.hbm, 516, rfl⟩
abbrev main_v254 : Ref sig .tc := ⟨.hbm, 517, rfl⟩
abbrev main_cst_171 : Ref sig .tc := ⟨.hbm, 518, rfl⟩
abbrev main_v255 : Ref sig .tc := ⟨.hbm, 519, rfl⟩
abbrev main_v256 : Ref sig .tc := ⟨.hbm, 520, rfl⟩
abbrev main_cst_172 : Ref sig .tc := ⟨.hbm, 521, rfl⟩
abbrev main_cst_173 : Ref sig .tc := ⟨.hbm, 522, rfl⟩
abbrev main_call77_v0 : Ref sig .tc := ⟨.hbm, 523, rfl⟩
abbrev main_call77_v1 : Ref sig .tc := ⟨.hbm, 524, rfl⟩
abbrev main_call77_v2 : Ref sig .tc := ⟨.hbm, 525, rfl⟩
abbrev main_v257 : Ref sig .tc := ⟨.hbm, 526, rfl⟩
abbrev main_v258 : Ref sig .tc := ⟨.hbm, 527, rfl⟩
abbrev main_v259 : Ref sig .tc := ⟨.hbm, 528, rfl⟩
abbrev main_cst_174 : Ref sig .tc := ⟨.hbm, 529, rfl⟩
abbrev main_v260 : Ref sig .tc := ⟨.hbm, 530, rfl⟩
abbrev main_v261 : Ref sig .tc := ⟨.hbm, 531, rfl⟩
abbrev main_v262 : Ref sig .tc := ⟨.hbm, 532, rfl⟩
abbrev main_cst_175 : Ref sig .tc := ⟨.hbm, 533, rfl⟩
abbrev main_v263 : Ref sig .tc := ⟨.hbm, 534, rfl⟩
abbrev main_v264 : Ref sig .tc := ⟨.hbm, 535, rfl⟩
abbrev main_v265 : Ref sig .tc := ⟨.hbm, 536, rfl⟩
abbrev main_cst_176 : Ref sig .tc := ⟨.hbm, 537, rfl⟩
abbrev main_v266 : Ref sig .tc := ⟨.hbm, 538, rfl⟩
abbrev main_v267 : Ref sig .tc := ⟨.hbm, 539, rfl⟩
abbrev main_cst_177 : Ref sig .tc := ⟨.hbm, 540, rfl⟩
abbrev main_cst_178 : Ref sig .tc := ⟨.hbm, 541, rfl⟩
abbrev main_call79_v0 : Ref sig .tc := ⟨.hbm, 542, rfl⟩
abbrev main_call79_v1 : Ref sig .tc := ⟨.hbm, 543, rfl⟩
abbrev main_call79_v2 : Ref sig .tc := ⟨.hbm, 544, rfl⟩
abbrev main_v268 : Ref sig .tc := ⟨.hbm, 545, rfl⟩
abbrev main_v269 : Ref sig .tc := ⟨.hbm, 546, rfl⟩
abbrev main_cst_179 : Ref sig .tc := ⟨.hbm, 547, rfl⟩
abbrev main_v270 : Ref sig .tc := ⟨.hbm, 548, rfl⟩
abbrev main_v271 : Ref sig .tc := ⟨.hbm, 549, rfl⟩
abbrev main_v272 : Ref sig .tc := ⟨.hbm, 550, rfl⟩
abbrev main_cst_180 : Ref sig .tc := ⟨.hbm, 551, rfl⟩
abbrev main_v273 : Ref sig .tc := ⟨.hbm, 552, rfl⟩
abbrev main_v274 : Ref sig .tc := ⟨.hbm, 553, rfl⟩
abbrev main_cst_181 : Ref sig .tc := ⟨.hbm, 554, rfl⟩
abbrev main_cst_182 : Ref sig .tc := ⟨.hbm, 555, rfl⟩
abbrev main_call81_v0 : Ref sig .tc := ⟨.hbm, 556, rfl⟩
abbrev main_call81_v1 : Ref sig .tc := ⟨.hbm, 557, rfl⟩
abbrev main_call81_v2 : Ref sig .tc := ⟨.hbm, 558, rfl⟩
abbrev main_v275 : Ref sig .tc := ⟨.hbm, 559, rfl⟩
abbrev main_cst_183 : Ref sig .tc := ⟨.hbm, 560, rfl⟩
abbrev main_cst_184 : Ref sig .tc := ⟨.hbm, 561, rfl⟩
abbrev main_v276 : Ref sig .tc := ⟨.hbm, 562, rfl⟩
abbrev main_v277 : Ref sig .tc := ⟨.hbm, 563, rfl⟩
abbrev main_cst_185 : Ref sig .tc := ⟨.hbm, 564, rfl⟩
abbrev main_v278 : Ref sig .tc := ⟨.hbm, 565, rfl⟩
abbrev main_cst_186 : Ref sig .tc := ⟨.hbm, 566, rfl⟩
abbrev main_cst_187 : Ref sig .tc := ⟨.hbm, 567, rfl⟩
abbrev main_call83_v0 : Ref sig .tc := ⟨.hbm, 568, rfl⟩
abbrev main_v279 : Ref sig .tc := ⟨.hbm, 569, rfl⟩
abbrev main_cst_188 : Ref sig .tc := ⟨.hbm, 570, rfl⟩
abbrev main_v280 : Ref sig .tc := ⟨.hbm, 571, rfl⟩
abbrev main_v281 : Ref sig .tc := ⟨.hbm, 572, rfl⟩
abbrev main_v282 : Ref sig .tc := ⟨.hbm, 573, rfl⟩
abbrev main_cst_189 : Ref sig .tc := ⟨.hbm, 574, rfl⟩
abbrev main_v283 : Ref sig .tc := ⟨.hbm, 575, rfl⟩
abbrev main_v284 : Ref sig .tc := ⟨.hbm, 576, rfl⟩
abbrev main_cst_190 : Ref sig .tc := ⟨.hbm, 577, rfl⟩
abbrev main_cst_191 : Ref sig .tc := ⟨.hbm, 578, rfl⟩
abbrev main_call85_v0 : Ref sig .tc := ⟨.hbm, 579, rfl⟩
abbrev main_call85_v1 : Ref sig .tc := ⟨.hbm, 580, rfl⟩
abbrev main_call85_v2 : Ref sig .tc := ⟨.hbm, 581, rfl⟩
abbrev main_v285 : Ref sig .tc := ⟨.hbm, 582, rfl⟩
abbrev main_v286 : Ref sig .tc := ⟨.hbm, 583, rfl⟩
abbrev main_v287 : Ref sig .tc := ⟨.hbm, 584, rfl⟩
abbrev main_cst_192 : Ref sig .tc := ⟨.hbm, 585, rfl⟩
abbrev main_v288 : Ref sig .tc := ⟨.hbm, 586, rfl⟩
abbrev main_v289 : Ref sig .tc := ⟨.hbm, 587, rfl⟩
abbrev main_v290 : Ref sig .tc := ⟨.hbm, 588, rfl⟩
abbrev main_cst_193 : Ref sig .tc := ⟨.hbm, 589, rfl⟩
abbrev main_v291 : Ref sig .tc := ⟨.hbm, 590, rfl⟩
abbrev main_v292 : Ref sig .tc := ⟨.hbm, 591, rfl⟩
abbrev main_cst_194 : Ref sig .tc := ⟨.hbm, 592, rfl⟩
abbrev main_cst_195 : Ref sig .tc := ⟨.hbm, 593, rfl⟩
abbrev main_call87_v0 : Ref sig .tc := ⟨.hbm, 594, rfl⟩
abbrev main_call87_v1 : Ref sig .tc := ⟨.hbm, 595, rfl⟩
abbrev main_call87_v2 : Ref sig .tc := ⟨.hbm, 596, rfl⟩
abbrev main_v293 : Ref sig .tc := ⟨.hbm, 597, rfl⟩
abbrev main_v294 : Ref sig .tc := ⟨.hbm, 598, rfl⟩
abbrev main_cst_196 : Ref sig .tc := ⟨.hbm, 599, rfl⟩
abbrev main_v295 : Ref sig .tc := ⟨.hbm, 600, rfl⟩
abbrev main_v296 : Ref sig .tc := ⟨.hbm, 601, rfl⟩
abbrev main_v297 : Ref sig .tc := ⟨.hbm, 602, rfl⟩
abbrev main_cst_197 : Ref sig .tc := ⟨.hbm, 603, rfl⟩
abbrev main_v298 : Ref sig .tc := ⟨.hbm, 604, rfl⟩
abbrev main_v299 : Ref sig .tc := ⟨.hbm, 605, rfl⟩
abbrev main_cst_198 : Ref sig .tc := ⟨.hbm, 606, rfl⟩
abbrev main_cst_199 : Ref sig .tc := ⟨.hbm, 607, rfl⟩
abbrev main_call89_v0 : Ref sig .tc := ⟨.hbm, 608, rfl⟩
abbrev main_call89_v1 : Ref sig .tc := ⟨.hbm, 609, rfl⟩
abbrev main_call89_v2 : Ref sig .tc := ⟨.hbm, 610, rfl⟩
abbrev main_v300 : Ref sig .tc := ⟨.hbm, 611, rfl⟩
abbrev main_cst_200 : Ref sig .tc := ⟨.hbm, 612, rfl⟩
abbrev main_cst_201 : Ref sig .tc := ⟨.hbm, 613, rfl⟩
abbrev main_v301 : Ref sig .tc := ⟨.hbm, 614, rfl⟩
abbrev main_v302 : Ref sig .tc := ⟨.hbm, 615, rfl⟩
abbrev main_cst_202 : Ref sig .tc := ⟨.hbm, 616, rfl⟩
abbrev main_v303 : Ref sig .tc := ⟨.hbm, 617, rfl⟩
abbrev main_cst_203 : Ref sig .tc := ⟨.hbm, 618, rfl⟩
abbrev main_cst_204 : Ref sig .tc := ⟨.hbm, 619, rfl⟩
abbrev main_call91_v0 : Ref sig .tc := ⟨.hbm, 620, rfl⟩
abbrev main_v304 : Ref sig .tc := ⟨.hbm, 621, rfl⟩
abbrev main_cst_205 : Ref sig .tc := ⟨.hbm, 622, rfl⟩
abbrev main_v305 : Ref sig .tc := ⟨.hbm, 623, rfl⟩
abbrev main_v306 : Ref sig .tc := ⟨.hbm, 624, rfl⟩
abbrev main_v307 : Ref sig .tc := ⟨.hbm, 625, rfl⟩
abbrev main_cst_206 : Ref sig .tc := ⟨.hbm, 626, rfl⟩
abbrev main_v308 : Ref sig .tc := ⟨.hbm, 627, rfl⟩
abbrev main_v309 : Ref sig .tc := ⟨.hbm, 628, rfl⟩
abbrev main_cst_207 : Ref sig .tc := ⟨.hbm, 629, rfl⟩
abbrev main_cst_208 : Ref sig .tc := ⟨.hbm, 630, rfl⟩
abbrev main_call93_v0 : Ref sig .tc := ⟨.hbm, 631, rfl⟩
abbrev main_call93_v1 : Ref sig .tc := ⟨.hbm, 632, rfl⟩
abbrev main_call93_v2 : Ref sig .tc := ⟨.hbm, 633, rfl⟩
abbrev main_v310 : Ref sig .tc := ⟨.hbm, 634, rfl⟩
abbrev main_v311 : Ref sig .tc := ⟨.hbm, 635, rfl⟩
abbrev main_v312 : Ref sig .tc := ⟨.hbm, 636, rfl⟩
abbrev main_cst_209 : Ref sig .tc := ⟨.hbm, 637, rfl⟩
abbrev main_v313 : Ref sig .tc := ⟨.hbm, 638, rfl⟩
abbrev main_v314 : Ref sig .tc := ⟨.hbm, 639, rfl⟩
abbrev main_cst_210 : Ref sig .tc := ⟨.hbm, 640, rfl⟩
abbrev main_v315 : Ref sig .tc := ⟨.hbm, 641, rfl⟩
abbrev main_v316 : Ref sig .tc := ⟨.hbm, 642, rfl⟩
abbrev main_cst_211 : Ref sig .tc := ⟨.hbm, 643, rfl⟩
abbrev main_v317 : Ref sig .tc := ⟨.hbm, 644, rfl⟩
abbrev main_v318 : Ref sig .tc := ⟨.hbm, 645, rfl⟩
abbrev main_v319 : Ref sig .tc := ⟨.hbm, 646, rfl⟩
abbrev main_cst_212 : Ref sig .tc := ⟨.hbm, 647, rfl⟩
abbrev main_v320 : Ref sig .tc := ⟨.hbm, 648, rfl⟩
abbrev main_v321 : Ref sig .tc := ⟨.hbm, 649, rfl⟩
abbrev main_cst_213 : Ref sig .tc := ⟨.hbm, 650, rfl⟩
abbrev main_cst_214 : Ref sig .tc := ⟨.hbm, 651, rfl⟩
abbrev main_call95_v0 : Ref sig .tc := ⟨.hbm, 652, rfl⟩
abbrev main_call95_v1 : Ref sig .tc := ⟨.hbm, 653, rfl⟩
abbrev main_call95_v2 : Ref sig .tc := ⟨.hbm, 654, rfl⟩
abbrev main_v322 : Ref sig .tc := ⟨.hbm, 655, rfl⟩
abbrev main_v323 : Ref sig .tc := ⟨.hbm, 656, rfl⟩
abbrev main_cst_215 : Ref sig .tc := ⟨.hbm, 657, rfl⟩
abbrev main_v324 : Ref sig .tc := ⟨.hbm, 658, rfl⟩
abbrev main_v325 : Ref sig .tc := ⟨.hbm, 659, rfl⟩
abbrev main_v326 : Ref sig .tc := ⟨.hbm, 660, rfl⟩
abbrev main_cst_216 : Ref sig .tc := ⟨.hbm, 661, rfl⟩
abbrev main_v327 : Ref sig .tc := ⟨.hbm, 662, rfl⟩
abbrev main_v328 : Ref sig .tc := ⟨.hbm, 663, rfl⟩
abbrev main_cst_217 : Ref sig .tc := ⟨.hbm, 664, rfl⟩
abbrev main_cst_218 : Ref sig .tc := ⟨.hbm, 665, rfl⟩
abbrev main_call97_v0 : Ref sig .tc := ⟨.hbm, 666, rfl⟩
abbrev main_call97_v1 : Ref sig .tc := ⟨.hbm, 667, rfl⟩
abbrev main_call97_v2 : Ref sig .tc := ⟨.hbm, 668, rfl⟩
abbrev main_v329 : Ref sig .tc := ⟨.hbm, 669, rfl⟩
abbrev main_cst_219 : Ref sig .tc := ⟨.hbm, 670, rfl⟩
abbrev main_cst_220 : Ref sig .tc := ⟨.hbm, 671, rfl⟩
abbrev main_v330 : Ref sig .tc := ⟨.hbm, 672, rfl⟩
abbrev main_v331 : Ref sig .tc := ⟨.hbm, 673, rfl⟩
abbrev main_cst_221 : Ref sig .tc := ⟨.hbm, 674, rfl⟩
abbrev main_v332 : Ref sig .tc := ⟨.hbm, 675, rfl⟩
abbrev main_cst_222 : Ref sig .tc := ⟨.hbm, 676, rfl⟩
abbrev main_cst_223 : Ref sig .tc := ⟨.hbm, 677, rfl⟩
abbrev main_call99_v0 : Ref sig .tc := ⟨.hbm, 678, rfl⟩
abbrev main_v333 : Ref sig .tc := ⟨.hbm, 679, rfl⟩
abbrev main_cst_224 : Ref sig .tc := ⟨.hbm, 680, rfl⟩
abbrev main_v334 : Ref sig .tc := ⟨.hbm, 681, rfl⟩
abbrev main_v335 : Ref sig .tc := ⟨.hbm, 682, rfl⟩
abbrev main_v336 : Ref sig .tc := ⟨.hbm, 683, rfl⟩
abbrev main_cst_225 : Ref sig .tc := ⟨.hbm, 684, rfl⟩
abbrev main_v337 : Ref sig .tc := ⟨.hbm, 685, rfl⟩
abbrev main_v338 : Ref sig .tc := ⟨.hbm, 686, rfl⟩
abbrev main_cst_226 : Ref sig .tc := ⟨.hbm, 687, rfl⟩
abbrev main_cst_227 : Ref sig .tc := ⟨.hbm, 688, rfl⟩
abbrev main_call101_v0 : Ref sig .tc := ⟨.hbm, 689, rfl⟩
abbrev main_call101_v1 : Ref sig .tc := ⟨.hbm, 690, rfl⟩
abbrev main_call101_v2 : Ref sig .tc := ⟨.hbm, 691, rfl⟩
abbrev main_v339 : Ref sig .tc := ⟨.hbm, 692, rfl⟩
abbrev main_v340 : Ref sig .tc := ⟨.hbm, 693, rfl⟩
abbrev main_v341 : Ref sig .tc := ⟨.hbm, 694, rfl⟩
abbrev main_cst_228 : Ref sig .tc := ⟨.hbm, 695, rfl⟩
abbrev main_v342 : Ref sig .tc := ⟨.hbm, 696, rfl⟩
abbrev main_v343 : Ref sig .tc := ⟨.hbm, 697, rfl⟩
abbrev main_cst_229 : Ref sig .tc := ⟨.hbm, 698, rfl⟩
abbrev main_v344 : Ref sig .tc := ⟨.hbm, 699, rfl⟩
abbrev main_v345 : Ref sig .tc := ⟨.hbm, 700, rfl⟩
abbrev main_cst_230 : Ref sig .tc := ⟨.hbm, 701, rfl⟩
abbrev main_v346 : Ref sig .tc := ⟨.hbm, 702, rfl⟩
abbrev main_v347 : Ref sig .tc := ⟨.hbm, 703, rfl⟩
abbrev main_v348 : Ref sig .tc := ⟨.hbm, 704, rfl⟩
abbrev main_cst_231 : Ref sig .tc := ⟨.hbm, 705, rfl⟩
abbrev main_v349 : Ref sig .tc := ⟨.hbm, 706, rfl⟩
abbrev main_v350 : Ref sig .tc := ⟨.hbm, 707, rfl⟩
abbrev main_cst_232 : Ref sig .tc := ⟨.hbm, 708, rfl⟩
abbrev main_cst_233 : Ref sig .tc := ⟨.hbm, 709, rfl⟩
abbrev main_call103_v0 : Ref sig .tc := ⟨.hbm, 710, rfl⟩
abbrev main_call103_v1 : Ref sig .tc := ⟨.hbm, 711, rfl⟩
abbrev main_call103_v2 : Ref sig .tc := ⟨.hbm, 712, rfl⟩
abbrev main_v351 : Ref sig .tc := ⟨.hbm, 713, rfl⟩
abbrev main_v352 : Ref sig .tc := ⟨.hbm, 714, rfl⟩
abbrev main_cst_234 : Ref sig .tc := ⟨.hbm, 715, rfl⟩
abbrev main_v353 : Ref sig .tc := ⟨.hbm, 716, rfl⟩
abbrev main_v354 : Ref sig .tc := ⟨.hbm, 717, rfl⟩
abbrev main_v355 : Ref sig .tc := ⟨.hbm, 718, rfl⟩
abbrev main_cst_235 : Ref sig .tc := ⟨.hbm, 719, rfl⟩
abbrev main_v356 : Ref sig .tc := ⟨.hbm, 720, rfl⟩
abbrev main_v357 : Ref sig .tc := ⟨.hbm, 721, rfl⟩
abbrev main_cst_236 : Ref sig .tc := ⟨.hbm, 722, rfl⟩
abbrev main_cst_237 : Ref sig .tc := ⟨.hbm, 723, rfl⟩
abbrev main_call105_v0 : Ref sig .tc := ⟨.hbm, 724, rfl⟩
abbrev main_call105_v1 : Ref sig .tc := ⟨.hbm, 725, rfl⟩
abbrev main_call105_v2 : Ref sig .tc := ⟨.hbm, 726, rfl⟩
abbrev main_v358 : Ref sig .tc := ⟨.hbm, 727, rfl⟩
abbrev main_cst_238 : Ref sig .tc := ⟨.hbm, 728, rfl⟩
abbrev main_cst_239 : Ref sig .tc := ⟨.hbm, 729, rfl⟩
abbrev main_v359 : Ref sig .tc := ⟨.hbm, 730, rfl⟩
abbrev main_v360 : Ref sig .tc := ⟨.hbm, 731, rfl⟩
abbrev main_cst_240 : Ref sig .tc := ⟨.hbm, 732, rfl⟩
abbrev main_v361 : Ref sig .tc := ⟨.hbm, 733, rfl⟩
abbrev main_cst_241 : Ref sig .tc := ⟨.hbm, 734, rfl⟩
abbrev main_cst_242 : Ref sig .tc := ⟨.hbm, 735, rfl⟩
abbrev main_call107_v0 : Ref sig .tc := ⟨.hbm, 736, rfl⟩
abbrev main_v362 : Ref sig .tc := ⟨.hbm, 737, rfl⟩
abbrev main_cst_243 : Ref sig .tc := ⟨.hbm, 738, rfl⟩
abbrev main_v363 : Ref sig .tc := ⟨.hbm, 739, rfl⟩
abbrev main_v364 : Ref sig .tc := ⟨.hbm, 740, rfl⟩
abbrev main_v365 : Ref sig .tc := ⟨.hbm, 741, rfl⟩
abbrev main_cst_244 : Ref sig .tc := ⟨.hbm, 742, rfl⟩
abbrev main_v366 : Ref sig .tc := ⟨.hbm, 743, rfl⟩
abbrev main_v367 : Ref sig .tc := ⟨.hbm, 744, rfl⟩
abbrev main_cst_245 : Ref sig .tc := ⟨.hbm, 745, rfl⟩
abbrev main_cst_246 : Ref sig .tc := ⟨.hbm, 746, rfl⟩
abbrev main_call109_v0 : Ref sig .tc := ⟨.hbm, 747, rfl⟩
abbrev main_call109_v1 : Ref sig .tc := ⟨.hbm, 748, rfl⟩
abbrev main_call109_v2 : Ref sig .tc := ⟨.hbm, 749, rfl⟩
abbrev main_v368 : Ref sig .tc := ⟨.hbm, 750, rfl⟩
abbrev main_v369 : Ref sig .tc := ⟨.hbm, 751, rfl⟩
abbrev main_v370 : Ref sig .tc := ⟨.hbm, 752, rfl⟩
abbrev main_cst_247 : Ref sig .tc := ⟨.hbm, 753, rfl⟩
abbrev main_v371 : Ref sig .tc := ⟨.hbm, 754, rfl⟩
abbrev main_v372 : Ref sig .tc := ⟨.hbm, 755, rfl⟩
abbrev main_cst_248 : Ref sig .tc := ⟨.hbm, 756, rfl⟩
abbrev main_v373 : Ref sig .tc := ⟨.hbm, 757, rfl⟩
abbrev main_v374 : Ref sig .tc := ⟨.hbm, 758, rfl⟩
abbrev main_cst_249 : Ref sig .tc := ⟨.hbm, 759, rfl⟩
abbrev main_v375 : Ref sig .tc := ⟨.hbm, 760, rfl⟩
abbrev main_v376 : Ref sig .tc := ⟨.hbm, 761, rfl⟩
abbrev main_v377 : Ref sig .tc := ⟨.hbm, 762, rfl⟩
abbrev main_cst_250 : Ref sig .tc := ⟨.hbm, 763, rfl⟩
abbrev main_v378 : Ref sig .tc := ⟨.hbm, 764, rfl⟩
abbrev main_v379 : Ref sig .tc := ⟨.hbm, 765, rfl⟩
abbrev main_cst_251 : Ref sig .tc := ⟨.hbm, 766, rfl⟩
abbrev main_cst_252 : Ref sig .tc := ⟨.hbm, 767, rfl⟩
abbrev main_call111_v0 : Ref sig .tc := ⟨.hbm, 768, rfl⟩
abbrev main_call111_v1 : Ref sig .tc := ⟨.hbm, 769, rfl⟩
abbrev main_call111_v2 : Ref sig .tc := ⟨.hbm, 770, rfl⟩
abbrev main_v380 : Ref sig .tc := ⟨.hbm, 771, rfl⟩
abbrev main_v381 : Ref sig .tc := ⟨.hbm, 772, rfl⟩
abbrev main_cst_253 : Ref sig .tc := ⟨.hbm, 773, rfl⟩
abbrev main_v382 : Ref sig .tc := ⟨.hbm, 774, rfl⟩
abbrev main_v383 : Ref sig .tc := ⟨.hbm, 775, rfl⟩
abbrev main_v384 : Ref sig .tc := ⟨.hbm, 776, rfl⟩
abbrev main_cst_254 : Ref sig .tc := ⟨.hbm, 777, rfl⟩
abbrev main_v385 : Ref sig .tc := ⟨.hbm, 778, rfl⟩
abbrev main_v386 : Ref sig .tc := ⟨.hbm, 779, rfl⟩
abbrev main_cst_255 : Ref sig .tc := ⟨.hbm, 780, rfl⟩
abbrev main_cst_256 : Ref sig .tc := ⟨.hbm, 781, rfl⟩
abbrev main_call113_v0 : Ref sig .tc := ⟨.hbm, 782, rfl⟩
abbrev main_call113_v1 : Ref sig .tc := ⟨.hbm, 783, rfl⟩
abbrev main_call113_v2 : Ref sig .tc := ⟨.hbm, 784, rfl⟩
abbrev main_v387 : Ref sig .tc := ⟨.hbm, 785, rfl⟩
abbrev main_cst_257 : Ref sig .tc := ⟨.hbm, 786, rfl⟩
abbrev main_cst_258 : Ref sig .tc := ⟨.hbm, 787, rfl⟩
abbrev main_v388 : Ref sig .tc := ⟨.hbm, 788, rfl⟩
abbrev main_v389 : Ref sig .tc := ⟨.hbm, 789, rfl⟩
abbrev main_cst_259 : Ref sig .tc := ⟨.hbm, 790, rfl⟩
abbrev main_v390 : Ref sig .tc := ⟨.hbm, 791, rfl⟩
abbrev main_cst_260 : Ref sig .tc := ⟨.hbm, 792, rfl⟩
abbrev main_cst_261 : Ref sig .tc := ⟨.hbm, 793, rfl⟩
abbrev main_call115_v0 : Ref sig .tc := ⟨.hbm, 794, rfl⟩
abbrev main_v391 : Ref sig .tc := ⟨.hbm, 795, rfl⟩
abbrev main_cst_262 : Ref sig .tc := ⟨.hbm, 796, rfl⟩
abbrev main_v392 : Ref sig .tc := ⟨.hbm, 797, rfl⟩
abbrev main_v393 : Ref sig .tc := ⟨.hbm, 798, rfl⟩
abbrev main_v394 : Ref sig .tc := ⟨.hbm, 799, rfl⟩
abbrev main_cst_263 : Ref sig .tc := ⟨.hbm, 800, rfl⟩
abbrev main_v395 : Ref sig .tc := ⟨.hbm, 801, rfl⟩
abbrev main_v396 : Ref sig .tc := ⟨.hbm, 802, rfl⟩
abbrev main_cst_264 : Ref sig .tc := ⟨.hbm, 803, rfl⟩
abbrev main_cst_265 : Ref sig .tc := ⟨.hbm, 804, rfl⟩
abbrev main_call117_v0 : Ref sig .tc := ⟨.hbm, 805, rfl⟩
abbrev main_call117_v1 : Ref sig .tc := ⟨.hbm, 806, rfl⟩
abbrev main_call117_v2 : Ref sig .tc := ⟨.hbm, 807, rfl⟩
abbrev main_v397 : Ref sig .tc := ⟨.hbm, 808, rfl⟩
abbrev main_v398 : Ref sig .tc := ⟨.hbm, 809, rfl⟩
abbrev main_v399 : Ref sig .tc := ⟨.hbm, 810, rfl⟩
abbrev main_v400 : Ref sig .tc := ⟨.hbm, 811, rfl⟩
abbrev main_cst_266 : Ref sig .tc := ⟨.hbm, 812, rfl⟩
abbrev main_v401 : Ref sig .tc := ⟨.hbm, 813, rfl⟩
abbrev main_v402 : Ref sig .tc := ⟨.hbm, 814, rfl⟩
abbrev main_v403 : Ref sig .tc := ⟨.hbm, 815, rfl⟩
abbrev main_cst_267 : Ref sig .tc := ⟨.hbm, 816, rfl⟩
abbrev main_v404 : Ref sig .tc := ⟨.hbm, 817, rfl⟩
abbrev main_v405 : Ref sig .tc := ⟨.hbm, 818, rfl⟩
abbrev main_cst_268 : Ref sig .tc := ⟨.hbm, 819, rfl⟩
abbrev main_cst_269 : Ref sig .tc := ⟨.hbm, 820, rfl⟩
abbrev main_call119_v0 : Ref sig .tc := ⟨.hbm, 821, rfl⟩
abbrev main_call119_v1 : Ref sig .tc := ⟨.hbm, 822, rfl⟩
abbrev main_call119_v2 : Ref sig .tc := ⟨.hbm, 823, rfl⟩
abbrev main_v406 : Ref sig .tc := ⟨.hbm, 824, rfl⟩
abbrev main_v407 : Ref sig .tc := ⟨.hbm, 825, rfl⟩
abbrev main_cst_270 : Ref sig .tc := ⟨.hbm, 826, rfl⟩
abbrev main_v408 : Ref sig .tc := ⟨.hbm, 827, rfl⟩
abbrev main_v409 : Ref sig .tc := ⟨.hbm, 828, rfl⟩
abbrev main_v410 : Ref sig .tc := ⟨.hbm, 829, rfl⟩
abbrev main_cst_271 : Ref sig .tc := ⟨.hbm, 830, rfl⟩
abbrev main_v411 : Ref sig .tc := ⟨.hbm, 831, rfl⟩
abbrev main_v412 : Ref sig .tc := ⟨.hbm, 832, rfl⟩
abbrev main_cst_272 : Ref sig .tc := ⟨.hbm, 833, rfl⟩
abbrev main_cst_273 : Ref sig .tc := ⟨.hbm, 834, rfl⟩
abbrev main_call121_v0 : Ref sig .tc := ⟨.hbm, 835, rfl⟩
abbrev main_call121_v1 : Ref sig .tc := ⟨.hbm, 836, rfl⟩
abbrev main_call121_v2 : Ref sig .tc := ⟨.hbm, 837, rfl⟩
abbrev main_v413 : Ref sig .tc := ⟨.hbm, 838, rfl⟩
abbrev main_cst_274 : Ref sig .tc := ⟨.hbm, 839, rfl⟩
abbrev main_cst_275 : Ref sig .tc := ⟨.hbm, 840, rfl⟩
abbrev main_v414 : Ref sig .tc := ⟨.hbm, 841, rfl⟩
abbrev main_v415 : Ref sig .tc := ⟨.hbm, 842, rfl⟩
abbrev main_cst_276 : Ref sig .tc := ⟨.hbm, 843, rfl⟩
abbrev main_v416 : Ref sig .tc := ⟨.hbm, 844, rfl⟩
abbrev main_cst_277 : Ref sig .tc := ⟨.hbm, 845, rfl⟩
abbrev main_cst_278 : Ref sig .tc := ⟨.hbm, 846, rfl⟩
abbrev main_call123_v0 : Ref sig .tc := ⟨.hbm, 847, rfl⟩
abbrev main_v417 : Ref sig .tc := ⟨.hbm, 848, rfl⟩
abbrev main_cst_279 : Ref sig .tc := ⟨.hbm, 849, rfl⟩
abbrev main_v418 : Ref sig .tc := ⟨.hbm, 850, rfl⟩
abbrev main_v419 : Ref sig .tc := ⟨.hbm, 851, rfl⟩
abbrev main_v420 : Ref sig .tc := ⟨.hbm, 852, rfl⟩
abbrev main_cst_280 : Ref sig .tc := ⟨.hbm, 853, rfl⟩
abbrev main_v421 : Ref sig .tc := ⟨.hbm, 854, rfl⟩
abbrev main_v422 : Ref sig .tc := ⟨.hbm, 855, rfl⟩
abbrev main_cst_281 : Ref sig .tc := ⟨.hbm, 856, rfl⟩
abbrev main_cst_282 : Ref sig .tc := ⟨.hbm, 857, rfl⟩
abbrev main_call125_v0 : Ref sig .tc := ⟨.hbm, 858, rfl⟩
abbrev main_call125_v1 : Ref sig .tc := ⟨.hbm, 859, rfl⟩
abbrev main_call125_v2 : Ref sig .tc := ⟨.hbm, 860, rfl⟩
abbrev main_v423 : Ref sig .tc := ⟨.hbm, 861, rfl⟩
abbrev main_v424 : Ref sig .tc := ⟨.hbm, 862, rfl⟩
abbrev main_v425 : Ref sig .tc := ⟨.hbm, 863, rfl⟩
abbrev main_v426 : Ref sig .tc := ⟨.hbm, 864, rfl⟩
abbrev main_cst_283 : Ref sig .tc := ⟨.hbm, 865, rfl⟩
abbrev main_v427 : Ref sig .tc := ⟨.hbm, 866, rfl⟩
abbrev main_v428 : Ref sig .tc := ⟨.hbm, 867, rfl⟩
abbrev main_v429 : Ref sig .tc := ⟨.hbm, 868, rfl⟩
abbrev main_cst_284 : Ref sig .tc := ⟨.hbm, 869, rfl⟩
abbrev main_v430 : Ref sig .tc := ⟨.hbm, 870, rfl⟩
abbrev main_v431 : Ref sig .tc := ⟨.hbm, 871, rfl⟩
abbrev main_v432 : Ref sig .tc := ⟨.hbm, 872, rfl⟩
abbrev main_cst_285 : Ref sig .tc := ⟨.hbm, 873, rfl⟩
abbrev main_v433 : Ref sig .tc := ⟨.hbm, 874, rfl⟩
abbrev main_v434 : Ref sig .tc := ⟨.hbm, 875, rfl⟩
abbrev main_cst_286 : Ref sig .tc := ⟨.hbm, 876, rfl⟩
abbrev main_cst_287 : Ref sig .tc := ⟨.hbm, 877, rfl⟩
abbrev main_call127_v0 : Ref sig .tc := ⟨.hbm, 878, rfl⟩
abbrev main_call127_v1 : Ref sig .tc := ⟨.hbm, 879, rfl⟩
abbrev main_call127_v2 : Ref sig .tc := ⟨.hbm, 880, rfl⟩
abbrev main_v435 : Ref sig .tc := ⟨.hbm, 881, rfl⟩
abbrev main_v436 : Ref sig .tc := ⟨.hbm, 882, rfl⟩
abbrev main_cst_288 : Ref sig .tc := ⟨.hbm, 883, rfl⟩
abbrev main_v437 : Ref sig .tc := ⟨.hbm, 884, rfl⟩
abbrev main_v438 : Ref sig .tc := ⟨.hbm, 885, rfl⟩
abbrev main_v439 : Ref sig .tc := ⟨.hbm, 886, rfl⟩
abbrev main_cst_289 : Ref sig .tc := ⟨.hbm, 887, rfl⟩
abbrev main_v440 : Ref sig .tc := ⟨.hbm, 888, rfl⟩
abbrev main_v441 : Ref sig .tc := ⟨.hbm, 889, rfl⟩
abbrev main_cst_290 : Ref sig .tc := ⟨.hbm, 890, rfl⟩
abbrev main_cst_291 : Ref sig .tc := ⟨.hbm, 891, rfl⟩
abbrev main_call129_v0 : Ref sig .tc := ⟨.hbm, 892, rfl⟩
abbrev main_call129_v1 : Ref sig .tc := ⟨.hbm, 893, rfl⟩
abbrev main_call129_v2 : Ref sig .tc := ⟨.hbm, 894, rfl⟩
abbrev main_v442 : Ref sig .tc := ⟨.hbm, 895, rfl⟩
abbrev main_v443 : Ref sig .tc := ⟨.hbm, 896, rfl⟩
abbrev main_v444 : Ref sig .tc := ⟨.hbm, 897, rfl⟩
abbrev main_v445 : Ref sig .tc := ⟨.hbm, 898, rfl⟩
abbrev main_v446 : Ref sig .tc := ⟨.hbm, 899, rfl⟩
abbrev main_v447 : Ref sig .tc := ⟨.hbm, 900, rfl⟩
abbrev main_v448 : Ref sig .tc := ⟨.hbm, 901, rfl⟩
abbrev main_v449 : Ref sig .tc := ⟨.hbm, 902, rfl⟩
abbrev main_v450 : Ref sig .tc := ⟨.hbm, 903, rfl⟩
abbrev main_v451 : Ref sig .tc := ⟨.hbm, 904, rfl⟩
abbrev main_v452 : Ref sig .tc := ⟨.hbm, 905, rfl⟩
abbrev main_v453 : Ref sig .tc := ⟨.hbm, 906, rfl⟩
abbrev main_v454 : Ref sig .tc := ⟨.hbm, 907, rfl⟩
abbrev main_v455 : Ref sig .tc := ⟨.hbm, 908, rfl⟩
abbrev main_v456 : Ref sig .tc := ⟨.hbm, 909, rfl⟩
abbrev main_v457 : Ref sig .tc := ⟨.hbm, 910, rfl⟩
abbrev main_v458 : Ref sig .tc := ⟨.hbm, 911, rfl⟩
abbrev main_v459 : Ref sig .tc := ⟨.hbm, 912, rfl⟩

abbrev nD : Nat := 1
abbrev τ : Topo := Topo.v7x

variable {F : FTy → Type} [FloatOps F]

class Facts₀ : Prop where
  slices_S4000000x3_S4000000x1_0_0 : S4000000x3.Slices ![0, 0] S4000000x1
  shapeCasts_S4000000x1_S4000000 : S4000000x1.ShapeCasts S4000000
  bcast_S_S4000000 : S_.BroadcastsInDim S4000000 (![] : Fin 0 → Fin S4000000.rank)
  slices_S4000000x3_S4000000x1_0_1 : S4000000x3.Slices ![0, 1] S4000000x1
  slices_S4000000x3_S4000000x1_0_2 : S4000000x3.Slices ![0, 2] S4000000x1
  bcast_S4000000_S4000000x1_0 : S4000000.BroadcastsInDim S4000000x1 (![0] : Fin 1 → Fin S4000000x1.rank)
  concatenates_S4000000x1_S4000000x1_S4000000x1_S4000000x1_S4000000x1_S4000000x1_S4000000x1_S4000000x1_S4000000x1_S4000000x1_S4000000x1_S4000000x1_S4000000x1_S4000000x1_S4000000x1_S4000000x1_S4000000x16_d1 : Shape.Concatenates [S4000000x1, S4000000x1, S4000000x1, S4000000x1, S4000000x1, S4000000x1, S4000000x1, S4000000x1, S4000000x1, S4000000x1, S4000000x1, S4000000x1, S4000000x1, S4000000x1, S4000000x1, S4000000x1] S4000000x16 1

variable [Facts₀]

class Facts : Prop extends Facts₀ where

variable [Facts]
-- ==== Proof.Spec.lean ====
/-
  The quantized spherical-harmonics encoding as one function of the input array, on the extended reals.

  A row (a, b, c) of the input gives three coordinates x = q(2a - 1), y = q(2b - 1), z = q(2c - 1), where q is the
  fixed-point quantizer: multiply by 1024, round to the nearest integer with ties to even, divide by 1024, and clamp
  to [-64, 64 - 1/1024]. The sixteen outputs of the row are the real spherical harmonics of degree below four in
  (x, y, z), every product, sum and coefficient passed through q again. Two spellings of the sixteen columns are
  given: `colK`, whose coefficients are the already quantized numbers (289/1024, -500/1024, ...) and whose one
  negation is written 0 - t, and `colR`, whose coefficients are q of the unquantized single-precision numbers and
  whose negation is -t. They are the same functions (Proof/Coeffs.lean).
-/
import Idealize.ShloMosaic.PureOps.Ideal
import Idealize.ShloMosaic.Lib.ValueIdx

noncomputable section

namespace Cert.QSH

open Idealize.ShloMosaic Idealize.ShloMosaic.ValueIdx

/-- The extended real a single-precision word denotes. -/
abbrev K (w : BitVec 32) : EReal := Ideal.ofBits .f32 w

/-- The fixed-point quantizer: v ↦ clamp(roundeven(v · 1024) / 1024, -64, 64 - 1/1024). -/
def q (v : EReal) : EReal :=
  min (K 0x427FFF00#32) (max (K 0xC2800000#32)
    (Ideal.div (Ideal.liftRound Ideal.roundHalfEven (v * K 0x44800000#32)) (K 0x44800000#32)))

/-- A quantized coordinate from a raw input in [0, 1]: q(2a - 1). -/
def feat (a : EReal) : EReal := q (a * K 0x40000000#32 - K 0x3F800000#32)

/-- The sixteen columns over quantized coordinates x, y, z, with the coefficients written as the quantized numbers
    themselves. -/
def colK : Nat → EReal → EReal → EReal → EReal
  | 0, x, y, z => (K 0x3E908000#32) * (K 0x3F800000#32)
  | 1, x, y, z => q ((K 0xBEFA0000#32) * (q y))
  | 2, x, y, z => q ((K 0x3EFA0000#32) * (q z))
  | 3, x, y, z => q ((K 0xBEFA0000#32) * (q x))
  | 4, x, y, z => q ((K 0x3F8BE000#32) * (q (q (x * y))))
  | 5, x, y, z => q ((K 0xBF8BE000#32) * (q (q (y * z))))
  | 6, x, y, z => q (((K 0x3F724000#32) * (q (q (z * z)))) - (K 0x3EA18000#32))
  | 7, x, y, z => q ((K 0xBF8BE000#32) * (q (q (x * z))))
  | 8, x, y, z => q (((K 0x3F0BC000#32) * (q (q (x * x)))) - ((K 0x3F0BC000#32) * (q (q (y * y)))))
  | 9, x, y, z => q (((K 0x3F170000#32) * (q y)) * (q (((K 0xC0400000#32) * (q (x * x))) + (q (y * y)))))
  | 10, x, y, z => q (((K 0x40390000#32) * (q (q (x * y)))) * (q z))
  | 11, x, y, z => q (((K 0x3EEA0000#32) * (q y)) * (q ((K 0x3F800000#32) - ((K 0x40A00000#32) * (q (z * z))))))
  | 12, x, y, z => q (((K 0x3EBF0000#32) * (q z)) * (q (((K 0x40A00000#32) * (q (z * z))) - (K 0x40400000#32))))
  | 13, x, y, z => q (((K 0x3EEA0000#32) * (q x)) * (q ((K 0x3F800000#32) - ((K 0x40A00000#32) * (q (z * z))))))
  | 14, x, y, z => q (((K 0x3FB90000#32) * (q z)) * (q ((q (x * x)) - (q (y * y)))))
  | 15, x, y, z => q (((K 0x3F170000#32) * (q x)) * (q ((K 0x00000000#32 - (q (x * x))) + ((K 0x40400000#32) * (q (y * y))))))
  | _, _, _, _ => 0

/-- The same sixteen columns with each coefficient written as q of the unquantized single-precision number. -/
def colR : Nat → EReal → EReal → EReal → EReal
  | 0, x, y, z => (q (K 0x3E906EBB#32)) * (K 0x3F800000#32)
  | 1, x, y, z => q ((q (K 0xBEFA2A1C#32)) * (q y))
  | 2, x, y, z => q ((q (K 0x3EFA2A1C#32)) * (q z))
  | 3, x, y, z => q ((q (K 0xBEFA2A1C#32)) * (q x))
  | 4, x, y, z => q ((q (K 0x3F8BD8A1#32)) * (q (q (x * y))))
  | 5, x, y, z => q ((q (K 0xBF8BD8A1#32)) * (q (q (y * z))))
  | 6, x, y, z => q (((q (K 0x3F723881#32)) * (q (q (z * z)))) - (q (K 0x3EA17B01#32)))
  | 7, x, y, z => q ((q (K 0xBF8BD8A1#32)) * (q (q (x * z))))
  | 8, x, y, z => q (((q (K 0x3F0BD8A1#32)) * (q (q (x * x)))) - ((q (K 0x3F0BD8A1#32)) * (q (q (y * y)))))
  | 9, x, y, z => q (((q (K 0x3F170D19#32)) * (q y)) * (q (((K 0xC0400000#32) * (q (x * x))) + (q (y * y)))))
  | 10, x, y, z => q (((q (K 0x4038FFC7#32)) * (q (q (x * y)))) * (q z))
  | 11, x, y, z => q (((q (K 0x3EEA01E8#32)) * (q y)) * (q ((K 0x3F800000#32) - ((K 0x40A00000#32) * (q (z * z))))))
  | 12, x, y, z => q (((q (K 0x3EBF10F8#32)) * (q z)) * (q (((K 0x40A00000#32) * (q (z * z))) - (K 0x40400000#32))))
  | 13, x, y, z => q (((q (K 0x3EEA01E8#32)) * (q x)) * (q ((K 0x3F800000#32) - ((K 0x40A00000#32) * (q (z * z))))))
  | 14, x, y, z => q (((q (K 0x3FB8FFC7#32)) * (q z)) * (q ((q (x * x)) - (q (y * y)))))
  | 15, x, y, z => q (((q (K 0x3F170D19#32)) * (q x)) * (q ((-(q (x * x))) + ((K 0x40400000#32) * (q (y * y))))))
  | _, _, _, _ => 0

/-- The whole output array: entry (r, k) is column k of the quantized coordinates of input row r. -/
def G (col : Nat → EReal → EReal → EReal → EReal) (inp : (⟨2, ![4000000, 3]⟩ : Shape).Idx → EReal) :
    (⟨2, ![4000000, 16]⟩ : Shape).Idx → EReal :=
  fun i => col (i 1).val (feat (inp (ix2 (i 0 : Fin 4000000) (0 : Fin 3))))
    (feat (inp (ix2 (i 0 : Fin 4000000) (1 : Fin 3)))) (feat (inp (ix2 (i 0 : Fin 4000000) (2 : Fin 3))))

end Cert.QSH

end
-- ==== Proof.LibConcat16.lean ====
/-
  Columns of a matrix, read at an index.

  A vector [n] cast to a column [n, 1] and back; column c of a matrix [n, m] cut out and cast to a vector; and
  sixteen columns [n, 1] concatenated along axis 1 into a matrix [n, 16], which at (p, k) is column k at (p, 0).
-/
import Idealize.ShloMosaic.Lib.ValueIdx
import Idealize.ShloMosaic.Lib.ValueLayout
import Idealize.ShloMosaic.Lib.Pipeline.Value

namespace Cert.LibConcat16

open Idealize.ShloMosaic Idealize.ShloMosaic.ValueIdx

variable {α : Type}

/-- A vector cast to a column reads, at (p, u), the vector's entry p, whatever the unit coordinate u. -/
theorem shapeCast_vec_col_apply {n : ℕ} (v : (⟨1, ![n]⟩ : Shape).Idx → α)
    (h : (⟨1, ![n]⟩ : Shape).ShapeCasts ⟨2, ![n, 1]⟩) (p : Fin n) (u : Fin 1) :
    shapeCast ⟨2, ![n, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column cast to a vector reads, at p, the column's entry (p, 0). -/
theorem shapeCast_col_vec_apply {n : ℕ} (x : (⟨2, ![n, 1]⟩ : Shape).Idx → α)
    (h : (⟨2, ![n, 1]⟩ : Shape).ShapeCasts ⟨1, ![n]⟩) (p : Fin n) :
    shapeCast ⟨1, ![n]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- Column c of a matrix, cut out and cast to a vector, reads at p the matrix's entry (p, c). -/
theorem column_apply {n m : ℕ} (c : ℕ) (X : (⟨2, ![n, m]⟩ : Shape).Idx → α)
    (hs : (⟨2, ![n, m]⟩ : Shape).Slices ![0, c] ⟨2, ![n, 1]⟩)
    (hc : (⟨2, ![n, 1]⟩ : Shape).ShapeCasts ⟨1, ![n]⟩) (p : Fin n) (k : Fin m) (hk : k.val = c) :
    shapeCast ⟨1, ![n]⟩ (extractStridedSlice ⟨2, ![n, 1]⟩ ![0, c] X hs) hc (ix1 p) = X (ix2 p k) :=
  (shapeCast_col_vec_apply _ hc p).trans
    (slice2_axis1_apply c X hs p (0 : Fin 1) k (by rw [hk]; rfl))

/-- Sixteen columns side by side: the matrix at (p, k) is column k at (p, 0). -/
theorem concatenate16_apply {n : ℕ} (c : Fin 16 → ((⟨2, ![n, 1]⟩ : Shape).Idx → α))
    (h : Shape.Concatenates ((List.ofFn fun k : Fin 16 => (⟨⟨2, ![n, 1]⟩, c k⟩ : (s : Shape) × (s.Idx → α))).map (·.1))
      ⟨2, ![n, 16]⟩ 1) (p : Fin n) (k : Fin 16) :
    concatenate ⟨2, ![n, 16]⟩ 1 (List.ofFn fun k : Fin 16 => (⟨⟨2, ![n, 1]⟩, c k⟩ : (s : Shape) × (s.Idx → α))) h (ix2 p k)
      = c k (ix2 p (0 : Fin 1)) :=
  concatenate_ofFn_unit_apply (t := ⟨2, ![n, 16]⟩) (s₁ := ⟨2, ![n, 1]⟩) (1 : Fin 2) c h rfl rfl (ix2 p k) k rfl (ix2 p (0 : Fin 1)) (fun b hb => by
    match b with
    | ⟨0, _⟩ => rfl
    | ⟨1, _⟩ => exact absurd rfl hb)

end Cert.LibConcat16
-- ==== Proof.KBlockCols.lean ====
/-
  The kernel's block, column by column, at one row.

  Every vector operation of the body is pointwise, and on the extended reals it is the exact operation, so each of the
  sixteen column vectors the body computes, read at row p, is the corresponding column function of the specification
  applied to the three coordinate vectors read at row p: by unfolding. What is not by unfolding is the layout: the three
  coordinate vectors are columns 0, 1, 2 of the input block, and the result block is the sixteen columns side by side.
-/
import proofs.«106742_j70918499992406_2_alg».proof.Proof.Gen.KernelIdeal.Skeleton
import proofs.«106742_j70918499992406_2_alg».proof.Proof.Spec
import proofs.«106742_j70918499992406_2_alg».proof.Proof.LibConcat16
import Idealize.ShloMosaic.Lib.ValueIdx
import Idealize.ShloMosaic.Lib.Pipeline.Value

noncomputable section

namespace Cert.QSH

open Idealize.ShloMosaic Idealize.ShloMosaic.ValueIdx Cert.KernelIdeal Cert.KernelIdeal.Gen Cert.LibConcat16

/-- A vector of 2000 extended reals. -/
abbrev Vec2000 : Type := FVec Ideal S2000 .f32

/-! ## The three coordinate vectors: columns 0, 1, 2 of the input block, each through 2a − 1 and the quantizer -/

/-- The x coordinates: row p is the quantized coordinate of entry (p, 0). -/
theorem coord_x (b : Vec Ideal S2000x3 .f32) (p : Fin 2000) : k0_pay3 b (ix1 p) = feat (b (ix2 p (0 : Fin 3))) :=
  congrArg feat (column_apply 0 b slices_S2000x3_o0_0_S2000x1 shapeCasts_S2000x1_S2000 p (0 : Fin 3) rfl)

/-- The y coordinates: row p is the quantized coordinate of entry (p, 1). -/
theorem coord_y (b : Vec Ideal S2000x3 .f32) (p : Fin 2000) : k0_pay4 b (ix1 p) = feat (b (ix2 p (1 : Fin 3))) :=
  congrArg feat (column_apply 1 b slices_S2000x3_o0_1_S2000x1 shapeCasts_S2000x1_S2000 p (1 : Fin 3) rfl)

/-- The z coordinates (the body rounds first and divides and clamps in a second step): row p is the quantized coordinate
    of entry (p, 2). -/
theorem coord_z (b : Vec Ideal S2000x3 .f32) (p : Fin 2000) :
    k0_pay7 (k0_pay5 b) (k0_pay6 (F := Ideal)) (ix1 p) = feat (b (ix2 p (2 : Fin 3))) :=
  congrArg feat (column_apply 2 b slices_S2000x3_o0_2_S2000x1 shapeCasts_S2000x1_S2000 p (2 : Fin 3) rfl)

/-! ## The sixteen column vectors at a row, over any coordinate vectors -/

variable (p : Fin 2000)

/-- The constant column. -/
theorem col0 (a b c : EReal) :
    k0_pay16 (F := Ideal) (ix1 p)
      = colK 0 a b c := rfl

/-- Column 1, linear in y. -/
theorem col1 (vy : Vec2000) (a c : EReal) :
    k0_pay18 (k0_pay17 vy) (Scalar.ofBits .f32 0xC2800000#32 : Ideal .f32) (ix1 p)
      = colK 1 a (vy (ix1 p)) c := rfl

/-- Column 2, linear in z. -/
theorem col2 (vz : Vec2000) (a b : EReal) :
    k0_pay19 vz (ix1 p)
      = colK 2 a b (vz (ix1 p)) := rfl

/-- Column 3, linear in x. -/
theorem col3 (vx : Vec2000) (b c : EReal) :
    k0_pay22 (k0_pay20 vx) (Scalar.ofBits .f32 0x427FFF00#32 : Ideal .f32) (k0_pay21 (F := Ideal)) (ix1 p)
      = colK 3 (vx (ix1 p)) b c := rfl

/-- Column 4, in xy. -/
theorem col4 (vx vy : Vec2000) (c : EReal) :
    k0_pay23 (k0_pay8 vx vy) (ix1 p)
      = colK 4 (vx (ix1 p)) (vy (ix1 p)) c := rfl

/-- Column 5, in yz; z is the clamped quotient of r by d. -/
theorem col5 (vy r d : Vec2000) (a : EReal) :
    k0_pay26 (k0_pay24 (k0_pay10 vy r d)) (k0_pay25 (F := Ideal)) (ix1 p)
      = colK 5 a (vy (ix1 p)) (k0_pay7 r d (ix1 p)) := rfl

/-- Column 6, in z². -/
theorem col6 (vz : Vec2000) (a b : EReal) :
    k0_pay27 (k0_pay15 vz) (ix1 p)
      = colK 6 a b (vz (ix1 p)) := rfl

/-- Column 7, in xz; z is the clamped quotient of r by d. -/
theorem col7 (vx r d : Vec2000) (b : EReal) :
    k0_pay29 (Scalar.ofBits .f32 0x427FFF00#32 : Ideal .f32) (k0_pay28 (k0_pay9 vx r d)) (ix1 p)
      = colK 7 (vx (ix1 p)) b (k0_pay7 r d (ix1 p)) := rfl

/-- Column 8, in x² − y². -/
theorem col8 (vx vy : Vec2000) (c : EReal) :
    k0_pay30 (k0_pay13 (k0_pay11 vx) (Scalar.ofBits .f32 0x427FFF00#32 : Ideal .f32) (k0_pay12 (F := Ideal))) (k0_pay14 vy) (ix1 p)
      = colK 8 (vx (ix1 p)) (vy (ix1 p)) c := rfl

/-- Column 9, y(−3x² + y²). -/
theorem col9 (vx vy : Vec2000) (c : EReal) :
    k0_pay33 (k0_pay13 (k0_pay11 vx) (Scalar.ofBits .f32 0x427FFF00#32 : Ideal .f32) (k0_pay12 (F := Ideal))) (k0_pay14 vy) (k0_pay31 vy) (k0_pay32 (F := Ideal)) (ix1 p)
      = colK 9 (vx (ix1 p)) (vy (ix1 p)) c := rfl

/-- Column 10, xyz. -/
theorem col10 (vx vy vz : Vec2000) :
    k0_pay36 (k0_pay34 (k0_pay8 vx vy)) (k0_pay35 vz) (Scalar.ofBits .f32 0xC2800000#32 : Ideal .f32) (Scalar.ofBits .f32 0x427FFF00#32 : Ideal .f32) (ix1 p)
      = colK 10 (vx (ix1 p)) (vy (ix1 p)) (vz (ix1 p)) := rfl

/-- Column 11, y(1 − 5z²). -/
theorem col11 (vy vz : Vec2000) (a : EReal) :
    k0_pay39 (k0_pay37 vy (k0_pay15 vz)) (k0_pay38 (F := Ideal)) (ix1 p)
      = colK 11 a (vy (ix1 p)) (vz (ix1 p)) := rfl

/-- Column 12, z(5z² − 3). -/
theorem col12 (vz : Vec2000) (a b : EReal) :
    k0_pay40 vz (k0_pay15 vz) (ix1 p)
      = colK 12 a b (vz (ix1 p)) := rfl

/-- Column 13, x(1 − 5z²). -/
theorem col13 (vx vz : Vec2000) (b : EReal) :
    k0_pay42 (k0_pay15 vz) (k0_pay41 vx) (ix1 p)
      = colK 13 (vx (ix1 p)) b (vz (ix1 p)) := rfl

/-- Column 14, z(x² − y²). -/
theorem col14 (vx vy vz : Vec2000) :
    k0_pay45 (k0_pay13 (k0_pay11 vx) (Scalar.ofBits .f32 0x427FFF00#32 : Ideal .f32) (k0_pay12 (F := Ideal))) (k0_pay14 vy) (k0_pay43 vz) (k0_pay44 (F := Ideal)) (ix1 p)
      = colK 14 (vx (ix1 p)) (vy (ix1 p)) (vz (ix1 p)) := rfl

/-- Column 15, x(−x² + 3y²), before and after its last quantization. -/
theorem col15 (vx vy : Vec2000) (c : EReal) :
    q (k0_pay1 (k0_pay46 vx) (k0_pay47 (k0_pay13 (k0_pay11 vx) (Scalar.ofBits .f32 0x427FFF00#32 : Ideal .f32) (k0_pay12 (F := Ideal))) (k0_pay14 vy)) (Scalar.ofBits .f32 0xC2800000#32 : Ideal .f32) (ix1 p))
      = colK 15 (vx (ix1 p)) (vy (ix1 p)) c := rfl

/-! ## The result block: the sixteen columns side by side, the last quantized once more -/

/-- The stored block at (p, k) is column vector k at row p; the sixteenth is quantized on the way. -/
theorem pay2_apply (v0 v1 v2 v3 v4 v5 v6 v7 v8 v9 v10 v11 v12 v13 v14 v15 : Vec2000) (k : Fin 16) :
    k0_pay2 v0 v1 v2 v3 v4 v5 v6 v7 v8 v9 v10 v11 v12 v13 v14 v15 (ix2 p k)
      = (![v0 (ix1 p), v1 (ix1 p), v2 (ix1 p), v3 (ix1 p), v4 (ix1 p), v5 (ix1 p), v6 (ix1 p), v7 (ix1 p), v8 (ix1 p), v9 (ix1 p), v10 (ix1 p), v11 (ix1 p), v12 (ix1 p), v13 (ix1 p), v14 (ix1 p), q (v15 (ix1 p))] : Fin 16 → EReal) k := by
  refine (concatenate16_apply (n := 2000)
    ![shapeCast S2000x1 v0 shapeCasts_S2000_S2000x1,
      shapeCast S2000x1 v1 shapeCasts_S2000_S2000x1,
      shapeCast S2000x1 v2 shapeCasts_S2000_S2000x1,
      shapeCast S2000x1 v3 shapeCasts_S2000_S2000x1,
      shapeCast S2000x1 v4 shapeCasts_S2000_S2000x1,
      shapeCast S2000x1 v5 shapeCasts_S2000_S2000x1,
      shapeCast S2000x1 v6 shapeCasts_S2000_S2000x1,
      shapeCast S2000x1 v7 shapeCasts_S2000_S2000x1,
      shapeCast S2000x1 v8 shapeCasts_S2000_S2000x1,
      shapeCast S2000x1 v9 shapeCasts_S2000_S2000x1,
      shapeCast S2000x1 v10 shapeCasts_S2000_S2000x1,
      shapeCast S2000x1 v11 shapeCasts_S2000_S2000x1,
      shapeCast S2000x1 v12 shapeCasts_S2000_S2000x1,
      shapeCast S2000x1 v13 shapeCasts_S2000_S2000x1,
      shapeCast S2000x1 v14 shapeCasts_S2000_S2000x1,
      shapeCast S2000x1 (minimumf (broadcast S2000 (Scalar.ofBits .f32 0x427FFF00#32 : Ideal .f32)) (maximumf (broadcast S2000 (Scalar.ofBits .f32 0xC2800000#32 : Ideal .f32)) (divf (roundeven (mulf v15 (broadcast S2000 (Scalar.ofBits .f32 0x44800000#32 : Ideal .f32)))) (broadcast S2000 (Scalar.ofBits .f32 0x44800000#32 : Ideal .f32))))) shapeCasts_S2000_S2000x1]
    concatenates_S2000x1_S2000x1_S2000x1_S2000x1_S2000x1_S2000x1_S2000x1_S2000x1_S2000x1_S2000x1_S2000x1_S2000x1_S2000x1_S2000x1_S2000x1_S2000x1_S2000x16_d1 p k).trans ?_
  obtain ⟨k, hk⟩ := k
  interval_cases k
  · exact shapeCast_vec_col_apply v0 shapeCasts_S2000_S2000x1 p (0 : Fin 1)
  · exact shapeCast_vec_col_apply v1 shapeCasts_S2000_S2000x1 p (0 : Fin 1)
  · exact shapeCast_vec_col_apply v2 shapeCasts_S2000_S2000x1 p (0 : Fin 1)
  · exact shapeCast_vec_col_apply v3 shapeCasts_S2000_S2000x1 p (0 : Fin 1)
  · exact shapeCast_vec_col_apply v4 shapeCasts_S2000_S2000x1 p (0 : Fin 1)
  · exact shapeCast_vec_col_apply v5 shapeCasts_S2000_S2000x1 p (0 : Fin 1)
  · exact shapeCast_vec_col_apply v6 shapeCasts_S2000_S2000x1 p (0 : Fin 1)
  · exact shapeCast_vec_col_apply v7 shapeCasts_S2000_S2000x1 p (0 : Fin 1)
  · exact shapeCast_vec_col_apply v8 shapeCasts_S2000_S2000x1 p (0 : Fin 1)
  · exact shapeCast_vec_col_apply v9 shapeCasts_S2000_S2000x1 p (0 : Fin 1)
  · exact shapeCast_vec_col_apply v10 shapeCasts_S2000_S2000x1 p (0 : Fin 1)
  · exact shapeCast_vec_col_apply v11 shapeCasts_S2000_S2000x1 p (0 : Fin 1)
  · exact shapeCast_vec_col_apply v12 shapeCasts_S2000_S2000x1 p (0 : Fin 1)
  · exact shapeCast_vec_col_apply v13 shapeCasts_S2000_S2000x1 p (0 : Fin 1)
  · exact shapeCast_vec_col_apply v14 shapeCasts_S2000_S2000x1 p (0 : Fin 1)
  · exact shapeCast_vec_col_apply (minimumf (broadcast S2000 (Scalar.ofBits .f32 0x427FFF00#32 : Ideal .f32)) (maximumf (broadcast S2000 (Scalar.ofBits .f32 0xC2800000#32 : Ideal .f32)) (divf (roundeven (mulf v15 (broadcast S2000 (Scalar.ofBits .f32 0x44800000#32 : Ideal .f32)))) (broadcast S2000 (Scalar.ofBits .f32 0x44800000#32 : Ideal .f32))))) shapeCasts_S2000_S2000x1 p (0 : Fin 1)

end Cert.QSH

end
-- ==== Proof.KBlock.lean ====
/-
  One block of the kernel: the body's result for a block of 2000 input rows, read at row p and column k, is column k
  of the quantized coordinates of row p of the block.

  The body stores once, through the whole result block, the sixteen column vectors side by side; each column vector at
  row p is the specification's column function of the three coordinate vectors at row p (Proof/KBlockCols.lean), and
  those are the quantized coordinates of entries (p, 0), (p, 1), (p, 2) of the input block, which the body loads whole.
-/
import proofs.«106742_j70918499992406_2_alg».proof.Proof.Gen.KernelIdeal.Frame
import proofs.«106742_j70918499992406_2_alg».proof.Proof.Spec
import proofs.«106742_j70918499992406_2_alg».proof.Proof.KBlockCols
import Idealize.ShloMosaic.Lib.ValueIdx
import Idealize.ShloMosaic.Lib.Pipeline.Value

noncomputable section

namespace Cert.QSH

open Idealize.ShloMosaic Idealize.ShloMosaic.ValueIdx Cert.KernelIdeal Cert.KernelIdeal.Gen

/-- The body's 2000 × 16 result block at (p, k): column k of the quantized coordinates of row p of the input block. -/
theorem block_apply (x0 : Vec Ideal S2000x3 .f32) (p : Fin 2000) (k : Fin 16) :
    out0_1 (F := Ideal) x0 (ix2 p k)
      = colK k.val (feat (x0 (ix2 p (0 : Fin 3)))) (feat (x0 (ix2 p (1 : Fin 3)))) (feat (x0 (ix2 p (2 : Fin 3)))) := by
  have hz : (![0, 0] : Fin 2 → Nat) = fun _ => 0 := by
    funext a; match a with | ⟨0, _⟩ => rfl | ⟨1, _⟩ => rfl
  -- the three quantized coordinates of row p are the body's coordinate vectors at p
  rw [← coord_x x0 p, ← coord_y x0 p, ← coord_z x0 p]
  -- one store through the whole block leaves its payload, computed from the whole input block
  unfold out0_1
  rw [View.canon_unit_zero hz]
  simp only [View.ld_unit_zero (S := S2000x3) hz]
  -- the payload is the sixteen column vectors side by side
  rw [pay2_apply]
  obtain ⟨k, hk⟩ := k
  interval_cases k
  · exact col0 p _ _ _
  · exact col1 p (k0_pay4 x0) _ _
  · exact col2 p (k0_pay7 (k0_pay5 x0) (k0_pay6 (F := Ideal))) _ _
  · exact col3 p (k0_pay3 x0) _ _
  · exact col4 p (k0_pay3 x0) (k0_pay4 x0) _
  · exact col5 p (k0_pay4 x0) (k0_pay5 x0) (k0_pay6 (F := Ideal)) _
  · exact col6 p (k0_pay7 (k0_pay5 x0) (k0_pay6 (F := Ideal))) _ _
  · exact col7 p (k0_pay3 x0) (k0_pay5 x0) (k0_pay6 (F := Ideal)) _
  · exact col8 p (k0_pay3 x0) (k0_pay4 x0) _
  · exact col9 p (k0_pay3 x0) (k0_pay4 x0) _
  · exact col10 p (k0_pay3 x0) (k0_pay4 x0) (k0_pay7 (k0_pay5 x0) (k0_pay6 (F := Ideal)))
  · exact col11 p (k0_pay4 x0) (k0_pay7 (k0_pay5 x0) (k0_pay6 (F := Ideal))) _
  · exact col12 p (k0_pay7 (k0_pay5 x0) (k0_pay6 (F := Ideal))) _ _
  · exact col13 p (k0_pay3 x0) (k0_pay7 (k0_pay5 x0) (k0_pay6 (F := Ideal))) _
  · exact col14 p (k0_pay3 x0) (k0_pay4 x0) (k0_pay7 (k0_pay5 x0) (k0_pay6 (F := Ideal)))
  · exact col15 p (k0_pay3 x0) (k0_pay4 x0) _

end Cert.QSH

end
-- ==== Proof.KArray.lean ====
/-
  From blocks to the whole array.

  The kernel runs over a grid of 2000 points. Point t stages rows 2000·t … 2000·t + 1999 (all three columns) of the
  4000000 × 3 input and writes back rows 2000·t … 2000·t + 1999 (all sixteen columns) of the 4000000 × 16 output.
  What a point writes back is the body's result on its input block, which at row p and column k is column k of the
  quantized coordinates of row p of the block, that is, of row 2000·t + p of the input. So the block a point writes
  is the restriction to its rows of ONE function of the whole input, G colK. The 2000 blocks tile the output (row r
  lies in the block of point r / 2000), hence after the run the output array is G colK of the input, and the input
  is unchanged.
-/
import proofs.«106742_j70918499992406_2_alg».proof.Proof.KBlock
import proofs.«106742_j70918499992406_2_alg».proof.Proof.Gen.KernelIdeal.Value
import Idealize.ShloMosaic.Lib.Pipeline.Value

noncomputable section

namespace Cert.QSH

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Where the blocks sit: at grid point t both windows' block index is t along the rows and 0 along the columns
    (decided over the 2000 points). -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block of point t at (p, j) is the input array at row 2000·t + p, column j. -/
theorem input_block_apply (c : Dev nD) (t : Fin cfg0.N) (x : S2000x3.Idx) (r : S4000000x3.Idx)
    (h0 : (r 0).val = 2000 * t.val + (x 0).val) (h1 : (r 1).val = (x 1).val) :
    (iblk m c 0 t : Vec Ideal S2000x3 .f32) x = (V m c main_arg0 : S4000000x3.Idx → EReal) r := by
  obtain ⟨e0, e1, -, -⟩ := block_index t
  unfold iblk
  rw [View.read_apply]
  show V m c main_arg0 _ = V m c main_arg0 _
  congr 1
  funext a
  apply Fin.ext
  match a with
  | ⟨0, _⟩ => show win0_0.index t (0 : Fin 2) * 2000 + 1 * (x 0).val = (r 0).val; rw [e0, h0]; omega
  | ⟨1, _⟩ => show win0_0.index t (1 : Fin 2) * 3 + 1 * (x 1).val = (r 1).val; rw [e1, h1]; omega

/-- The body's result on a block whose row p is row (i 0) of an array, at (p, k) with k = i 1, is G of that array
    at i. -/
theorem block_is_G (inp : S4000000x3.Idx → EReal) (x0 : Vec Ideal S2000x3 .f32) (p : Fin 2000) (k : Fin 16)
    (i : S4000000x16.Idx) (hi1 : (i 1).val = k.val)
    (hx : ∀ j : Fin 3, x0 (ix2 p j) = inp (ix2 (i 0 : Fin 4000000) j)) :
    out0_1 (F := Ideal) x0 (ix2 p k) = G colK inp i := by
  refine (block_apply x0 p k).trans ?_
  show _ = colK (i 1).val (feat (inp (ix2 (i 0 : Fin 4000000) (0 : Fin 3))))
    (feat (inp (ix2 (i 0 : Fin 4000000) (1 : Fin 3)))) (feat (inp (ix2 (i 0 : Fin 4000000) (2 : Fin 3))))
  rw [hi1, hx 0, hx 1, hx 2]

/-- What point t writes back is block t of G colK of the input array. -/
theorem flushed_eq (c : Dev nD) (t : Fin cfg0.N) :
    (dats m 0 c).flushed 1 t
      = ((cfg0.win 1).blk t).view.read (Elt Ideal) (G colK (V m c main_arg0 : S4000000x3.Idx → EReal)) := by
  rw [Value.flushed1]
  obtain ⟨-, -, e2, e3⟩ := block_index t
  funext y
  rw [View.read_apply]
  have hy : (cfg0.win 1).xinj (grid0.coords t) y
      = ix2 (⟨(y 0).val, (y 0).isLt⟩ : Fin 2000) (⟨(y 1).val, (y 1).isLt⟩ : Fin 16) :=
    funext fun a => by match a with | ⟨0, _⟩ => rfl | ⟨1, _⟩ => rfl
  show out0_1 (F := Ideal) (iblk m c 0 t) ((cfg0.win 1).xinj (grid0.coords t) y)
    = G colK (V m c main_arg0 : S4000000x3.Idx → EReal) (((cfg0.win 1).blk t).view.emb y)
  refine (congrArg (fun z => out0_1 (F := Ideal) (iblk m c 0 t) z) hy).trans ?_
  refine block_is_G (V m c main_arg0 : S4000000x3.Idx → EReal) (iblk m c 0 t)
    (⟨(y 0).val, (y 0).isLt⟩ : Fin 2000) (⟨(y 1).val, (y 1).isLt⟩ : Fin 16) (((cfg0.win 1).blk t).view.emb y) ?_ ?_
  · show win0_1.index t (1 : Fin 2) * 16 + 1 * (y 1).val = (y 1).val
    rw [e3]; omega
  · intro j
    refine input_block_apply m c t _ _ ?_ rfl
    show win0_1.index t (0 : Fin 2) * 2000 + 1 * (y 0).val = 2000 * t.val + (y 0).val
    rw [e2]; omega

/-- An index of the output array is in point t's block iff each coordinate is in the block's range on its axis. -/
theorem mem_block (t : Fin cfg0.N) (i : S4000000x16.Idx) :
    i ∈ ((cfg0.win 1).blk t).view.set ↔ ∀ a : Fin 2, win0_1.index t a * S2000x16.size a ≤ (i a).val
      ∧ (i a).val < win0_1.index t a * S2000x16.size a + S2000x16.size a := by
  show i ∈ ((View.whole main_v0).slice (win0_1.rect t)).set ↔ _
  rw [View.set_slice_whole, Rect.mem_set_unit]
  exact Iff.rfl

/-- The blocks tile the output: row r is in the block of point r / 2000. -/
theorem covered (i : S4000000x16.Idx) :
    ∃ t : Fin cfg0.N, (cfg0.win 1).flush t = true ∧ i ∈ ((cfg0.win 1).blk t).view.set := by
  have hi0 : (i 0).val < 4000000 := (i 0).isLt
  have hi1 : (i 1).val < 16 := (i 1).isLt
  obtain ⟨t, ht⟩ : ∃ t : Fin cfg0.N, t.val = (i 0).val / 2000 :=
    ⟨⟨(i 0).val / 2000, by rw [show cfg0.N = 2000 from N_0]; omega⟩, rfl⟩
  obtain ⟨-, -, e2, e3⟩ := block_index t
  refine ⟨t, flush0_1 t, ?_⟩
  rw [mem_block]
  intro a
  match a with
  | ⟨0, _⟩ =>
    show win0_1.index t (0 : Fin 2) * 2000 ≤ (i 0).val ∧ (i 0).val < win0_1.index t (0 : Fin 2) * 2000 + 2000
    rw [e2, ht]; omega
  | ⟨1, _⟩ =>
    show win0_1.index t (1 : Fin 2) * 16 ≤ (i 1).val ∧ (i 1).val < win0_1.index t (1 : Fin 2) * 16 + 16
    rw [e3]; omega

/-- The output array after the run is G colK of the input array. -/
theorem final_array (c : Dev nD) :
    (dats m 0 c).arrAt 1 cfg0.N = G colK (m ((c : Thread nD τ).loc main_arg0) : S4000000x3.Idx → EReal) :=
  (dats m 0 c).arrAt_eq_of_cover 1 (G colK (V m c main_arg0 : S4000000x3.Idx → EReal))
    (fun t _ => flushed_eq m c t) covered

/-- The kernel's run: every execution terminates with the output array at G colK of the input array and the input
    array unchanged. -/
theorem kernel_run : θ_run (defs (F := Ideal)) (onTc (τ := τ) (main (F := Ideal))) ⟨m, fun _ => 0, ρ⟩
    (fun r => ∀ c : Dev nD,
      r.2.mem ((c.tc : Thread nD τ).loc main_v0)
          = G colK (m ((c.tc : Thread nD τ).loc main_arg0) : S4000000x3.Idx → EReal)
      ∧ r.2.mem ((c.tc : Thread nD τ).loc main_arg0) = m ((c.tc : Thread nD τ).loc main_arg0)) :=
  (θ_run defs _ _).mono (fun r h c => ⟨(h c).1.trans (final_array m c), (h c).2⟩) (Value.run_blocks m ρ)

end Cert.QSH

end
-- ==== Proof.RefSegs.lean ====
/-
  The reference program's host operations, cut into twenty-six consecutive stretches: three that form the quantized
  coordinates x, y, z of every row, six that form the quantized products xy, xz, yz, x², y², z², one per output column,
  and the last, which makes each column an [N, 1] array and joins the sixteen along the second axis. The program is the
  stretches run one after the other.
-/
import proofs.«106742_j70918499992406_2_alg».proof.ReferenceIdeal
import proofs.«106742_j70918499992406_2_alg».proof.Proof.Gen.ReferenceIdeal
import Idealize.ShloMosaic.Lib.StableHlo.Run
import Idealize.ShloMosaic.PureOps.Ideal

set_option maxRecDepth 8192

noncomputable section

namespace Cert.QSH.Ref

open Cert.ReferenceIdeal Cert.ReferenceIdeal.Gen Idealize.ShloMosaic Idealize.ShloMosaic.TcCoe Idealize.SL.Sem Idealize.ShloMosaic.StableHlo

section Stretches

variable {F : FTy → Type} [FloatOps F]

def S0 : List (HloOp τ sig (Elt F)) :=
  [ unary main_arg0 main_v0 ((extractStridedSlice S4000000x1 ![0, 0] · slices_S4000000x3_S4000000x1_0_0) : (⟨S4000000x3, .f32⟩ : BufTy).Contents (Elt F) → (⟨S4000000x1, .f32⟩ : BufTy).Contents (Elt F)),
    reshape main_v0 main_v1 rfl shapeCasts_S4000000x1_S4000000,
    nullary main_cst (constant S_ .f32 0x40000000#32),
    unary main_cst main_v2 (broadcastInDim S4000000 ![] bcast_S_S4000000 : (⟨S_, .f32⟩ : BufTy).Contents (Elt F) → (⟨S4000000, .f32⟩ : BufTy).Contents (Elt F)),
    binary main_v1 main_v2 main_v3 (mulf : (⟨S4000000, .f32⟩ : BufTy).Contents (Elt F) → (⟨S4000000, .f32⟩ : BufTy).Contents (Elt F) → (⟨S4000000, .f32⟩ : BufTy).Contents (Elt F)),
    nullary main_cst_0 (constant S_ .f32 0x3F800000#32),
    unary main_cst_0 main_v4 (broadcastInDim S4000000 ![] bcast_S_S4000000 : (⟨S_, .f32⟩ : BufTy).Contents (Elt F) → (⟨S4000000, .f32⟩ : BufTy).Contents (Elt F)),
    binary main_v3 main_v4 main_v5 (subf : (⟨S4000000, .f32⟩ : BufTy).Contents (Elt F) → (⟨S4000000, .f32⟩ : BufTy).Contents (Elt F) → (⟨S4000000, .f32⟩ : BufTy).Contents (Elt F)),
    nullary main_cst_1 (constant S_ .f32 0x44800000#32),
    unary main_cst_1 main_v6 (broadcastInDim S4000000 ![] bcast_S_S4000000 : (⟨S_, .f32⟩ : BufTy).Contents (Elt F) → (⟨S4000000, .f32⟩ : BufTy).Contents (Elt F)),
    binary main_v5 main_v6 main_v7 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v7) (TRef.of (T := ⟨S4000000, .f32⟩) main_v8) Host.roundeven,
    nullary main_cst_2 (constant S_ .f32 0x44800000#32),
    unary main_cst_2 main_v9 (broadcastInDim S4000000 ![] bcast_S_S4000000 : (⟨S_, .f32⟩ : BufTy).Contents (Elt F) → (⟨S4000000, .f32⟩ : BufTy).Contents (Elt F)),
    binary main_v8 main_v9 main_v10 (Host.divf : (⟨S4000000, .f32⟩ : BufTy).Contents (Elt F) → (⟨S4000000, .f32⟩ : BufTy).Contents (Elt F) → (⟨S4000000, .f32⟩ : BufTy).Contents (Elt F)),
    nullary main_cst_3 (constant S_ .f32 0xC2800000#32),
    nullary main_cst_4 (constant S_ .f32 0x427FFF00#32),
    TRef.unary (TRef.of (T := ⟨S_, .f32⟩) main_cst_3) (TRef.of (T := ⟨S4000000, .f32⟩) main_call1_v0) (broadcastInDim S4000000 ![] bcast_S_S4000000),
    TRef.binary (TRef.of (T := ⟨S4000000, .f32⟩) main_call1_v0) (TRef.of (T := ⟨S4000000, .f32⟩) main_v10) (TRef.of (T := ⟨S4000000, .f32⟩) main_call1_v1) maximumf,
    TRef.unary (TRef.of (T := ⟨S_, .f32⟩) main_cst_4) (TRef.of (T := ⟨S4000000, .f32⟩) main_call1_v2) (broadcastInDim S4000000 ![] bcast_S_S4000000),
    TRef.binary (TRef.of (T := ⟨S4000000, .f32⟩) main_call1_v2) (TRef.of (T := ⟨S4000000, .f32⟩) main_call1_v1) (TRef.of (T := ⟨S4000000, .f32⟩) main_v11) minimumf ]

def S1 : List (HloOp τ sig (Elt F)) :=
  [ unary main_arg0 main_v12 ((extractStridedSlice S4000000x1 ![0, 1] · slices_S4000000x3_S4000000x1_0_1) : (⟨S4000000x3, .f32⟩ : BufTy).Contents (Elt F) → (⟨S4000000x1, .f32⟩ : BufTy).Contents (Elt F)),
    reshape main_v12 main_v13 rfl shapeCasts_S4000000x1_S4000000,
    nullary main_cst_5 (constant S_ .f32 0x40000000#32),
    unary main_cst_5 main_v14 (broadcastInDim S4000000 ![] bcast_S_S4000000 : (⟨S_, .f32⟩ : BufTy).Contents (Elt F) → (⟨S4000000, .f32⟩ : BufTy).Contents (Elt F)),
    binary main_v13 main_v14 main_v15 (mulf : (⟨S4000000, .f32⟩ : BufTy).Contents (Elt F) → (⟨S4000000, .f32⟩ : BufTy).Contents (Elt F) → (⟨S4000000, .f32⟩ : BufTy).Contents (Elt F)),
    nullary main_cst_6 (constant S_ .f32 0x3F800000#32),
    unary main_cst_6 main_v16 (broadcastInDim S4000000 ![] bcast_S_S4000000 : (⟨S_, .f32⟩ : BufTy).Contents (Elt F) → (⟨S4000000, .f32⟩ : BufTy).Contents (Elt F)),
    binary main_v15 main_v16 main_v17 (subf : (⟨S4000000, .f32⟩ : BufTy).Contents (Elt F) → (⟨S4000000, .f32⟩ : BufTy).Contents (Elt F) → (⟨S4000000, .f32⟩ : BufTy).Contents (Elt F)),
    nullary main_cst_7 (constant S_ .f32 0x44800000#32),
    unary main_cst_7 main_v18 (broadcastInDim S4000000 ![] bcast_S_S4000000 : (⟨S_, .f32⟩ : BufTy).Contents (Elt F) → (⟨S4000000, .f32⟩ : BufTy).Contents (Elt F)),
    binary main_v17 main_v18 main_v19 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v19) (TRef.of (T := ⟨S4000000, .f32⟩) main_v20) Host.roundeven,
    nullary main_cst_8 (constant S_ .f32 0x44800000#32),
    unary main_cst_8 main_v21 (broadcastInDim S4000000 ![] bcast_S_S4000000 : (⟨S_, .f32⟩ : BufTy).Contents (Elt F) → (⟨S4000000, .f32⟩ : BufTy).Contents (Elt F)),
    binary main_v20 main_v21 main_v22 (Host.divf : (⟨S4000000, .f32⟩ : BufTy).Contents (Elt F) → (⟨S4000000, .f32⟩ : BufTy).Contents (Elt F) → (⟨S4000000, .f32⟩ : BufTy).Contents (Elt F)),
    nullary main_cst_9 (constant S_ .f32 0xC2800000#32),
    nullary main_cst_10 (constant S_ .f32 0x427FFF00#32),
    TRef.unary (TRef.of (T := ⟨S_, .f32⟩) main_cst_9) (TRef.of (T := ⟨S4000000, .f32⟩) main_call3_v0) (broadcastInDim S4000000 ![] bcast_S_S4000000),
    TRef.binary (TRef.of (T := ⟨S4000000, .f32⟩) main_call3_v0) (TRef.of (T := ⟨S4000000, .f32⟩) main_v22) (TRef.of (T := ⟨S4000000, .f32⟩) main_call3_v1) maximumf,
    TRef.unary (TRef.of (T := ⟨S_, .f32⟩) main_cst_10) (TRef.of (T := ⟨S4000000, .f32⟩) main_call3_v2) (broadcastInDim S4000000 ![] bcast_S_S4000000),
    TRef.binary (TRef.of (T := ⟨S4000000, .f32⟩) main_call3_v2) (TRef.of (T := ⟨S4000000, .f32⟩) main_call3_v1) (TRef.of (T := ⟨S4000000, .f32⟩) main_v23) minimumf ]

def S2 : List (HloOp τ sig (Elt F)) :=
  [ unary main_arg0 main_v24 ((extractStridedSlice S4000000x1 ![0, 2] · slices_S4000000x3_S4000000x1_0_2) : (⟨S4000000x3, .f32⟩ : BufTy).Contents (Elt F) → (⟨S4000000x1, .f32⟩ : BufTy).Contents (Elt F)),
    reshape main_v24 main_v25 rfl shapeCasts_S4000000x1_S4000000,
    nullary main_cst_11 (constant S_ .f32 0x40000000#32),
    unary main_cst_11 main_v26 (broadcastInDim S4000000 ![] bcast_S_S4000000 : (⟨S_, .f32⟩ : BufTy).Contents (Elt F) → (⟨S4000000, .f32⟩ : BufTy).Contents (Elt F)),
    binary main_v25 main_v26 main_v27 (mulf : (⟨S4000000, .f32⟩ : BufTy).Contents (Elt F) → (⟨S4000000, .f32⟩ : BufTy).Contents (Elt F) → (⟨S4000000, .f32⟩ : BufTy).Contents (Elt F)),
    nullary main_cst_12 (constant S_ .f32 0x3F800000#32),
    unary main_cst_12 main_v28 (broadcastInDim S4000000 ![] bcast_S_S4000000 : (⟨S_, .f32⟩ : BufTy).Contents (Elt F) → (⟨S4000000, .f32⟩ : BufTy).Contents (Elt F)),
    binary main_v27 main_v28 main_v29 (subf : (⟨S4000000, .f32⟩ : BufTy).Contents (Elt F) → (⟨S4000000, .f32⟩ : BufTy).Contents (Elt F) → (⟨S4000000, .f32⟩ : BufTy).Contents (Elt F)),
    nullary main_cst_13 (constant S_ .f32 0x44800000#32),
    unary main_cst_13 main_v30 (broadcastInDim S4000000 ![] bcast_S_S4000000 : (⟨S_, .f32⟩ : BufTy).Contents (Elt F) → (⟨S4000000, .f32⟩ : BufTy).Contents (Elt F)),
    binary main_v29 main_v30 main_v31 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v31) (TRef.of (T := ⟨S4000000, .f32⟩) main_v32) Host.roundeven,
    nullary main_cst_14 (constant S_ .f32 0x44800000#32),
    unary main_cst_14 main_v33 (broadcastInDim S4000000 ![] bcast_S_S4000000 : (⟨S_, .f32⟩ : BufTy).Contents (Elt F) → (⟨S4000000, .f32⟩ : BufTy).Contents (Elt F)),
    binary main_v32 main_v33 main_v34 (Host.divf : (⟨S4000000, .f32⟩ : BufTy).Contents (Elt F) → (⟨S4000000, .f32⟩ : BufTy).Contents (Elt F) → (⟨S4000000, .f32⟩ : BufTy).Contents (Elt F)),
    nullary main_cst_15 (constant S_ .f32 0xC2800000#32),
    nullary main_cst_16 (constant S_ .f32 0x427FFF00#32),
    TRef.unary (TRef.of (T := ⟨S_, .f32⟩) main_cst_15) (TRef.of (T := ⟨S4000000, .f32⟩) main_call5_v0) (broadcastInDim S4000000 ![] bcast_S_S4000000),
    TRef.binary (TRef.of (T := ⟨S4000000, .f32⟩) main_call5_v0) (TRef.of (T := ⟨S4000000, .f32⟩) main_v34) (TRef.of (T := ⟨S4000000, .f32⟩) main_call5_v1) maximumf,
    TRef.unary (TRef.of (T := ⟨S_, .f32⟩) main_cst_16) (TRef.of (T := ⟨S4000000, .f32⟩) main_call5_v2) (broadcastInDim S4000000 ![] bcast_S_S4000000),
    TRef.binary (TRef.of (T := ⟨S4000000, .f32⟩) main_call5_v2) (TRef.of (T := ⟨S4000000, .f32⟩) main_call5_v1) (TRef.of (T := ⟨S4000000, .f32⟩) main_v35) minimumf ]

def S3 : List (HloOp τ sig (Elt F)) :=
  [ binary main_v11 main_v23 main_v36 (mulf : (⟨S4000000, .f32⟩ : BufTy).Contents (Elt F) → (⟨S4000000, .f32⟩ : BufTy).Contents (Elt F) → (⟨S4000000, .f32⟩ : BufTy).Contents (Elt F)),
    nullary main_cst_17 (constant S_ .f32 0x44800000#32),
    unary main_cst_17 main_v37 (broadcastInDim S4000000 ![] bcast_S_S4000000 : (⟨S_, .f32⟩ : BufTy).Contents (Elt F) → (⟨S4000000, .f32⟩ : BufTy).Contents (Elt F)),
    binary main_v36 main_v37 main_v38 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v38) (TRef.of (T := ⟨S4000000, .f32⟩) main_v39) Host.roundeven,
    nullary main_cst_18 (constant S_ .f32 0x44800000#32),
    unary main_cst_18 main_v40 (broadcastInDim S4000000 ![] bcast_S_S4000000 : (⟨S_, .f32⟩ : BufTy).Contents (Elt F) → (⟨S4000000, .f32⟩ : BufTy).Contents (Elt F)),
    binary main_v39 main_v40 main_v41 (Host.divf : (⟨S4000000, .f32⟩ : BufTy).Contents (Elt F) → (⟨S4000000, .f32⟩ : BufTy).Contents (Elt F) → (⟨S4000000, .f32⟩ : BufTy).Contents (Elt F)),
    nullary main_cst_19 (constant S_ .f32 0xC2800000#32),
    nullary main_cst_20 (constant S_ .f32 0x427FFF00#32),
    TRef.unary (TRef.of (T := ⟨S_, .f32⟩) main_cst_19) (TRef.of (T := ⟨S4000000, .f32⟩) main_call7_v0) (broadcastInDim S4000000 ![] bcast_S_S4000000),
    TRef.binary (TRef.of (T := ⟨S4000000, .f32⟩) main_call7_v0) (TRef.of (T := ⟨S4000000, .f32⟩) main_v41) (TRef.of (T := ⟨S4000000, .f32⟩) main_call7_v1) maximumf,
    TRef.unary (TRef.of (T := ⟨S_, .f32⟩) main_cst_20) (TRef.of (T := ⟨S4000000, .f32⟩) main_call7_v2) (broadcastInDim S4000000 ![] bcast_S_S4000000),
    TRef.binary (TRef.of (T := ⟨S4000000, .f32⟩) main_call7_v2) (TRef.of (T := ⟨S4000000, .f32⟩) main_call7_v1) (TRef.of (T := ⟨S4000000, .f32⟩) main_v42) minimumf ]

def S4 : List (HloOp τ sig (Elt F)) :=
  [ binary main_v11 main_v35 main_v43 (mulf : (⟨S4000000, .f32⟩ : BufTy).Contents (Elt F) → (⟨S4000000, .f32⟩ : BufTy).Contents (Elt F) → (⟨S4000000, .f32⟩ : BufTy).Contents (Elt F)),
    nullary main_cst_21 (constant S_ .f32 0x44800000#32),
    unary main_cst_21 main_v44 (broadcastInDim S4000000 ![] bcast_S_S4000000 : (⟨S_, .f32⟩ : BufTy).Contents (Elt F) → (⟨S4000000, .f32⟩ : BufTy).Contents (Elt F)),
    binary main_v43 main_v44 main_v45 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v45) (TRef.of (T := ⟨S4000000, .f32⟩) main_v46) Host.roundeven,
    nullary main_cst_22 (constant S_ .f32 0x44800000#32),
    unary main_cst_22 main_v47 (broadcastInDim S4000000 ![] bcast_S_S4000000 : (⟨S_, .f32⟩ : BufTy).Contents (Elt F) → (⟨S4000000, .f32⟩ : BufTy).Contents (Elt F)),
    binary main_v46 main_v47 main_v48 (Host.divf : (⟨S4000000, .f32⟩ : BufTy).Contents (Elt F) → (⟨S4000000, .f32⟩ : BufTy).Contents (Elt F) → (⟨S4000000, .f32⟩ : BufTy).Contents (Elt F)),
    nullary main_cst_23 (constant S_ .f32 0xC2800000#32),
    nullary main_cst_24 (constant S_ .f32 0x427FFF00#32),
    TRef.unary (TRef.of (T := ⟨S_, .f32⟩) main_cst_23) (TRef.of (T := ⟨S4000000, .f32⟩) main_call9_v0) (broadcastInDim S4000000 ![] bcast_S_S4000000),
    TRef.binary (TRef.of (T := ⟨S4000000, .f32⟩) main_call9_v0) (TRef.of (T := ⟨S4000000, .f32⟩) main_v48) (TRef.of (T := ⟨S4000000, .f32⟩) main_call9_v1) maximumf,
    TRef.unary (TRef.of (T := ⟨S_, .f32⟩) main_cst_24) (TRef.of (T := ⟨S4000000, .f32⟩) main_call9_v2) (broadcastInDim S4000000 ![] bcast_S_S4000000),
    TRef.binary (TRef.of (T := ⟨S4000000, .f32⟩) main_call9_v2) (TRef.of (T := ⟨S4000000, .f32⟩) main_call9_v1) (TRef.of (T := ⟨S4000000, .f32⟩) main_v49) minimumf ]

def S5 : List (HloOp τ sig (Elt F)) :=
  [ binary main_v23 main_v35 main_v50 (mulf : (⟨S4000000, .f32⟩ : BufTy).Contents (Elt F) → (⟨S4000000, .f32⟩ : BufTy).Contents (Elt F) → (⟨S4000000, .f32⟩ : BufTy).Contents (Elt F)),
    nullary main_cst_25 (constant S_ .f32 0x44800000#32),
    unary main_cst_25 main_v51 (broadcastInDim S4000000 ![] bcast_S_S4000000 : (⟨S_, .f32⟩ : BufTy).Contents (Elt F) → (⟨S4000000, .f32⟩ : BufTy).Contents (Elt F)),
    binary main_v50 main_v51 main_v52 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v52) (TRef.of (T := ⟨S4000000, .f32⟩) main_v53) Host.roundeven,
    nullary main_cst_26 (constant S_ .f32 0x44800000#32),
    unary main_cst_26 main_v54 (broadcastInDim S4000000 ![] bcast_S_S4000000 : (⟨S_, .f32⟩ : BufTy).Contents (Elt F) → (⟨S4000000, .f32⟩ : BufTy).Contents (Elt F)),
    binary main_v53 main_v54 main_v55 (Host.divf : (⟨S4000000, .f32⟩ : BufTy).Contents (Elt F) → (⟨S4000000, .f32⟩ : BufTy).Contents (Elt F) → (⟨S4000000, .f32⟩ : BufTy).Contents (Elt F)),
    nullary main_cst_27 (constant S_ .f32 0xC2800000#32),
    nullary main_cst_28 (constant S_ .f32 0x427FFF00#32),
    TRef.unary (TRef.of (T := ⟨S_, .f32⟩) main_cst_27) (TRef.of (T := ⟨S4000000, .f32⟩) main_call11_v0) (broadcastInDim S4000000 ![] bcast_S_S4000000),
    TRef.binary (TRef.of (T := ⟨S4000000, .f32⟩) main_call11_v0) (TRef.of (T := ⟨S4000000, .f32⟩) main_v55) (TRef.of (T := ⟨S4000000, .f32⟩) main_call11_v1) maximumf,
    TRef.unary (TRef.of (T := ⟨S_, .f32⟩) main_cst_28) (TRef.of (T := ⟨S4000000, .f32⟩) main_call11_v2) (broadcastInDim S4000000 ![] bcast_S_S4000000),
    TRef.binary (TRef.of (T := ⟨S4000000, .f32⟩) main_call11_v2) (TRef.of (T := ⟨S4000000, .f32⟩) main_call11_v1) (TRef.of (T := ⟨S4000000, .f32⟩) main_v56) minimumf ]

def S6 : List (HloOp τ sig (Elt F)) :=
  [ binary main_v11 main_v11 main_v57 (mulf : (⟨S4000000, .f32⟩ : BufTy).Contents (Elt F) → (⟨S4000000, .f32⟩ : BufTy).Contents (Elt F) → (⟨S4000000, .f32⟩ : BufTy).Contents (Elt F)),
    nullary main_cst_29 (constant S_ .f32 0x44800000#32),
    unary main_cst_29 main_v58 (broadcastInDim S4000000 ![] bcast_S_S4000000 : (⟨S_, .f32⟩ : BufTy).Contents (Elt F) → (⟨S4000000, .f32⟩ : BufTy).Contents (Elt F)),
    binary main_v57 main_v58 main_v59 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v59) (TRef.of (T := ⟨S4000000, .f32⟩) main_v60) Host.roundeven,
    nullary main_cst_30 (constant S_ .f32 0x44800000#32),
    unary main_cst_30 main_v61 (broadcastInDim S4000000 ![] bcast_S_S4000000 : (⟨S_, .f32⟩ : BufTy).Contents (Elt F) → (⟨S4000000, .f32⟩ : BufTy).Contents (Elt F)),
    binary main_v60 main_v61 main_v62 (Host.divf : (⟨S4000000, .f32⟩ : BufTy).Contents (Elt F) → (⟨S4000000, .f32⟩ : BufTy).Contents (Elt F) → (⟨S4000000, .f32⟩ : BufTy).Contents (Elt F)),
    nullary main_cst_31 (constant S_ .f32 0xC2800000#32),
    nullary main_cst_32 (constant S_ .f32 0x427FFF00#32),
    TRef.unary (TRef.of (T := ⟨S_, .f32⟩) main_cst_31) (TRef.of (T := ⟨S4000000, .f32⟩) main_call13_v0) (broadcastInDim S4000000 ![] bcast_S_S4000000),
    TRef.binary (TRef.of (T := ⟨S4000000, .f32⟩) main_call13_v0) (TRef.of (T := ⟨S4000000, .f32⟩) main_v62) (TRef.of (T := ⟨S4000000, .f32⟩) main_call13_v1) maximumf,
    TRef.unary (TRef.of (T := ⟨S_, .f32⟩) main_cst_32) (TRef.of (T := ⟨S4000000, .f32⟩) main_call13_v2) (broadcastInDim S4000000 ![] bcast_S_S4000000),
    TRef.binary (TRef.of (T := ⟨S4000000, .f32⟩) main_call13_v2) (TRef.of (T := ⟨S4000000, .f32⟩) main_call13_v1) (TRef.of (T := ⟨S4000000, .f32⟩) main_v63) minimumf ]

def S7 : List (HloOp τ sig (Elt F)) :=
  [ binary main_v23 main_v23 main_v64 (mulf : (⟨S4000000, .f32⟩ : BufTy).Contents (Elt F) → (⟨S4000000, .f32⟩ : BufTy).Contents (Elt F) → (⟨S4000000, .f32⟩ : BufTy).Contents (Elt F)),
    nullary main_cst_33 (constant S_ .f32 0x44800000#32),
    unary main_cst_33 main_v65 (broadcastInDim S4000000 ![] bcast_S_S4000000 : (⟨S_, .f32⟩ : BufTy).Contents (Elt F) → (⟨S4000000, .f32⟩ : BufTy).Contents (Elt F)),
    binary main_v64 main_v65 main_v66 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v66) (TRef.of (T := ⟨S4000000, .f32⟩) main_v67) Host.roundeven,
    nullary main_cst_34 (constant S_ .f32 0x44800000#32),
    unary main_cst_34 main_v68 (broadcastInDim S4000000 ![] bcast_S_S4000000 : (⟨S_, .f32⟩ : BufTy).Contents (Elt F) → (⟨S4000000, .f32⟩ : BufTy).Contents (Elt F)),
    binary main_v67 main_v68 main_v69 (Host.divf : (⟨S4000000, .f32⟩ : BufTy).Contents (Elt F) → (⟨S4000000, .f32⟩ : BufTy).Contents (Elt F) → (⟨S4000000, .f32⟩ : BufTy).Contents (Elt F)),
    nullary main_cst_35 (constant S_ .f32 0xC2800000#32),
    nullary main_cst_36 (constant S_ .f32 0x427FFF00#32),
    TRef.unary (TRef.of (T := ⟨S_, .f32⟩) main_cst_35) (TRef.of (T := ⟨S4000000, .f32⟩) main_call15_v0) (broadcastInDim S4000000 ![] bcast_S_S4000000),
    TRef.binary (TRef.of (T := ⟨S4000000, .f32⟩) main_call15_v0) (TRef.of (T := ⟨S4000000, .f32⟩) main_v69) (TRef.of (T := ⟨S4000000, .f32⟩) main_call15_v1) maximumf,
    TRef.unary (TRef.of (T := ⟨S_, .f32⟩) main_cst_36) (TRef.of (T := ⟨S4000000, .f32⟩) main_call15_v2) (broadcastInDim S4000000 ![] bcast_S_S4000000),
    TRef.binary (TRef.of (T := ⟨S4000000, .f32⟩) main_call15_v2) (TRef.of (T := ⟨S4000000, .f32⟩) main_call15_v1) (TRef.of (T := ⟨S4000000, .f32⟩) main_v70) minimumf ]

def S8 : List (HloOp τ sig (Elt F)) :=
  [ binary main_v35 main_v35 main_v71 (mulf : (⟨S4000000, .f32⟩ : BufTy).Contents (Elt F) → (⟨S4000000, .f32⟩ : BufTy).Contents (Elt F) → (⟨S4000000, .f32⟩ : BufTy).Contents (Elt F)),
    nullary main_cst_37 (constant S_ .f32 0x44800000#32),
    unary main_cst_37 main_v72 (broadcastInDim S4000000 ![] bcast_S_S4000000 : (⟨S_, .f32⟩ : BufTy).Contents (Elt F) → (⟨S4000000, .f32⟩ : BufTy).Contents (Elt F)),
    binary main_v71 main_v72 main_v73 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v73) (TRef.of (T := ⟨S4000000, .f32⟩) main_v74) Host.roundeven,
    nullary main_cst_38 (constant S_ .f32 0x44800000#32),
    unary main_cst_38 main_v75 (broadcastInDim S4000000 ![] bcast_S_S4000000 : (⟨S_, .f32⟩ : BufTy).Contents (Elt F) → (⟨S4000000, .f32⟩ : BufTy).Contents (Elt F)),
    binary main_v74 main_v75 main_v76 (Host.divf : (⟨S4000000, .f32⟩ : BufTy).Contents (Elt F) → (⟨S4000000, .f32⟩ : BufTy).Contents (Elt F) → (⟨S4000000, .f32⟩ : BufTy).Contents (Elt F)),
    nullary main_cst_39 (constant S_ .f32 0xC2800000#32),
    nullary main_cst_40 (constant S_ .f32 0x427FFF00#32),
    TRef.unary (TRef.of (T := ⟨S_, .f32⟩) main_cst_39) (TRef.of (T := ⟨S4000000, .f32⟩) main_call17_v0) (broadcastInDim S4000000 ![] bcast_S_S4000000),
    TRef.binary (TRef.of (T := ⟨S4000000, .f32⟩) main_call17_v0) (TRef.of (T := ⟨S4000000, .f32⟩) main_v76) (TRef.of (T := ⟨S4000000, .f32⟩) main_call17_v1) maximumf,
    TRef.unary (TRef.of (T := ⟨S_, .f32⟩) main_cst_40) (TRef.of (T := ⟨S4000000, .f32⟩) main_call17_v2) (broadcastInDim S4000000 ![] bcast_S_S4000000),
    TRef.binary (TRef.of (T := ⟨S4000000, .f32⟩) main_call17_v2) (TRef.of (T := ⟨S4000000, .f32⟩) main_call17_v1) (TRef.of (T := ⟨S4000000, .f32⟩) main_v77) minimumf ]

def C0 : List (HloOp τ sig (Elt F)) :=
  [ nullary main_cst_41 (constant S_ .f32 0x3F800000#32),
    unary main_cst_41 main_v78 (broadcastInDim S4000000 ![] bcast_S_S4000000 : (⟨S_, .f32⟩ : BufTy).Contents (Elt F) → (⟨S4000000, .f32⟩ : BufTy).Contents (Elt F)),
    nullary main_cst_42 (constant S_ .f32 0x3E906EBB#32),
    nullary main_cst_43 (constant S_ .f32 0x44800000#32),
    binary main_cst_42 main_cst_43 main_v79 (mulf : (⟨S_, .f32⟩ : BufTy).Contents (Elt F) → (⟨S_, .f32⟩ : BufTy).Contents (Elt F) → (⟨S_, .f32⟩ : BufTy).Contents (Elt F)),
    TRef.unary (TRef.of (T := ⟨S_, .f32⟩) main_v79) (TRef.of (T := ⟨S_, .f32⟩) main_v80) Host.roundeven,
    nullary main_cst_44 (constant S_ .f32 0x44800000#32),
    binary main_v80 main_cst_44 main_v81 (Host.divf : (⟨S_, .f32⟩ : BufTy).Contents (Elt F) → (⟨S_, .f32⟩ : BufTy).Contents (Elt F) → (⟨S_, .f32⟩ : BufTy).Contents (Elt F)),
    nullary main_cst_45 (constant S_ .f32 0xC2800000#32),
    nullary main_cst_46 (constant S_ .f32 0x427FFF00#32),
    TRef.binary (TRef.of (T := ⟨S_, .f32⟩) main_cst_45) (TRef.of (T := ⟨S_, .f32⟩) main_v81) (TRef.of (T := ⟨S_, .f32⟩) main_call19_v0) maximumf,
    TRef.binary (TRef.of (T := ⟨S_, .f32⟩) main_cst_46) (TRef.of (T := ⟨S_, .f32⟩) main_call19_v0) (TRef.of (T := ⟨S_, .f32⟩) main_v82) minimumf,
    unary main_v82 main_v83 (broadcastInDim S4000000 ![] bcast_S_S4000000 : (⟨S_, .f32⟩ : BufTy).Contents (Elt F) → (⟨S4000000, .f32⟩ : BufTy).Contents (Elt F)),
    binary main_v83 main_v78 main_v84 (mulf : (⟨S4000000, .f32⟩ : BufTy).Contents (Elt F) → (⟨S4000000, .f32⟩ : BufTy).Contents (Elt F) → (⟨S4000000, .f32⟩ : BufTy).Contents (Elt F)) ]

def C1 : List (HloOp τ sig (Elt F)) :=
  [ nullary main_cst_47 (constant S_ .f32 0xBEFA2A1C#32),
    nullary main_cst_48 (constant S_ .f32 0x44800000#32),
    binary main_cst_47 main_cst_48 main_v85 (mulf : (⟨S_, .f32⟩ : BufTy).Contents (Elt F) → (⟨S_, .f32⟩ : BufTy).Contents (Elt F) → (⟨S_, .f32⟩ : BufTy).Contents (Elt F)),
    TRef.unary (TRef.of (T := ⟨S_, .f32⟩) main_v85) (TRef.of (T := ⟨S_, .f32⟩) main_v86) Host.roundeven,
    nullary main_cst_49 (constant S_ .f32 0x44800000#32),
    binary main_v86 main_cst_49 main_v87 (Host.divf : (⟨S_, .f32⟩ : BufTy).Contents (Elt F) → (⟨S_, .f32⟩ : BufTy).Contents (Elt F) → (⟨S_, .f32⟩ : BufTy).Contents (Elt F)),
    nullary main_cst_50 (constant S_ .f32 0xC2800000#32),
    nullary main_cst_51 (constant S_ .f32 0x427FFF00#32),
    TRef.binary (TRef.of (T := ⟨S_, .f32⟩) main_cst_50) (TRef.of (T := ⟨S_, .f32⟩) main_v87) (TRef.of (T := ⟨S_, .f32⟩) main_call21_v0) maximumf,
    TRef.binary (TRef.of (T := ⟨S_, .f32⟩) main_cst_51) (TRef.of (T := ⟨S_, .f32⟩) main_call21_v0) (TRef.of (T := ⟨S_, .f32⟩) main_v88) minimumf,
    nullary main_cst_52 (constant S_ .f32 0x44800000#32),
    unary main_cst_52 main_v89 (broadcastInDim S4000000 ![] bcast_S_S4000000 : (⟨S_, .f32⟩ : BufTy).Contents (Elt F) → (⟨S4000000, .f32⟩ : BufTy).Contents (Elt F)),
    binary main_v23 main_v89 main_v90 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v90) (TRef.of (T := ⟨S4000000, .f32⟩) main_v91) Host.roundeven,
    nullary main_cst_53 (constant S_ .f32 0x44800000#32),
    unary main_cst_53 main_v92 (broadcastInDim S4000000 ![] bcast_S_S4000000 : (⟨S_, .f32⟩ : BufTy).Contents (Elt F) → (⟨S4000000, .f32⟩ : BufTy).Contents (Elt F)),
    binary main_v91 main_v92 main_v93 (Host.divf : (⟨S4000000, .f32⟩ : BufTy).Contents (Elt F) → (⟨S4000000, .f32⟩ : BufTy).Contents (Elt F) → (⟨S4000000, .f32⟩ : BufTy).Contents (Elt F)),
    nullary main_cst_54 (constant S_ .f32 0xC2800000#32),
    nullary main_cst_55 (constant S_ .f32 0x427FFF00#32),
    TRef.unary (TRef.of (T := ⟨S_, .f32⟩) main_cst_54) (TRef.of (T := ⟨S4000000, .f32⟩) main_call23_v0) (broadcastInDim S4000000 ![] bcast_S_S4000000),
    TRef.binary (TRef.of (T := ⟨S4000000, .f32⟩) main_call23_v0) (TRef.of (T := ⟨S4000000, .f32⟩) main_v93) (TRef.of (T := ⟨S4000000, .f32⟩) main_call23_v1) maximumf,
    TRef.unary (TRef.of (T := ⟨S_, .f32⟩) main_cst_55) (TRef.of (T := ⟨S4000000, .f32⟩) main_call23_v2) (broadcastInDim S4000000 ![] bcast_S_S4000000),
    TRef.binary (TRef.of (T := ⟨S4000000, .f32⟩) main_call23_v2) (TRef.of (T := ⟨S4000000, .f32⟩) main_call23_v1) (TRef.of (T := ⟨S4000000, .f32⟩) main_v94) minimumf,
    unary main_v88 main_v95 (broadcastInDim S4000000 ![] bcast_S_S4000000 : (⟨S_, .f32⟩ : BufTy).Contents (Elt F) → (⟨S4000000, .f32⟩ : BufTy).Contents (Elt F)),
    binary main_v95 main_v94 main_v96 (mulf : (⟨S4000000, .f32⟩ : BufTy).Contents (Elt F) → (⟨S4000000, .f32⟩ : BufTy).Contents (Elt F) → (⟨S4000000, .f32⟩ : BufTy).Contents (Elt F)),
    nullary main_cst_56 (constant S_ .f32 0x44800000#32),
    unary main_cst_56 main_v97 (broadcastInDim S4000000 ![] bcast_S_S4000000 : (⟨S_, .f32⟩ : BufTy).Contents (Elt F) → (⟨S4000000, .f32⟩ : BufTy).Contents (Elt F)),
    binary main_v96 main_v97 main_v98 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v98) (TRef.of (T := ⟨S4000000, .f32⟩) main_v99) Host.roundeven,
    nullary main_cst_57 (constant S_ .f32 0x44800000#32),
    unary main_cst_57 main_v100 (broadcastInDim S4000000 ![] bcast_S_S4000000 : (⟨S_, .f32⟩ : BufTy).Contents (Elt F) → (⟨S4000000, .f32⟩ : BufTy).Contents (Elt F)),
    binary main_v99 main_v100 main_v101 (Host.divf : (⟨S4000000, .f32⟩ : BufTy).Contents (Elt F) → (⟨S4000000, .f32⟩ : BufTy).Contents (Elt F) → (⟨S4000000, .f32⟩ : BufTy).Contents (Elt F)),
    nullary main_cst_58 (constant S_ .f32 0xC2800000#32),
    nullary main_cst_59 (constant S_ .f32 0x427FFF00#32),
    TRef.unary (TRef.of (T := ⟨S_, .f32⟩) main_cst_58) (TRef.of (T := ⟨S4000000, .f32⟩) main_call25_v0) (broadcastInDim S4000000 ![] bcast_S_S4000000),
    TRef.binary (TRef.of (T := ⟨S4000000, .f32⟩) main_call25_v0) (TRef.of (T := ⟨S4000000, .f32⟩) main_v101) (TRef.of (T := ⟨S4000000, .f32⟩) main_call25_v1) maximumf,
    TRef.unary (TRef.of (T := ⟨S_, .f32⟩) main_cst_59) (TRef.of (T := ⟨S4000000, .f32⟩) main_call25_v2) (broadcastInDim S4000000 ![] bcast_S_S4000000),
    TRef.binary (TRef.of (T := ⟨S4000000, .f32⟩) main_call25_v2) (TRef.of (T := ⟨S4000000, .f32⟩) main_call25_v1) (TRef.of (T := ⟨S4000000, .f32⟩) main_v102) minimumf ]

def C2 : List (HloOp τ sig (Elt F)) :=
  [ nullary main_cst_60 (constant S_ .f32 0x3EFA2A1C#32),
    nullary main_cst_61 (constant S_ .f32 0x44800000#32),
    binary main_cst_60 main_cst_61 main_v103 (mulf : (⟨S_, .f32⟩ : BufTy).Contents (Elt F) → (⟨S_, .f32⟩ : BufTy).Contents (Elt F) → (⟨S_, .f32⟩ : BufTy).Contents (Elt F)),
    TRef.unary (TRef.of (T := ⟨S_, .f32⟩) main_v103) (TRef.of (T := ⟨S_, .f32⟩) main_v104) Host.roundeven,
    nullary main_cst_62 (constant S_ .f32 0x44800000#32),
    binary main_v104 main_cst_62 main_v105 (Host.divf : (⟨S_, .f32⟩ : BufTy).Contents (Elt F) → (⟨S_, .f32⟩ : BufTy).Contents (Elt F) → (⟨S_, .f32⟩ : BufTy).Contents (Elt F)),
    nullary main_cst_63 (constant S_ .f32 0xC2800000#32),
    nullary main_cst_64 (constant S_ .f32 0x427FFF00#32),
    TRef.binary (TRef.of (T := ⟨S_, .f32⟩) main_cst_63) (TRef.of (T := ⟨S_, .f32⟩) main_v105) (TRef.of (T := ⟨S_, .f32⟩) main_call27_v0) maximumf,
    TRef.binary (TRef.of (T := ⟨S_, .f32⟩) main_cst_64) (TRef.of (T := ⟨S_, .f32⟩) main_call27_v0) (TRef.of (T := ⟨S_, .f32⟩) main_v106) minimumf,
    nullary main_cst_65 (constant S_ .f32 0x44800000#32),
    unary main_cst_65 main_v107 (broadcastInDim S4000000 ![] bcast_S_S4000000 : (⟨S_, .f32⟩ : BufTy).Contents (Elt F) → (⟨S4000000, .f32⟩ : BufTy).Contents (Elt F)),
    binary main_v35 main_v107 main_v108 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v108) (TRef.of (T := ⟨S4000000, .f32⟩) main_v109) Host.roundeven,
    nullary main_cst_66 (constant S_ .f32 0x44800000#32),
    unary main_cst_66 main_v110 (broadcastInDim S4000000 ![] bcast_S_S4000000 : (⟨S_, .f32⟩ : BufTy).Contents (Elt F) → (⟨S4000000, .f32⟩ : BufTy).Contents (Elt F)),
    binary main_v109 main_v110 main_v111 (Host.divf : (⟨S4000000, .f32⟩ : BufTy).Contents (Elt F) → (⟨S4000000, .f32⟩ : BufTy).Contents (Elt F) → (⟨S4000000, .f32⟩ : BufTy).Contents (Elt F)),
    nullary main_cst_67 (constant S_ .f32 0xC2800000#32),
    nullary main_cst_68 (constant S_ .f32 0x427FFF00#32),
    TRef.unary (TRef.of (T := ⟨S_, .f32⟩) main_cst_67) (TRef.of (T := ⟨S4000000, .f32⟩) main_call29_v0) (broadcastInDim S4000000 ![] bcast_S_S4000000),
    TRef.binary (TRef.of (T := ⟨S4000000, .f32⟩) main_call29_v0) (TRef.of (T := ⟨S4000000, .f32⟩) main_v111) (TRef.of (T := ⟨S4000000, .f32⟩) main_call29_v1) maximumf,
    TRef.unary (TRef.of (T := ⟨S_, .f32⟩) main_cst_68) (TRef.of (T := ⟨S4000000, .f32⟩) main_call29_v2) (broadcastInDim S4000000 ![] bcast_S_S4000000),
    TRef.binary (TRef.of (T := ⟨S4000000, .f32⟩) main_call29_v2) (TRef.of (T := ⟨S4000000, .f32⟩) main_call29_v1) (TRef.of (T := ⟨S4000000, .f32⟩) main_v112) minimumf,
    unary main_v106 main_v113 (broadcastInDim S4000000 ![] bcast_S_S4000000 : (⟨S_, .f32⟩ : BufTy).Contents (Elt F) → (⟨S4000000, .f32⟩ : BufTy).Contents (Elt F)),
    binary main_v113 main_v112 main_v114 (mulf : (⟨S4000000, .f32⟩ : BufTy).Contents (Elt F) → (⟨S4000000, .f32⟩ : BufTy).Contents (Elt F) → (⟨S4000000, .f32⟩ : BufTy).Contents (Elt F)),
    nullary main_cst_69 (constant S_ .f32 0x44800000#32),
    unary main_cst_69 main_v115 (broadcastInDim S4000000 ![] bcast_S_S4000000 : (⟨S_, .f32⟩ : BufTy).Contents (Elt F) → (⟨S4000000, .f32⟩ : BufTy).Contents (Elt F)),
    binary main_v114 main_v115 main_v116 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v116) (TRef.of (T := ⟨S4000000, .f32⟩) main_v117) Host.roundeven,
    nullary main_cst_70 (constant S_ .f32 0x44800000#32),
    unary main_cst_70 main_v118 (broadcastInDim S4000000 ![] bcast_S_S4000000 : (⟨S_, .f32⟩ : BufTy).Contents (Elt F) → (⟨S4000000, .f32⟩ : BufTy).Contents (Elt F)),
    binary main_v117 main_v118 main_v119 (Host.divf : (⟨S4000000, .f32⟩ : BufTy).Contents (Elt F) → (⟨S4000000, .f32⟩ : BufTy).Contents (Elt F) → (⟨S4000000, .f32⟩ : BufTy).Contents (Elt F)),
    nullary main_cst_71 (constant S_ .f32 0xC2800000#32),
    nullary main_cst_72 (constant S_ .f32 0x427FFF00#32),
    TRef.unary (TRef.of (T := ⟨S_, .f32⟩) main_cst_71) (TRef.of (T := ⟨S4000000, .f32⟩) main_call31_v0) (broadcastInDim S4000000 ![] bcast_S_S4000000),
    TRef.binary (TRef.of (T := ⟨S4000000, .f32⟩) main_call31_v0) (TRef.of (T := ⟨S4000000, .f32⟩) main_v119) (TRef.of (T := ⟨S4000000, .f32⟩) main_call31_v1) maximumf,
    TRef.unary (TRef.of (T := ⟨S_, .f32⟩) main_cst_72) (TRef.of (T := ⟨S4000000, .f32⟩) main_call31_v2) (broadcastInDim S4000000 ![] bcast_S_S4000000),
    TRef.binary (TRef.of (T := ⟨S4000000, .f32⟩) main_call31_v2) (TRef.of (T := ⟨S4000000, .f32⟩) main_call31_v1) (TRef.of (T := ⟨S4000000, .f32⟩) main_v120) minimumf ]

def C3 : List (HloOp τ sig (Elt F)) :=
  [ nullary main_cst_73 (constant S_ .f32 0xBEFA2A1C#32),
    nullary main_cst_74 (constant S_ .f32 0x44800000#32),
    binary main_cst_73 main_cst_74 main_v121 (mulf : (⟨S_, .f32⟩ : BufTy).Contents (Elt F) → (⟨S_, .f32⟩ : BufTy).Contents (Elt F) → (⟨S_, .f32⟩ : BufTy).Contents (Elt F)),
    TRef.unary (TRef.of (T := ⟨S_, .f32⟩) main_v121) (TRef.of (T := ⟨S_, .f32⟩) main_v122) Host.roundeven,
    nullary main_cst_75 (constant S_ .f32 0x44800000#32),
    binary main_v122 main_cst_75 main_v123 (Host.divf : (⟨S_, .f32⟩ : BufTy).Contents (Elt F) → (⟨S_, .f32⟩ : BufTy).Contents (Elt F) → (⟨S_, .f32⟩ : BufTy).Contents (Elt F)),
    nullary main_cst_76 (constant S_ .f32 0xC2800000#32),
    nullary main_cst_77 (constant S_ .f32 0x427FFF00#32),
    TRef.binary (TRef.of (T := ⟨S_, .f32⟩) main_cst_76) (TRef.of (T := ⟨S_, .f32⟩) main_v123) (TRef.of (T := ⟨S_, .f32⟩) main_call33_v0) maximumf,
    TRef.binary (TRef.of (T := ⟨S_, .f32⟩) main_cst_77) (TRef.of (T := ⟨S_, .f32⟩) main_call33_v0) (TRef.of (T := ⟨S_, .f32⟩) main_v124) minimumf,
    nullary main_cst_78 (constant S_ .f32 0x44800000#32),
    unary main_cst_78 main_v125 (broadcastInDim S4000000 ![] bcast_S_S4000000 : (⟨S_, .f32⟩ : BufTy).Contents (Elt F) → (⟨S4000000, .f32⟩ : BufTy).Contents (Elt F)),
    binary main_v11 main_v125 main_v126 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v126) (TRef.of (T := ⟨S4000000, .f32⟩) main_v127) Host.roundeven,
    nullary main_cst_79 (constant S_ .f32 0x44800000#32),
    unary main_cst_79 main_v128 (broadcastInDim S4000000 ![] bcast_S_S4000000 : (⟨S_, .f32⟩ : BufTy).Contents (Elt F) → (⟨S4000000, .f32⟩ : BufTy).Contents (Elt F)),
    binary main_v127 main_v128 main_v129 (Host.divf : (⟨S4000000, .f32⟩ : BufTy).Contents (Elt F) → (⟨S4000000, .f32⟩ : BufTy).Contents (Elt F) → (⟨S4000000, .f32⟩ : BufTy).Contents (Elt F)),
    nullary main_cst_80 (constant S_ .f32 0xC2800000#32),
    nullary main_cst_81 (constant S_ .f32 0x427FFF00#32),
    TRef.unary (TRef.of (T := ⟨S_, .f32⟩) main_cst_80) (TRef.of (T := ⟨S4000000, .f32⟩) main_call35_v0) (broadcastInDim S4000000 ![] bcast_S_S4000000),
    TRef.binary (TRef.of (T := ⟨S4000000, .f32⟩) main_call35_v0) (TRef.of (T := ⟨S4000000, .f32⟩) main_v129) (TRef.of (T := ⟨S4000000, .f32⟩) main_call35_v1) maximumf,
    TRef.unary (TRef.of (T := ⟨S_, .f32⟩) main_cst_81) (TRef.of (T := ⟨S4000000, .f32⟩) main_call35_v2) (broadcastInDim S4000000 ![] bcast_S_S4000000),
    TRef.binary (TRef.of (T := ⟨S4000000, .f32⟩) main_call35_v2) (TRef.of (T := ⟨S4000000, .f32⟩) main_call35_v1) (TRef.of (T := ⟨S4000000, .f32⟩) main_v130) minimumf,
    unary main_v124 main_v131 (broadcastInDim S4000000 ![] bcast_S_S4000000 : (⟨S_, .f32⟩ : BufTy).Contents (Elt F) → (⟨S4000000, .f32⟩ : BufTy).Contents (Elt F)),
    binary main_v131 main_v130 main_v132 (mulf : (⟨S4000000, .f32⟩ : BufTy).Contents (Elt F) → (⟨S4000000, .f32⟩ : BufTy).Contents (Elt F) → (⟨S4000000, .f32⟩ : BufTy).Contents (Elt F)),
    nullary main_cst_82 (constant S_ .f32 0x44800000#32),
    unary main_cst_82 main_v133 (broadcastInDim S4000000 ![] bcast_S_S4000000 : (⟨S_, .f32⟩ : BufTy).Contents (Elt F) → (⟨S4000000, .f32⟩ : BufTy).Contents (Elt F)),
    binary main_v132 main_v133 main_v134 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v134) (TRef.of (T := ⟨S4000000, .f32⟩) main_v135) Host.roundeven,
    nullary main_cst_83 (constant S_ .f32 0x44800000#32),
    unary main_cst_83 main_v136 (broadcastInDim S4000000 ![] bcast_S_S4000000 : (⟨S_, .f32⟩ : BufTy).Contents (Elt F) → (⟨S4000000, .f32⟩ : BufTy).Contents (Elt F)),
    binary main_v135 main_v136 main_v137 (Host.divf : (⟨S4000000, .f32⟩ : BufTy).Contents (Elt F) → (⟨S4000000, .f32⟩ : BufTy).Contents (Elt F) → (⟨S4000000, .f32⟩ : BufTy).Contents (Elt F)),
    nullary main_cst_84 (constant S_ .f32 0xC2800000#32),
    nullary main_cst_85 (constant S_ .f32 0x427FFF00#32),
    TRef.unary (TRef.of (T := ⟨S_, .f32⟩) main_cst_84) (TRef.of (T := ⟨S4000000, .f32⟩) main_call37_v0) (broadcastInDim S4000000 ![] bcast_S_S4000000),
    TRef.binary (TRef.of (T := ⟨S4000000, .f32⟩) main_call37_v0) (TRef.of (T := ⟨S4000000, .f32⟩) main_v137) (TRef.of (T := ⟨S4000000, .f32⟩) main_call37_v1) maximumf,
    TRef.unary (TRef.of (T := ⟨S_, .f32⟩) main_cst_85) (TRef.of (T := ⟨S4000000, .f32⟩) main_call37_v2) (broadcastInDim S4000000 ![] bcast_S_S4000000),
    TRef.binary (TRef.of (T := ⟨S4000000, .f32⟩) main_call37_v2) (TRef.of (T := ⟨S4000000, .f32⟩) main_call37_v1) (TRef.of (T := ⟨S4000000, .f32⟩) main_v138) minimumf ]

def C4 : List (HloOp τ sig (Elt F)) :=
  [ nullary main_cst_86 (constant S_ .f32 0x3F8BD8A1#32),
    nullary main_cst_87 (constant S_ .f32 0x44800000#32),
    binary main_cst_86 main_cst_87 main_v139 (mulf : (⟨S_, .f32⟩ : BufTy).Contents (Elt F) → (⟨S_, .f32⟩ : BufTy).Contents (Elt F) → (⟨S_, .f32⟩ : BufTy).Contents (Elt F)),
    TRef.unary (TRef.of (T := ⟨S_, .f32⟩) main_v139) (TRef.of (T := ⟨S_, .f32⟩) main_v140) Host.roundeven,
    nullary main_cst_88 (constant S_ .f32 0x44800000#32),
    binary main_v140 main_cst_88 main_v141 (Host.divf : (⟨S_, .f32⟩ : BufTy).Contents (Elt F) → (⟨S_, .f32⟩ : BufTy).Contents (Elt F) → (⟨S_, .f32⟩ : BufTy).Contents (Elt F)),
    nullary main_cst_89 (constant S_ .f32 0xC2800000#32),
    nullary main_cst_90 (constant S_ .f32 0x427FFF00#32),
    TRef.binary (TRef.of (T := ⟨S_, .f32⟩) main_cst_89) (TRef.of (T := ⟨S_, .f32⟩) main_v141) (TRef.of (T := ⟨S_, .f32⟩) main_call39_v0) maximumf,
    TRef.binary (TRef.of (T := ⟨S_, .f32⟩) main_cst_90) (TRef.of (T := ⟨S_, .f32⟩) main_call39_v0) (TRef.of (T := ⟨S_, .f32⟩) main_v142) minimumf,
    nullary main_cst_91 (constant S_ .f32 0x44800000#32),
    unary main_cst_91 main_v143 (broadcastInDim S4000000 ![] bcast_S_S4000000 : (⟨S_, .f32⟩ : BufTy).Contents (Elt F) → (⟨S4000000, .f32⟩ : BufTy).Contents (Elt F)),
    binary main_v42 main_v143 main_v144 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v144) (TRef.of (T := ⟨S4000000, .f32⟩) main_v145) Host.roundeven,
    nullary main_cst_92 (constant S_ .f32 0x44800000#32),
    unary main_cst_92 main_v146 (broadcastInDim S4000000 ![] bcast_S_S4000000 : (⟨S_, .f32⟩ : BufTy).Contents (Elt F) → (⟨S4000000, .f32⟩ : BufTy).Contents (Elt F)),
    binary main_v145 main_v146 main_v147 (Host.divf : (⟨S4000000, .f32⟩ : BufTy).Contents (Elt F) → (⟨S4000000, .f32⟩ : BufTy).Contents (Elt F) → (⟨S4000000, .f32⟩ : BufTy).Contents (Elt F)),
    nullary main_cst_93 (constant S_ .f32 0xC2800000#32),
    nullary main_cst_94 (constant S_ .f32 0x427FFF00#32),
    TRef.unary (TRef.of (T := ⟨S_, .f32⟩) main_cst_93) (TRef.of (T := ⟨S4000000, .f32⟩) main_call41_v0) (broadcastInDim S4000000 ![] bcast_S_S4000000),
    TRef.binary (TRef.of (T := ⟨S4000000, .f32⟩) main_call41_v0) (TRef.of (T := ⟨S4000000, .f32⟩) main_v147) (TRef.of (T := ⟨S4000000, .f32⟩) main_call41_v1) maximumf,
    TRef.unary (TRef.of (T := ⟨S_, .f32⟩) main_cst_94) (TRef.of (T := ⟨S4000000, .f32⟩) main_call41_v2) (broadcastInDim S4000000 ![] bcast_S_S4000000),
    TRef.binary (TRef.of (T := ⟨S4000000, .f32⟩) main_call41_v2) (TRef.of (T := ⟨S4000000, .f32⟩) main_call41_v1) (TRef.of (T := ⟨S4000000, .f32⟩) main_v148) minimumf,
    unary main_v142 main_v149 (broadcastInDim S4000000 ![] bcast_S_S4000000 : (⟨S_, .f32⟩ : BufTy).Contents (Elt F) → (⟨S4000000, .f32⟩ : BufTy).Contents (Elt F)),
    binary main_v149 main_v148 main_v150 (mulf : (⟨S4000000, .f32⟩ : BufTy).Contents (Elt F) → (⟨S4000000, .f32⟩ : BufTy).Contents (Elt F) → (⟨S4000000, .f32⟩ : BufTy).Contents (Elt F)),
    nullary main_cst_95 (constant S_ .f32 0x44800000#32),
    unary main_cst_95 main_v151 (broadcastInDim S4000000 ![] bcast_S_S4000000 : (⟨S_, .f32⟩ : BufTy).Contents (Elt F) → (⟨S4000000, .f32⟩ : BufTy).Contents (Elt F)),
    binary main_v150 main_v151 main_v152 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v152) (TRef.of (T := ⟨S4000000, .f32⟩) main_v153) Host.roundeven,
    nullary main_cst_96 (constant S_ .f32 0x44800000#32),
    unary main_cst_96 main_v154 (broadcastInDim S4000000 ![] bcast_S_S4000000 : (⟨S_, .f32⟩ : BufTy).Contents (Elt F) → (⟨S4000000, .f32⟩ : BufTy).Contents (Elt F)),
    binary main_v153 main_v154 main_v155 (Host.divf : (⟨S4000000, .f32⟩ : BufTy).Contents (Elt F) → (⟨S4000000, .f32⟩ : BufTy).Contents (Elt F) → (⟨S4000000, .f32⟩ : BufTy).Contents (Elt F)),
    nullary main_cst_97 (constant S_ .f32 0xC2800000#32),
    nullary main_cst_98 (constant S_ .f32 0x427FFF00#32),
    TRef.unary (TRef.of (T := ⟨S_, .f32⟩) main_cst_97) (TRef.of (T := ⟨S4000000, .f32⟩) main_call43_v0) (broadcastInDim S4000000 ![] bcast_S_S4000000),
    TRef.binary (TRef.of (T := ⟨S4000000, .f32⟩) main_call43_v0) (TRef.of (T := ⟨S4000000, .f32⟩) main_v155) (TRef.of (T := ⟨S4000000, .f32⟩) main_call43_v1) maximumf,
    TRef.unary (TRef.of (T := ⟨S_, .f32⟩) main_cst_98) (TRef.of (T := ⟨S4000000, .f32⟩) main_call43_v2) (broadcastInDim S4000000 ![] bcast_S_S4000000),
    TRef.binary (TRef.of (T := ⟨S4000000, .f32⟩) main_call43_v2) (TRef.of (T := ⟨S4000000, .f32⟩) main_call43_v1) (TRef.of (T := ⟨S4000000, .f32⟩) main_v156) minimumf ]

def C5 : List (HloOp τ sig (Elt F)) :=
  [ nullary main_cst_99 (constant S_ .f32 0xBF8BD8A1#32),
    nullary main_cst_100 (constant S_ .f32 0x44800000#32),
    binary main_cst_99 main_cst_100 main_v157 (mulf : (⟨S_, .f32⟩ : BufTy).Contents (Elt F) → (⟨S_, .f32⟩ : BufTy).Contents (Elt F) → (⟨S_, .f32⟩ : BufTy).Contents (Elt F)),
    TRef.unary (TRef.of (T := ⟨S_, .f32⟩) main_v157) (TRef.of (T := ⟨S_, .f32⟩) main_v158) Host.roundeven,
    nullary main_cst_101 (constant S_ .f32 0x44800000#32),
    binary main_v158 main_cst_101 main_v159 (Host.divf : (⟨S_, .f32⟩ : BufTy).Contents (Elt F) → (⟨S_, .f32⟩ : BufTy).Contents (Elt F) → (⟨S_, .f32⟩ : BufTy).Contents (Elt F)),
    nullary main_cst_102 (constant S_ .f32 0xC2800000#32),
    nullary main_cst_103 (constant S_ .f32 0x427FFF00#32),
    TRef.binary (TRef.of (T := ⟨S_, .f32⟩) main_cst_102) (TRef.of (T := ⟨S_, .f32⟩) main_v159) (TRef.of (T := ⟨S_, .f32⟩) main_call45_v0) maximumf,
    TRef.binary (TRef.of (T := ⟨S_, .f32⟩) main_cst_103) (TRef.of (T := ⟨S_, .f32⟩) main_call45_v0) (TRef.of (T := ⟨S_, .f32⟩) main_v160) minimumf,
    nullary main_cst_104 (constant S_ .f32 0x44800000#32),
    unary main_cst_104 main_v161 (broadcastInDim S4000000 ![] bcast_S_S4000000 : (⟨S_, .f32⟩ : BufTy).Contents (Elt F) → (⟨S4000000, .f32⟩ : BufTy).Contents (Elt F)),
    binary main_v56 main_v161 main_v162 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v162) (TRef.of (T := ⟨S4000000, .f32⟩) main_v163) Host.roundeven,
    nullary main_cst_105 (constant S_ .f32 0x44800000#32),
    unary main_cst_105 main_v164 (broadcastInDim S4000000 ![] bcast_S_S4000000 : (⟨S_, .f32⟩ : BufTy).Contents (Elt F) → (⟨S4000000, .f32⟩ : BufTy).Contents (Elt F)),
    binary main_v163 main_v164 main_v165 (Host.divf : (⟨S4000000, .f32⟩ : BufTy).Contents (Elt F) → (⟨S4000000, .f32⟩ : BufTy).Contents (Elt F) → (⟨S4000000, .f32⟩ : BufTy).Contents (Elt F)),
    nullary main_cst_106 (constant S_ .f32 0xC2800000#32),
    nullary main_cst_107 (constant S_ .f32 0x427FFF00#32),
    TRef.unary (TRef.of (T := ⟨S_, .f32⟩) main_cst_106) (TRef.of (T := ⟨S4000000, .f32⟩) main_call47_v0) (broadcastInDim S4000000 ![] bcast_S_S4000000),
    TRef.binary (TRef.of (T := ⟨S4000000, .f32⟩) main_call47_v0) (TRef.of (T := ⟨S4000000, .f32⟩) main_v165) (TRef.of (T := ⟨S4000000, .f32⟩) main_call47_v1) maximumf,
    TRef.unary (TRef.of (T := ⟨S_, .f32⟩) main_cst_107) (TRef.of (T := ⟨S4000000, .f32⟩) main_call47_v2) (broadcastInDim S4000000 ![] bcast_S_S4000000),
    TRef.binary (TRef.of (T := ⟨S4000000, .f32⟩) main_call47_v2) (TRef.of (T := ⟨S4000000, .f32⟩) main_call47_v1) (TRef.of (T := ⟨S4000000, .f32⟩) main_v166) minimumf,
    unary main_v160 main_v167 (broadcastInDim S4000000 ![] bcast_S_S4000000 : (⟨S_, .f32⟩ : BufTy).Contents (Elt F) → (⟨S4000000, .f32⟩ : BufTy).Contents (Elt F)),
    binary main_v167 main_v166 main_v168 (mulf : (⟨S4000000, .f32⟩ : BufTy).Contents (Elt F) → (⟨S4000000, .f32⟩ : BufTy).Contents (Elt F) → (⟨S4000000, .f32⟩ : BufTy).Contents (Elt F)),
    nullary main_cst_108 (constant S_ .f32 0x44800000#32),
    unary main_cst_108 main_v169 (broadcastInDim S4000000 ![] bcast_S_S4000000 : (⟨S_, .f32⟩ : BufTy).Contents (Elt F) → (⟨S4000000, .f32⟩ : BufTy).Contents (Elt F)),
    binary main_v168 main_v169 main_v170 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v170) (TRef.of (T := ⟨S4000000, .f32⟩) main_v171) Host.roundeven,
    nullary main_cst_109 (constant S_ .f32 0x44800000#32),
    unary main_cst_109 main_v172 (broadcastInDim S4000000 ![] bcast_S_S4000000 : (⟨S_, .f32⟩ : BufTy).Contents (Elt F) → (⟨S4000000, .f32⟩ : BufTy).Contents (Elt F)),
    binary main_v171 main_v172 main_v173 (Host.divf : (⟨S4000000, .f32⟩ : BufTy).Contents (Elt F) → (⟨S4000000, .f32⟩ : BufTy).Contents (Elt F) → (⟨S4000000, .f32⟩ : BufTy).Contents (Elt F)),
    nullary main_cst_110 (constant S_ .f32 0xC2800000#32),
    nullary main_cst_111 (constant S_ .f32 0x427FFF00#32),
    TRef.unary (TRef.of (T := ⟨S_, .f32⟩) main_cst_110) (TRef.of (T := ⟨S4000000, .f32⟩) main_call49_v0) (broadcastInDim S4000000 ![] bcast_S_S4000000),
    TRef.binary (TRef.of (T := ⟨S4000000, .f32⟩) main_call49_v0) (TRef.of (T := ⟨S4000000, .f32⟩) main_v173) (TRef.of (T := ⟨S4000000, .f32⟩) main_call49_v1) maximumf,
    TRef.unary (TRef.of (T := ⟨S_, .f32⟩) main_cst_111) (TRef.of (T := ⟨S4000000, .f32⟩) main_call49_v2) (broadcastInDim S4000000 ![] bcast_S_S4000000),
    TRef.binary (TRef.of (T := ⟨S4000000, .f32⟩) main_call49_v2) (TRef.of (T := ⟨S4000000, .f32⟩) main_call49_v1) (TRef.of (T := ⟨S4000000, .f32⟩) main_v174) minimumf ]

def C6 : List (HloOp τ sig (Elt F)) :=
  [ nullary main_cst_112 (constant S_ .f32 0x3F723881#32),
    nullary main_cst_113 (constant S_ .f32 0x44800000#32),
    binary main_cst_112 main_cst_113 main_v175 (mulf : (⟨S_, .f32⟩ : BufTy).Contents (Elt F) → (⟨S_, .f32⟩ : BufTy).Contents (Elt F) → (⟨S_, .f32⟩ : BufTy).Contents (Elt F)),
    TRef.unary (TRef.of (T := ⟨S_, .f32⟩) main_v175) (TRef.of (T := ⟨S_, .f32⟩) main_v176) Host.roundeven,
    nullary main_cst_114 (constant S_ .f32 0x44800000#32),
    binary main_v176 main_cst_114 main_v177 (Host.divf : (⟨S_, .f32⟩ : BufTy).Contents (Elt F) → (⟨S_, .f32⟩ : BufTy).Contents (Elt F) → (⟨S_, .f32⟩ : BufTy).Contents (Elt F)),
    nullary main_cst_115 (constant S_ .f32 0xC2800000#32),
    nullary main_cst_116 (constant S_ .f32 0x427FFF00#32),
    TRef.binary (TRef.of (T := ⟨S_, .f32⟩) main_cst_115) (TRef.of (T := ⟨S_, .f32⟩) main_v177) (TRef.of (T := ⟨S_, .f32⟩) main_call51_v0) maximumf,
    TRef.binary (TRef.of (T := ⟨S_, .f32⟩) main_cst_116) (TRef.of (T := ⟨S_, .f32⟩) main_call51_v0) (TRef.of (T := ⟨S_, .f32⟩) main_v178) minimumf,
    nullary main_cst_117 (constant S_ .f32 0x44800000#32),
    unary main_cst_117 main_v179 (broadcastInDim S4000000 ![] bcast_S_S4000000 : (⟨S_, .f32⟩ : BufTy).Contents (Elt F) → (⟨S4000000, .f32⟩ : BufTy).Contents (Elt F)),
    binary main_v77 main_v179 main_v180 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v180) (TRef.of (T := ⟨S4000000, .f32⟩) main_v181) Host.roundeven,
    nullary main_cst_118 (constant S_ .f32 0x44800000#32),
    unary main_cst_118 main_v182 (broadcastInDim S4000000 ![] bcast_S_S4000000 : (⟨S_, .f32⟩ : BufTy).Contents (Elt F) → (⟨S4000000, .f32⟩ : BufTy).Contents (Elt F)),
    binary main_v181 main_v182 main_v183 (Host.divf : (⟨S4000000, .f32⟩ : BufTy).Contents (Elt F) → (⟨S4000000, .f32⟩ : BufTy).Contents (Elt F) → (⟨S4000000, .f32⟩ : BufTy).Contents (Elt F)),
    nullary main_cst_119 (constant S_ .f32 0xC2800000#32),
    nullary main_cst_120 (constant S_ .f32 0x427FFF00#32),
    TRef.unary (TRef.of (T := ⟨S_, .f32⟩) main_cst_119) (TRef.of (T := ⟨S4000000, .f32⟩) main_call53_v0) (broadcastInDim S4000000 ![] bcast_S_S4000000),
    TRef.binary (TRef.of (T := ⟨S4000000, .f32⟩) main_call53_v0) (TRef.of (T := ⟨S4000000, .f32⟩) main_v183) (TRef.of (T := ⟨S4000000, .f32⟩) main_call53_v1) maximumf,
    TRef.unary (TRef.of (T := ⟨S_, .f32⟩) main_cst_120) (TRef.of (T := ⟨S4000000, .f32⟩) main_call53_v2) (broadcastInDim S4000000 ![] bcast_S_S4000000),
    TRef.binary (TRef.of (T := ⟨S4000000, .f32⟩) main_call53_v2) (TRef.of (T := ⟨S4000000, .f32⟩) main_call53_v1) (TRef.of (T := ⟨S4000000, .f32⟩) main_v184) minimumf,
    unary main_v178 main_v185 (broadcastInDim S4000000 ![] bcast_S_S4000000 : (⟨S_, .f32⟩ : BufTy).Contents (Elt F) → (⟨S4000000, .f32⟩ : BufTy).Contents (Elt F)),
    binary main_v185 main_v184 main_v186 (mulf : (⟨S4000000, .f32⟩ : BufTy).Contents (Elt F) → (⟨S4000000, .f32⟩ : BufTy).Contents (Elt F) → (⟨S4000000, .f32⟩ : BufTy).Contents (Elt F)),
    nullary main_cst_121 (constant S_ .f32 0x3EA17B01#32),
    nullary main_cst_122 (constant S_ .f32 0x44800000#32),
    binary main_cst_121 main_cst_122 main_v187 (mulf : (⟨S_, .f32⟩ : BufTy).Contents (Elt F) → (⟨S_, .f32⟩ : BufTy).Contents (Elt F) → (⟨S_, .f32⟩ : BufTy).Contents (Elt F)),
    TRef.unary (TRef.of (T := ⟨S_, .f32⟩) main_v187) (TRef.of (T := ⟨S_, .f32⟩) main_v188) Host.roundeven,
    nullary main_cst_123 (constant S_ .f32 0x44800000#32),
    binary main_v188 main_cst_123 main_v189 (Host.divf : (⟨S_, .f32⟩ : BufTy).Contents (Elt F) → (⟨S_, .f32⟩ : BufTy).Contents (Elt F) → (⟨S_, .f32⟩ : BufTy).Contents (Elt F)),
    nullary main_cst_124 (constant S_ .f32 0xC2800000#32),
    nullary main_cst_125 (constant S_ .f32 0x427FFF00#32),
    TRef.binary (TRef.of (T := ⟨S_, .f32⟩) main_cst_124) (TRef.of (T := ⟨S_, .f32⟩) main_v189) (TRef.of (T := ⟨S_, .f32⟩) main_call55_v0) maximumf,
    TRef.binary (TRef.of (T := ⟨S_, .f32⟩) main_cst_125) (TRef.of (T := ⟨S_, .f32⟩) main_call55_v0) (TRef.of (T := ⟨S_, .f32⟩) main_v190) minimumf,
    unary main_v190 main_v191 (broadcastInDim S4000000 ![] bcast_S_S4000000 : (⟨S_, .f32⟩ : BufTy).Contents (Elt F) → (⟨S4000000, .f32⟩ : BufTy).Contents (Elt F)),
    binary main_v186 main_v191 main_v192 (subf : (⟨S4000000, .f32⟩ : BufTy).Contents (Elt F) → (⟨S4000000, .f32⟩ : BufTy).Contents (Elt F) → (⟨S4000000, .f32⟩ : BufTy).Contents (Elt F)),
    nullary main_cst_126 (constant S_ .f32 0x44800000#32),
    unary main_cst_126 main_v193 (broadcastInDim S4000000 ![] bcast_S_S4000000 : (⟨S_, .f32⟩ : BufTy).Contents (Elt F) → (⟨S4000000, .f32⟩ : BufTy).Contents (Elt F)),
    binary main_v192 main_v193 main_v194 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v194) (TRef.of (T := ⟨S4000000, .f32⟩) main_v195) Host.roundeven,
    nullary main_cst_127 (constant S_ .f32 0x44800000#32),
    unary main_cst_127 main_v196 (broadcastInDim S4000000 ![] bcast_S_S4000000 : (⟨S_, .f32⟩ : BufTy).Contents (Elt F) → (⟨S4000000, .f32⟩ : BufTy).Contents (Elt F)),
    binary main_v195 main_v196 main_v197 (Host.divf : (⟨S4000000, .f32⟩ : BufTy).Contents (Elt F) → (⟨S4000000, .f32⟩ : BufTy).Contents (Elt F) → (⟨S4000000, .f32⟩ : BufTy).Contents (Elt F)),
    nullary main_cst_128 (constant S_ .f32 0xC2800000#32),
    nullary main_cst_129 (constant S_ .f32 0x427FFF00#32),
    TRef.unary (TRef.of (T := ⟨S_, .f32⟩) main_cst_128) (TRef.of (T := ⟨S4000000, .f32⟩) main_call57_v0) (broadcastInDim S4000000 ![] bcast_S_S4000000),
    TRef.binary (TRef.of (T := ⟨S4000000, .f32⟩) main_call57_v0) (TRef.of (T := ⟨S4000000, .f32⟩) main_v197) (TRef.of (T := ⟨S4000000, .f32⟩) main_call57_v1) maximumf,
    TRef.unary (TRef.of (T := ⟨S_, .f32⟩) main_cst_129) (TRef.of (T := ⟨S4000000, .f32⟩) main_call57_v2) (broadcastInDim S4000000 ![] bcast_S_S4000000),
    TRef.binary (TRef.of (T := ⟨S4000000, .f32⟩) main_call57_v2) (TRef.of (T := ⟨S4000000, .f32⟩) main_call57_v1) (TRef.of (T := ⟨S4000000, .f32⟩) main_v198) minimumf ]

def C7 : List (HloOp τ sig (Elt F)) :=
  [ nullary main_cst_130 (constant S_ .f32 0xBF8BD8A1#32),
    nullary main_cst_131 (constant S_ .f32 0x44800000#32),
    binary main_cst_130 main_cst_131 main_v199 (mulf : (⟨S_, .f32⟩ : BufTy).Contents (Elt F) → (⟨S_, .f32⟩ : BufTy).Contents (Elt F) → (⟨S_, .f32⟩ : BufTy).Contents (Elt F)),
    TRef.unary (TRef.of (T := ⟨S_, .f32⟩) main_v199) (TRef.of (T := ⟨S_, .f32⟩) main_v200) Host.roundeven,
    nullary main_cst_132 (constant S_ .f32 0x44800000#32),
    binary main_v200 main_cst_132 main_v201 (Host.divf : (⟨S_, .f32⟩ : BufTy).Contents (Elt F) → (⟨S_, .f32⟩ : BufTy).Contents (Elt F) → (⟨S_, .f32⟩ : BufTy).Contents (Elt F)),
    nullary main_cst_133 (constant S_ .f32 0xC2800000#32),
    nullary main_cst_134 (constant S_ .f32 0x427FFF00#32),
    TRef.binary (TRef.of (T := ⟨S_, .f32⟩) main_cst_133) (TRef.of (T := ⟨S_, .f32⟩) main_v201) (TRef.of (T := ⟨S_, .f32⟩) main_call59_v0) maximumf,
    TRef.binary (TRef.of (T := ⟨S_, .f32⟩) main_cst_134) (TRef.of (T := ⟨S_, .f32⟩) main_call59_v0) (TRef.of (T := ⟨S_, .f32⟩) main_v202) minimumf,
    nullary main_cst_135 (constant S_ .f32 0x44800000#32),
    unary main_cst_135 main_v203 (broadcastInDim S4000000 ![] bcast_S_S4000000 : (⟨S_, .f32⟩ : BufTy).Contents (Elt F) → (⟨S4000000, .f32⟩ : BufTy).Contents (Elt F)),
    binary main_v49 main_v203 main_v204 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v204) (TRef.of (T := ⟨S4000000, .f32⟩) main_v205) Host.roundeven,
    nullary main_cst_136 (constant S_ .f32 0x44800000#32),
    unary main_cst_136 main_v206 (broadcastInDim S4000000 ![] bcast_S_S4000000 : (⟨S_, .f32⟩ : BufTy).Contents (Elt F) → (⟨S4000000, .f32⟩ : BufTy).Contents (Elt F)),
    binary main_v205 main_v206 main_v207 (Host.divf : (⟨S4000000, .f32⟩ : BufTy).Contents (Elt F) → (⟨S4000000, .f32⟩ : BufTy).Contents (Elt F) → (⟨S4000000, .f32⟩ : BufTy).Contents (Elt F)),
    nullary main_cst_137 (constant S_ .f32 0xC2800000#32),
    nullary main_cst_138 (constant S_ .f32 0x427FFF00#32),
    TRef.unary (TRef.of (T := ⟨S_, .f32⟩) main_cst_137) (TRef.of (T := ⟨S4000000, .f32⟩) main_call61_v0) (broadcastInDim S4000000 ![] bcast_S_S4000000),
    TRef.binary (TRef.of (T := ⟨S4000000, .f32⟩) main_call61_v0) (TRef.of (T := ⟨S4000000, .f32⟩) main_v207) (TRef.of (T := ⟨S4000000, .f32⟩) main_call61_v1) maximumf,
    TRef.unary (TRef.of (T := ⟨S_, .f32⟩) main_cst_138) (TRef.of (T := ⟨S4000000, .f32⟩) main_call61_v2) (broadcastInDim S4000000 ![] bcast_S_S4000000),
    TRef.binary (TRef.of (T := ⟨S4000000, .f32⟩) main_call61_v2) (TRef.of (T := ⟨S4000000, .f32⟩) main_call61_v1) (TRef.of (T := ⟨S4000000, .f32⟩) main_v208) minimumf,
    unary main_v202 main_v209 (broadcastInDim S4000000 ![] bcast_S_S4000000 : (⟨S_, .f32⟩ : BufTy).Contents (Elt F) → (⟨S4000000, .f32⟩ : BufTy).Contents (Elt F)),
    binary main_v209 main_v208 main_v210 (mulf : (⟨S4000000, .f32⟩ : BufTy).Contents (Elt F) → (⟨S4000000, .f32⟩ : BufTy).Contents (Elt F) → (⟨S4000000, .f32⟩ : BufTy).Contents (Elt F)),
    nullary main_cst_139 (constant S_ .f32 0x44800000#32),
    unary main_cst_139 main_v211 (broadcastInDim S4000000 ![] bcast_S_S4000000 : (⟨S_, .f32⟩ : BufTy).Contents (Elt F) → (⟨S4000000, .f32⟩ : BufTy).Contents (Elt F)),
    binary main_v210 main_v211 main_v212 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v212) (TRef.of (T := ⟨S4000000, .f32⟩) main_v213) Host.roundeven,
    nullary main_cst_140 (constant S_ .f32 0x44800000#32),
    unary main_cst_140 main_v214 (broadcastInDim S4000000 ![] bcast_S_S4000000 : (⟨S_, .f32⟩ : BufTy).Contents (Elt F) → (⟨S4000000, .f32⟩ : BufTy).Contents (Elt F)),
    binary main_v213 main_v214 main_v215 (Host.divf : (⟨S4000000, .f32⟩ : BufTy).Contents (Elt F) → (⟨S4000000, .f32⟩ : BufTy).Contents (Elt F) → (⟨S4000000, .f32⟩ : BufTy).Contents (Elt F)),
    nullary main_cst_141 (constant S_ .f32 0xC2800000#32),
    nullary main_cst_142 (constant S_ .f32 0x427FFF00#32),
    TRef.unary (TRef.of (T := ⟨S_, .f32⟩) main_cst_141) (TRef.of (T := ⟨S4000000, .f32⟩) main_call63_v0) (broadcastInDim S4000000 ![] bcast_S_S4000000),
    TRef.binary (TRef.of (T := ⟨S4000000, .f32⟩) main_call63_v0) (TRef.of (T := ⟨S4000000, .f32⟩) main_v215) (TRef.of (T := ⟨S4000000, .f32⟩) main_call63_v1) maximumf,
    TRef.unary (TRef.of (T := ⟨S_, .f32⟩) main_cst_142) (TRef.of (T := ⟨S4000000, .f32⟩) main_call63_v2) (broadcastInDim S4000000 ![] bcast_S_S4000000),
    TRef.binary (TRef.of (T := ⟨S4000000, .f32⟩) main_call63_v2) (TRef.of (T := ⟨S4000000, .f32⟩) main_call63_v1) (TRef.of (T := ⟨S4000000, .f32⟩) main_v216) minimumf ]

def C8 : List (HloOp τ sig (Elt F)) :=
  [ nullary main_cst_143 (constant S_ .f32 0x3F0BD8A1#32),
    nullary main_cst_144 (constant S_ .f32 0x44800000#32),
    binary main_cst_143 main_cst_144 main_v217 (mulf : (⟨S_, .f32⟩ : BufTy).Contents (Elt F) → (⟨S_, .f32⟩ : BufTy).Contents (Elt F) → (⟨S_, .f32⟩ : BufTy).Contents (Elt F)),
    TRef.unary (TRef.of (T := ⟨S_, .f32⟩) main_v217) (TRef.of (T := ⟨S_, .f32⟩) main_v218) Host.roundeven,
    nullary main_cst_145 (constant S_ .f32 0x44800000#32),
    binary main_v218 main_cst_145 main_v219 (Host.divf : (⟨S_, .f32⟩ : BufTy).Contents (Elt F) → (⟨S_, .f32⟩ : BufTy).Contents (Elt F) → (⟨S_, .f32⟩ : BufTy).Contents (Elt F)),
    nullary main_cst_146 (constant S_ .f32 0xC2800000#32),
    nullary main_cst_147 (constant S_ .f32 0x427FFF00#32),
    TRef.binary (TRef.of (T := ⟨S_, .f32⟩) main_cst_146) (TRef.of (T := ⟨S_, .f32⟩) main_v219) (TRef.of (T := ⟨S_, .f32⟩) main_call65_v0) maximumf,
    TRef.binary (TRef.of (T := ⟨S_, .f32⟩) main_cst_147) (TRef.of (T := ⟨S_, .f32⟩) main_call65_v0) (TRef.of (T := ⟨S_, .f32⟩) main_v220) minimumf,
    nullary main_cst_148 (constant S_ .f32 0x44800000#32),
    unary main_cst_148 main_v221 (broadcastInDim S4000000 ![] bcast_S_S4000000 : (⟨S_, .f32⟩ : BufTy).Contents (Elt F) → (⟨S4000000, .f32⟩ : BufTy).Contents (Elt F)),
    binary main_v63 main_v221 main_v222 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v222) (TRef.of (T := ⟨S4000000, .f32⟩) main_v223) Host.roundeven,
    nullary main_cst_149 (constant S_ .f32 0x44800000#32),
    unary main_cst_149 main_v224 (broadcastInDim S4000000 ![] bcast_S_S4000000 : (⟨S_, .f32⟩ : BufTy).Contents (Elt F) → (⟨S4000000, .f32⟩ : BufTy).Contents (Elt F)),
    binary main_v223 main_v224 main_v225 (Host.divf : (⟨S4000000, .f32⟩ : BufTy).Contents (Elt F) → (⟨S4000000, .f32⟩ : BufTy).Contents (Elt F) → (⟨S4000000, .f32⟩ : BufTy).Contents (Elt F)),
    nullary main_cst_150 (constant S_ .f32 0xC2800000#32),
    nullary main_cst_151 (constant S_ .f32 0x427FFF00#32),
    TRef.unary (TRef.of (T := ⟨S_, .f32⟩) main_cst_150) (TRef.of (T := ⟨S4000000, .f32⟩) main_call67_v0) (broadcastInDim S4000000 ![] bcast_S_S4000000),
    TRef.binary (TRef.of (T := ⟨S4000000, .f32⟩) main_call67_v0) (TRef.of (T := ⟨S4000000, .f32⟩) main_v225) (TRef.of (T := ⟨S4000000, .f32⟩) main_call67_v1) maximumf,
    TRef.unary (TRef.of (T := ⟨S_, .f32⟩) main_cst_151) (TRef.of (T := ⟨S4000000, .f32⟩) main_call67_v2) (broadcastInDim S4000000 ![] bcast_S_S4000000),
    TRef.binary (TRef.of (T := ⟨S4000000, .f32⟩) main_call67_v2) (TRef.of (T := ⟨S4000000, .f32⟩) main_call67_v1) (TRef.of (T := ⟨S4000000, .f32⟩) main_v226) minimumf,
    unary main_v220 main_v227 (broadcastInDim S4000000 ![] bcast_S_S4000000 : (⟨S_, .f32⟩ : BufTy).Contents (Elt F) → (⟨S4000000, .f32⟩ : BufTy).Contents (Elt F)),
    binary main_v227 main_v226 main_v228 (mulf : (⟨S4000000, .f32⟩ : BufTy).Contents (Elt F) → (⟨S4000000, .f32⟩ : BufTy).Contents (Elt F) → (⟨S4000000, .f32⟩ : BufTy).Contents (Elt F)),
    nullary main_cst_152 (constant S_ .f32 0x3F0BD8A1#32),
    nullary main_cst_153 (constant S_ .f32 0x44800000#32),
    binary main_cst_152 main_cst_153 main_v229 (mulf : (⟨S_, .f32⟩ : BufTy).Contents (Elt F) → (⟨S_, .f32⟩ : BufTy).Contents (Elt F) → (⟨S_, .f32⟩ : BufTy).Contents (Elt F)),
    TRef.unary (TRef.of (T := ⟨S_, .f32⟩) main_v229) (TRef.of (T := ⟨S_, .f32⟩) main_v230) Host.roundeven,
    nullary main_cst_154 (constant S_ .f32 0x44800000#32),
    binary main_v230 main_cst_154 main_v231 (Host.divf : (⟨S_, .f32⟩ : BufTy).Contents (Elt F) → (⟨S_, .f32⟩ : BufTy).Contents (Elt F) → (⟨S_, .f32⟩ : BufTy).Contents (Elt F)),
    nullary main_cst_155 (constant S_ .f32 0xC2800000#32),
    nullary main_cst_156 (constant S_ .f32 0x427FFF00#32),
    TRef.binary (TRef.of (T := ⟨S_, .f32⟩) main_cst_155) (TRef.of (T := ⟨S_, .f32⟩) main_v231) (TRef.of (T := ⟨S_, .f32⟩) main_call69_v0) maximumf,
    TRef.binary (TRef.of (T := ⟨S_, .f32⟩) main_cst_156) (TRef.of (T := ⟨S_, .f32⟩) main_call69_v0) (TRef.of (T := ⟨S_, .f32⟩) main_v232) minimumf,
    nullary main_cst_157 (constant S_ .f32 0x44800000#32),
    unary main_cst_157 main_v233 (broadcastInDim S4000000 ![] bcast_S_S4000000 : (⟨S_, .f32⟩ : BufTy).Contents (Elt F) → (⟨S4000000, .f32⟩ : BufTy).Contents (Elt F)),
    binary main_v70 main_v233 main_v234 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v234) (TRef.of (T := ⟨S4000000, .f32⟩) main_v235) Host.roundeven,
    nullary main_cst_158 (constant S_ .f32 0x44800000#32),
    unary main_cst_158 main_v236 (broadcastInDim S4000000 ![] bcast_S_S4000000 : (⟨S_, .f32⟩ : BufTy).Contents (Elt F) → (⟨S4000000, .f32⟩ : BufTy).Contents (Elt F)),
    binary main_v235 main_v236 main_v237 (Host.divf : (⟨S4000000, .f32⟩ : BufTy).Contents (Elt F) → (⟨S4000000, .f32⟩ : BufTy).Contents (Elt F) → (⟨S4000000, .f32⟩ : BufTy).Contents (Elt F)),
    nullary main_cst_159 (constant S_ .f32 0xC2800000#32),
    nullary main_cst_160 (constant S_ .f32 0x427FFF00#32),
    TRef.unary (TRef.of (T := ⟨S_, .f32⟩) main_cst_159) (TRef.of (T := ⟨S4000000, .f32⟩) main_call71_v0) (broadcastInDim S4000000 ![] bcast_S_S4000000),
    TRef.binary (TRef.of (T := ⟨S4000000, .f32⟩) main_call71_v0) (TRef.of (T := ⟨S4000000, .f32⟩) main_v237) (TRef.of (T := ⟨S4000000, .f32⟩) main_call71_v1) maximumf,
    TRef.unary (TRef.of (T := ⟨S_, .f32⟩) main_cst_160) (TRef.of (T := ⟨S4000000, .f32⟩) main_call71_v2) (broadcastInDim S4000000 ![] bcast_S_S4000000),
    TRef.binary (TRef.of (T := ⟨S4000000, .f32⟩) main_call71_v2) (TRef.of (T := ⟨S4000000, .f32⟩) main_call71_v1) (TRef.of (T := ⟨S4000000, .f32⟩) main_v238) minimumf,
    unary main_v232 main_v239 (broadcastInDim S4000000 ![] bcast_S_S4000000 : (⟨S_, .f32⟩ : BufTy).Contents (Elt F) → (⟨S4000000, .f32⟩ : BufTy).Contents (Elt F)),
    binary main_v239 main_v238 main_v240 (mulf : (⟨S4000000, .f32⟩ : BufTy).Contents (Elt F) → (⟨S4000000, .f32⟩ : BufTy).Contents (Elt F) → (⟨S4000000, .f32⟩ : BufTy).Contents (Elt F)),
    binary main_v228 main_v240 main_v241 (subf : (⟨S4000000, .f32⟩ : BufTy).Contents (Elt F) → (⟨S4000000, .f32⟩ : BufTy).Contents (Elt F) → (⟨S4000000, .f32⟩ : BufTy).Contents (Elt F)),
    nullary main_cst_161 (constant S_ .f32 0x44800000#32),
    unary main_cst_161 main_v242 (broadcastInDim S4000000 ![] bcast_S_S4000000 : (⟨S_, .f32⟩ : BufTy).Contents (Elt F) → (⟨S4000000, .f32⟩ : BufTy).Contents (Elt F)),
    binary main_v241 main_v242 main_v243 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v243) (TRef.of (T := ⟨S4000000, .f32⟩) main_v244) Host.roundeven,
    nullary main_cst_162 (constant S_ .f32 0x44800000#32),
    unary main_cst_162 main_v245 (broadcastInDim S4000000 ![] bcast_S_S4000000 : (⟨S_, .f32⟩ : BufTy).Contents (Elt F) → (⟨S4000000, .f32⟩ : BufTy).Contents (Elt F)),
    binary main_v244 main_v245 main_v246 (Host.divf : (⟨S4000000, .f32⟩ : BufTy).Contents (Elt F) → (⟨S4000000, .f32⟩ : BufTy).Contents (Elt F) → (⟨S4000000, .f32⟩ : BufTy).Contents (Elt F)),
    nullary main_cst_163 (constant S_ .f32 0xC2800000#32),
    nullary main_cst_164 (constant S_ .f32 0x427FFF00#32),
    TRef.unary (TRef.of (T := ⟨S_, .f32⟩) main_cst_163) (TRef.of (T := ⟨S4000000, .f32⟩) main_call73_v0) (broadcastInDim S4000000 ![] bcast_S_S4000000),
    TRef.binary (TRef.of (T := ⟨S4000000, .f32⟩) main_call73_v0) (TRef.of (T := ⟨S4000000, .f32⟩) main_v246) (TRef.of (T := ⟨S4000000, .f32⟩) main_call73_v1) maximumf,
    TRef.unary (TRef.of (T := ⟨S_, .f32⟩) main_cst_164) (TRef.of (T := ⟨S4000000, .f32⟩) main_call73_v2) (broadcastInDim S4000000 ![] bcast_S_S4000000),
    TRef.binary (TRef.of (T := ⟨S4000000, .f32⟩) main_call73_v2) (TRef.of (T := ⟨S4000000, .f32⟩) main_call73_v1) (TRef.of (T := ⟨S4000000, .f32⟩) main_v247) minimumf ]

def C9 : List (HloOp τ sig (Elt F)) :=
  [ nullary main_cst_165 (constant S_ .f32 0x3F170D19#32),
    nullary main_cst_166 (constant S_ .f32 0x44800000#32),
    binary main_cst_165 main_cst_166 main_v248 (mulf : (⟨S_, .f32⟩ : BufTy).Contents (Elt F) → (⟨S_, .f32⟩ : BufTy).Contents (Elt F) → (⟨S_, .f32⟩ : BufTy).Contents (Elt F)),
    TRef.unary (TRef.of (T := ⟨S_, .f32⟩) main_v248) (TRef.of (T := ⟨S_, .f32⟩) main_v249) Host.roundeven,
    nullary main_cst_167 (constant S_ .f32 0x44800000#32),
    binary main_v249 main_cst_167 main_v250 (Host.divf : (⟨S_, .f32⟩ : BufTy).Contents (Elt F) → (⟨S_, .f32⟩ : BufTy).Contents (Elt F) → (⟨S_, .f32⟩ : BufTy).Contents (Elt F)),
    nullary main_cst_168 (constant S_ .f32 0xC2800000#32),
    nullary main_cst_169 (constant S_ .f32 0x427FFF00#32),
    TRef.binary (TRef.of (T := ⟨S_, .f32⟩) main_cst_168) (TRef.of (T := ⟨S_, .f32⟩) main_v250) (TRef.of (T := ⟨S_, .f32⟩) main_call75_v0) maximumf,
    TRef.binary (TRef.of (T := ⟨S_, .f32⟩) main_cst_169) (TRef.of (T := ⟨S_, .f32⟩) main_call75_v0) (TRef.of (T := ⟨S_, .f32⟩) main_v251) minimumf,
    nullary main_cst_170 (constant S_ .f32 0x44800000#32),
    unary main_cst_170 main_v252 (broadcastInDim S4000000 ![] bcast_S_S4000000 : (⟨S_, .f32⟩ : BufTy).Contents (Elt F) → (⟨S4000000, .f32⟩ : BufTy).Contents (Elt F)),
    binary main_v23 main_v252 main_v253 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v253) (TRef.of (T := ⟨S4000000, .f32⟩) main_v254) Host.roundeven,
    nullary main_cst_171 (constant S_ .f32 0x44800000#32),
    unary main_cst_171 main_v255 (broadcastInDim S4000000 ![] bcast_S_S4000000 : (⟨S_, .f32⟩ : BufTy).Contents (Elt F) → (⟨S4000000, .f32⟩ : BufTy).Contents (Elt F)),
    binary main_v254 main_v255 main_v256 (Host.divf : (⟨S4000000, .f32⟩ : BufTy).Contents (Elt F) → (⟨S4000000, .f32⟩ : BufTy).Contents (Elt F) → (⟨S4000000, .f32⟩ : BufTy).Contents (Elt F)),
    nullary main_cst_172 (constant S_ .f32 0xC2800000#32),
    nullary main_cst_173 (constant S_ .f32 0x427FFF00#32),
    TRef.unary (TRef.of (T := ⟨S_, .f32⟩) main_cst_172) (TRef.of (T := ⟨S4000000, .f32⟩) main_call77_v0) (broadcastInDim S4000000 ![] bcast_S_S4000000),
    TRef.binary (TRef.of (T := ⟨S4000000, .f32⟩) main_call77_v0) (TRef.of (T := ⟨S4000000, .f32⟩) main_v256) (TRef.of (T := ⟨S4000000, .f32⟩) main_call77_v1) maximumf,
    TRef.unary (TRef.of (T := ⟨S_, .f32⟩) main_cst_173) (TRef.of (T := ⟨S4000000, .f32⟩) main_call77_v2) (broadcastInDim S4000000 ![] bcast_S_S4000000),
    TRef.binary (TRef.of (T := ⟨S4000000, .f32⟩) main_call77_v2) (TRef.of (T := ⟨S4000000, .f32⟩) main_call77_v1) (TRef.of (T := ⟨S4000000, .f32⟩) main_v257) minimumf,
    unary main_v251 main_v258 (broadcastInDim S4000000 ![] bcast_S_S4000000 : (⟨S_, .f32⟩ : BufTy).Contents (Elt F) → (⟨S4000000, .f32⟩ : BufTy).Contents (Elt F)),
    binary main_v258 main_v257 main_v259 (mulf : (⟨S4000000, .f32⟩ : BufTy).Contents (Elt F) → (⟨S4000000, .f32⟩ : BufTy).Contents (Elt F) → (⟨S4000000, .f32⟩ : BufTy).Contents (Elt F)),
    nullary main_cst_174 (constant S_ .f32 0xC0400000#32),
    unary main_cst_174 main_v260 (broadcastInDim S4000000 ![] bcast_S_S4000000 : (⟨S_, .f32⟩ : BufTy).Contents (Elt F) → (⟨S4000000, .f32⟩ : BufTy).Contents (Elt F)),
    binary main_v260 main_v63 main_v261 (mulf : (⟨S4000000, .f32⟩ : BufTy).Contents (Elt F) → (⟨S4000000, .f32⟩ : BufTy).Contents (Elt F) → (⟨S4000000, .f32⟩ : BufTy).Contents (Elt F)),
    binary main_v261 main_v70 main_v262 (addf : (⟨S4000000, .f32⟩ : BufTy).Contents (Elt F) → (⟨S4000000, .f32⟩ : BufTy).Contents (Elt F) → (⟨S4000000, .f32⟩ : BufTy).Contents (Elt F)),
    nullary main_cst_175 (constant S_ .f32 0x44800000#32),
    unary main_cst_175 main_v263 (broadcastInDim S4000000 ![] bcast_S_S4000000 : (⟨S_, .f32⟩ : BufTy).Contents (Elt F) → (⟨S4000000, .f32⟩ : BufTy).Contents (Elt F)),
    binary main_v262 main_v263 main_v264 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v264) (TRef.of (T := ⟨S4000000, .f32⟩) main_v265) Host.roundeven,
    nullary main_cst_176 (constant S_ .f32 0x44800000#32),
    unary main_cst_176 main_v266 (broadcastInDim S4000000 ![] bcast_S_S4000000 : (⟨S_, .f32⟩ : BufTy).Contents (Elt F) → (⟨S4000000, .f32⟩ : BufTy).Contents (Elt F)),
    binary main_v265 main_v266 main_v267 (Host.divf : (⟨S4000000, .f32⟩ : BufTy).Contents (Elt F) → (⟨S4000000, .f32⟩ : BufTy).Contents (Elt F) → (⟨S4000000, .f32⟩ : BufTy).Contents (Elt F)),
    nullary main_cst_177 (constant S_ .f32 0xC2800000#32),
    nullary main_cst_178 (constant S_ .f32 0x427FFF00#32),
    TRef.unary (TRef.of (T := ⟨S_, .f32⟩) main_cst_177) (TRef.of (T := ⟨S4000000, .f32⟩) main_call79_v0) (broadcastInDim S4000000 ![] bcast_S_S4000000),
    TRef.binary (TRef.of (T := ⟨S4000000, .f32⟩) main_call79_v0) (TRef.of (T := ⟨S4000000, .f32⟩) main_v267) (TRef.of (T := ⟨S4000000, .f32⟩) main_call79_v1) maximumf,
    TRef.unary (TRef.of (T := ⟨S_, .f32⟩) main_cst_178) (TRef.of (T := ⟨S4000000, .f32⟩) main_call79_v2) (broadcastInDim S4000000 ![] bcast_S_S4000000),
    TRef.binary (TRef.of (T := ⟨S4000000, .f32⟩) main_call79_v2) (TRef.of (T := ⟨S4000000, .f32⟩) main_call79_v1) (TRef.of (T := ⟨S4000000, .f32⟩) main_v268) minimumf,
    binary main_v259 main_v268 main_v269 (mulf : (⟨S4000000, .f32⟩ : BufTy).Contents (Elt F) → (⟨S4000000, .f32⟩ : BufTy).Contents (Elt F) → (⟨S4000000, .f32⟩ : BufTy).Contents (Elt F)),
    nullary main_cst_179 (constant S_ .f32 0x44800000#32),
    unary main_cst_179 main_v270 (broadcastInDim S4000000 ![] bcast_S_S4000000 : (⟨S_, .f32⟩ : BufTy).Contents (Elt F) → (⟨S4000000, .f32⟩ : BufTy).Contents (Elt F)),
    binary main_v269 main_v270 main_v271 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v271) (TRef.of (T := ⟨S4000000, .f32⟩) main_v272) Host.roundeven,
    nullary main_cst_180 (constant S_ .f32 0x44800000#32),
    unary main_cst_180 main_v273 (broadcastInDim S4000000 ![] bcast_S_S4000000 : (⟨S_, .f32⟩ : BufTy).Contents (Elt F) → (⟨S4000000, .f32⟩ : BufTy).Contents (Elt F)),
    binary main_v272 main_v273 main_v274 (Host.divf : (⟨S4000000, .f32⟩ : BufTy).Contents (Elt F) → (⟨S4000000, .f32⟩ : BufTy).Contents (Elt F) → (⟨S4000000, .f32⟩ : BufTy).Contents (Elt F)),
    nullary main_cst_181 (constant S_ .f32 0xC2800000#32),
    nullary main_cst_182 (constant S_ .f32 0x427FFF00#32),
    TRef.unary (TRef.of (T := ⟨S_, .f32⟩) main_cst_181) (TRef.of (T := ⟨S4000000, .f32⟩) main_call81_v0) (broadcastInDim S4000000 ![] bcast_S_S4000000),
    TRef.binary (TRef.of (T := ⟨S4000000, .f32⟩) main_call81_v0) (TRef.of (T := ⟨S4000000, .f32⟩) main_v274) (TRef.of (T := ⟨S4000000, .f32⟩) main_call81_v1) maximumf,
    TRef.unary (TRef.of (T := ⟨S_, .f32⟩) main_cst_182) (TRef.of (T := ⟨S4000000, .f32⟩) main_call81_v2) (broadcastInDim S4000000 ![] bcast_S_S4000000),
    TRef.binary (TRef.of (T := ⟨S4000000, .f32⟩) main_call81_v2) (TRef.of (T := ⟨S4000000, .f32⟩) main_call81_v1) (TRef.of (T := ⟨S4000000, .f32⟩) main_v275) minimumf ]

def C10 : List (HloOp τ sig (Elt F)) :=
  [ nullary main_cst_183 (constant S_ .f32 0x4038FFC7#32),
    nullary main_cst_184 (constant S_ .f32 0x44800000#32),
    binary main_cst_183 main_cst_184 main_v276 (mulf : (⟨S_, .f32⟩ : BufTy).Contents (Elt F) → (⟨S_, .f32⟩ : BufTy).Contents (Elt F) → (⟨S_, .f32⟩ : BufTy).Contents (Elt F)),
    TRef.unary (TRef.of (T := ⟨S_, .f32⟩) main_v276) (TRef.of (T := ⟨S_, .f32⟩) main_v277) Host.roundeven,
    nullary main_cst_185 (constant S_ .f32 0x44800000#32),
    binary main_v277 main_cst_185 main_v278 (Host.divf : (⟨S_, .f32⟩ : BufTy).Contents (Elt F) → (⟨S_, .f32⟩ : BufTy).Contents (Elt F) → (⟨S_, .f32⟩ : BufTy).Contents (Elt F)),
    nullary main_cst_186 (constant S_ .f32 0xC2800000#32),
    nullary main_cst_187 (constant S_ .f32 0x427FFF00#32),
    TRef.binary (TRef.of (T := ⟨S_, .f32⟩) main_cst_186) (TRef.of (T := ⟨S_, .f32⟩) main_v278) (TRef.of (T := ⟨S_, .f32⟩) main_call83_v0) maximumf,
    TRef.binary (TRef.of (T := ⟨S_, .f32⟩) main_cst_187) (TRef.of (T := ⟨S_, .f32⟩) main_call83_v0) (TRef.of (T := ⟨S_, .f32⟩) main_v279) minimumf,
    nullary main_cst_188 (constant S_ .f32 0x44800000#32),
    unary main_cst_188 main_v280 (broadcastInDim S4000000 ![] bcast_S_S4000000 : (⟨S_, .f32⟩ : BufTy).Contents (Elt F) → (⟨S4000000, .f32⟩ : BufTy).Contents (Elt F)),
    binary main_v42 main_v280 main_v281 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v281) (TRef.of (T := ⟨S4000000, .f32⟩) main_v282) Host.roundeven,
    nullary main_cst_189 (constant S_ .f32 0x44800000#32),
    unary main_cst_189 main_v283 (broadcastInDim S4000000 ![] bcast_S_S4000000 : (⟨S_, .f32⟩ : BufTy).Contents (Elt F) → (⟨S4000000, .f32⟩ : BufTy).Contents (Elt F)),
    binary main_v282 main_v283 main_v284 (Host.divf : (⟨S4000000, .f32⟩ : BufTy).Contents (Elt F) → (⟨S4000000, .f32⟩ : BufTy).Contents (Elt F) → (⟨S4000000, .f32⟩ : BufTy).Contents (Elt F)),
    nullary main_cst_190 (constant S_ .f32 0xC2800000#32),
    nullary main_cst_191 (constant S_ .f32 0x427FFF00#32),
    TRef.unary (TRef.of (T := ⟨S_, .f32⟩) main_cst_190) (TRef.of (T := ⟨S4000000, .f32⟩) main_call85_v0) (broadcastInDim S4000000 ![] bcast_S_S4000000),
    TRef.binary (TRef.of (T := ⟨S4000000, .f32⟩) main_call85_v0) (TRef.of (T := ⟨S4000000, .f32⟩) main_v284) (TRef.of (T := ⟨S4000000, .f32⟩) main_call85_v1) maximumf,
    TRef.unary (TRef.of (T := ⟨S_, .f32⟩) main_cst_191) (TRef.of (T := ⟨S4000000, .f32⟩) main_call85_v2) (broadcastInDim S4000000 ![] bcast_S_S4000000),
    TRef.binary (TRef.of (T := ⟨S4000000, .f32⟩) main_call85_v2) (TRef.of (T := ⟨S4000000, .f32⟩) main_call85_v1) (TRef.of (T := ⟨S4000000, .f32⟩) main_v285) minimumf,
    unary main_v279 main_v286 (broadcastInDim S4000000 ![] bcast_S_S4000000 : (⟨S_, .f32⟩ : BufTy).Contents (Elt F) → (⟨S4000000, .f32⟩ : BufTy).Contents (Elt F)),
    binary main_v286 main_v285 main_v287 (mulf : (⟨S4000000, .f32⟩ : BufTy).Contents (Elt F) → (⟨S4000000, .f32⟩ : BufTy).Contents (Elt F) → (⟨S4000000, .f32⟩ : BufTy).Contents (Elt F)),
    nullary main_cst_192 (constant S_ .f32 0x44800000#32),
    unary main_cst_192 main_v288 (broadcastInDim S4000000 ![] bcast_S_S4000000 : (⟨S_, .f32⟩ : BufTy).Contents (Elt F) → (⟨S4000000, .f32⟩ : BufTy).Contents (Elt F)),
    binary main_v35 main_v288 main_v289 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v289) (TRef.of (T := ⟨S4000000, .f32⟩) main_v290) Host.roundeven,
    nullary main_cst_193 (constant S_ .f32 0x44800000#32),
    unary main_cst_193 main_v291 (broadcastInDim S4000000 ![] bcast_S_S4000000 : (⟨S_, .f32⟩ : BufTy).Contents (Elt F) → (⟨S4000000, .f32⟩ : BufTy).Contents (Elt F)),
    binary main_v290 main_v291 main_v292 (Host.divf : (⟨S4000000, .f32⟩ : BufTy).Contents (Elt F) → (⟨S4000000, .f32⟩ : BufTy).Contents (Elt F) → (⟨S4000000, .f32⟩ : BufTy).Contents (Elt F)),
    nullary main_cst_194 (constant S_ .f32 0xC2800000#32),
    nullary main_cst_195 (constant S_ .f32 0x427FFF00#32),
    TRef.unary (TRef.of (T := ⟨S_, .f32⟩) main_cst_194) (TRef.of (T := ⟨S4000000, .f32⟩) main_call87_v0) (broadcastInDim S4000000 ![] bcast_S_S4000000),
    TRef.binary (TRef.of (T := ⟨S4000000, .f32⟩) main_call87_v0) (TRef.of (T := ⟨S4000000, .f32⟩) main_v292) (TRef.of (T := ⟨S4000000, .f32⟩) main_call87_v1) maximumf,
    TRef.unary (TRef.of (T := ⟨S_, .f32⟩) main_cst_195) (TRef.of (T := ⟨S4000000, .f32⟩) main_call87_v2) (broadcastInDim S4000000 ![] bcast_S_S4000000),
    TRef.binary (TRef.of (T := ⟨S4000000, .f32⟩) main_call87_v2) (TRef.of (T := ⟨S4000000, .f32⟩) main_call87_v1) (TRef.of (T := ⟨S4000000, .f32⟩) main_v293) minimumf,
    binary main_v287 main_v293 main_v294 (mulf : (⟨S4000000, .f32⟩ : BufTy).Contents (Elt F) → (⟨S4000000, .f32⟩ : BufTy).Contents (Elt F) → (⟨S4000000, .f32⟩ : BufTy).Contents (Elt F)),
    nullary main_cst_196 (constant S_ .f32 0x44800000#32),
    unary main_cst_196 main_v295 (broadcastInDim S4000000 ![] bcast_S_S4000000 : (⟨S_, .f32⟩ : BufTy).Contents (Elt F) → (⟨S4000000, .f32⟩ : BufTy).Contents (Elt F)),
    binary main_v294 main_v295 main_v296 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v296) (TRef.of (T := ⟨S4000000, .f32⟩) main_v297) Host.roundeven,
    nullary main_cst_197 (constant S_ .f32 0x44800000#32),
    unary main_cst_197 main_v298 (broadcastInDim S4000000 ![] bcast_S_S4000000 : (⟨S_, .f32⟩ : BufTy).Contents (Elt F) → (⟨S4000000, .f32⟩ : BufTy).Contents (Elt F)),
    binary main_v297 main_v298 main_v299 (Host.divf : (⟨S4000000, .f32⟩ : BufTy).Contents (Elt F) → (⟨S4000000, .f32⟩ : BufTy).Contents (Elt F) → (⟨S4000000, .f32⟩ : BufTy).Contents (Elt F)),
    nullary main_cst_198 (constant S_ .f32 0xC2800000#32),
    nullary main_cst_199 (constant S_ .f32 0x427FFF00#32),
    TRef.unary (TRef.of (T := ⟨S_, .f32⟩) main_cst_198) (TRef.of (T := ⟨S4000000, .f32⟩) main_call89_v0) (broadcastInDim S4000000 ![] bcast_S_S4000000),
    TRef.binary (TRef.of (T := ⟨S4000000, .f32⟩) main_call89_v0) (TRef.of (T := ⟨S4000000, .f32⟩) main_v299) (TRef.of (T := ⟨S4000000, .f32⟩) main_call89_v1) maximumf,
    TRef.unary (TRef.of (T := ⟨S_, .f32⟩) main_cst_199) (TRef.of (T := ⟨S4000000, .f32⟩) main_call89_v2) (broadcastInDim S4000000 ![] bcast_S_S4000000),
    TRef.binary (TRef.of (T := ⟨S4000000, .f32⟩) main_call89_v2) (TRef.of (T := ⟨S4000000, .f32⟩) main_call89_v1) (TRef.of (T := ⟨S4000000, .f32⟩) main_v300) minimumf ]

def C11 : List (HloOp τ sig (Elt F)) :=
  [ nullary main_cst_200 (constant S_ .f32 0x3EEA01E8#32),
    nullary main_cst_201 (constant S_ .f32 0x44800000#32),
    binary main_cst_200 main_cst_201 main_v301 (mulf : (⟨S_, .f32⟩ : BufTy).Contents (Elt F) → (⟨S_, .f32⟩ : BufTy).Contents (Elt F) → (⟨S_, .f32⟩ : BufTy).Contents (Elt F)),
    TRef.unary (TRef.of (T := ⟨S_, .f32⟩) main_v301) (TRef.of (T := ⟨S_, .f32⟩) main_v302) Host.roundeven,
    nullary main_cst_202 (constant S_ .f32 0x44800000#32),
    binary main_v302 main_cst_202 main_v303 (Host.divf : (⟨S_, .f32⟩ : BufTy).Contents (Elt F) → (⟨S_, .f32⟩ : BufTy).Contents (Elt F) → (⟨S_, .f32⟩ : BufTy).Contents (Elt F)),
    nullary main_cst_203 (constant S_ .f32 0xC2800000#32),
    nullary main_cst_204 (constant S_ .f32 0x427FFF00#32),
    TRef.binary (TRef.of (T := ⟨S_, .f32⟩) main_cst_203) (TRef.of (T := ⟨S_, .f32⟩) main_v303) (TRef.of (T := ⟨S_, .f32⟩) main_call91_v0) maximumf,
    TRef.binary (TRef.of (T := ⟨S_, .f32⟩) main_cst_204) (TRef.of (T := ⟨S_, .f32⟩) main_call91_v0) (TRef.of (T := ⟨S_, .f32⟩) main_v304) minimumf,
    nullary main_cst_205 (constant S_ .f32 0x44800000#32),
    unary main_cst_205 main_v305 (broadcastInDim S4000000 ![] bcast_S_S4000000 : (⟨S_, .f32⟩ : BufTy).Contents (Elt F) → (⟨S4000000, .f32⟩ : BufTy).Contents (Elt F)),
    binary main_v23 main_v305 main_v306 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v306) (TRef.of (T := ⟨S4000000, .f32⟩) main_v307) Host.roundeven,
    nullary main_cst_206 (constant S_ .f32 0x44800000#32),
    unary main_cst_206 main_v308 (broadcastInDim S4000000 ![] bcast_S_S4000000 : (⟨S_, .f32⟩ : BufTy).Contents (Elt F) → (⟨S4000000, .f32⟩ : BufTy).Contents (Elt F)),
    binary main_v307 main_v308 main_v309 (Host.divf : (⟨S4000000, .f32⟩ : BufTy).Contents (Elt F) → (⟨S4000000, .f32⟩ : BufTy).Contents (Elt F) → (⟨S4000000, .f32⟩ : BufTy).Contents (Elt F)),
    nullary main_cst_207 (constant S_ .f32 0xC2800000#32),
    nullary main_cst_208 (constant S_ .f32 0x427FFF00#32),
    TRef.unary (TRef.of (T := ⟨S_, .f32⟩) main_cst_207) (TRef.of (T := ⟨S4000000, .f32⟩) main_call93_v0) (broadcastInDim S4000000 ![] bcast_S_S4000000),
    TRef.binary (TRef.of (T := ⟨S4000000, .f32⟩) main_call93_v0) (TRef.of (T := ⟨S4000000, .f32⟩) main_v309) (TRef.of (T := ⟨S4000000, .f32⟩) main_call93_v1) maximumf,
    TRef.unary (TRef.of (T := ⟨S_, .f32⟩) main_cst_208) (TRef.of (T := ⟨S4000000, .f32⟩) main_call93_v2) (broadcastInDim S4000000 ![] bcast_S_S4000000),
    TRef.binary (TRef.of (T := ⟨S4000000, .f32⟩) main_call93_v2) (TRef.of (T := ⟨S4000000, .f32⟩) main_call93_v1) (TRef.of (T := ⟨S4000000, .f32⟩) main_v310) minimumf,
    unary main_v304 main_v311 (broadcastInDim S4000000 ![] bcast_S_S4000000 : (⟨S_, .f32⟩ : BufTy).Contents (Elt F) → (⟨S4000000, .f32⟩ : BufTy).Contents (Elt F)),
    binary main_v311 main_v310 main_v312 (mulf : (⟨S4000000, .f32⟩ : BufTy).Contents (Elt F) → (⟨S4000000, .f32⟩ : BufTy).Contents (Elt F) → (⟨S4000000, .f32⟩ : BufTy).Contents (Elt F)),
    nullary main_cst_209 (constant S_ .f32 0x40A00000#32),
    unary main_cst_209 main_v313 (broadcastInDim S4000000 ![] bcast_S_S4000000 : (⟨S_, .f32⟩ : BufTy).Contents (Elt F) → (⟨S4000000, .f32⟩ : BufTy).Contents (Elt F)),
    binary main_v313 main_v77 main_v314 (mulf : (⟨S4000000, .f32⟩ : BufTy).Contents (Elt F) → (⟨S4000000, .f32⟩ : BufTy).Contents (Elt F) → (⟨S4000000, .f32⟩ : BufTy).Contents (Elt F)),
    nullary main_cst_210 (constant S_ .f32 0x3F800000#32),
    unary main_cst_210 main_v315 (broadcastInDim S4000000 ![] bcast_S_S4000000 : (⟨S_, .f32⟩ : BufTy).Contents (Elt F) → (⟨S4000000, .f32⟩ : BufTy).Contents (Elt F)),
    binary main_v315 main_v314 main_v316 (subf : (⟨S4000000, .f32⟩ : BufTy).Contents (Elt F) → (⟨S4000000, .f32⟩ : BufTy).Contents (Elt F) → (⟨S4000000, .f32⟩ : BufTy).Contents (Elt F)),
    nullary main_cst_211 (constant S_ .f32 0x44800000#32),
    unary main_cst_211 main_v317 (broadcastInDim S4000000 ![] bcast_S_S4000000 : (⟨S_, .f32⟩ : BufTy).Contents (Elt F) → (⟨S4000000, .f32⟩ : BufTy).Contents (Elt F)),
    binary main_v316 main_v317 main_v318 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v318) (TRef.of (T := ⟨S4000000, .f32⟩) main_v319) Host.roundeven,
    nullary main_cst_212 (constant S_ .f32 0x44800000#32),
    unary main_cst_212 main_v320 (broadcastInDim S4000000 ![] bcast_S_S4000000 : (⟨S_, .f32⟩ : BufTy).Contents (Elt F) → (⟨S4000000, .f32⟩ : BufTy).Contents (Elt F)),
    binary main_v319 main_v320 main_v321 (Host.divf : (⟨S4000000, .f32⟩ : BufTy).Contents (Elt F) → (⟨S4000000, .f32⟩ : BufTy).Contents (Elt F) → (⟨S4000000, .f32⟩ : BufTy).Contents (Elt F)),
    nullary main_cst_213 (constant S_ .f32 0xC2800000#32),
    nullary main_cst_214 (constant S_ .f32 0x427FFF00#32),
    TRef.unary (TRef.of (T := ⟨S_, .f32⟩) main_cst_213) (TRef.of (T := ⟨S4000000, .f32⟩) main_call95_v0) (broadcastInDim S4000000 ![] bcast_S_S4000000),
    TRef.binary (TRef.of (T := ⟨S4000000, .f32⟩) main_call95_v0) (TRef.of (T := ⟨S4000000, .f32⟩) main_v321) (TRef.of (T := ⟨S4000000, .f32⟩) main_call95_v1) maximumf,
    TRef.unary (TRef.of (T := ⟨S_, .f32⟩) main_cst_214) (TRef.of (T := ⟨S4000000, .f32⟩) main_call95_v2) (broadcastInDim S4000000 ![] bcast_S_S4000000),
    TRef.binary (TRef.of (T := ⟨S4000000, .f32⟩) main_call95_v2) (TRef.of (T := ⟨S4000000, .f32⟩) main_call95_v1) (TRef.of (T := ⟨S4000000, .f32⟩) main_v322) minimumf,
    binary main_v312 main_v322 main_v323 (mulf : (⟨S4000000, .f32⟩ : BufTy).Contents (Elt F) → (⟨S4000000, .f32⟩ : BufTy).Contents (Elt F) → (⟨S4000000, .f32⟩ : BufTy).Contents (Elt F)),
    nullary main_cst_215 (constant S_ .f32 0x44800000#32),
    unary main_cst_215 main_v324 (broadcastInDim S4000000 ![] bcast_S_S4000000 : (⟨S_, .f32⟩ : BufTy).Contents (Elt F) → (⟨S4000000, .f32⟩ : BufTy).Contents (Elt F)),
    binary main_v323 main_v324 main_v325 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v325) (TRef.of (T := ⟨S4000000, .f32⟩) main_v326) Host.roundeven,
    nullary main_cst_216 (constant S_ .f32 0x44800000#32),
    unary main_cst_216 main_v327 (broadcastInDim S4000000 ![] bcast_S_S4000000 : (⟨S_, .f32⟩ : BufTy).Contents (Elt F) → (⟨S4000000, .f32⟩ : BufTy).Contents (Elt F)),
    binary main_v326 main_v327 main_v328 (Host.divf : (⟨S4000000, .f32⟩ : BufTy).Contents (Elt F) → (⟨S4000000, .f32⟩ : BufTy).Contents (Elt F) → (⟨S4000000, .f32⟩ : BufTy).Contents (Elt F)),
    nullary main_cst_217 (constant S_ .f32 0xC2800000#32),
    nullary main_cst_218 (constant S_ .f32 0x427FFF00#32),
    TRef.unary (TRef.of (T := ⟨S_, .f32⟩) main_cst_217) (TRef.of (T := ⟨S4000000, .f32⟩) main_call97_v0) (broadcastInDim S4000000 ![] bcast_S_S4000000),
    TRef.binary (TRef.of (T := ⟨S4000000, .f32⟩) main_call97_v0) (TRef.of (T := ⟨S4000000, .f32⟩) main_v328) (TRef.of (T := ⟨S4000000, .f32⟩) main_call97_v1) maximumf,
    TRef.unary (TRef.of (T := ⟨S_, .f32⟩) main_cst_218) (TRef.of (T := ⟨S4000000, .f32⟩) main_call97_v2) (broadcastInDim S4000000 ![] bcast_S_S4000000),
    TRef.binary (TRef.of (T := ⟨S4000000, .f32⟩) main_call97_v2) (TRef.of (T := ⟨S4000000, .f32⟩) main_call97_v1) (TRef.of (T := ⟨S4000000, .f32⟩) main_v329) minimumf ]

def C12 : List (HloOp τ sig (Elt F)) :=
  [ nullary main_cst_219 (constant S_ .f32 0x3EBF10F8#32),
    nullary main_cst_220 (constant S_ .f32 0x44800000#32),
    binary main_cst_219 main_cst_220 main_v330 (mulf : (⟨S_, .f32⟩ : BufTy).Contents (Elt F) → (⟨S_, .f32⟩ : BufTy).Contents (Elt F) → (⟨S_, .f32⟩ : BufTy).Contents (Elt F)),
    TRef.unary (TRef.of (T := ⟨S_, .f32⟩) main_v330) (TRef.of (T := ⟨S_, .f32⟩) main_v331) Host.roundeven,
    nullary main_cst_221 (constant S_ .f32 0x44800000#32),
    binary main_v331 main_cst_221 main_v332 (Host.divf : (⟨S_, .f32⟩ : BufTy).Contents (Elt F) → (⟨S_, .f32⟩ : BufTy).Contents (Elt F) → (⟨S_, .f32⟩ : BufTy).Contents (Elt F)),
    nullary main_cst_222 (constant S_ .f32 0xC2800000#32),
    nullary main_cst_223 (constant S_ .f32 0x427FFF00#32),
    TRef.binary (TRef.of (T := ⟨S_, .f32⟩) main_cst_222) (TRef.of (T := ⟨S_, .f32⟩) main_v332) (TRef.of (T := ⟨S_, .f32⟩) main_call99_v0) maximumf,
    TRef.binary (TRef.of (T := ⟨S_, .f32⟩) main_cst_223) (TRef.of (T := ⟨S_, .f32⟩) main_call99_v0) (TRef.of (T := ⟨S_, .f32⟩) main_v333) minimumf,
    nullary main_cst_224 (constant S_ .f32 0x44800000#32),
    unary main_cst_224 main_v334 (broadcastInDim S4000000 ![] bcast_S_S4000000 : (⟨S_, .f32⟩ : BufTy).Contents (Elt F) → (⟨S4000000, .f32⟩ : BufTy).Contents (Elt F)),
    binary main_v35 main_v334 main_v335 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v335) (TRef.of (T := ⟨S4000000, .f32⟩) main_v336) Host.roundeven,
    nullary main_cst_225 (constant S_ .f32 0x44800000#32),
    unary main_cst_225 main_v337 (broadcastInDim S4000000 ![] bcast_S_S4000000 : (⟨S_, .f32⟩ : BufTy).Contents (Elt F) → (⟨S4000000, .f32⟩ : BufTy).Contents (Elt F)),
    binary main_v336 main_v337 main_v338 (Host.divf : (⟨S4000000, .f32⟩ : BufTy).Contents (Elt F) → (⟨S4000000, .f32⟩ : BufTy).Contents (Elt F) → (⟨S4000000, .f32⟩ : BufTy).Contents (Elt F)),
    nullary main_cst_226 (constant S_ .f32 0xC2800000#32),
    nullary main_cst_227 (constant S_ .f32 0x427FFF00#32),
    TRef.unary (TRef.of (T := ⟨S_, .f32⟩) main_cst_226) (TRef.of (T := ⟨S4000000, .f32⟩) main_call101_v0) (broadcastInDim S4000000 ![] bcast_S_S4000000),
    TRef.binary (TRef.of (T := ⟨S4000000, .f32⟩) main_call101_v0) (TRef.of (T := ⟨S4000000, .f32⟩) main_v338) (TRef.of (T := ⟨S4000000, .f32⟩) main_call101_v1) maximumf,
    TRef.unary (TRef.of (T := ⟨S_, .f32⟩) main_cst_227) (TRef.of (T := ⟨S4000000, .f32⟩) main_call101_v2) (broadcastInDim S4000000 ![] bcast_S_S4000000),
    TRef.binary (TRef.of (T := ⟨S4000000, .f32⟩) main_call101_v2) (TRef.of (T := ⟨S4000000, .f32⟩) main_call101_v1) (TRef.of (T := ⟨S4000000, .f32⟩) main_v339) minimumf,
    unary main_v333 main_v340 (broadcastInDim S4000000 ![] bcast_S_S4000000 : (⟨S_, .f32⟩ : BufTy).Contents (Elt F) → (⟨S4000000, .f32⟩ : BufTy).Contents (Elt F)),
    binary main_v340 main_v339 main_v341 (mulf : (⟨S4000000, .f32⟩ : BufTy).Contents (Elt F) → (⟨S4000000, .f32⟩ : BufTy).Contents (Elt F) → (⟨S4000000, .f32⟩ : BufTy).Contents (Elt F)),
    nullary main_cst_228 (constant S_ .f32 0x40A00000#32),
    unary main_cst_228 main_v342 (broadcastInDim S4000000 ![] bcast_S_S4000000 : (⟨S_, .f32⟩ : BufTy).Contents (Elt F) → (⟨S4000000, .f32⟩ : BufTy).Contents (Elt F)),
    binary main_v342 main_v77 main_v343 (mulf : (⟨S4000000, .f32⟩ : BufTy).Contents (Elt F) → (⟨S4000000, .f32⟩ : BufTy).Contents (Elt F) → (⟨S4000000, .f32⟩ : BufTy).Contents (Elt F)),
    nullary main_cst_229 (constant S_ .f32 0x40400000#32),
    unary main_cst_229 main_v344 (broadcastInDim S4000000 ![] bcast_S_S4000000 : (⟨S_, .f32⟩ : BufTy).Contents (Elt F) → (⟨S4000000, .f32⟩ : BufTy).Contents (Elt F)),
    binary main_v343 main_v344 main_v345 (subf : (⟨S4000000, .f32⟩ : BufTy).Contents (Elt F) → (⟨S4000000, .f32⟩ : BufTy).Contents (Elt F) → (⟨S4000000, .f32⟩ : BufTy).Contents (Elt F)),
    nullary main_cst_230 (constant S_ .f32 0x44800000#32),
    unary main_cst_230 main_v346 (broadcastInDim S4000000 ![] bcast_S_S4000000 : (⟨S_, .f32⟩ : BufTy).Contents (Elt F) → (⟨S4000000, .f32⟩ : BufTy).Contents (Elt F)),
    binary main_v345 main_v346 main_v347 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v347) (TRef.of (T := ⟨S4000000, .f32⟩) main_v348) Host.roundeven,
    nullary main_cst_231 (constant S_ .f32 0x44800000#32),
    unary main_cst_231 main_v349 (broadcastInDim S4000000 ![] bcast_S_S4000000 : (⟨S_, .f32⟩ : BufTy).Contents (Elt F) → (⟨S4000000, .f32⟩ : BufTy).Contents (Elt F)),
    binary main_v348 main_v349 main_v350 (Host.divf : (⟨S4000000, .f32⟩ : BufTy).Contents (Elt F) → (⟨S4000000, .f32⟩ : BufTy).Contents (Elt F) → (⟨S4000000, .f32⟩ : BufTy).Contents (Elt F)),
    nullary main_cst_232 (constant S_ .f32 0xC2800000#32),
    nullary main_cst_233 (constant S_ .f32 0x427FFF00#32),
    TRef.unary (TRef.of (T := ⟨S_, .f32⟩) main_cst_232) (TRef.of (T := ⟨S4000000, .f32⟩) main_call103_v0) (broadcastInDim S4000000 ![] bcast_S_S4000000),
    TRef.binary (TRef.of (T := ⟨S4000000, .f32⟩) main_call103_v0) (TRef.of (T := ⟨S4000000, .f32⟩) main_v350) (TRef.of (T := ⟨S4000000, .f32⟩) main_call103_v1) maximumf,
    TRef.unary (TRef.of (T := ⟨S_, .f32⟩) main_cst_233) (TRef.of (T := ⟨S4000000, .f32⟩) main_call103_v2) (broadcastInDim S4000000 ![] bcast_S_S4000000),
    TRef.binary (TRef.of (T := ⟨S4000000, .f32⟩) main_call103_v2) (TRef.of (T := ⟨S4000000, .f32⟩) main_call103_v1) (TRef.of (T := ⟨S4000000, .f32⟩) main_v351) minimumf,
    binary main_v341 main_v351 main_v352 (mulf : (⟨S4000000, .f32⟩ : BufTy).Contents (Elt F) → (⟨S4000000, .f32⟩ : BufTy).Contents (Elt F) → (⟨S4000000, .f32⟩ : BufTy).Contents (Elt F)),
    nullary main_cst_234 (constant S_ .f32 0x44800000#32),
    unary main_cst_234 main_v353 (broadcastInDim S4000000 ![] bcast_S_S4000000 : (⟨S_, .f32⟩ : BufTy).Contents (Elt F) → (⟨S4000000, .f32⟩ : BufTy).Contents (Elt F)),
    binary main_v352 main_v353 main_v354 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v354) (TRef.of (T := ⟨S4000000, .f32⟩) main_v355) Host.roundeven,
    nullary main_cst_235 (constant S_ .f32 0x44800000#32),
    unary main_cst_235 main_v356 (broadcastInDim S4000000 ![] bcast_S_S4000000 : (⟨S_, .f32⟩ : BufTy).Contents (Elt F) → (⟨S4000000, .f32⟩ : BufTy).Contents (Elt F)),
    binary main_v355 main_v356 main_v357 (Host.divf : (⟨S4000000, .f32⟩ : BufTy).Contents (Elt F) → (⟨S4000000, .f32⟩ : BufTy).Contents (Elt F) → (⟨S4000000, .f32⟩ : BufTy).Contents (Elt F)),
    nullary main_cst_236 (constant S_ .f32 0xC2800000#32),
    nullary main_cst_237 (constant S_ .f32 0x427FFF00#32),
    TRef.unary (TRef.of (T := ⟨S_, .f32⟩) main_cst_236) (TRef.of (T := ⟨S4000000, .f32⟩) main_call105_v0) (broadcastInDim S4000000 ![] bcast_S_S4000000),
    TRef.binary (TRef.of (T := ⟨S4000000, .f32⟩) main_call105_v0) (TRef.of (T := ⟨S4000000, .f32⟩) main_v357) (TRef.of (T := ⟨S4000000, .f32⟩) main_call105_v1) maximumf,
    TRef.unary (TRef.of (T := ⟨S_, .f32⟩) main_cst_237) (TRef.of (T := ⟨S4000000, .f32⟩) main_call105_v2) (broadcastInDim S4000000 ![] bcast_S_S4000000),
    TRef.binary (TRef.of (T := ⟨S4000000, .f32⟩) main_call105_v2) (TRef.of (T := ⟨S4000000, .f32⟩) main_call105_v1) (TRef.of (T := ⟨S4000000, .f32⟩) main_v358) minimumf ]

def C13 : List (HloOp τ sig (Elt F)) :=
  [ nullary main_cst_238 (constant S_ .f32 0x3EEA01E8#32),
    nullary main_cst_239 (constant S_ .f32 0x44800000#32),
    binary main_cst_238 main_cst_239 main_v359 (mulf : (⟨S_, .f32⟩ : BufTy).Contents (Elt F) → (⟨S_, .f32⟩ : BufTy).Contents (Elt F) → (⟨S_, .f32⟩ : BufTy).Contents (Elt F)),
    TRef.unary (TRef.of (T := ⟨S_, .f32⟩) main_v359) (TRef.of (T := ⟨S_, .f32⟩) main_v360) Host.roundeven,
    nullary main_cst_240 (constant S_ .f32 0x44800000#32),
    binary main_v360 main_cst_240 main_v361 (Host.divf : (⟨S_, .f32⟩ : BufTy).Contents (Elt F) → (⟨S_, .f32⟩ : BufTy).Contents (Elt F) → (⟨S_, .f32⟩ : BufTy).Contents (Elt F)),
    nullary main_cst_241 (constant S_ .f32 0xC2800000#32),
    nullary main_cst_242 (constant S_ .f32 0x427FFF00#32),
    TRef.binary (TRef.of (T := ⟨S_, .f32⟩) main_cst_241) (TRef.of (T := ⟨S_, .f32⟩) main_v361) (TRef.of (T := ⟨S_, .f32⟩) main_call107_v0) maximumf,
    TRef.binary (TRef.of (T := ⟨S_, .f32⟩) main_cst_242) (TRef.of (T := ⟨S_, .f32⟩) main_call107_v0) (TRef.of (T := ⟨S_, .f32⟩) main_v362) minimumf,
    nullary main_cst_243 (constant S_ .f32 0x44800000#32),
    unary main_cst_243 main_v363 (broadcastInDim S4000000 ![] bcast_S_S4000000 : (⟨S_, .f32⟩ : BufTy).Contents (Elt F) → (⟨S4000000, .f32⟩ : BufTy).Contents (Elt F)),
    binary main_v11 main_v363 main_v364 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v364) (TRef.of (T := ⟨S4000000, .f32⟩) main_v365) Host.roundeven,
    nullary main_cst_244 (constant S_ .f32 0x44800000#32),
    unary main_cst_244 main_v366 (broadcastInDim S4000000 ![] bcast_S_S4000000 : (⟨S_, .f32⟩ : BufTy).Contents (Elt F) → (⟨S4000000, .f32⟩ : BufTy).Contents (Elt F)),
    binary main_v365 main_v366 main_v367 (Host.divf : (⟨S4000000, .f32⟩ : BufTy).Contents (Elt F) → (⟨S4000000, .f32⟩ : BufTy).Contents (Elt F) → (⟨S4000000, .f32⟩ : BufTy).Contents (Elt F)),
    nullary main_cst_245 (constant S_ .f32 0xC2800000#32),
    nullary main_cst_246 (constant S_ .f32 0x427FFF00#32),
    TRef.unary (TRef.of (T := ⟨S_, .f32⟩) main_cst_245) (TRef.of (T := ⟨S4000000, .f32⟩) main_call109_v0) (broadcastInDim S4000000 ![] bcast_S_S4000000),
    TRef.binary (TRef.of (T := ⟨S4000000, .f32⟩) main_call109_v0) (TRef.of (T := ⟨S4000000, .f32⟩) main_v367) (TRef.of (T := ⟨S4000000, .f32⟩) main_call109_v1) maximumf,
    TRef.unary (TRef.of (T := ⟨S_, .f32⟩) main_cst_246) (TRef.of (T := ⟨S4000000, .f32⟩) main_call109_v2) (broadcastInDim S4000000 ![] bcast_S_S4000000),
    TRef.binary (TRef.of (T := ⟨S4000000, .f32⟩) main_call109_v2) (TRef.of (T := ⟨S4000000, .f32⟩) main_call109_v1) (TRef.of (T := ⟨S4000000, .f32⟩) main_v368) minimumf,
    unary main_v362 main_v369 (broadcastInDim S4000000 ![] bcast_S_S4000000 : (⟨S_, .f32⟩ : BufTy).Contents (Elt F) → (⟨S4000000, .f32⟩ : BufTy).Contents (Elt F)),
    binary main_v369 main_v368 main_v370 (mulf : (⟨S4000000, .f32⟩ : BufTy).Contents (Elt F) → (⟨S4000000, .f32⟩ : BufTy).Contents (Elt F) → (⟨S4000000, .f32⟩ : BufTy).Contents (Elt F)),
    nullary main_cst_247 (constant S_ .f32 0x40A00000#32),
    unary main_cst_247 main_v371 (broadcastInDim S4000000 ![] bcast_S_S4000000 : (⟨S_, .f32⟩ : BufTy).Contents (Elt F) → (⟨S4000000, .f32⟩ : BufTy).Contents (Elt F)),
    binary main_v371 main_v77 main_v372 (mulf : (⟨S4000000, .f32⟩ : BufTy).Contents (Elt F) → (⟨S4000000, .f32⟩ : BufTy).Contents (Elt F) → (⟨S4000000, .f32⟩ : BufTy).Contents (Elt F)),
    nullary main_cst_248 (constant S_ .f32 0x3F800000#32),
    unary main_cst_248 main_v373 (broadcastInDim S4000000 ![] bcast_S_S4000000 : (⟨S_, .f32⟩ : BufTy).Contents (Elt F) → (⟨S4000000, .f32⟩ : BufTy).Contents (Elt F)),
    binary main_v373 main_v372 main_v374 (subf : (⟨S4000000, .f32⟩ : BufTy).Contents (Elt F) → (⟨S4000000, .f32⟩ : BufTy).Contents (Elt F) → (⟨S4000000, .f32⟩ : BufTy).Contents (Elt F)),
    nullary main_cst_249 (constant S_ .f32 0x44800000#32),
    unary main_cst_249 main_v375 (broadcastInDim S4000000 ![] bcast_S_S4000000 : (⟨S_, .f32⟩ : BufTy).Contents (Elt F) → (⟨S4000000, .f32⟩ : BufTy).Contents (Elt F)),
    binary main_v374 main_v375 main_v376 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v376) (TRef.of (T := ⟨S4000000, .f32⟩) main_v377) Host.roundeven,
    nullary main_cst_250 (constant S_ .f32 0x44800000#32),
    unary main_cst_250 main_v378 (broadcastInDim S4000000 ![] bcast_S_S4000000 : (⟨S_, .f32⟩ : BufTy).Contents (Elt F) → (⟨S4000000, .f32⟩ : BufTy).Contents (Elt F)),
    binary main_v377 main_v378 main_v379 (Host.divf : (⟨S4000000, .f32⟩ : BufTy).Contents (Elt F) → (⟨S4000000, .f32⟩ : BufTy).Contents (Elt F) → (⟨S4000000, .f32⟩ : BufTy).Contents (Elt F)),
    nullary main_cst_251 (constant S_ .f32 0xC2800000#32),
    nullary main_cst_252 (constant S_ .f32 0x427FFF00#32),
    TRef.unary (TRef.of (T := ⟨S_, .f32⟩) main_cst_251) (TRef.of (T := ⟨S4000000, .f32⟩) main_call111_v0) (broadcastInDim S4000000 ![] bcast_S_S4000000),
    TRef.binary (TRef.of (T := ⟨S4000000, .f32⟩) main_call111_v0) (TRef.of (T := ⟨S4000000, .f32⟩) main_v379) (TRef.of (T := ⟨S4000000, .f32⟩) main_call111_v1) maximumf,
    TRef.unary (TRef.of (T := ⟨S_, .f32⟩) main_cst_252) (TRef.of (T := ⟨S4000000, .f32⟩) main_call111_v2) (broadcastInDim S4000000 ![] bcast_S_S4000000),
    TRef.binary (TRef.of (T := ⟨S4000000, .f32⟩) main_call111_v2) (TRef.of (T := ⟨S4000000, .f32⟩) main_call111_v1) (TRef.of (T := ⟨S4000000, .f32⟩) main_v380) minimumf,
    binary main_v370 main_v380 main_v381 (mulf : (⟨S4000000, .f32⟩ : BufTy).Contents (Elt F) → (⟨S4000000, .f32⟩ : BufTy).Contents (Elt F) → (⟨S4000000, .f32⟩ : BufTy).Contents (Elt F)),
    nullary main_cst_253 (constant S_ .f32 0x44800000#32),
    unary main_cst_253 main_v382 (broadcastInDim S4000000 ![] bcast_S_S4000000 : (⟨S_, .f32⟩ : BufTy).Contents (Elt F) → (⟨S4000000, .f32⟩ : BufTy).Contents (Elt F)),
    binary main_v381 main_v382 main_v383 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v383) (TRef.of (T := ⟨S4000000, .f32⟩) main_v384) Host.roundeven,
    nullary main_cst_254 (constant S_ .f32 0x44800000#32),
    unary main_cst_254 main_v385 (broadcastInDim S4000000 ![] bcast_S_S4000000 : (⟨S_, .f32⟩ : BufTy).Contents (Elt F) → (⟨S4000000, .f32⟩ : BufTy).Contents (Elt F)),
    binary main_v384 main_v385 main_v386 (Host.divf : (⟨S4000000, .f32⟩ : BufTy).Contents (Elt F) → (⟨S4000000, .f32⟩ : BufTy).Contents (Elt F) → (⟨S4000000, .f32⟩ : BufTy).Contents (Elt F)),
    nullary main_cst_255 (constant S_ .f32 0xC2800000#32),
    nullary main_cst_256 (constant S_ .f32 0x427FFF00#32),
    TRef.unary (TRef.of (T := ⟨S_, .f32⟩) main_cst_255) (TRef.of (T := ⟨S4000000, .f32⟩) main_call113_v0) (broadcastInDim S4000000 ![] bcast_S_S4000000),
    TRef.binary (TRef.of (T := ⟨S4000000, .f32⟩) main_call113_v0) (TRef.of (T := ⟨S4000000, .f32⟩) main_v386) (TRef.of (T := ⟨S4000000, .f32⟩) main_call113_v1) maximumf,
    TRef.unary (TRef.of (T := ⟨S_, .f32⟩) main_cst_256) (TRef.of (T := ⟨S4000000, .f32⟩) main_call113_v2) (broadcastInDim S4000000 ![] bcast_S_S4000000),
    TRef.binary (TRef.of (T := ⟨S4000000, .f32⟩) main_call113_v2) (TRef.of (T := ⟨S4000000, .f32⟩) main_call113_v1) (TRef.of (T := ⟨S4000000, .f32⟩) main_v387) minimumf ]

def C14 : List (HloOp τ sig (Elt F)) :=
  [ nullary main_cst_257 (constant S_ .f32 0x3FB8FFC7#32),
    nullary main_cst_258 (constant S_ .f32 0x44800000#32),
    binary main_cst_257 main_cst_258 main_v388 (mulf : (⟨S_, .f32⟩ : BufTy).Contents (Elt F) → (⟨S_, .f32⟩ : BufTy).Contents (Elt F) → (⟨S_, .f32⟩ : BufTy).Contents (Elt F)),
    TRef.unary (TRef.of (T := ⟨S_, .f32⟩) main_v388) (TRef.of (T := ⟨S_, .f32⟩) main_v389) Host.roundeven,
    nullary main_cst_259 (constant S_ .f32 0x44800000#32),
    binary main_v389 main_cst_259 main_v390 (Host.divf : (⟨S_, .f32⟩ : BufTy).Contents (Elt F) → (⟨S_, .f32⟩ : BufTy).Contents (Elt F) → (⟨S_, .f32⟩ : BufTy).Contents (Elt F)),
    nullary main_cst_260 (constant S_ .f32 0xC2800000#32),
    nullary main_cst_261 (constant S_ .f32 0x427FFF00#32),
    TRef.binary (TRef.of (T := ⟨S_, .f32⟩) main_cst_260) (TRef.of (T := ⟨S_, .f32⟩) main_v390) (TRef.of (T := ⟨S_, .f32⟩) main_call115_v0) maximumf,
    TRef.binary (TRef.of (T := ⟨S_, .f32⟩) main_cst_261) (TRef.of (T := ⟨S_, .f32⟩) main_call115_v0) (TRef.of (T := ⟨S_, .f32⟩) main_v391) minimumf,
    nullary main_cst_262 (constant S_ .f32 0x44800000#32),
    unary main_cst_262 main_v392 (broadcastInDim S4000000 ![] bcast_S_S4000000 : (⟨S_, .f32⟩ : BufTy).Contents (Elt F) → (⟨S4000000, .f32⟩ : BufTy).Contents (Elt F)),
    binary main_v35 main_v392 main_v393 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v393) (TRef.of (T := ⟨S4000000, .f32⟩) main_v394) Host.roundeven,
    nullary main_cst_263 (constant S_ .f32 0x44800000#32),
    unary main_cst_263 main_v395 (broadcastInDim S4000000 ![] bcast_S_S4000000 : (⟨S_, .f32⟩ : BufTy).Contents (Elt F) → (⟨S4000000, .f32⟩ : BufTy).Contents (Elt F)),
    binary main_v394 main_v395 main_v396 (Host.divf : (⟨S4000000, .f32⟩ : BufTy).Contents (Elt F) → (⟨S4000000, .f32⟩ : BufTy).Contents (Elt F) → (⟨S4000000, .f32⟩ : BufTy).Contents (Elt F)),
    nullary main_cst_264 (constant S_ .f32 0xC2800000#32),
    nullary main_cst_265 (constant S_ .f32 0x427FFF00#32),
    TRef.unary (TRef.of (T := ⟨S_, .f32⟩) main_cst_264) (TRef.of (T := ⟨S4000000, .f32⟩) main_call117_v0) (broadcastInDim S4000000 ![] bcast_S_S4000000),
    TRef.binary (TRef.of (T := ⟨S4000000, .f32⟩) main_call117_v0) (TRef.of (T := ⟨S4000000, .f32⟩) main_v396) (TRef.of (T := ⟨S4000000, .f32⟩) main_call117_v1) maximumf,
    TRef.unary (TRef.of (T := ⟨S_, .f32⟩) main_cst_265) (TRef.of (T := ⟨S4000000, .f32⟩) main_call117_v2) (broadcastInDim S4000000 ![] bcast_S_S4000000),
    TRef.binary (TRef.of (T := ⟨S4000000, .f32⟩) main_call117_v2) (TRef.of (T := ⟨S4000000, .f32⟩) main_call117_v1) (TRef.of (T := ⟨S4000000, .f32⟩) main_v397) minimumf,
    unary main_v391 main_v398 (broadcastInDim S4000000 ![] bcast_S_S4000000 : (⟨S_, .f32⟩ : BufTy).Contents (Elt F) → (⟨S4000000, .f32⟩ : BufTy).Contents (Elt F)),
    binary main_v398 main_v397 main_v399 (mulf : (⟨S4000000, .f32⟩ : BufTy).Contents (Elt F) → (⟨S4000000, .f32⟩ : BufTy).Contents (Elt F) → (⟨S4000000, .f32⟩ : BufTy).Contents (Elt F)),
    binary main_v63 main_v70 main_v400 (subf : (⟨S4000000, .f32⟩ : BufTy).Contents (Elt F) → (⟨S4000000, .f32⟩ : BufTy).Contents (Elt F) → (⟨S4000000, .f32⟩ : BufTy).Contents (Elt F)),
    nullary main_cst_266 (constant S_ .f32 0x44800000#32),
    unary main_cst_266 main_v401 (broadcastInDim S4000000 ![] bcast_S_S4000000 : (⟨S_, .f32⟩ : BufTy).Contents (Elt F) → (⟨S4000000, .f32⟩ : BufTy).Contents (Elt F)),
    binary main_v400 main_v401 main_v402 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v402) (TRef.of (T := ⟨S4000000, .f32⟩) main_v403) Host.roundeven,
    nullary main_cst_267 (constant S_ .f32 0x44800000#32),
    unary main_cst_267 main_v404 (broadcastInDim S4000000 ![] bcast_S_S4000000 : (⟨S_, .f32⟩ : BufTy).Contents (Elt F) → (⟨S4000000, .f32⟩ : BufTy).Contents (Elt F)),
    binary main_v403 main_v404 main_v405 (Host.divf : (⟨S4000000, .f32⟩ : BufTy).Contents (Elt F) → (⟨S4000000, .f32⟩ : BufTy).Contents (Elt F) → (⟨S4000000, .f32⟩ : BufTy).Contents (Elt F)),
    nullary main_cst_268 (constant S_ .f32 0xC2800000#32),
    nullary main_cst_269 (constant S_ .f32 0x427FFF00#32),
    TRef.unary (TRef.of (T := ⟨S_, .f32⟩) main_cst_268) (TRef.of (T := ⟨S4000000, .f32⟩) main_call119_v0) (broadcastInDim S4000000 ![] bcast_S_S4000000),
    TRef.binary (TRef.of (T := ⟨S4000000, .f32⟩) main_call119_v0) (TRef.of (T := ⟨S4000000, .f32⟩) main_v405) (TRef.of (T := ⟨S4000000, .f32⟩) main_call119_v1) maximumf,
    TRef.unary (TRef.of (T := ⟨S_, .f32⟩) main_cst_269) (TRef.of (T := ⟨S4000000, .f32⟩) main_call119_v2) (broadcastInDim S4000000 ![] bcast_S_S4000000),
    TRef.binary (TRef.of (T := ⟨S4000000, .f32⟩) main_call119_v2) (TRef.of (T := ⟨S4000000, .f32⟩) main_call119_v1) (TRef.of (T := ⟨S4000000, .f32⟩) main_v406) minimumf,
    binary main_v399 main_v406 main_v407 (mulf : (⟨S4000000, .f32⟩ : BufTy).Contents (Elt F) → (⟨S4000000, .f32⟩ : BufTy).Contents (Elt F) → (⟨S4000000, .f32⟩ : BufTy).Contents (Elt F)),
    nullary main_cst_270 (constant S_ .f32 0x44800000#32),
    unary main_cst_270 main_v408 (broadcastInDim S4000000 ![] bcast_S_S4000000 : (⟨S_, .f32⟩ : BufTy).Contents (Elt F) → (⟨S4000000, .f32⟩ : BufTy).Contents (Elt F)),
    binary main_v407 main_v408 main_v409 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v409) (TRef.of (T := ⟨S4000000, .f32⟩) main_v410) Host.roundeven,
    nullary main_cst_271 (constant S_ .f32 0x44800000#32),
    unary main_cst_271 main_v411 (broadcastInDim S4000000 ![] bcast_S_S4000000 : (⟨S_, .f32⟩ : BufTy).Contents (Elt F) → (⟨S4000000, .f32⟩ : BufTy).Contents (Elt F)),
    binary main_v410 main_v411 main_v412 (Host.divf : (⟨S4000000, .f32⟩ : BufTy).Contents (Elt F) → (⟨S4000000, .f32⟩ : BufTy).Contents (Elt F) → (⟨S4000000, .f32⟩ : BufTy).Contents (Elt F)),
    nullary main_cst_272 (constant S_ .f32 0xC2800000#32),
    nullary main_cst_273 (constant S_ .f32 0x427FFF00#32),
    TRef.unary (TRef.of (T := ⟨S_, .f32⟩) main_cst_272) (TRef.of (T := ⟨S4000000, .f32⟩) main_call121_v0) (broadcastInDim S4000000 ![] bcast_S_S4000000),
    TRef.binary (TRef.of (T := ⟨S4000000, .f32⟩) main_call121_v0) (TRef.of (T := ⟨S4000000, .f32⟩) main_v412) (TRef.of (T := ⟨S4000000, .f32⟩) main_call121_v1) maximumf,
    TRef.unary (TRef.of (T := ⟨S_, .f32⟩) main_cst_273) (TRef.of (T := ⟨S4000000, .f32⟩) main_call121_v2) (broadcastInDim S4000000 ![] bcast_S_S4000000),
    TRef.binary (TRef.of (T := ⟨S4000000, .f32⟩) main_call121_v2) (TRef.of (T := ⟨S4000000, .f32⟩) main_call121_v1) (TRef.of (T := ⟨S4000000, .f32⟩) main_v413) minimumf ]

def C15 : List (HloOp τ sig (Elt F)) :=
  [ nullary main_cst_274 (constant S_ .f32 0x3F170D19#32),
    nullary main_cst_275 (constant S_ .f32 0x44800000#32),
    binary main_cst_274 main_cst_275 main_v414 (mulf : (⟨S_, .f32⟩ : BufTy).Contents (Elt F) → (⟨S_, .f32⟩ : BufTy).Contents (Elt F) → (⟨S_, .f32⟩ : BufTy).Contents (Elt F)),
    TRef.unary (TRef.of (T := ⟨S_, .f32⟩) main_v414) (TRef.of (T := ⟨S_, .f32⟩) main_v415) Host.roundeven,
    nullary main_cst_276 (constant S_ .f32 0x44800000#32),
    binary main_v415 main_cst_276 main_v416 (Host.divf : (⟨S_, .f32⟩ : BufTy).Contents (Elt F) → (⟨S_, .f32⟩ : BufTy).Contents (Elt F) → (⟨S_, .f32⟩ : BufTy).Contents (Elt F)),
    nullary main_cst_277 (constant S_ .f32 0xC2800000#32),
    nullary main_cst_278 (constant S_ .f32 0x427FFF00#32),
    TRef.binary (TRef.of (T := ⟨S_, .f32⟩) main_cst_277) (TRef.of (T := ⟨S_, .f32⟩) main_v416) (TRef.of (T := ⟨S_, .f32⟩) main_call123_v0) maximumf,
    TRef.binary (TRef.of (T := ⟨S_, .f32⟩) main_cst_278) (TRef.of (T := ⟨S_, .f32⟩) main_call123_v0) (TRef.of (T := ⟨S_, .f32⟩) main_v417) minimumf,
    nullary main_cst_279 (constant S_ .f32 0x44800000#32),
    unary main_cst_279 main_v418 (broadcastInDim S4000000 ![] bcast_S_S4000000 : (⟨S_, .f32⟩ : BufTy).Contents (Elt F) → (⟨S4000000, .f32⟩ : BufTy).Contents (Elt F)),
    binary main_v11 main_v418 main_v419 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v419) (TRef.of (T := ⟨S4000000, .f32⟩) main_v420) Host.roundeven,
    nullary main_cst_280 (constant S_ .f32 0x44800000#32),
    unary main_cst_280 main_v421 (broadcastInDim S4000000 ![] bcast_S_S4000000 : (⟨S_, .f32⟩ : BufTy).Contents (Elt F) → (⟨S4000000, .f32⟩ : BufTy).Contents (Elt F)),
    binary main_v420 main_v421 main_v422 (Host.divf : (⟨S4000000, .f32⟩ : BufTy).Contents (Elt F) → (⟨S4000000, .f32⟩ : BufTy).Contents (Elt F) → (⟨S4000000, .f32⟩ : BufTy).Contents (Elt F)),
    nullary main_cst_281 (constant S_ .f32 0xC2800000#32),
    nullary main_cst_282 (constant S_ .f32 0x427FFF00#32),
    TRef.unary (TRef.of (T := ⟨S_, .f32⟩) main_cst_281) (TRef.of (T := ⟨S4000000, .f32⟩) main_call125_v0) (broadcastInDim S4000000 ![] bcast_S_S4000000),
    TRef.binary (TRef.of (T := ⟨S4000000, .f32⟩) main_call125_v0) (TRef.of (T := ⟨S4000000, .f32⟩) main_v422) (TRef.of (T := ⟨S4000000, .f32⟩) main_call125_v1) maximumf,
    TRef.unary (TRef.of (T := ⟨S_, .f32⟩) main_cst_282) (TRef.of (T := ⟨S4000000, .f32⟩) main_call125_v2) (broadcastInDim S4000000 ![] bcast_S_S4000000),
    TRef.binary (TRef.of (T := ⟨S4000000, .f32⟩) main_call125_v2) (TRef.of (T := ⟨S4000000, .f32⟩) main_call125_v1) (TRef.of (T := ⟨S4000000, .f32⟩) main_v423) minimumf,
    unary main_v417 main_v424 (broadcastInDim S4000000 ![] bcast_S_S4000000 : (⟨S_, .f32⟩ : BufTy).Contents (Elt F) → (⟨S4000000, .f32⟩ : BufTy).Contents (Elt F)),
    binary main_v424 main_v423 main_v425 (mulf : (⟨S4000000, .f32⟩ : BufTy).Contents (Elt F) → (⟨S4000000, .f32⟩ : BufTy).Contents (Elt F) → (⟨S4000000, .f32⟩ : BufTy).Contents (Elt F)),
    unary main_v63 main_v426 (Host.negf : (⟨S4000000, .f32⟩ : BufTy).Contents (Elt F) → (⟨S4000000, .f32⟩ : BufTy).Contents (Elt F)),
    nullary main_cst_283 (constant S_ .f32 0x40400000#32),
    unary main_cst_283 main_v427 (broadcastInDim S4000000 ![] bcast_S_S4000000 : (⟨S_, .f32⟩ : BufTy).Contents (Elt F) → (⟨S4000000, .f32⟩ : BufTy).Contents (Elt F)),
    binary main_v427 main_v70 main_v428 (mulf : (⟨S4000000, .f32⟩ : BufTy).Contents (Elt F) → (⟨S4000000, .f32⟩ : BufTy).Contents (Elt F) → (⟨S4000000, .f32⟩ : BufTy).Contents (Elt F)),
    binary main_v426 main_v428 main_v429 (addf : (⟨S4000000, .f32⟩ : BufTy).Contents (Elt F) → (⟨S4000000, .f32⟩ : BufTy).Contents (Elt F) → (⟨S4000000, .f32⟩ : BufTy).Contents (Elt F)),
    nullary main_cst_284 (constant S_ .f32 0x44800000#32),
    unary main_cst_284 main_v430 (broadcastInDim S4000000 ![] bcast_S_S4000000 : (⟨S_, .f32⟩ : BufTy).Contents (Elt F) → (⟨S4000000, .f32⟩ : BufTy).Contents (Elt F)),
    binary main_v429 main_v430 main_v431 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v431) (TRef.of (T := ⟨S4000000, .f32⟩) main_v432) Host.roundeven,
    nullary main_cst_285 (constant S_ .f32 0x44800000#32),
    unary main_cst_285 main_v433 (broadcastInDim S4000000 ![] bcast_S_S4000000 : (⟨S_, .f32⟩ : BufTy).Contents (Elt F) → (⟨S4000000, .f32⟩ : BufTy).Contents (Elt F)),
    binary main_v432 main_v433 main_v434 (Host.divf : (⟨S4000000, .f32⟩ : BufTy).Contents (Elt F) → (⟨S4000000, .f32⟩ : BufTy).Contents (Elt F) → (⟨S4000000, .f32⟩ : BufTy).Contents (Elt F)),
    nullary main_cst_286 (constant S_ .f32 0xC2800000#32),
    nullary main_cst_287 (constant S_ .f32 0x427FFF00#32),
    TRef.unary (TRef.of (T := ⟨S_, .f32⟩) main_cst_286) (TRef.of (T := ⟨S4000000, .f32⟩) main_call127_v0) (broadcastInDim S4000000 ![] bcast_S_S4000000),
    TRef.binary (TRef.of (T := ⟨S4000000, .f32⟩) main_call127_v0) (TRef.of (T := ⟨S4000000, .f32⟩) main_v434) (TRef.of (T := ⟨S4000000, .f32⟩) main_call127_v1) maximumf,
    TRef.unary (TRef.of (T := ⟨S_, .f32⟩) main_cst_287) (TRef.of (T := ⟨S4000000, .f32⟩) main_call127_v2) (broadcastInDim S4000000 ![] bcast_S_S4000000),
    TRef.binary (TRef.of (T := ⟨S4000000, .f32⟩) main_call127_v2) (TRef.of (T := ⟨S4000000, .f32⟩) main_call127_v1) (TRef.of (T := ⟨S4000000, .f32⟩) main_v435) minimumf,
    binary main_v425 main_v435 main_v436 (mulf : (⟨S4000000, .f32⟩ : BufTy).Contents (Elt F) → (⟨S4000000, .f32⟩ : BufTy).Contents (Elt F) → (⟨S4000000, .f32⟩ : BufTy).Contents (Elt F)),
    nullary main_cst_288 (constant S_ .f32 0x44800000#32),
    unary main_cst_288 main_v437 (broadcastInDim S4000000 ![] bcast_S_S4000000 : (⟨S_, .f32⟩ : BufTy).Contents (Elt F) → (⟨S4000000, .f32⟩ : BufTy).Contents (Elt F)),
    binary main_v436 main_v437 main_v438 (mulf : (⟨S4000000, .f32⟩ : BufTy).Contents (Elt F) → (⟨S4000000, .f32⟩ : BufTy).Contents (Elt F) → (⟨S4000000, .f32⟩ : BufTy).Contents (Elt F)),
    TRef.unary (TRef.of (T := ⟨S4000000, .f32⟩) main_v438) (TRef.of (T := ⟨S4000000, .f32⟩) main_v439) Host.roundeven,
    nullary main_cst_289 (constant S_ .f32 0x44800000#32),
    unary main_cst_289 main_v440 (broadcastInDim S4000000 ![] bcast_S_S4000000 : (⟨S_, .f32⟩ : BufTy).Contents (Elt F) → (⟨S4000000, .f32⟩ : BufTy).Contents (Elt F)),
    binary main_v439 main_v440 main_v441 (Host.divf : (⟨S4000000, .f32⟩ : BufTy).Contents (Elt F) → (⟨S4000000, .f32⟩ : BufTy).Contents (Elt F) → (⟨S4000000, .f32⟩ : BufTy).Contents (Elt F)),
    nullary main_cst_290 (constant S_ .f32 0xC2800000#32),
    nullary main_cst_291 (constant S_ .f32 0x427FFF00#32),
    TRef.unary (TRef.of (T := ⟨S_, .f32⟩) main_cst_290) (TRef.of (T := ⟨S4000000, .f32⟩) main_call129_v0) (broadcastInDim S4000000 ![] bcast_S_S4000000),
    TRef.binary (TRef.of (T := ⟨S4000000, .f32⟩) main_call129_v0) (TRef.of (T := ⟨S4000000, .f32⟩) main_v441) (TRef.of (T := ⟨S4000000, .f32⟩) main_call129_v1) maximumf,
    TRef.unary (TRef.of (T := ⟨S_, .f32⟩) main_cst_291) (TRef.of (T := ⟨S4000000, .f32⟩) main_call129_v2) (broadcastInDim S4000000 ![] bcast_S_S4000000),
    TRef.binary (TRef.of (T := ⟨S4000000, .f32⟩) main_call129_v2) (TRef.of (T := ⟨S4000000, .f32⟩) main_call129_v1) (TRef.of (T := ⟨S4000000, .f32⟩) main_v442) minimumf ]

def FIN : List (HloOp τ sig (Elt F)) :=
  [ unary main_v84 main_v443 (broadcastInDim S4000000x1 ![0] bcast_S4000000_S4000000x1_0 : (⟨S4000000, .f32⟩ : BufTy).Contents (Elt F) → (⟨S4000000x1, .f32⟩ : BufTy).Contents (Elt F)),
    unary main_v102 main_v444 (broadcastInDim S4000000x1 ![0] bcast_S4000000_S4000000x1_0 : (⟨S4000000, .f32⟩ : BufTy).Contents (Elt F) → (⟨S4000000x1, .f32⟩ : BufTy).Contents (Elt F)),
    unary main_v120 main_v445 (broadcastInDim S4000000x1 ![0] bcast_S4000000_S4000000x1_0 : (⟨S4000000, .f32⟩ : BufTy).Contents (Elt F) → (⟨S4000000x1, .f32⟩ : BufTy).Contents (Elt F)),
    unary main_v138 main_v446 (broadcastInDim S4000000x1 ![0] bcast_S4000000_S4000000x1_0 : (⟨S4000000, .f32⟩ : BufTy).Contents (Elt F) → (⟨S4000000x1, .f32⟩ : BufTy).Contents (Elt F)),
    unary main_v156 main_v447 (broadcastInDim S4000000x1 ![0] bcast_S4000000_S4000000x1_0 : (⟨S4000000, .f32⟩ : BufTy).Contents (Elt F) → (⟨S4000000x1, .f32⟩ : BufTy).Contents (Elt F)),
    unary main_v174 main_v448 (broadcastInDim S4000000x1 ![0] bcast_S4000000_S4000000x1_0 : (⟨S4000000, .f32⟩ : BufTy).Contents (Elt F) → (⟨S4000000x1, .f32⟩ : BufTy).Contents (Elt F)),
    unary main_v198 main_v449 (broadcastInDim S4000000x1 ![0] bcast_S4000000_S4000000x1_0 : (⟨S4000000, .f32⟩ : BufTy).Contents (Elt F) → (⟨S4000000x1, .f32⟩ : BufTy).Contents (Elt F)),
    unary main_v216 main_v450 (broadcastInDim S4000000x1 ![0] bcast_S4000000_S4000000x1_0 : (⟨S4000000, .f32⟩ : BufTy).Contents (Elt F) → (⟨S4000000x1, .f32⟩ : BufTy).Contents (Elt F)),
    unary main_v247 main_v451 (broadcastInDim S4000000x1 ![0] bcast_S4000000_S4000000x1_0 : (⟨S4000000, .f32⟩ : BufTy).Contents (Elt F) → (⟨S4000000x1, .f32⟩ : BufTy).Contents (Elt F)),
    unary main_v275 main_v452 (broadcastInDim S4000000x1 ![0] bcast_S4000000_S4000000x1_0 : (⟨S4000000, .f32⟩ : BufTy).Contents (Elt F) → (⟨S4000000x1, .f32⟩ : BufTy).Contents (Elt F)),
    unary main_v300 main_v453 (broadcastInDim S4000000x1 ![0] bcast_S4000000_S4000000x1_0 : (⟨S4000000, .f32⟩ : BufTy).Contents (Elt F) → (⟨S4000000x1, .f32⟩ : BufTy).Contents (Elt F)),
    unary main_v329 main_v454 (broadcastInDim S4000000x1 ![0] bcast_S4000000_S4000000x1_0 : (⟨S4000000, .f32⟩ : BufTy).Contents (Elt F) → (⟨S4000000x1, .f32⟩ : BufTy).Contents (Elt F)),
    unary main_v358 main_v455 (broadcastInDim S4000000x1 ![0] bcast_S4000000_S4000000x1_0 : (⟨S4000000, .f32⟩ : BufTy).Contents (Elt F) → (⟨S4000000x1, .f32⟩ : BufTy).Contents (Elt F)),
    unary main_v387 main_v456 (broadcastInDim S4000000x1 ![0] bcast_S4000000_S4000000x1_0 : (⟨S4000000, .f32⟩ : BufTy).Contents (Elt F) → (⟨S4000000x1, .f32⟩ : BufTy).Contents (Elt F)),
    unary main_v413 main_v457 (broadcastInDim S4000000x1 ![0] bcast_S4000000_S4000000x1_0 : (⟨S4000000, .f32⟩ : BufTy).Contents (Elt F) → (⟨S4000000x1, .f32⟩ : BufTy).Contents (Elt F)),
    unary main_v442 main_v458 (broadcastInDim S4000000x1 ![0] bcast_S4000000_S4000000x1_0 : (⟨S4000000, .f32⟩ : BufTy).Contents (Elt F) → (⟨S4000000x1, .f32⟩ : BufTy).Contents (Elt F)),
    nary ![main_v443, main_v444, main_v445, main_v446, main_v447, main_v448, main_v449, main_v450, main_v451, main_v452, main_v453, main_v454, main_v455, main_v456, main_v457, main_v458] main_v459 (fun u => concatenate S4000000x16 1 [⟨S4000000x1, u 0⟩, ⟨S4000000x1, u 1⟩, ⟨S4000000x1, u 2⟩, ⟨S4000000x1, u 3⟩, ⟨S4000000x1, u 4⟩, ⟨S4000000x1, u 5⟩, ⟨S4000000x1, u 6⟩, ⟨S4000000x1, u 7⟩, ⟨S4000000x1, u 8⟩, ⟨S4000000x1, u 9⟩, ⟨S4000000x1, u 10⟩, ⟨S4000000x1, u 11⟩, ⟨S4000000x1, u 12⟩, ⟨S4000000x1, u 13⟩, ⟨S4000000x1, u 14⟩, ⟨S4000000x1, u 15⟩] concatenates_S4000000x1_S4000000x1_S4000000x1_S4000000x1_S4000000x1_S4000000x1_S4000000x1_S4000000x1_S4000000x1_S4000000x1_S4000000x1_S4000000x1_S4000000x1_S4000000x1_S4000000x1_S4000000x1_S4000000x16_d1) ]

/-- The whole program: the stretches in order. -/
def ops : List (HloOp τ sig (Elt F)) :=
  S0 ++ S1 ++ S2 ++ S3 ++ S4 ++ S5 ++ S6 ++ S7 ++ S8 ++ C0 ++ C1 ++ C2 ++ C3 ++ C4 ++ C5 ++ C6 ++ C7 ++ C8 ++ C9 ++ C10 ++ C11 ++ C12 ++ C13 ++ C14 ++ C15 ++ FIN

end Stretches

/-- A vector over the four million rows, on the extended reals. -/
abbrev VEC : Type := (⟨S4000000, .f32⟩ : BufTy).Contents (Elt Ideal)
/-- A buffer of that type read at a row. -/
abbrev rd (v : VEC) (r : S4000000.Idx) : EReal := v r
/-- A buffer of that type as a function of the row. -/
abbrev rdv (v : VEC) : S4000000.Idx → EReal := v

/-- Column 0 of the input array as a vector over the rows. -/
def raw0 (a : (⟨S4000000x3, .f32⟩ : BufTy).Contents (Elt Ideal)) : VEC :=
  shapeCast _ (extractStridedSlice S4000000x1 ![0, 0] a slices_S4000000x3_S4000000x1_0_0) shapeCasts_S4000000x1_S4000000
/-- Column 1 of the input array as a vector over the rows. -/
def raw1 (a : (⟨S4000000x3, .f32⟩ : BufTy).Contents (Elt Ideal)) : VEC :=
  shapeCast _ (extractStridedSlice S4000000x1 ![0, 1] a slices_S4000000x3_S4000000x1_0_1) shapeCasts_S4000000x1_S4000000
/-- Column 2 of the input array as a vector over the rows. -/
def raw2 (a : (⟨S4000000x3, .f32⟩ : BufTy).Contents (Elt Ideal)) : VEC :=
  shapeCast _ (extractStridedSlice S4000000x1 ![0, 2] a slices_S4000000x3_S4000000x1_0_2) shapeCasts_S4000000x1_S4000000

end Cert.QSH.Ref

end
-- ==== Proof.LibHostRead.lean ====
/-
  Reading a buffer after a stretch of host operations, some of them from outlined functions.

  The contents of a device's buffers after a list of host operations are a fold over the list (`StableHlo.after`): each
  operation replaces its result buffer by its function of its operands' contents and leaves every other buffer. Read at one
  buffer, the fold is that buffer's composed term of the contents before the list.

  An outlined function's operations (a `where`, a `relu`) name their buffers through typed references, and what such an
  operation reads or writes is moved between the value's type and the buffer's own type by a transport along an equation
  between the two types. For a typed reference to a literal buffer that equation holds by computation, so the transport is
  the identity: `toBuf_of` and `ofBuf_of`, by reflexivity, for any signature and any type of values. Rewriting with them
  removes every transport from a composed term. That matters for what comes next: an equation between two composed terms
  with the same operations at the same places is decided argument by argument, but a transport at the head of one side
  hides that, and the comparison then opens `select`, the float comparison or `maximumf` down to their elementwise
  definitions and from there the host's scatter and gather over their whole index ranges.

  `read_results` does the reading: one simp pass over the fold; then, for results the pass leaves standing inside a list
  of operands (the pieces of a `concatenate`), the same two rules by rewriting in place until none applies; then the
  transports. What is left is an equation between terms of the PureOps operations over the contents before the list.
-/
import Idealize.ShloMosaic.Lib.StableHlo.Run

namespace Cert.HostRead

open Idealize.ShloMosaic Idealize.ShloMosaic.StableHlo

variable {sig : RefSig} {Val : EltTy → Type}

/-- Contents moved to a literal buffer's own type are themselves. -/
theorem toBuf_of (r : Ref sig .tc) (h1 : r.ty = r.ty) (h2 : r.space ≠ .host) (h3 : r.isScoped = false)
    (v : r.ty.Contents Val) : (TRef.of r h1 h2 h3 : TRef sig r.ty).toBuf v = v := rfl

/-- Contents moved back from a literal buffer's own type are themselves. -/
theorem ofBuf_of (r : Ref sig .tc) (h1 : r.ty = r.ty) (h2 : r.space ≠ .host) (h3 : r.isScoped = false)
    (v : r.ty.Contents Val) : (TRef.of r h1 h2 h3 : TRef sig r.ty).ofBuf v = v := rfl

/-- Reads a goal `after ops V (Proc.devRef .tc r) = …`, `ops` a literal list of operations over literal buffers, as the
    operations' composed term of `V` at the buffers the list does not write. -/
macro "read_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             repeat (first | rw [toBuf_of] | rw [ofBuf_of])))

end Cert.HostRead
-- ==== Proof.RefReadA.lean ====
/-
  The first thirteen stretches of the reference read back: coordinates, products, columns 0 to 3.

  Each stretch of host operations is read once: the contents of its one result buffer after the stretch, as a function of
  the contents before the stretch of the few buffers it reads, row by row. The operations are pointwise over the rows, so
  at a row the composed operations are the scalar expression in the quantizer q.
-/
import proofs.«106742_j70918499992406_2_alg».proof.Proof.RefSegs
import proofs.«106742_j70918499992406_2_alg».proof.Proof.Spec
import proofs.«106742_j70918499992406_2_alg».proof.Proof.LibHostRead

set_option maxRecDepth 8192

noncomputable section

namespace Cert.QSH.Ref

open Cert.ReferenceIdeal Cert.ReferenceIdeal.Gen Idealize.ShloMosaic Idealize.ShloMosaic.TcCoe Idealize.SL.Sem Idealize.ShloMosaic.StableHlo Cert.QSH Cert.HostRead

set_option maxHeartbeats 2000000 in
/-- After the stretch, its result buffer holds the quantized first coordinate x of every row, as a function of the buffers it reads. -/
theorem read_S0 (V : Valuation τ sig (Elt Ideal)) :
    after (S0 (F := Ideal)) V (no_index (Proc.devRef .tc main_v11)) = fun r => (feat (raw0 (V (Proc.devRef .tc main_arg0)) r)) := by
  unfold S0; read_results; rfl

set_option maxHeartbeats 2000000 in
/-- After the stretch, its result buffer holds the quantized second coordinate y of every row, as a function of the buffers it reads. -/
theorem read_S1 (V : Valuation τ sig (Elt Ideal)) :
    after (S1 (F := Ideal)) V (no_index (Proc.devRef .tc main_v23)) = fun r => (feat (raw1 (V (Proc.devRef .tc main_arg0)) r)) := by
  unfold S1; read_results; rfl

set_option maxHeartbeats 2000000 in
/-- After the stretch, its result buffer holds the quantized third coordinate z of every row, as a function of the buffers it reads. -/
theorem read_S2 (V : Valuation τ sig (Elt Ideal)) :
    after (S2 (F := Ideal)) V (no_index (Proc.devRef .tc main_v35)) = fun r => (feat (raw2 (V (Proc.devRef .tc main_arg0)) r)) := by
  unfold S2; read_results; rfl

set_option maxHeartbeats 2000000 in
/-- After the stretch, its result buffer holds the quantized product xy of every row, as a function of the buffers it reads. -/
theorem read_S3 (V : Valuation τ sig (Elt Ideal)) :
    after (S3 (F := Ideal)) V (no_index (Proc.devRef .tc main_v42)) = fun r => (q ((rd (V (Proc.devRef .tc main_v11)) r) * (rd (V (Proc.devRef .tc main_v23)) r))) := by
  unfold S3; read_results; rfl

set_option maxHeartbeats 2000000 in
/-- After the stretch, its result buffer holds the quantized product xz of every row, as a function of the buffers it reads. -/
theorem read_S4 (V : Valuation τ sig (Elt Ideal)) :
    after (S4 (F := Ideal)) V (no_index (Proc.devRef .tc main_v49)) = fun r => (q ((rd (V (Proc.devRef .tc main_v11)) r) * (rd (V (Proc.devRef .tc main_v35)) r))) := by
  unfold S4; read_results; rfl

set_option maxHeartbeats 2000000 in
/-- After the stretch, its result buffer holds the quantized product yz of every row, as a function of the buffers it reads. -/
theorem read_S5 (V : Valuation τ sig (Elt Ideal)) :
    after (S5 (F := Ideal)) V (no_index (Proc.devRef .tc main_v56)) = fun r => (q ((rd (V (Proc.devRef .tc main_v23)) r) * (rd (V (Proc.devRef .tc main_v35)) r))) := by
  unfold S5; read_results; rfl

set_option maxHeartbeats 2000000 in
/-- After the stretch, its result buffer holds the quantized square x² of every row, as a function of the buffers it reads. -/
theorem read_S6 (V : Valuation τ sig (Elt Ideal)) :
    after (S6 (F := Ideal)) V (no_index (Proc.devRef .tc main_v63)) = fun r => (q ((rd (V (Proc.devRef .tc main_v11)) r) * (rd (V (Proc.devRef .tc main_v11)) r))) := by
  unfold S6; read_results; rfl

set_option maxHeartbeats 2000000 in
/-- After the stretch, its result buffer holds the quantized square y² of every row, as a function of the buffers it reads. -/
theorem read_S7 (V : Valuation τ sig (Elt Ideal)) :
    after (S7 (F := Ideal)) V (no_index (Proc.devRef .tc main_v70)) = fun r => (q ((rd (V (Proc.devRef .tc main_v23)) r) * (rd (V (Proc.devRef .tc main_v23)) r))) := by
  unfold S7; read_results; rfl

set_option maxHeartbeats 2000000 in
/-- After the stretch, its result buffer holds the quantized square z² of every row, as a function of the buffers it reads. -/
theorem read_S8 (V : Valuation τ sig (Elt Ideal)) :
    after (S8 (F := Ideal)) V (no_index (Proc.devRef .tc main_v77)) = fun r => (q ((rd (V (Proc.devRef .tc main_v35)) r) * (rd (V (Proc.devRef .tc main_v35)) r))) := by
  unfold S8; read_results; rfl

set_option maxHeartbeats 2000000 in
/-- After the stretch, its result buffer holds output column 0 of every row, as a function of the buffers it reads. -/
theorem read_C0 (V : Valuation τ sig (Elt Ideal)) :
    after (C0 (F := Ideal)) V (no_index (Proc.devRef .tc main_v84)) = fun r => ((q (K 0x3E906EBB#32)) * (K 0x3F800000#32)) := by
  unfold C0; read_results; rfl

set_option maxHeartbeats 2000000 in
/-- After the stretch, its result buffer holds output column 1 of every row, as a function of the buffers it reads. -/
theorem read_C1 (V : Valuation τ sig (Elt Ideal)) :
    after (C1 (F := Ideal)) V (no_index (Proc.devRef .tc main_v102)) = fun r => (q ((q (K 0xBEFA2A1C#32)) * (q (rd (V (Proc.devRef .tc main_v23)) r)))) := by
  unfold C1; read_results; rfl

set_option maxHeartbeats 2000000 in
/-- After the stretch, its result buffer holds output column 2 of every row, as a function of the buffers it reads. -/
theorem read_C2 (V : Valuation τ sig (Elt Ideal)) :
    after (C2 (F := Ideal)) V (no_index (Proc.devRef .tc main_v120)) = fun r => (q ((q (K 0x3EFA2A1C#32)) * (q (rd (V (Proc.devRef .tc main_v35)) r)))) := by
  unfold C2; read_results; rfl

set_option maxHeartbeats 2000000 in
/-- After the stretch, its result buffer holds output column 3 of every row, as a function of the buffers it reads. -/
theorem read_C3 (V : Valuation τ sig (Elt Ideal)) :
    after (C3 (F := Ideal)) V (no_index (Proc.devRef .tc main_v138)) = fun r => (q ((q (K 0xBEFA2A1C#32)) * (q (rd (V (Proc.devRef .tc main_v11)) r)))) := by
  unfold C3; read_results; rfl

end Cert.QSH.Ref

end
-- ==== Proof.RefReadB.lean ====
/-
  Columns 4 to 9 of the reference read back.

  Each stretch of host operations is read once: the contents of its one result buffer after the stretch, as a function of
  the contents before the stretch of the few buffers it reads, row by row. The operations are pointwise over the rows, so
  at a row the composed operations are the scalar expression in the quantizer q.
-/
import proofs.«106742_j70918499992406_2_alg».proof.Proof.RefSegs
import proofs.«106742_j70918499992406_2_alg».proof.Proof.Spec
import proofs.«106742_j70918499992406_2_alg».proof.Proof.LibHostRead

set_option maxRecDepth 8192

noncomputable section

namespace Cert.QSH.Ref

open Cert.ReferenceIdeal Cert.ReferenceIdeal.Gen Idealize.ShloMosaic Idealize.ShloMosaic.TcCoe Idealize.SL.Sem Idealize.ShloMosaic.StableHlo Cert.QSH Cert.HostRead

set_option maxHeartbeats 2000000 in
/-- After the stretch, its result buffer holds output column 4 of every row, as a function of the buffers it reads. -/
theorem read_C4 (V : Valuation τ sig (Elt Ideal)) :
    after (C4 (F := Ideal)) V (no_index (Proc.devRef .tc main_v156)) = fun r => (q ((q (K 0x3F8BD8A1#32)) * (q (rd (V (Proc.devRef .tc main_v42)) r)))) := by
  unfold C4; read_results; rfl

set_option maxHeartbeats 2000000 in
/-- After the stretch, its result buffer holds output column 5 of every row, as a function of the buffers it reads. -/
theorem read_C5 (V : Valuation τ sig (Elt Ideal)) :
    after (C5 (F := Ideal)) V (no_index (Proc.devRef .tc main_v174)) = fun r => (q ((q (K 0xBF8BD8A1#32)) * (q (rd (V (Proc.devRef .tc main_v56)) r)))) := by
  unfold C5; read_results; rfl

set_option maxHeartbeats 2000000 in
/-- After the stretch, its result buffer holds output column 6 of every row, as a function of the buffers it reads. -/
theorem read_C6 (V : Valuation τ sig (Elt Ideal)) :
    after (C6 (F := Ideal)) V (no_index (Proc.devRef .tc main_v198)) = fun r => (q (((q (K 0x3F723881#32)) * (q (rd (V (Proc.devRef .tc main_v77)) r))) - (q (K 0x3EA17B01#32)))) := by
  unfold C6; read_results; rfl

set_option maxHeartbeats 2000000 in
/-- After the stretch, its result buffer holds output column 7 of every row, as a function of the buffers it reads. -/
theorem read_C7 (V : Valuation τ sig (Elt Ideal)) :
    after (C7 (F := Ideal)) V (no_index (Proc.devRef .tc main_v216)) = fun r => (q ((q (K 0xBF8BD8A1#32)) * (q (rd (V (Proc.devRef .tc main_v49)) r)))) := by
  unfold C7; read_results; rfl

set_option maxHeartbeats 2000000 in
/-- After the stretch, its result buffer holds output column 8 of every row, as a function of the buffers it reads. -/
theorem read_C8 (V : Valuation τ sig (Elt Ideal)) :
    after (C8 (F := Ideal)) V (no_index (Proc.devRef .tc main_v247)) = fun r => (q (((q (K 0x3F0BD8A1#32)) * (q (rd (V (Proc.devRef .tc main_v63)) r))) - ((q (K 0x3F0BD8A1#32)) * (q (rd (V (Proc.devRef .tc main_v70)) r))))) := by
  unfold C8; read_results; rfl

set_option maxHeartbeats 2000000 in
/-- After the stretch, its result buffer holds output column 9 of every row, as a function of the buffers it reads. -/
theorem read_C9 (V : Valuation τ sig (Elt Ideal)) :
    after (C9 (F := Ideal)) V (no_index (Proc.devRef .tc main_v275)) = fun r => (q (((q (K 0x3F170D19#32)) * (q (rd (V (Proc.devRef .tc main_v23)) r))) * (q (((K 0xC0400000#32) * (rd (V (Proc.devRef .tc main_v63)) r)) + (rd (V (Proc.devRef .tc main_v70)) r))))) := by
  unfold C9; read_results; rfl

end Cert.QSH.Ref

end
-- ==== Proof.RefReadC.lean ====
/-
  Columns 10 to 15 of the reference read back, and the last stretch that joins the sixteen columns.

  Each stretch of host operations is read once: the contents of its one result buffer after the stretch, as a function of
  the contents before the stretch of the few buffers it reads, row by row. The operations are pointwise over the rows, so
  at a row the composed operations are the scalar expression in the quantizer q.
-/
import proofs.«106742_j70918499992406_2_alg».proof.Proof.RefSegs
import proofs.«106742_j70918499992406_2_alg».proof.Proof.Spec
import proofs.«106742_j70918499992406_2_alg».proof.Proof.LibHostRead

set_option maxRecDepth 8192

noncomputable section

namespace Cert.QSH.Ref

open Cert.ReferenceIdeal Cert.ReferenceIdeal.Gen Idealize.ShloMosaic Idealize.ShloMosaic.TcCoe Idealize.SL.Sem Idealize.ShloMosaic.StableHlo Cert.QSH Cert.HostRead

set_option maxHeartbeats 2000000 in
/-- After the stretch, its result buffer holds output column 10 of every row, as a function of the buffers it reads. -/
theorem read_C10 (V : Valuation τ sig (Elt Ideal)) :
    after (C10 (F := Ideal)) V (no_index (Proc.devRef .tc main_v300)) = fun r => (q (((q (K 0x4038FFC7#32)) * (q (rd (V (Proc.devRef .tc main_v42)) r))) * (q (rd (V (Proc.devRef .tc main_v35)) r)))) := by
  unfold C10; read_results; rfl

set_option maxHeartbeats 2000000 in
/-- After the stretch, its result buffer holds output column 11 of every row, as a function of the buffers it reads. -/
theorem read_C11 (V : Valuation τ sig (Elt Ideal)) :
    after (C11 (F := Ideal)) V (no_index (Proc.devRef .tc main_v329)) = fun r => (q (((q (K 0x3EEA01E8#32)) * (q (rd (V (Proc.devRef .tc main_v23)) r))) * (q ((K 0x3F800000#32) - ((K 0x40A00000#32) * (rd (V (Proc.devRef .tc main_v77)) r)))))) := by
  unfold C11; read_results; rfl

set_option maxHeartbeats 2000000 in
/-- After the stretch, its result buffer holds output column 12 of every row, as a function of the buffers it reads. -/
theorem read_C12 (V : Valuation τ sig (Elt Ideal)) :
    after (C12 (F := Ideal)) V (no_index (Proc.devRef .tc main_v358)) = fun r => (q (((q (K 0x3EBF10F8#32)) * (q (rd (V (Proc.devRef .tc main_v35)) r))) * (q (((K 0x40A00000#32) * (rd (V (Proc.devRef .tc main_v77)) r)) - (K 0x40400000#32))))) := by
  unfold C12; read_results; rfl

set_option maxHeartbeats 2000000 in
/-- After the stretch, its result buffer holds output column 13 of every row, as a function of the buffers it reads. -/
theorem read_C13 (V : Valuation τ sig (Elt Ideal)) :
    after (C13 (F := Ideal)) V (no_index (Proc.devRef .tc main_v387)) = fun r => (q (((q (K 0x3EEA01E8#32)) * (q (rd (V (Proc.devRef .tc main_v11)) r))) * (q ((K 0x3F800000#32) - ((K 0x40A00000#32) * (rd (V (Proc.devRef .tc main_v77)) r)))))) := by
  unfold C13; read_results; rfl

set_option maxHeartbeats 2000000 in
/-- After the stretch, its result buffer holds output column 14 of every row, as a function of the buffers it reads. -/
theorem read_C14 (V : Valuation τ sig (Elt Ideal)) :
    after (C14 (F := Ideal)) V (no_index (Proc.devRef .tc main_v413)) = fun r => (q (((q (K 0x3FB8FFC7#32)) * (q (rd (V (Proc.devRef .tc main_v35)) r))) * (q ((rd (V (Proc.devRef .tc main_v63)) r) - (rd (V (Proc.devRef .tc main_v70)) r))))) := by
  unfold C14; read_results; rfl

set_option maxHeartbeats 2000000 in
/-- After the stretch, its result buffer holds output column 15 of every row, as a function of the buffers it reads. -/
theorem read_C15 (V : Valuation τ sig (Elt Ideal)) :
    after (C15 (F := Ideal)) V (no_index (Proc.devRef .tc main_v442)) = fun r => (q (((q (K 0x3F170D19#32)) * (q (rd (V (Proc.devRef .tc main_v11)) r))) * (q ((-(rd (V (Proc.devRef .tc main_v63)) r)) + ((K 0x40400000#32) * (rd (V (Proc.devRef .tc main_v70)) r)))))) := by
  unfold C15; read_results; rfl

set_option maxHeartbeats 2000000 in
/-- After the last stretch the result buffer holds the sixteen column buffers, each made an [N, 1] array, joined along the
    second axis. -/
theorem read_FIN (V : Valuation τ sig (Elt Ideal)) :
    after (FIN (F := Ideal)) V (Proc.devRef .tc main_v459)
      = concatenate S4000000x16 1 [⟨S4000000x1, broadcastInDim S4000000x1 ![0] bcast_S4000000_S4000000x1_0 (rdv (V (Proc.devRef .tc main_v84)))⟩,
          ⟨S4000000x1, broadcastInDim S4000000x1 ![0] bcast_S4000000_S4000000x1_0 (rdv (V (Proc.devRef .tc main_v102)))⟩,
          ⟨S4000000x1, broadcastInDim S4000000x1 ![0] bcast_S4000000_S4000000x1_0 (rdv (V (Proc.devRef .tc main_v120)))⟩,
          ⟨S4000000x1, broadcastInDim S4000000x1 ![0] bcast_S4000000_S4000000x1_0 (rdv (V (Proc.devRef .tc main_v138)))⟩,
          ⟨S4000000x1, broadcastInDim S4000000x1 ![0] bcast_S4000000_S4000000x1_0 (rdv (V (Proc.devRef .tc main_v156)))⟩,
          ⟨S4000000x1, broadcastInDim S4000000x1 ![0] bcast_S4000000_S4000000x1_0 (rdv (V (Proc.devRef .tc main_v174)))⟩,
          ⟨S4000000x1, broadcastInDim S4000000x1 ![0] bcast_S4000000_S4000000x1_0 (rdv (V (Proc.devRef .tc main_v198)))⟩,
          ⟨S4000000x1, broadcastInDim S4000000x1 ![0] bcast_S4000000_S4000000x1_0 (rdv (V (Proc.devRef .tc main_v216)))⟩,
          ⟨S4000000x1, broadcastInDim S4000000x1 ![0] bcast_S4000000_S4000000x1_0 (rdv (V (Proc.devRef .tc main_v247)))⟩,
          ⟨S4000000x1, broadcastInDim S4000000x1 ![0] bcast_S4000000_S4000000x1_0 (rdv (V (Proc.devRef .tc main_v275)))⟩,
          ⟨S4000000x1, broadcastInDim S4000000x1 ![0] bcast_S4000000_S4000000x1_0 (rdv (V (Proc.devRef .tc main_v300)))⟩,
          ⟨S4000000x1, broadcastInDim S4000000x1 ![0] bcast_S4000000_S4000000x1_0 (rdv (V (Proc.devRef .tc main_v329)))⟩,
          ⟨S4000000x1, broadcastInDim S4000000x1 ![0] bcast_S4000000_S4000000x1_0 (rdv (V (Proc.devRef .tc main_v358)))⟩,
          ⟨S4000000x1, broadcastInDim S4000000x1 ![0] bcast_S4000000_S4000000x1_0 (rdv (V (Proc.devRef .tc main_v387)))⟩,
          ⟨S4000000x1, broadcastInDim S4000000x1 ![0] bcast_S4000000_S4000000x1_0 (rdv (V (Proc.devRef .tc main_v413)))⟩,
          ⟨S4000000x1, broadcastInDim S4000000x1 ![0] bcast_S4000000_S4000000x1_0 (rdv (V (Proc.devRef .tc main_v442)))⟩] concatenates_S4000000x1_S4000000x1_S4000000x1_S4000000x1_S4000000x1_S4000000x1_S4000000x1_S4000000x1_S4000000x1_S4000000x1_S4000000x1_S4000000x1_S4000000x1_S4000000x1_S4000000x1_S4000000x1_S4000000x16_d1 := by
  unfold FIN; read_results; rfl

end Cert.QSH.Ref

end
-- ==== Proof.RefKeep.lean ====
/-
  What each stretch of the reference writes, and that every other buffer keeps its contents through the stretch.

  The contents after a list of host operations are a fold over the list in which each operation replaces the one buffer it
  writes. So for each stretch the list of the buffers its operations write is recorded, operation by operation, and a
  buffer outside that list is the same before and after the stretch.
-/
import proofs.«106742_j70918499992406_2_alg».proof.Proof.RefSegs

set_option maxRecDepth 8192

noncomputable section

namespace Cert.QSH.Ref

open Cert.ReferenceIdeal Cert.ReferenceIdeal.Gen Idealize.ShloMosaic Idealize.ShloMosaic.TcCoe Idealize.SL.Sem Idealize.ShloMosaic.StableHlo

/-- If the operations of a list write, one by one, exactly the buffers of a second list, then each operation writes
    inside the second list. -/
theorem forall_ws {Val : EltTy → Type} {ops : List (HloOp τ sig Val)} {W : List (Ref sig .tc)}
    (h : List.Forall₂ (fun op y => op.writes = {Proc.devRef (τ := τ) .tc y}) ops W) :
    ops.Forall fun op => op.writes ⊆ (W.map (Proc.devRef (τ := τ) .tc)).toFinset := by
  rw [List.forall_iff_forall_mem]
  induction h with
  | nil => intro op hop; exact absurd hop (List.not_mem_nil)
  | @cons op y ops W hR _ ih =>
    intro o ho
    rcases List.mem_cons.mp ho with rfl | ho
    · rw [hR]
      exact Finset.singleton_subset_iff.mpr (List.mem_toFinset.mpr (List.mem_map_of_mem List.mem_cons_self))
    · exact (ih o ho).trans (fun d hd => by
        rw [List.mem_toFinset] at hd ⊢
        rw [List.map_cons]
        exact List.mem_cons_of_mem _ hd)

/-- The buffers stretch S0 writes, in the order of its operations. -/
abbrev wS0 : List (Ref sig .tc) := [main_v0, main_v1, main_cst, main_v2, main_v3, main_cst_0, main_v4, main_v5, main_cst_1, main_v6, main_v7, main_v8, main_cst_2, main_v9, main_v10, main_cst_3, main_cst_4, main_call1_v0, main_call1_v1, main_call1_v2, main_v11]
theorem W_S0 : (S0 (F := Ideal)).Forall fun op => op.writes ⊆ ((wS0).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))
/-- A buffer stretch S0 does not write keeps its contents through it. -/
theorem keep_S0 (V : Valuation τ sig (Elt Ideal)) (b : Ref sig .tc) (hb : b ∉ wS0) :
    after (S0 (F := Ideal)) V (no_index (Proc.devRef .tc b)) = V (Proc.devRef .tc b) :=
  after_of_writes_sub _ V W_S0 hb

/-- The buffers stretch S1 writes, in the order of its operations. -/
abbrev wS1 : List (Ref sig .tc) := [main_v12, main_v13, main_cst_5, main_v14, main_v15, main_cst_6, main_v16, main_v17, main_cst_7, main_v18, main_v19, main_v20, main_cst_8, main_v21, main_v22, main_cst_9, main_cst_10, main_call3_v0, main_call3_v1, main_call3_v2, main_v23]
theorem W_S1 : (S1 (F := Ideal)).Forall fun op => op.writes ⊆ ((wS1).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))
/-- A buffer stretch S1 does not write keeps its contents through it. -/
theorem keep_S1 (V : Valuation τ sig (Elt Ideal)) (b : Ref sig .tc) (hb : b ∉ wS1) :
    after (S1 (F := Ideal)) V (no_index (Proc.devRef .tc b)) = V (Proc.devRef .tc b) :=
  after_of_writes_sub _ V W_S1 hb

/-- The buffers stretch S2 writes, in the order of its operations. -/
abbrev wS2 : List (Ref sig .tc) := [main_v24, main_v25, main_cst_11, main_v26, main_v27, main_cst_12, main_v28, main_v29, main_cst_13, main_v30, main_v31, main_v32, main_cst_14, main_v33, main_v34, main_cst_15, main_cst_16, main_call5_v0, main_call5_v1, main_call5_v2, main_v35]
theorem W_S2 : (S2 (F := Ideal)).Forall fun op => op.writes ⊆ ((wS2).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))
/-- A buffer stretch S2 does not write keeps its contents through it. -/
theorem keep_S2 (V : Valuation τ sig (Elt Ideal)) (b : Ref sig .tc) (hb : b ∉ wS2) :
    after (S2 (F := Ideal)) V (no_index (Proc.devRef .tc b)) = V (Proc.devRef .tc b) :=
  after_of_writes_sub _ V W_S2 hb

/-- The buffers stretch S3 writes, in the order of its operations. -/
abbrev wS3 : List (Ref sig .tc) := [main_v36, main_cst_17, main_v37, main_v38, main_v39, main_cst_18, main_v40, main_v41, main_cst_19, main_cst_20, main_call7_v0, main_call7_v1, main_call7_v2, main_v42]
theorem W_S3 : (S3 (F := Ideal)).Forall fun op => op.writes ⊆ ((wS3).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.nil)))))))))))))))
/-- A buffer stretch S3 does not write keeps its contents through it. -/
theorem keep_S3 (V : Valuation τ sig (Elt Ideal)) (b : Ref sig .tc) (hb : b ∉ wS3) :
    after (S3 (F := Ideal)) V (no_index (Proc.devRef .tc b)) = V (Proc.devRef .tc b) :=
  after_of_writes_sub _ V W_S3 hb

/-- The buffers stretch S4 writes, in the order of its operations. -/
abbrev wS4 : List (Ref sig .tc) := [main_v43, main_cst_21, main_v44, main_v45, main_v46, main_cst_22, main_v47, main_v48, main_cst_23, main_cst_24, main_call9_v0, main_call9_v1, main_call9_v2, main_v49]
theorem W_S4 : (S4 (F := Ideal)).Forall fun op => op.writes ⊆ ((wS4).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.nil)))))))))))))))
/-- A buffer stretch S4 does not write keeps its contents through it. -/
theorem keep_S4 (V : Valuation τ sig (Elt Ideal)) (b : Ref sig .tc) (hb : b ∉ wS4) :
    after (S4 (F := Ideal)) V (no_index (Proc.devRef .tc b)) = V (Proc.devRef .tc b) :=
  after_of_writes_sub _ V W_S4 hb

/-- The buffers stretch S5 writes, in the order of its operations. -/
abbrev wS5 : List (Ref sig .tc) := [main_v50, main_cst_25, main_v51, main_v52, main_v53, main_cst_26, main_v54, main_v55, main_cst_27, main_cst_28, main_call11_v0, main_call11_v1, main_call11_v2, main_v56]
theorem W_S5 : (S5 (F := Ideal)).Forall fun op => op.writes ⊆ ((wS5).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.nil)))))))))))))))
/-- A buffer stretch S5 does not write keeps its contents through it. -/
theorem keep_S5 (V : Valuation τ sig (Elt Ideal)) (b : Ref sig .tc) (hb : b ∉ wS5) :
    after (S5 (F := Ideal)) V (no_index (Proc.devRef .tc b)) = V (Proc.devRef .tc b) :=
  after_of_writes_sub _ V W_S5 hb

/-- The buffers stretch S6 writes, in the order of its operations. -/
abbrev wS6 : List (Ref sig .tc) := [main_v57, main_cst_29, main_v58, main_v59, main_v60, main_cst_30, main_v61, main_v62, main_cst_31, main_cst_32, main_call13_v0, main_call13_v1, main_call13_v2, main_v63]
theorem W_S6 : (S6 (F := Ideal)).Forall fun op => op.writes ⊆ ((wS6).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.nil)))))))))))))))
/-- A buffer stretch S6 does not write keeps its contents through it. -/
theorem keep_S6 (V : Valuation τ sig (Elt Ideal)) (b : Ref sig .tc) (hb : b ∉ wS6) :
    after (S6 (F := Ideal)) V (no_index (Proc.devRef .tc b)) = V (Proc.devRef .tc b) :=
  after_of_writes_sub _ V W_S6 hb

/-- The buffers stretch S7 writes, in the order of its operations. -/
abbrev wS7 : List (Ref sig .tc) := [main_v64, main_cst_33, main_v65, main_v66, main_v67, main_cst_34, main_v68, main_v69, main_cst_35, main_cst_36, main_call15_v0, main_call15_v1, main_call15_v2, main_v70]
theorem W_S7 : (S7 (F := Ideal)).Forall fun op => op.writes ⊆ ((wS7).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.nil)))))))))))))))
/-- A buffer stretch S7 does not write keeps its contents through it. -/
theorem keep_S7 (V : Valuation τ sig (Elt Ideal)) (b : Ref sig .tc) (hb : b ∉ wS7) :
    after (S7 (F := Ideal)) V (no_index (Proc.devRef .tc b)) = V (Proc.devRef .tc b) :=
  after_of_writes_sub _ V W_S7 hb

/-- The buffers stretch S8 writes, in the order of its operations. -/
abbrev wS8 : List (Ref sig .tc) := [main_v71, main_cst_37, main_v72, main_v73, main_v74, main_cst_38, main_v75, main_v76, main_cst_39, main_cst_40, main_call17_v0, main_call17_v1, main_call17_v2, main_v77]
theorem W_S8 : (S8 (F := Ideal)).Forall fun op => op.writes ⊆ ((wS8).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.nil)))))))))))))))
/-- A buffer stretch S8 does not write keeps its contents through it. -/
theorem keep_S8 (V : Valuation τ sig (Elt Ideal)) (b : Ref sig .tc) (hb : b ∉ wS8) :
    after (S8 (F := Ideal)) V (no_index (Proc.devRef .tc b)) = V (Proc.devRef .tc b) :=
  after_of_writes_sub _ V W_S8 hb

/-- The buffers stretch C0 writes, in the order of its operations. -/
abbrev wC0 : List (Ref sig .tc) := [main_cst_41, main_v78, main_cst_42, main_cst_43, main_v79, main_v80, main_cst_44, main_v81, main_cst_45, main_cst_46, main_call19_v0, main_v82, main_v83, main_v84]
theorem W_C0 : (C0 (F := Ideal)).Forall fun op => op.writes ⊆ ((wC0).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.nil)))))))))))))))
/-- A buffer stretch C0 does not write keeps its contents through it. -/
theorem keep_C0 (V : Valuation τ sig (Elt Ideal)) (b : Ref sig .tc) (hb : b ∉ wC0) :
    after (C0 (F := Ideal)) V (no_index (Proc.devRef .tc b)) = V (Proc.devRef .tc b) :=
  after_of_writes_sub _ V W_C0 hb

/-- The buffers stretch C1 writes, in the order of its operations. -/
abbrev wC1 : List (Ref sig .tc) := [main_cst_47, main_cst_48, main_v85, main_v86, main_cst_49, main_v87, main_cst_50, main_cst_51, main_call21_v0, main_v88, main_cst_52, main_v89, main_v90, main_v91, main_cst_53, main_v92, main_v93, main_cst_54, main_cst_55, main_call23_v0, main_call23_v1, main_call23_v2, main_v94, main_v95, main_v96, main_cst_56, main_v97, main_v98, main_v99, main_cst_57, main_v100, main_v101, main_cst_58, main_cst_59, main_call25_v0, main_call25_v1, main_call25_v2, main_v102]
theorem W_C1 : (C1 (F := Ideal)).Forall fun op => op.writes ⊆ ((wC1).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))
/-- A buffer stretch C1 does not write keeps its contents through it. -/
theorem keep_C1 (V : Valuation τ sig (Elt Ideal)) (b : Ref sig .tc) (hb : b ∉ wC1) :
    after (C1 (F := Ideal)) V (no_index (Proc.devRef .tc b)) = V (Proc.devRef .tc b) :=
  after_of_writes_sub _ V W_C1 hb

/-- The buffers stretch C2 writes, in the order of its operations. -/
abbrev wC2 : List (Ref sig .tc) := [main_cst_60, main_cst_61, main_v103, main_v104, main_cst_62, main_v105, main_cst_63, main_cst_64, main_call27_v0, main_v106, main_cst_65, main_v107, main_v108, main_v109, main_cst_66, main_v110, main_v111, main_cst_67, main_cst_68, main_call29_v0, main_call29_v1, main_call29_v2, main_v112, main_v113, main_v114, main_cst_69, main_v115, main_v116, main_v117, main_cst_70, main_v118, main_v119, main_cst_71, main_cst_72, main_call31_v0, main_call31_v1, main_call31_v2, main_v120]
theorem W_C2 : (C2 (F := Ideal)).Forall fun op => op.writes ⊆ ((wC2).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))
/-- A buffer stretch C2 does not write keeps its contents through it. -/
theorem keep_C2 (V : Valuation τ sig (Elt Ideal)) (b : Ref sig .tc) (hb : b ∉ wC2) :
    after (C2 (F := Ideal)) V (no_index (Proc.devRef .tc b)) = V (Proc.devRef .tc b) :=
  after_of_writes_sub _ V W_C2 hb

/-- The buffers stretch C3 writes, in the order of its operations. -/
abbrev wC3 : List (Ref sig .tc) := [main_cst_73, main_cst_74, main_v121, main_v122, main_cst_75, main_v123, main_cst_76, main_cst_77, main_call33_v0, main_v124, main_cst_78, main_v125, main_v126, main_v127, main_cst_79, main_v128, main_v129, main_cst_80, main_cst_81, main_call35_v0, main_call35_v1, main_call35_v2, main_v130, main_v131, main_v132, main_cst_82, main_v133, main_v134, main_v135, main_cst_83, main_v136, main_v137, main_cst_84, main_cst_85, main_call37_v0, main_call37_v1, main_call37_v2, main_v138]
theorem W_C3 : (C3 (F := Ideal)).Forall fun op => op.writes ⊆ ((wC3).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))
/-- A buffer stretch C3 does not write keeps its contents through it. -/
theorem keep_C3 (V : Valuation τ sig (Elt Ideal)) (b : Ref sig .tc) (hb : b ∉ wC3) :
    after (C3 (F := Ideal)) V (no_index (Proc.devRef .tc b)) = V (Proc.devRef .tc b) :=
  after_of_writes_sub _ V W_C3 hb

/-- The buffers stretch C4 writes, in the order of its operations. -/
abbrev wC4 : List (Ref sig .tc) := [main_cst_86, main_cst_87, main_v139, main_v140, main_cst_88, main_v141, main_cst_89, main_cst_90, main_call39_v0, main_v142, main_cst_91, main_v143, main_v144, main_v145, main_cst_92, main_v146, main_v147, main_cst_93, main_cst_94, main_call41_v0, main_call41_v1, main_call41_v2, main_v148, main_v149, main_v150, main_cst_95, main_v151, main_v152, main_v153, main_cst_96, main_v154, main_v155, main_cst_97, main_cst_98, main_call43_v0, main_call43_v1, main_call43_v2, main_v156]
theorem W_C4 : (C4 (F := Ideal)).Forall fun op => op.writes ⊆ ((wC4).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))
/-- A buffer stretch C4 does not write keeps its contents through it. -/
theorem keep_C4 (V : Valuation τ sig (Elt Ideal)) (b : Ref sig .tc) (hb : b ∉ wC4) :
    after (C4 (F := Ideal)) V (no_index (Proc.devRef .tc b)) = V (Proc.devRef .tc b) :=
  after_of_writes_sub _ V W_C4 hb

/-- The buffers stretch C5 writes, in the order of its operations. -/
abbrev wC5 : List (Ref sig .tc) := [main_cst_99, main_cst_100, main_v157, main_v158, main_cst_101, main_v159, main_cst_102, main_cst_103, main_call45_v0, main_v160, main_cst_104, main_v161, main_v162, main_v163, main_cst_105, main_v164, main_v165, main_cst_106, main_cst_107, main_call47_v0, main_call47_v1, main_call47_v2, main_v166, main_v167, main_v168, main_cst_108, main_v169, main_v170, main_v171, main_cst_109, main_v172, main_v173, main_cst_110, main_cst_111, main_call49_v0, main_call49_v1, main_call49_v2, main_v174]
theorem W_C5 : (C5 (F := Ideal)).Forall fun op => op.writes ⊆ ((wC5).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))
/-- A buffer stretch C5 does not write keeps its contents through it. -/
theorem keep_C5 (V : Valuation τ sig (Elt Ideal)) (b : Ref sig .tc) (hb : b ∉ wC5) :
    after (C5 (F := Ideal)) V (no_index (Proc.devRef .tc b)) = V (Proc.devRef .tc b) :=
  after_of_writes_sub _ V W_C5 hb

/-- The buffers stretch C6 writes, in the order of its operations. -/
abbrev wC6 : List (Ref sig .tc) := [main_cst_112, main_cst_113, main_v175, main_v176, main_cst_114, main_v177, main_cst_115, main_cst_116, main_call51_v0, main_v178, main_cst_117, main_v179, main_v180, main_v181, main_cst_118, main_v182, main_v183, main_cst_119, main_cst_120, main_call53_v0, main_call53_v1, main_call53_v2, main_v184, main_v185, main_v186, main_cst_121, main_cst_122, main_v187, main_v188, main_cst_123, main_v189, main_cst_124, main_cst_125, main_call55_v0, main_v190, main_v191, main_v192, main_cst_126, main_v193, main_v194, main_v195, main_cst_127, main_v196, main_v197, main_cst_128, main_cst_129, main_call57_v0, main_call57_v1, main_call57_v2, main_v198]
theorem W_C6 : (C6 (F := Ideal)).Forall fun op => op.writes ⊆ ((wC6).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))
/-- A buffer stretch C6 does not write keeps its contents through it. -/
theorem keep_C6 (V : Valuation τ sig (Elt Ideal)) (b : Ref sig .tc) (hb : b ∉ wC6) :
    after (C6 (F := Ideal)) V (no_index (Proc.devRef .tc b)) = V (Proc.devRef .tc b) :=
  after_of_writes_sub _ V W_C6 hb

/-- The buffers stretch C7 writes, in the order of its operations. -/
abbrev wC7 : List (Ref sig .tc) := [main_cst_130, main_cst_131, main_v199, main_v200, main_cst_132, main_v201, main_cst_133, main_cst_134, main_call59_v0, main_v202, main_cst_135, main_v203, main_v204, main_v205, main_cst_136, main_v206, main_v207, main_cst_137, main_cst_138, main_call61_v0, main_call61_v1, main_call61_v2, main_v208, main_v209, main_v210, main_cst_139, main_v211, main_v212, main_v213, main_cst_140, main_v214, main_v215, main_cst_141, main_cst_142, main_call63_v0, main_call63_v1, main_call63_v2, main_v216]
theorem W_C7 : (C7 (F := Ideal)).Forall fun op => op.writes ⊆ ((wC7).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))
/-- A buffer stretch C7 does not write keeps its contents through it. -/
theorem keep_C7 (V : Valuation τ sig (Elt Ideal)) (b : Ref sig .tc) (hb : b ∉ wC7) :
    after (C7 (F := Ideal)) V (no_index (Proc.devRef .tc b)) = V (Proc.devRef .tc b) :=
  after_of_writes_sub _ V W_C7 hb

/-- The buffers stretch C8 writes, in the order of its operations. -/
abbrev wC8 : List (Ref sig .tc) := [main_cst_143, main_cst_144, main_v217, main_v218, main_cst_145, main_v219, main_cst_146, main_cst_147, main_call65_v0, main_v220, main_cst_148, main_v221, main_v222, main_v223, main_cst_149, main_v224, main_v225, main_cst_150, main_cst_151, main_call67_v0, main_call67_v1, main_call67_v2, main_v226, main_v227, main_v228, main_cst_152, main_cst_153, main_v229, main_v230, main_cst_154, main_v231, main_cst_155, main_cst_156, main_call69_v0, main_v232, main_cst_157, main_v233, main_v234, main_v235, main_cst_158, main_v236, main_v237, main_cst_159, main_cst_160, main_call71_v0, main_call71_v1, main_call71_v2, main_v238, main_v239, main_v240, main_v241, main_cst_161, main_v242, main_v243, main_v244, main_cst_162, main_v245, main_v246, main_cst_163, main_cst_164, main_call73_v0, main_call73_v1, main_call73_v2, main_v247]
theorem W_C8 : (C8 (F := Ideal)).Forall fun op => op.writes ⊆ ((wC8).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))
/-- A buffer stretch C8 does not write keeps its contents through it. -/
theorem keep_C8 (V : Valuation τ sig (Elt Ideal)) (b : Ref sig .tc) (hb : b ∉ wC8) :
    after (C8 (F := Ideal)) V (no_index (Proc.devRef .tc b)) = V (Proc.devRef .tc b) :=
  after_of_writes_sub _ V W_C8 hb

/-- The buffers stretch C9 writes, in the order of its operations. -/
abbrev wC9 : List (Ref sig .tc) := [main_cst_165, main_cst_166, main_v248, main_v249, main_cst_167, main_v250, main_cst_168, main_cst_169, main_call75_v0, main_v251, main_cst_170, main_v252, main_v253, main_v254, main_cst_171, main_v255, main_v256, main_cst_172, main_cst_173, main_call77_v0, main_call77_v1, main_call77_v2, main_v257, main_v258, main_v259, main_cst_174, main_v260, main_v261, main_v262, main_cst_175, main_v263, main_v264, main_v265, main_cst_176, main_v266, main_v267, main_cst_177, main_cst_178, main_call79_v0, main_call79_v1, main_call79_v2, main_v268, main_v269, main_cst_179, main_v270, main_v271, main_v272, main_cst_180, main_v273, main_v274, main_cst_181, main_cst_182, main_call81_v0, main_call81_v1, main_call81_v2, main_v275]
theorem W_C9 : (C9 (F := Ideal)).Forall fun op => op.writes ⊆ ((wC9).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))
/-- A buffer stretch C9 does not write keeps its contents through it. -/
theorem keep_C9 (V : Valuation τ sig (Elt Ideal)) (b : Ref sig .tc) (hb : b ∉ wC9) :
    after (C9 (F := Ideal)) V (no_index (Proc.devRef .tc b)) = V (Proc.devRef .tc b) :=
  after_of_writes_sub _ V W_C9 hb

/-- The buffers stretch C10 writes, in the order of its operations. -/
abbrev wC10 : List (Ref sig .tc) := [main_cst_183, main_cst_184, main_v276, main_v277, main_cst_185, main_v278, main_cst_186, main_cst_187, main_call83_v0, main_v279, main_cst_188, main_v280, main_v281, main_v282, main_cst_189, main_v283, main_v284, main_cst_190, main_cst_191, main_call85_v0, main_call85_v1, main_call85_v2, main_v285, main_v286, main_v287, main_cst_192, main_v288, main_v289, main_v290, main_cst_193, main_v291, main_v292, main_cst_194, main_cst_195, main_call87_v0, main_call87_v1, main_call87_v2, main_v293, main_v294, main_cst_196, main_v295, main_v296, main_v297, main_cst_197, main_v298, main_v299, main_cst_198, main_cst_199, main_call89_v0, main_call89_v1, main_call89_v2, main_v300]
theorem W_C10 : (C10 (F := Ideal)).Forall fun op => op.writes ⊆ ((wC10).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))
/-- A buffer stretch C10 does not write keeps its contents through it. -/
theorem keep_C10 (V : Valuation τ sig (Elt Ideal)) (b : Ref sig .tc) (hb : b ∉ wC10) :
    after (C10 (F := Ideal)) V (no_index (Proc.devRef .tc b)) = V (Proc.devRef .tc b) :=
  after_of_writes_sub _ V W_C10 hb

/-- The buffers stretch C11 writes, in the order of its operations. -/
abbrev wC11 : List (Ref sig .tc) := [main_cst_200, main_cst_201, main_v301, main_v302, main_cst_202, main_v303, main_cst_203, main_cst_204, main_call91_v0, main_v304, main_cst_205, main_v305, main_v306, main_v307, main_cst_206, main_v308, main_v309, main_cst_207, main_cst_208, main_call93_v0, main_call93_v1, main_call93_v2, main_v310, main_v311, main_v312, main_cst_209, main_v313, main_v314, main_cst_210, main_v315, main_v316, main_cst_211, main_v317, main_v318, main_v319, main_cst_212, main_v320, main_v321, main_cst_213, main_cst_214, main_call95_v0, main_call95_v1, main_call95_v2, main_v322, main_v323, main_cst_215, main_v324, main_v325, main_v326, main_cst_216, main_v327, main_v328, main_cst_217, main_cst_218, main_call97_v0, main_call97_v1, main_call97_v2, main_v329]
theorem W_C11 : (C11 (F := Ideal)).Forall fun op => op.writes ⊆ ((wC11).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))
/-- A buffer stretch C11 does not write keeps its contents through it. -/
theorem keep_C11 (V : Valuation τ sig (Elt Ideal)) (b : Ref sig .tc) (hb : b ∉ wC11) :
    after (C11 (F := Ideal)) V (no_index (Proc.devRef .tc b)) = V (Proc.devRef .tc b) :=
  after_of_writes_sub _ V W_C11 hb

/-- The buffers stretch C12 writes, in the order of its operations. -/
abbrev wC12 : List (Ref sig .tc) := [main_cst_219, main_cst_220, main_v330, main_v331, main_cst_221, main_v332, main_cst_222, main_cst_223, main_call99_v0, main_v333, main_cst_224, main_v334, main_v335, main_v336, main_cst_225, main_v337, main_v338, main_cst_226, main_cst_227, main_call101_v0, main_call101_v1, main_call101_v2, main_v339, main_v340, main_v341, main_cst_228, main_v342, main_v343, main_cst_229, main_v344, main_v345, main_cst_230, main_v346, main_v347, main_v348, main_cst_231, main_v349, main_v350, main_cst_232, main_cst_233, main_call103_v0, main_call103_v1, main_call103_v2, main_v351, main_v352, main_cst_234, main_v353, main_v354, main_v355, main_cst_235, main_v356, main_v357, main_cst_236, main_cst_237, main_call105_v0, main_call105_v1, main_call105_v2, main_v358]
theorem W_C12 : (C12 (F := Ideal)).Forall fun op => op.writes ⊆ ((wC12).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))
/-- A buffer stretch C12 does not write keeps its contents through it. -/
theorem keep_C12 (V : Valuation τ sig (Elt Ideal)) (b : Ref sig .tc) (hb : b ∉ wC12) :
    after (C12 (F := Ideal)) V (no_index (Proc.devRef .tc b)) = V (Proc.devRef .tc b) :=
  after_of_writes_sub _ V W_C12 hb

/-- The buffers stretch C13 writes, in the order of its operations. -/
abbrev wC13 : List (Ref sig .tc) := [main_cst_238, main_cst_239, main_v359, main_v360, main_cst_240, main_v361, main_cst_241, main_cst_242, main_call107_v0, main_v362, main_cst_243, main_v363, main_v364, main_v365, main_cst_244, main_v366, main_v367, main_cst_245, main_cst_246, main_call109_v0, main_call109_v1, main_call109_v2, main_v368, main_v369, main_v370, main_cst_247, main_v371, main_v372, main_cst_248, main_v373, main_v374, main_cst_249, main_v375, main_v376, main_v377, main_cst_250, main_v378, main_v379, main_cst_251, main_cst_252, main_call111_v0, main_call111_v1, main_call111_v2, main_v380, main_v381, main_cst_253, main_v382, main_v383, main_v384, main_cst_254, main_v385, main_v386, main_cst_255, main_cst_256, main_call113_v0, main_call113_v1, main_call113_v2, main_v387]
theorem W_C13 : (C13 (F := Ideal)).Forall fun op => op.writes ⊆ ((wC13).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))
/-- A buffer stretch C13 does not write keeps its contents through it. -/
theorem keep_C13 (V : Valuation τ sig (Elt Ideal)) (b : Ref sig .tc) (hb : b ∉ wC13) :
    after (C13 (F := Ideal)) V (no_index (Proc.devRef .tc b)) = V (Proc.devRef .tc b) :=
  after_of_writes_sub _ V W_C13 hb

/-- The buffers stretch C14 writes, in the order of its operations. -/
abbrev wC14 : List (Ref sig .tc) := [main_cst_257, main_cst_258, main_v388, main_v389, main_cst_259, main_v390, main_cst_260, main_cst_261, main_call115_v0, main_v391, main_cst_262, main_v392, main_v393, main_v394, main_cst_263, main_v395, main_v396, main_cst_264, main_cst_265, main_call117_v0, main_call117_v1, main_call117_v2, main_v397, main_v398, main_v399, main_v400, main_cst_266, main_v401, main_v402, main_v403, main_cst_267, main_v404, main_v405, main_cst_268, main_cst_269, main_call119_v0, main_call119_v1, main_call119_v2, main_v406, main_v407, main_cst_270, main_v408, main_v409, main_v410, main_cst_271, main_v411, main_v412, main_cst_272, main_cst_273, main_call121_v0, main_call121_v1, main_call121_v2, main_v413]
theorem W_C14 : (C14 (F := Ideal)).Forall fun op => op.writes ⊆ ((wC14).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))
/-- A buffer stretch C14 does not write keeps its contents through it. -/
theorem keep_C14 (V : Valuation τ sig (Elt Ideal)) (b : Ref sig .tc) (hb : b ∉ wC14) :
    after (C14 (F := Ideal)) V (no_index (Proc.devRef .tc b)) = V (Proc.devRef .tc b) :=
  after_of_writes_sub _ V W_C14 hb

/-- The buffers stretch C15 writes, in the order of its operations. -/
abbrev wC15 : List (Ref sig .tc) := [main_cst_274, main_cst_275, main_v414, main_v415, main_cst_276, main_v416, main_cst_277, main_cst_278, main_call123_v0, main_v417, main_cst_279, main_v418, main_v419, main_v420, main_cst_280, main_v421, main_v422, main_cst_281, main_cst_282, main_call125_v0, main_call125_v1, main_call125_v2, main_v423, main_v424, main_v425, main_v426, main_cst_283, main_v427, main_v428, main_v429, main_cst_284, main_v430, main_v431, main_v432, main_cst_285, main_v433, main_v434, main_cst_286, main_cst_287, main_call127_v0, main_call127_v1, main_call127_v2, main_v435, main_v436, main_cst_288, main_v437, main_v438, main_v439, main_cst_289, main_v440, main_v441, main_cst_290, main_cst_291, main_call129_v0, main_call129_v1, main_call129_v2, main_v442]
theorem W_C15 : (C15 (F := Ideal)).Forall fun op => op.writes ⊆ ((wC15).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))
/-- A buffer stretch C15 does not write keeps its contents through it. -/
theorem keep_C15 (V : Valuation τ sig (Elt Ideal)) (b : Ref sig .tc) (hb : b ∉ wC15) :
    after (C15 (F := Ideal)) V (no_index (Proc.devRef .tc b)) = V (Proc.devRef .tc b) :=
  after_of_writes_sub _ V W_C15 hb

/-- The buffers stretch FIN writes, in the order of its operations. -/
abbrev wFIN : List (Ref sig .tc) := [main_v443, main_v444, main_v445, main_v446, main_v447, main_v448, main_v449, main_v450, main_v451, main_v452, main_v453, main_v454, main_v455, main_v456, main_v457, main_v458, main_v459]
theorem W_FIN : (FIN (F := Ideal)).Forall fun op => op.writes ⊆ ((wFIN).map (Proc.devRef (τ := τ) .tc)).toFinset :=
  forall_ws (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))
/-- A buffer stretch FIN does not write keeps its contents through it. -/
theorem keep_FIN (V : Valuation τ sig (Elt Ideal)) (b : Ref sig .tc) (hb : b ∉ wFIN) :
    after (FIN (F := Ideal)) V (no_index (Proc.devRef .tc b)) = V (Proc.devRef .tc b) :=
  after_of_writes_sub _ V W_FIN hb

end Cert.QSH.Ref

end
-- ==== Proof.RefSide.lean ====
/-
  The side conditions under which a straight line of
  host operations runs: every operation touches TensorCore buffers only, and none allocates.
-/
import proofs.«106742_j70918499992406_2_alg».proof.Proof.RefSegs

set_option maxRecDepth 8192

noncomputable section

namespace Cert.QSH.Ref

open Cert.ReferenceIdeal Cert.ReferenceIdeal.Gen Idealize.ShloMosaic Idealize.ShloMosaic.TcCoe Idealize.SL.Sem Idealize.ShloMosaic.StableHlo

/-- No operation of the list allocates a buffer. -/
def AllFresh (l : List (HloOp τ sig (Elt Ideal))) : Prop := ∀ op ∈ l, op.fresh = ∅

theorem AllFresh.append {l₁ l₂ : List (HloOp τ sig (Elt Ideal))} (h₁ : AllFresh l₁) (h₂ : AllFresh l₂) : AllFresh (l₁ ++ l₂) :=
  fun op h => (List.mem_append.mp h).elim (h₁ op) (h₂ op)

theorem sub_S0 : (S0 (F := Ideal)).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_S0 : AllFresh (S0 (F := Ideal)) := by
  intro op h; unfold S0 at h
  repeat (cases h with | head => rfl | tail _ h => ?_)
  exact nomatch h
theorem sub_S1 : (S1 (F := Ideal)).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_S1 : AllFresh (S1 (F := Ideal)) := by
  intro op h; unfold S1 at h
  repeat (cases h with | head => rfl | tail _ h => ?_)
  exact nomatch h
theorem sub_S2 : (S2 (F := Ideal)).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_S2 : AllFresh (S2 (F := Ideal)) := by
  intro op h; unfold S2 at h
  repeat (cases h with | head => rfl | tail _ h => ?_)
  exact nomatch h
theorem sub_S3 : (S3 (F := Ideal)).Forall fun op => op.bufs ⊆ tcRefs τ sig :=
  ⟨binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_S3 : AllFresh (S3 (F := Ideal)) := by
  intro op h; unfold S3 at h
  repeat (cases h with | head => rfl | tail _ h => ?_)
  exact nomatch h
theorem sub_S4 : (S4 (F := Ideal)).Forall fun op => op.bufs ⊆ tcRefs τ sig :=
  ⟨binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_S4 : AllFresh (S4 (F := Ideal)) := by
  intro op h; unfold S4 at h
  repeat (cases h with | head => rfl | tail _ h => ?_)
  exact nomatch h
theorem sub_S5 : (S5 (F := Ideal)).Forall fun op => op.bufs ⊆ tcRefs τ sig :=
  ⟨binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_S5 : AllFresh (S5 (F := Ideal)) := by
  intro op h; unfold S5 at h
  repeat (cases h with | head => rfl | tail _ h => ?_)
  exact nomatch h
theorem sub_S6 : (S6 (F := Ideal)).Forall fun op => op.bufs ⊆ tcRefs τ sig :=
  ⟨binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_S6 : AllFresh (S6 (F := Ideal)) := by
  intro op h; unfold S6 at h
  repeat (cases h with | head => rfl | tail _ h => ?_)
  exact nomatch h
theorem sub_S7 : (S7 (F := Ideal)).Forall fun op => op.bufs ⊆ tcRefs τ sig :=
  ⟨binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_S7 : AllFresh (S7 (F := Ideal)) := by
  intro op h; unfold S7 at h
  repeat (cases h with | head => rfl | tail _ h => ?_)
  exact nomatch h
theorem sub_S8 : (S8 (F := Ideal)).Forall fun op => op.bufs ⊆ tcRefs τ sig :=
  ⟨binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_S8 : AllFresh (S8 (F := Ideal)) := by
  intro op h; unfold S8 at h
  repeat (cases h with | head => rfl | tail _ h => ?_)
  exact nomatch h
theorem sub_C0 : (C0 (F := Ideal)).Forall fun op => op.bufs ⊆ tcRefs τ sig :=
  ⟨nullary_bufs_sub .., unary_bufs_sub .., nullary_bufs_sub .., nullary_bufs_sub .., binary_bufs_sub .., unary_bufs_sub .., nullary_bufs_sub .., binary_bufs_sub .., nullary_bufs_sub .., nullary_bufs_sub .., binary_bufs_sub .., binary_bufs_sub .., unary_bufs_sub .., binary_bufs_sub ..⟩
theorem fresh_C0 : AllFresh (C0 (F := Ideal)) := by
  intro op h; unfold C0 at h
  repeat (cases h with | head => rfl | tail _ h => ?_)
  exact nomatch h
theorem sub_C1 : (C1 (F := Ideal)).Forall fun op => op.bufs ⊆ tcRefs τ sig :=
  ⟨nullary_bufs_sub .., nullary_bufs_sub .., binary_bufs_sub .., unary_bufs_sub .., nullary_bufs_sub .., binary_bufs_sub .., nullary_bufs_sub .., nullary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_C1 : AllFresh (C1 (F := Ideal)) := by
  intro op h; unfold C1 at h
  repeat (cases h with | head => rfl | tail _ h => ?_)
  exact nomatch h
theorem sub_C2 : (C2 (F := Ideal)).Forall fun op => op.bufs ⊆ tcRefs τ sig :=
  ⟨nullary_bufs_sub .., nullary_bufs_sub .., binary_bufs_sub .., unary_bufs_sub .., nullary_bufs_sub .., binary_bufs_sub .., nullary_bufs_sub .., nullary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_C2 : AllFresh (C2 (F := Ideal)) := by
  intro op h; unfold C2 at h
  repeat (cases h with | head => rfl | tail _ h => ?_)
  exact nomatch h
theorem sub_C3 : (C3 (F := Ideal)).Forall fun op => op.bufs ⊆ tcRefs τ sig :=
  ⟨nullary_bufs_sub .., nullary_bufs_sub .., binary_bufs_sub .., unary_bufs_sub .., nullary_bufs_sub .., binary_bufs_sub .., nullary_bufs_sub .., nullary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_C3 : AllFresh (C3 (F := Ideal)) := by
  intro op h; unfold C3 at h
  repeat (cases h with | head => rfl | tail _ h => ?_)
  exact nomatch h
theorem sub_C4 : (C4 (F := Ideal)).Forall fun op => op.bufs ⊆ tcRefs τ sig :=
  ⟨nullary_bufs_sub .., nullary_bufs_sub .., binary_bufs_sub .., unary_bufs_sub .., nullary_bufs_sub .., binary_bufs_sub .., nullary_bufs_sub .., nullary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_C4 : AllFresh (C4 (F := Ideal)) := by
  intro op h; unfold C4 at h
  repeat (cases h with | head => rfl | tail _ h => ?_)
  exact nomatch h
theorem sub_C5 : (C5 (F := Ideal)).Forall fun op => op.bufs ⊆ tcRefs τ sig :=
  ⟨nullary_bufs_sub .., nullary_bufs_sub .., binary_bufs_sub .., unary_bufs_sub .., nullary_bufs_sub .., binary_bufs_sub .., nullary_bufs_sub .., nullary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_C5 : AllFresh (C5 (F := Ideal)) := by
  intro op h; unfold C5 at h
  repeat (cases h with | head => rfl | tail _ h => ?_)
  exact nomatch h
theorem sub_C6 : (C6 (F := Ideal)).Forall fun op => op.bufs ⊆ tcRefs τ sig :=
  ⟨nullary_bufs_sub .., nullary_bufs_sub .., binary_bufs_sub .., unary_bufs_sub .., nullary_bufs_sub .., binary_bufs_sub .., nullary_bufs_sub .., nullary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., unary_bufs_sub .., binary_bufs_sub .., nullary_bufs_sub .., nullary_bufs_sub .., binary_bufs_sub .., unary_bufs_sub .., nullary_bufs_sub .., binary_bufs_sub .., nullary_bufs_sub .., nullary_bufs_sub .., binary_bufs_sub .., binary_bufs_sub .., unary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_C6 : AllFresh (C6 (F := Ideal)) := by
  intro op h; unfold C6 at h
  repeat (cases h with | head => rfl | tail _ h => ?_)
  exact nomatch h
theorem sub_C7 : (C7 (F := Ideal)).Forall fun op => op.bufs ⊆ tcRefs τ sig :=
  ⟨nullary_bufs_sub .., nullary_bufs_sub .., binary_bufs_sub .., unary_bufs_sub .., nullary_bufs_sub .., binary_bufs_sub .., nullary_bufs_sub .., nullary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_C7 : AllFresh (C7 (F := Ideal)) := by
  intro op h; unfold C7 at h
  repeat (cases h with | head => rfl | tail _ h => ?_)
  exact nomatch h
theorem sub_C8 : (C8 (F := Ideal)).Forall fun op => op.bufs ⊆ tcRefs τ sig :=
  ⟨nullary_bufs_sub .., nullary_bufs_sub .., binary_bufs_sub .., unary_bufs_sub .., nullary_bufs_sub .., binary_bufs_sub .., nullary_bufs_sub .., nullary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., unary_bufs_sub .., binary_bufs_sub .., nullary_bufs_sub .., nullary_bufs_sub .., binary_bufs_sub .., unary_bufs_sub .., nullary_bufs_sub .., binary_bufs_sub .., nullary_bufs_sub .., nullary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_C8 : AllFresh (C8 (F := Ideal)) := by
  intro op h; unfold C8 at h
  repeat (cases h with | head => rfl | tail _ h => ?_)
  exact nomatch h
theorem sub_C9 : (C9 (F := Ideal)).Forall fun op => op.bufs ⊆ tcRefs τ sig :=
  ⟨nullary_bufs_sub .., nullary_bufs_sub .., binary_bufs_sub .., unary_bufs_sub .., nullary_bufs_sub .., binary_bufs_sub .., nullary_bufs_sub .., nullary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_C9 : AllFresh (C9 (F := Ideal)) := by
  intro op h; unfold C9 at h
  repeat (cases h with | head => rfl | tail _ h => ?_)
  exact nomatch h
theorem sub_C10 : (C10 (F := Ideal)).Forall fun op => op.bufs ⊆ tcRefs τ sig :=
  ⟨nullary_bufs_sub .., nullary_bufs_sub .., binary_bufs_sub .., unary_bufs_sub .., nullary_bufs_sub .., binary_bufs_sub .., nullary_bufs_sub .., nullary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_C10 : AllFresh (C10 (F := Ideal)) := by
  intro op h; unfold C10 at h
  repeat (cases h with | head => rfl | tail _ h => ?_)
  exact nomatch h
theorem sub_C11 : (C11 (F := Ideal)).Forall fun op => op.bufs ⊆ tcRefs τ sig :=
  ⟨nullary_bufs_sub .., nullary_bufs_sub .., binary_bufs_sub .., unary_bufs_sub .., nullary_bufs_sub .., binary_bufs_sub .., nullary_bufs_sub .., nullary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_C11 : AllFresh (C11 (F := Ideal)) := by
  intro op h; unfold C11 at h
  repeat (cases h with | head => rfl | tail _ h => ?_)
  exact nomatch h
theorem sub_C12 : (C12 (F := Ideal)).Forall fun op => op.bufs ⊆ tcRefs τ sig :=
  ⟨nullary_bufs_sub .., nullary_bufs_sub .., binary_bufs_sub .., unary_bufs_sub .., nullary_bufs_sub .., binary_bufs_sub .., nullary_bufs_sub .., nullary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_C12 : AllFresh (C12 (F := Ideal)) := by
  intro op h; unfold C12 at h
  repeat (cases h with | head => rfl | tail _ h => ?_)
  exact nomatch h
theorem sub_C13 : (C13 (F := Ideal)).Forall fun op => op.bufs ⊆ tcRefs τ sig :=
  ⟨nullary_bufs_sub .., nullary_bufs_sub .., binary_bufs_sub .., unary_bufs_sub .., nullary_bufs_sub .., binary_bufs_sub .., nullary_bufs_sub .., nullary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_C13 : AllFresh (C13 (F := Ideal)) := by
  intro op h; unfold C13 at h
  repeat (cases h with | head => rfl | tail _ h => ?_)
  exact nomatch h
theorem sub_C14 : (C14 (F := Ideal)).Forall fun op => op.bufs ⊆ tcRefs τ sig :=
  ⟨nullary_bufs_sub .., nullary_bufs_sub .., binary_bufs_sub .., unary_bufs_sub .., nullary_bufs_sub .., binary_bufs_sub .., nullary_bufs_sub .., nullary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_C14 : AllFresh (C14 (F := Ideal)) := by
  intro op h; unfold C14 at h
  repeat (cases h with | head => rfl | tail _ h => ?_)
  exact nomatch h
theorem sub_C15 : (C15 (F := Ideal)).Forall fun op => op.bufs ⊆ tcRefs τ sig :=
  ⟨nullary_bufs_sub .., nullary_bufs_sub .., binary_bufs_sub .., unary_bufs_sub .., nullary_bufs_sub .., binary_bufs_sub .., nullary_bufs_sub .., nullary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., unary_bufs_sub .., binary_bufs_sub .., unary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., binary_bufs_sub ..⟩
theorem fresh_C15 : AllFresh (C15 (F := Ideal)) := by
  intro op h; unfold C15 at h
  repeat (cases h with | head => rfl | tail _ h => ?_)
  exact nomatch h
theorem sub_FIN : (FIN (F := Ideal)).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem fresh_FIN : AllFresh (FIN (F := Ideal)) := by
  intro op h; unfold FIN at h
  repeat (cases h with | head => rfl | tail _ h => ?_)
  exact nomatch h

/-- Every operation of the program touches TensorCore buffers only. -/
theorem ops_sub : (ops (F := Ideal)).Forall fun op => op.bufs ⊆ tcRefs τ sig := by
  unfold ops
  simp only [List.forall_append, sub_S0, sub_S1, sub_S2, sub_S3, sub_S4, sub_S5, sub_S6, sub_S7, sub_S8, sub_C0, sub_C1, sub_C2, sub_C3, sub_C4, sub_C5, sub_C6, sub_C7, sub_C8, sub_C9, sub_C10, sub_C11, sub_C12, sub_C13, sub_C14, sub_C15, sub_FIN, and_self]

/-- No operation of the program allocates. -/
theorem ops_fresh : AllFresh (ops (F := Ideal)) := by
  unfold ops
  exact (((((((((((((((((((((((((fresh_S0.append fresh_S1).append fresh_S2).append fresh_S3).append fresh_S4).append fresh_S5).append fresh_S6).append fresh_S7).append fresh_S8).append fresh_C0).append fresh_C1).append fresh_C2).append fresh_C3).append fresh_C4).append fresh_C5).append fresh_C6).append fresh_C7).append fresh_C8).append fresh_C9).append fresh_C10).append fresh_C11).append fresh_C12).append fresh_C13).append fresh_C14).append fresh_C15).append fresh_FIN)

theorem scopedRefs_eq : (Finset.univ.filter fun b : Ref sig .tc => b.isScoped) = ∅ := by decide
theorem scopedSems_eq : (Finset.univ.filter fun sm : SemLoc sig => sm.isScoped .tc) = ∅ := by decide

end Cert.QSH.Ref

end
-- ==== Proof.RefMain.lean ====
/-
  The printed reference program is its twenty-six stretches run in order.
-/
import proofs.«106742_j70918499992406_2_alg».proof.Proof.RefSegs

noncomputable section

namespace Cert.QSH.Ref

open Cert.ReferenceIdeal Cert.ReferenceIdeal.Gen Idealize.ShloMosaic Idealize.ShloMosaic.TcCoe Idealize.SL.Sem Idealize.ShloMosaic.StableHlo

set_option maxRecDepth 200000 in
set_option maxHeartbeats 8000000 in
/-- The printed program is the stretches run in order. -/
theorem main_eq (c : Dev nD) : main (F := Ideal) c = seq (ops (F := Ideal)) := rfl

end Cert.QSH.Ref

end
-- ==== Proof.Coeffs.lean ====
/-
  The coefficients of the quantized spherical-harmonics encoding.

  Each of the thirteen unquantized single-precision coefficients c is a dyadic rational, c · 1024 lies strictly within
  1/2 of an integer n with |n| far below 65536, so the quantizer q (multiply by 1024, round to nearest with ties to even,
  divide by 1024, clamp to [-64, 64 - 1/1024]) sends c to n/1024, and n/1024 is again a single-precision number: the
  quantized coefficient. Hence the two spellings `colR` and `colK` of the sixteen columns are the same functions; in
  column 15 the one remaining difference is 0 - t against -t.
-/
import proofs.«106742_j70918499992406_2_alg».proof.Proof.Spec
import Idealize.ShloMosaic.PureOps.Ideal.Laws
import Mathlib.Tactic

noncomputable section

namespace Cert.QSH

open Idealize.ShloMosaic

/-! ### Rounding to nearest, away from a tie -/

/-- A real strictly within 1/2 of an integer rounds to that integer. -/
theorem roundHalfEven_eq_of_abs_lt (r : ℝ) (n : ℤ) (h : |r - n| < 1 / 2) : Ideal.roundHalfEven r = n := by
  obtain ⟨h1, h2⟩ := abs_lt.mp h
  unfold Ideal.roundHalfEven
  by_cases hn : (n : ℝ) ≤ r
  · have hf : ⌊r⌋ = n := by
      rw [Int.floor_eq_iff]; constructor <;> linarith
    simp only [hf]
    rw [if_pos (by linarith)]
  · have hn' : r < n := not_le.mp hn
    have hf : ⌊r⌋ = n - 1 := by
      rw [Int.floor_eq_iff]; push_cast; constructor <;> linarith
    simp only [hf]
    rw [if_neg (by push_cast; linarith), if_pos (by push_cast; linarith)]
    ring

/-! ### The three constants of the quantizer -/

/-- The scale 2^10. -/
theorem K_44800000 : K 0x44800000#32 = ((1024 : ℝ) : EReal) := by
  simp [Ideal.ofBits, Ideal.ieee, -EReal.coe_mul]; norm_num

/-- The lower clamp bound -64. -/
theorem K_C2800000 : K 0xC2800000#32 = ((-64 : ℝ) : EReal) := by
  simp [Ideal.ofBits, Ideal.ieee, -EReal.coe_mul]; norm_num

/-- The upper clamp bound 64 - 1/1024. -/
theorem K_427FFF00 : K 0x427FFF00#32 = ((65535 / 1024 : ℝ) : EReal) := by
  simp [Ideal.ofBits, Ideal.ieee, -EReal.coe_mul]; norm_num

/-! ### The quantizer on a real close to a multiple of 1/1024 -/

/-- If c · 1024 is strictly within 1/2 of the integer n and n/1024 lies in the clamp range, then q c = n/1024. -/
theorem q_coe_of_abs_lt (c : ℝ) (n : ℤ) (h : |c * 1024 - n| < 1 / 2) (hlo : -65536 ≤ n) (hhi : n ≤ 65535) :
    q (c : EReal) = (((n : ℝ) / 1024 : ℝ) : EReal) := by
  have hlo' : (-65536 : ℝ) ≤ n := by exact_mod_cast hlo
  have hhi' : (n : ℝ) ≤ 65535 := by exact_mod_cast hhi
  have h1 : (-64 : ℝ) ≤ (n : ℝ) * (1 / 1024) := by linarith
  have h2 : (n : ℝ) * (1 / 1024) ≤ 65535 / 1024 := by linarith
  unfold q
  rw [K_44800000, K_C2800000, K_427FFF00, ← EReal.coe_mul, Ideal.liftRound_coe,
    roundHalfEven_eq_of_abs_lt _ n h, Ideal.div_coe (by norm_num), ← EReal.coe_mul,
    max_eq_right (EReal.coe_le_coe_iff.mpr h1), min_eq_right (EReal.coe_le_coe_iff.mpr h2)]
  congr 1; ring

/-! ### The thirteen coefficients: the unquantized number, the quantized number, and q of the first -/

theorem K_3E906EBB : K 0x3E906EBB#32 = ((9465531 / 33554432 : ℝ) : EReal) := by
  simp [Ideal.ofBits, Ideal.ieee, -EReal.coe_mul]; norm_num

theorem K_3E908000 : K 0x3E908000#32 = ((289 / 1024 : ℝ) : EReal) := by
  simp [Ideal.ofBits, Ideal.ieee, -EReal.coe_mul]; norm_num

/-- 9465531/33554432 · 1024 = 288.8651…, nearest integer 289. -/
theorem q_3E906EBB : q (K 0x3E906EBB#32) = K 0x3E908000#32 := by
  rw [K_3E906EBB, K_3E908000, q_coe_of_abs_lt _ (289) (by rw [abs_lt]; constructor <;> norm_num) (by norm_num) (by norm_num)]
  norm_num

theorem K_BEFA2A1C : K 0xBEFA2A1C#32 = ((-4098695 / 8388608 : ℝ) : EReal) := by
  simp [Ideal.ofBits, Ideal.ieee, -EReal.coe_mul]; norm_num

theorem K_BEFA0000 : K 0xBEFA0000#32 = ((-500 / 1024 : ℝ) : EReal) := by
  simp [Ideal.ofBits, Ideal.ieee, -EReal.coe_mul]; norm_num

/-- -4098695/8388608 · 1024 = -500.3290…, nearest integer -500. -/
theorem q_BEFA2A1C : q (K 0xBEFA2A1C#32) = K 0xBEFA0000#32 := by
  rw [K_BEFA2A1C, K_BEFA0000, q_coe_of_abs_lt _ (-500) (by rw [abs_lt]; constructor <;> norm_num) (by norm_num) (by norm_num)]
  norm_num

theorem K_3EFA2A1C : K 0x3EFA2A1C#32 = ((4098695 / 8388608 : ℝ) : EReal) := by
  simp [Ideal.ofBits, Ideal.ieee, -EReal.coe_mul]; norm_num

theorem K_3EFA0000 : K 0x3EFA0000#32 = ((500 / 1024 : ℝ) : EReal) := by
  simp [Ideal.ofBits, Ideal.ieee, -EReal.coe_mul]; norm_num

/-- 4098695/8388608 · 1024 = 500.3290…, nearest integer 500. -/
theorem q_3EFA2A1C : q (K 0x3EFA2A1C#32) = K 0x3EFA0000#32 := by
  rw [K_3EFA2A1C, K_3EFA0000, q_coe_of_abs_lt _ (500) (by rw [abs_lt]; constructor <;> norm_num) (by norm_num) (by norm_num)]
  norm_num

theorem K_3F8BD8A1 : K 0x3F8BD8A1#32 = ((9164961 / 8388608 : ℝ) : EReal) := by
  simp [Ideal.ofBits, Ideal.ieee, -EReal.coe_mul]; norm_num

theorem K_3F8BE000 : K 0x3F8BE000#32 = ((1119 / 1024 : ℝ) : EReal) := by
  simp [Ideal.ofBits, Ideal.ieee, -EReal.coe_mul]; norm_num

/-- 9164961/8388608 · 1024 = 1118.7697…, nearest integer 1119. -/
theorem q_3F8BD8A1 : q (K 0x3F8BD8A1#32) = K 0x3F8BE000#32 := by
  rw [K_3F8BD8A1, K_3F8BE000, q_coe_of_abs_lt _ (1119) (by rw [abs_lt]; constructor <;> norm_num) (by norm_num) (by norm_num)]
  norm_num

theorem K_BF8BD8A1 : K 0xBF8BD8A1#32 = ((-9164961 / 8388608 : ℝ) : EReal) := by
  simp [Ideal.ofBits, Ideal.ieee, -EReal.coe_mul]; norm_num

theorem K_BF8BE000 : K 0xBF8BE000#32 = ((-1119 / 1024 : ℝ) : EReal) := by
  simp [Ideal.ofBits, Ideal.ieee, -EReal.coe_mul]; norm_num

/-- -9164961/8388608 · 1024 = -1118.7697…, nearest integer -1119. -/
theorem q_BF8BD8A1 : q (K 0xBF8BD8A1#32) = K 0xBF8BE000#32 := by
  rw [K_BF8BD8A1, K_BF8BE000, q_coe_of_abs_lt _ (-1119) (by rw [abs_lt]; constructor <;> norm_num) (by norm_num) (by norm_num)]
  norm_num

theorem K_3F723881 : K 0x3F723881#32 = ((15874177 / 16777216 : ℝ) : EReal) := by
  simp [Ideal.ofBits, Ideal.ieee, -EReal.coe_mul]; norm_num

theorem K_3F724000 : K 0x3F724000#32 = ((969 / 1024 : ℝ) : EReal) := by
  simp [Ideal.ofBits, Ideal.ieee, -EReal.coe_mul]; norm_num

/-- 15874177/16777216 · 1024 = 968.8829…, nearest integer 969. -/
theorem q_3F723881 : q (K 0x3F723881#32) = K 0x3F724000#32 := by
  rw [K_3F723881, K_3F724000, q_coe_of_abs_lt _ (969) (by rw [abs_lt]; constructor <;> norm_num) (by norm_num) (by norm_num)]
  norm_num

theorem K_3EA17B01 : K 0x3EA17B01#32 = ((10582785 / 33554432 : ℝ) : EReal) := by
  simp [Ideal.ofBits, Ideal.ieee, -EReal.coe_mul]; norm_num

theorem K_3EA18000 : K 0x3EA18000#32 = ((323 / 1024 : ℝ) : EReal) := by
  simp [Ideal.ofBits, Ideal.ieee, -EReal.coe_mul]; norm_num

/-- 10582785/33554432 · 1024 = 322.9610…, nearest integer 323. -/
theorem q_3EA17B01 : q (K 0x3EA17B01#32) = K 0x3EA18000#32 := by
  rw [K_3EA17B01, K_3EA18000, q_coe_of_abs_lt _ (323) (by rw [abs_lt]; constructor <;> norm_num) (by norm_num) (by norm_num)]
  norm_num

theorem K_3F0BD8A1 : K 0x3F0BD8A1#32 = ((9164961 / 16777216 : ℝ) : EReal) := by
  simp [Ideal.ofBits, Ideal.ieee, -EReal.coe_mul]; norm_num

theorem K_3F0BC000 : K 0x3F0BC000#32 = ((559 / 1024 : ℝ) : EReal) := by
  simp [Ideal.ofBits, Ideal.ieee, -EReal.coe_mul]; norm_num

/-- 9164961/16777216 · 1024 = 559.3848…, nearest integer 559. -/
theorem q_3F0BD8A1 : q (K 0x3F0BD8A1#32) = K 0x3F0BC000#32 := by
  rw [K_3F0BD8A1, K_3F0BC000, q_coe_of_abs_lt _ (559) (by rw [abs_lt]; constructor <;> norm_num) (by norm_num) (by norm_num)]
  norm_num

theorem K_3F170D19 : K 0x3F170D19#32 = ((9899289 / 16777216 : ℝ) : EReal) := by
  simp [Ideal.ofBits, Ideal.ieee, -EReal.coe_mul]; norm_num

theorem K_3F170000 : K 0x3F170000#32 = ((604 / 1024 : ℝ) : EReal) := by
  simp [Ideal.ofBits, Ideal.ieee, -EReal.coe_mul]; norm_num

/-- 9899289/16777216 · 1024 = 604.2047…, nearest integer 604. -/
theorem q_3F170D19 : q (K 0x3F170D19#32) = K 0x3F170000#32 := by
  rw [K_3F170D19, K_3F170000, q_coe_of_abs_lt _ (604) (by rw [abs_lt]; constructor <;> norm_num) (by norm_num) (by norm_num)]
  norm_num

theorem K_4038FFC7 : K 0x4038FFC7#32 = ((12124103 / 4194304 : ℝ) : EReal) := by
  simp [Ideal.ofBits, Ideal.ieee, -EReal.coe_mul]; norm_num

theorem K_40390000 : K 0x40390000#32 = ((2960 / 1024 : ℝ) : EReal) := by
  simp [Ideal.ofBits, Ideal.ieee, -EReal.coe_mul]; norm_num

/-- 12124103/4194304 · 1024 = 2959.9861…, nearest integer 2960. -/
theorem q_4038FFC7 : q (K 0x4038FFC7#32) = K 0x40390000#32 := by
  rw [K_4038FFC7, K_40390000, q_coe_of_abs_lt _ (2960) (by rw [abs_lt]; constructor <;> norm_num) (by norm_num) (by norm_num)]
  norm_num

theorem K_3EEA01E8 : K 0x3EEA01E8#32 = ((1916989 / 4194304 : ℝ) : EReal) := by
  simp [Ideal.ofBits, Ideal.ieee, -EReal.coe_mul]; norm_num

theorem K_3EEA0000 : K 0x3EEA0000#32 = ((468 / 1024 : ℝ) : EReal) := by
  simp [Ideal.ofBits, Ideal.ieee, -EReal.coe_mul]; norm_num

/-- 1916989/4194304 · 1024 = 468.0149…, nearest integer 468. -/
theorem q_3EEA01E8 : q (K 0x3EEA01E8#32) = K 0x3EEA0000#32 := by
  rw [K_3EEA01E8, K_3EEA0000, q_coe_of_abs_lt _ (468) (by rw [abs_lt]; constructor <;> norm_num) (by norm_num) (by norm_num)]
  norm_num

theorem K_3EBF10F8 : K 0x3EBF10F8#32 = ((1565215 / 4194304 : ℝ) : EReal) := by
  simp [Ideal.ofBits, Ideal.ieee, -EReal.coe_mul]; norm_num

theorem K_3EBF0000 : K 0x3EBF0000#32 = ((382 / 1024 : ℝ) : EReal) := by
  simp [Ideal.ofBits, Ideal.ieee, -EReal.coe_mul]; norm_num

/-- 1565215/4194304 · 1024 = 382.1326…, nearest integer 382. -/
theorem q_3EBF10F8 : q (K 0x3EBF10F8#32) = K 0x3EBF0000#32 := by
  rw [K_3EBF10F8, K_3EBF0000, q_coe_of_abs_lt _ (382) (by rw [abs_lt]; constructor <;> norm_num) (by norm_num) (by norm_num)]
  norm_num

theorem K_3FB8FFC7 : K 0x3FB8FFC7#32 = ((12124103 / 8388608 : ℝ) : EReal) := by
  simp [Ideal.ofBits, Ideal.ieee, -EReal.coe_mul]; norm_num

theorem K_3FB90000 : K 0x3FB90000#32 = ((1480 / 1024 : ℝ) : EReal) := by
  simp [Ideal.ofBits, Ideal.ieee, -EReal.coe_mul]; norm_num

/-- 12124103/8388608 · 1024 = 1479.9930…, nearest integer 1480. -/
theorem q_3FB8FFC7 : q (K 0x3FB8FFC7#32) = K 0x3FB90000#32 := by
  rw [K_3FB8FFC7, K_3FB90000, q_coe_of_abs_lt _ (1480) (by rw [abs_lt]; constructor <;> norm_num) (by norm_num) (by norm_num)]
  norm_num

/-! ### The two spellings of the sixteen columns agree -/

/-- `colR` is `colK`: column by column the coefficients agree by the thirteen lemmas above, and in column 15 the
    negation 0 - t is -t. Beyond column 15 both are 0. -/
theorem colR_eq_colK (k : Nat) (x y z : EReal) : colR k x y z = colK k x y z := by
  match k with
  | 0 => simp only [colR, colK, q_3E906EBB]
  | 1 => simp only [colR, colK, q_BEFA2A1C]
  | 2 => simp only [colR, colK, q_3EFA2A1C]
  | 3 => simp only [colR, colK, q_BEFA2A1C]
  | 4 => simp only [colR, colK, q_3F8BD8A1]
  | 5 => simp only [colR, colK, q_BF8BD8A1]
  | 6 => simp only [colR, colK, q_3F723881, q_3EA17B01]
  | 7 => simp only [colR, colK, q_BF8BD8A1]
  | 8 => simp only [colR, colK, q_3F0BD8A1]
  | 9 => simp only [colR, colK, q_3F170D19]
  | 10 => simp only [colR, colK, q_4038FFC7]
  | 11 => simp only [colR, colK, q_3EEA01E8]
  | 12 => simp only [colR, colK, q_3EBF10F8]
  | 13 => simp only [colR, colK, q_3EEA01E8]
  | 14 => simp only [colR, colK, q_3FB8FFC7]
  | 15 => simp only [colR, colK, q_3F170D19, K, Ideal.ofBits_zero_f32, zero_sub]
  | (n + 16) => rfl

end Cert.QSH

end
-- ==== Proof.RefRun.lean ====
/-
  The reference's result, as one function of the input array.

  Reading the stretches one after the other: the last stretch joins sixteen column buffers; each column buffer was
  written by its own stretch and kept by the later ones; each column stretch reads quantized coordinates and products,
  written by the first nine stretches and kept since. Row by row this composes to column k of the quantized coordinates
  of the row, with every coefficient in the form q(c).
-/
import proofs.«106742_j70918499992406_2_alg».proof.Proof.RefReadA
import proofs.«106742_j70918499992406_2_alg».proof.Proof.RefReadB
import proofs.«106742_j70918499992406_2_alg».proof.Proof.RefReadC
import proofs.«106742_j70918499992406_2_alg».proof.Proof.RefKeep
import proofs.«106742_j70918499992406_2_alg».proof.Proof.RefSide
import proofs.«106742_j70918499992406_2_alg».proof.Proof.RefMain
import proofs.«106742_j70918499992406_2_alg».proof.Proof.LibConcat16
import proofs.«106742_j70918499992406_2_alg».proof.Proof.Coeffs
import Idealize.ShloMosaic.Lib.Pipeline.Value
import Idealize.ShloMosaic.Lib.ValueIdx

set_option maxRecDepth 8192

noncomputable section

namespace Cert.QSH.Ref

open Cert.ReferenceIdeal Cert.ReferenceIdeal.Gen Idealize.ShloMosaic Idealize.ShloMosaic.TcCoe Idealize.SL.Sem Idealize.ShloMosaic.StableHlo Cert.QSH Cert.HostRead Idealize.ShloMosaic.ValueIdx

/-- Two stretches run one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- A vector over the rows made an [N, 1] column reads, at (p, 0), the vector's entry p. -/
theorem col_apply (v : S4000000.Idx → EReal) (p : Fin 4000000) :
    broadcastInDim S4000000x1 ![0] bcast_S4000000_S4000000x1_0 v (ix2 p (0 : Fin 1)) = v (ix1 p) :=
  broadcastInDim_apply _ _ v _ _ (fun a => by
    match a with
    | ⟨0, _⟩ =>
      show p.val = if (4000000 : Nat) = 1 then 0 else p.val
      rw [if_neg (by decide)])

/-- Column 0 of the input array at row p. -/
theorem raw0_apply (a : (⟨S4000000x3, .f32⟩ : BufTy).Contents (Elt Ideal)) (p : Fin 4000000) :
    raw0 a (ix1 p) = a (ix2 p (0 : Fin 3)) :=
  Cert.LibConcat16.column_apply 0 a _ _ p (0 : Fin 3) rfl
/-- Column 1 of the input array at row p. -/
theorem raw1_apply (a : (⟨S4000000x3, .f32⟩ : BufTy).Contents (Elt Ideal)) (p : Fin 4000000) :
    raw1 a (ix1 p) = a (ix2 p (1 : Fin 3)) :=
  Cert.LibConcat16.column_apply 1 a _ _ p (1 : Fin 3) rfl
/-- Column 2 of the input array at row p. -/
theorem raw2_apply (a : (⟨S4000000x3, .f32⟩ : BufTy).Contents (Elt Ideal)) (p : Fin 4000000) :
    raw2 a (ix1 p) = a (ix2 p (2 : Fin 3)) :=
  Cert.LibConcat16.column_apply 2 a _ _ p (2 : Fin 3) rfl

/-- One of sixteen things, chosen by an index below sixteen. -/
def pick16 {α : Type} (u0 u1 u2 u3 u4 u5 u6 u7 u8 u9 u10 u11 u12 u13 u14 u15 : α) (k : Fin 16) : α :=
  match k with
  | ⟨0, _⟩ => u0
  | ⟨1, _⟩ => u1
  | ⟨2, _⟩ => u2
  | ⟨3, _⟩ => u3
  | ⟨4, _⟩ => u4
  | ⟨5, _⟩ => u5
  | ⟨6, _⟩ => u6
  | ⟨7, _⟩ => u7
  | ⟨8, _⟩ => u8
  | ⟨9, _⟩ => u9
  | ⟨10, _⟩ => u10
  | ⟨11, _⟩ => u11
  | ⟨12, _⟩ => u12
  | ⟨13, _⟩ => u13
  | ⟨14, _⟩ => u14
  | ⟨15, _⟩ => u15
  | ⟨n + 16, h⟩ => absurd h (by omega)

/-- The choice at each literal index. -/
theorem pick16_at_0 {α : Type} (u0 u1 u2 u3 u4 u5 u6 u7 u8 u9 u10 u11 u12 u13 u14 u15 : α) (hk : 0 < 16) :
    pick16 u0 u1 u2 u3 u4 u5 u6 u7 u8 u9 u10 u11 u12 u13 u14 u15 ⟨0, hk⟩ = u0 := rfl
theorem pick16_at_1 {α : Type} (u0 u1 u2 u3 u4 u5 u6 u7 u8 u9 u10 u11 u12 u13 u14 u15 : α) (hk : 1 < 16) :
    pick16 u0 u1 u2 u3 u4 u5 u6 u7 u8 u9 u10 u11 u12 u13 u14 u15 ⟨1, hk⟩ = u1 := rfl
theorem pick16_at_2 {α : Type} (u0 u1 u2 u3 u4 u5 u6 u7 u8 u9 u10 u11 u12 u13 u14 u15 : α) (hk : 2 < 16) :
    pick16 u0 u1 u2 u3 u4 u5 u6 u7 u8 u9 u10 u11 u12 u13 u14 u15 ⟨2, hk⟩ = u2 := rfl
theorem pick16_at_3 {α : Type} (u0 u1 u2 u3 u4 u5 u6 u7 u8 u9 u10 u11 u12 u13 u14 u15 : α) (hk : 3 < 16) :
    pick16 u0 u1 u2 u3 u4 u5 u6 u7 u8 u9 u10 u11 u12 u13 u14 u15 ⟨3, hk⟩ = u3 := rfl
theorem pick16_at_4 {α : Type} (u0 u1 u2 u3 u4 u5 u6 u7 u8 u9 u10 u11 u12 u13 u14 u15 : α) (hk : 4 < 16) :
    pick16 u0 u1 u2 u3 u4 u5 u6 u7 u8 u9 u10 u11 u12 u13 u14 u15 ⟨4, hk⟩ = u4 := rfl
theorem pick16_at_5 {α : Type} (u0 u1 u2 u3 u4 u5 u6 u7 u8 u9 u10 u11 u12 u13 u14 u15 : α) (hk : 5 < 16) :
    pick16 u0 u1 u2 u3 u4 u5 u6 u7 u8 u9 u10 u11 u12 u13 u14 u15 ⟨5, hk⟩ = u5 := rfl
theorem pick16_at_6 {α : Type} (u0 u1 u2 u3 u4 u5 u6 u7 u8 u9 u10 u11 u12 u13 u14 u15 : α) (hk : 6 < 16) :
    pick16 u0 u1 u2 u3 u4 u5 u6 u7 u8 u9 u10 u11 u12 u13 u14 u15 ⟨6, hk⟩ = u6 := rfl
theorem pick16_at_7 {α : Type} (u0 u1 u2 u3 u4 u5 u6 u7 u8 u9 u10 u11 u12 u13 u14 u15 : α) (hk : 7 < 16) :
    pick16 u0 u1 u2 u3 u4 u5 u6 u7 u8 u9 u10 u11 u12 u13 u14 u15 ⟨7, hk⟩ = u7 := rfl
theorem pick16_at_8 {α : Type} (u0 u1 u2 u3 u4 u5 u6 u7 u8 u9 u10 u11 u12 u13 u14 u15 : α) (hk : 8 < 16) :
    pick16 u0 u1 u2 u3 u4 u5 u6 u7 u8 u9 u10 u11 u12 u13 u14 u15 ⟨8, hk⟩ = u8 := rfl
theorem pick16_at_9 {α : Type} (u0 u1 u2 u3 u4 u5 u6 u7 u8 u9 u10 u11 u12 u13 u14 u15 : α) (hk : 9 < 16) :
    pick16 u0 u1 u2 u3 u4 u5 u6 u7 u8 u9 u10 u11 u12 u13 u14 u15 ⟨9, hk⟩ = u9 := rfl
theorem pick16_at_10 {α : Type} (u0 u1 u2 u3 u4 u5 u6 u7 u8 u9 u10 u11 u12 u13 u14 u15 : α) (hk : 10 < 16) :
    pick16 u0 u1 u2 u3 u4 u5 u6 u7 u8 u9 u10 u11 u12 u13 u14 u15 ⟨10, hk⟩ = u10 := rfl
theorem pick16_at_11 {α : Type} (u0 u1 u2 u3 u4 u5 u6 u7 u8 u9 u10 u11 u12 u13 u14 u15 : α) (hk : 11 < 16) :
    pick16 u0 u1 u2 u3 u4 u5 u6 u7 u8 u9 u10 u11 u12 u13 u14 u15 ⟨11, hk⟩ = u11 := rfl
theorem pick16_at_12 {α : Type} (u0 u1 u2 u3 u4 u5 u6 u7 u8 u9 u10 u11 u12 u13 u14 u15 : α) (hk : 12 < 16) :
    pick16 u0 u1 u2 u3 u4 u5 u6 u7 u8 u9 u10 u11 u12 u13 u14 u15 ⟨12, hk⟩ = u12 := rfl
theorem pick16_at_13 {α : Type} (u0 u1 u2 u3 u4 u5 u6 u7 u8 u9 u10 u11 u12 u13 u14 u15 : α) (hk : 13 < 16) :
    pick16 u0 u1 u2 u3 u4 u5 u6 u7 u8 u9 u10 u11 u12 u13 u14 u15 ⟨13, hk⟩ = u13 := rfl
theorem pick16_at_14 {α : Type} (u0 u1 u2 u3 u4 u5 u6 u7 u8 u9 u10 u11 u12 u13 u14 u15 : α) (hk : 14 < 16) :
    pick16 u0 u1 u2 u3 u4 u5 u6 u7 u8 u9 u10 u11 u12 u13 u14 u15 ⟨14, hk⟩ = u14 := rfl
theorem pick16_at_15 {α : Type} (u0 u1 u2 u3 u4 u5 u6 u7 u8 u9 u10 u11 u12 u13 u14 u15 : α) (hk : 15 < 16) :
    pick16 u0 u1 u2 u3 u4 u5 u6 u7 u8 u9 u10 u11 u12 u13 u14 u15 ⟨15, hk⟩ = u15 := rfl

/-- The sixteen-entry vector at an index is that choice. -/
theorem vec16_eq_pick16 {α : Type} (u0 u1 u2 u3 u4 u5 u6 u7 u8 u9 u10 u11 u12 u13 u14 u15 : α) (k : Fin 16) :
    ![u0, u1, u2, u3, u4, u5, u6, u7, u8, u9, u10, u11, u12, u13, u14, u15] k = pick16 u0 u1 u2 u3 u4 u5 u6 u7 u8 u9 u10 u11 u12 u13 u14 u15 k := by
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨n + 16, h⟩ => exact absurd h (by omega)

/-- Sixteen [N, 1] columns joined along the second axis, read at (p, k): column k at (p, 0). -/
theorem concat16_apply (u0 u1 u2 u3 u4 u5 u6 u7 u8 u9 u10 u11 u12 u13 u14 u15 : S4000000x1.Idx → EReal) (p : Fin 4000000) (k : Fin 16) :
    concatenate S4000000x16 1 [⟨S4000000x1, u0⟩, ⟨S4000000x1, u1⟩, ⟨S4000000x1, u2⟩, ⟨S4000000x1, u3⟩, ⟨S4000000x1, u4⟩, ⟨S4000000x1, u5⟩, ⟨S4000000x1, u6⟩, ⟨S4000000x1, u7⟩, ⟨S4000000x1, u8⟩, ⟨S4000000x1, u9⟩, ⟨S4000000x1, u10⟩, ⟨S4000000x1, u11⟩, ⟨S4000000x1, u12⟩, ⟨S4000000x1, u13⟩, ⟨S4000000x1, u14⟩, ⟨S4000000x1, u15⟩] concatenates_S4000000x1_S4000000x1_S4000000x1_S4000000x1_S4000000x1_S4000000x1_S4000000x1_S4000000x1_S4000000x1_S4000000x1_S4000000x1_S4000000x1_S4000000x1_S4000000x1_S4000000x1_S4000000x1_S4000000x16_d1 (ix2 p k)
      = pick16 u0 u1 u2 u3 u4 u5 u6 u7 u8 u9 u10 u11 u12 u13 u14 u15 k (ix2 p (0 : Fin 1)) :=
  (Cert.LibConcat16.concatenate16_apply ![u0, u1, u2, u3, u4, u5, u6, u7, u8, u9, u10, u11, u12, u13, u14, u15] concatenates_S4000000x1_S4000000x1_S4000000x1_S4000000x1_S4000000x1_S4000000x1_S4000000x1_S4000000x1_S4000000x1_S4000000x1_S4000000x1_S4000000x1_S4000000x1_S4000000x1_S4000000x1_S4000000x1_S4000000x16_d1 p k).trans
    (congrFun (vec16_eq_pick16 u0 u1 u2 u3 u4 u5 u6 u7 u8 u9 u10 u11 u12 u13 u14 u15 k) _)

set_option maxHeartbeats 4000000 in
/-- The input array is never written. -/
theorem arg_kept (V : Valuation τ sig (Elt Ideal)) :
    after (ops (F := Ideal)) V (Proc.devRef .tc main_arg0) = V (Proc.devRef .tc main_arg0) := by
  unfold ops
  simp only [after_append]
  simp (disch := decide) only [keep_S0, keep_S1, keep_S2, keep_S3, keep_S4, keep_S5, keep_S6, keep_S7, keep_S8, keep_C0, keep_C1, keep_C2, keep_C3, keep_C4, keep_C5, keep_C6, keep_C7, keep_C8, keep_C9, keep_C10, keep_C11, keep_C12, keep_C13, keep_C14, keep_C15, keep_FIN]

set_option maxHeartbeats 16000000 in
/-- The result buffer after the whole program: entry (p, k) is column k, in the spelling with coefficients q(c), of the
    quantized coordinates of input row p. -/
theorem ref_value (V : Valuation τ sig (Elt Ideal)) :
    after (ops (F := Ideal)) V (Proc.devRef .tc main_v459) = G colR (V (Proc.devRef .tc main_arg0)) := by
  unfold ops
  simp only [after_append]
  rw [read_FIN]
  funext i
  obtain ⟨p, k, rfl⟩ : ∃ (p : Fin 4000000) (k : Fin 16), i = ix2 p k := ⟨i 0, i 1, eq_ix2 i⟩
  refine (concat16_apply _ _ _ _ _ _ _ _ _ _ _ _ _ _ _ _ p k).trans ?_
  match k with
  | ⟨0, hk⟩ =>
    rw [pick16_at_0]
    refine (col_apply _ p).trans ?_
    simp (disch := decide) only [rdv, rd, read_S0, read_S1, read_S2, read_S3, read_S4, read_S5, read_S6, read_S7, read_S8, read_C0, read_C1, read_C2, read_C3, read_C4, read_C5, read_C6, read_C7, read_C8, read_C9, read_C10, read_C11, read_C12, read_C13, read_C14, read_C15, keep_S0, keep_S1, keep_S2, keep_S3, keep_S4, keep_S5, keep_S6, keep_S7, keep_S8, keep_C0, keep_C1, keep_C2, keep_C3, keep_C4, keep_C5, keep_C6, keep_C7, keep_C8, keep_C9, keep_C10, keep_C11, keep_C12, keep_C13, keep_C14, keep_C15, keep_FIN]
    try simp only [raw0_apply, raw1_apply, raw2_apply]
    rfl
  | ⟨1, hk⟩ =>
    rw [pick16_at_1]
    refine (col_apply _ p).trans ?_
    simp (disch := decide) only [rdv, rd, read_S0, read_S1, read_S2, read_S3, read_S4, read_S5, read_S6, read_S7, read_S8, read_C0, read_C1, read_C2, read_C3, read_C4, read_C5, read_C6, read_C7, read_C8, read_C9, read_C10, read_C11, read_C12, read_C13, read_C14, read_C15, keep_S0, keep_S1, keep_S2, keep_S3, keep_S4, keep_S5, keep_S6, keep_S7, keep_S8, keep_C0, keep_C1, keep_C2, keep_C3, keep_C4, keep_C5, keep_C6, keep_C7, keep_C8, keep_C9, keep_C10, keep_C11, keep_C12, keep_C13, keep_C14, keep_C15, keep_FIN]
    try simp only [raw0_apply, raw1_apply, raw2_apply]
    rfl
  | ⟨2, hk⟩ =>
    rw [pick16_at_2]
    refine (col_apply _ p).trans ?_
    simp (disch := decide) only [rdv, rd, read_S0, read_S1, read_S2, read_S3, read_S4, read_S5, read_S6, read_S7, read_S8, read_C0, read_C1, read_C2, read_C3, read_C4, read_C5, read_C6, read_C7, read_C8, read_C9, read_C10, read_C11, read_C12, read_C13, read_C14, read_C15, keep_S0, keep_S1, keep_S2, keep_S3, keep_S4, keep_S5, keep_S6, keep_S7, keep_S8, keep_C0, keep_C1, keep_C2, keep_C3, keep_C4, keep_C5, keep_C6, keep_C7, keep_C8, keep_C9, keep_C10, keep_C11, keep_C12, keep_C13, keep_C14, keep_C15, keep_FIN]
    try simp only [raw0_apply, raw1_apply, raw2_apply]
    rfl
  | ⟨3, hk⟩ =>
    rw [pick16_at_3]
    refine (col_apply _ p).trans ?_
    simp (disch := decide) only [rdv, rd, read_S0, read_S1, read_S2, read_S3, read_S4, read_S5, read_S6, read_S7, read_S8, read_C0, read_C1, read_C2, read_C3, read_C4, read_C5, read_C6, read_C7, read_C8, read_C9, read_C10, read_C11, read_C12, read_C13, read_C14, read_C15, keep_S0, keep_S1, keep_S2, keep_S3, keep_S4, keep_S5, keep_S6, keep_S7, keep_S8, keep_C0, keep_C1, keep_C2, keep_C3, keep_C4, keep_C5, keep_C6, keep_C7, keep_C8, keep_C9, keep_C10, keep_C11, keep_C12, keep_C13, keep_C14, keep_C15, keep_FIN]
    try simp only [raw0_apply, raw1_apply, raw2_apply]
    rfl
  | ⟨4, hk⟩ =>
    rw [pick16_at_4]
    refine (col_apply _ p).trans ?_
    simp (disch := decide) only [rdv, rd, read_S0, read_S1, read_S2, read_S3, read_S4, read_S5, read_S6, read_S7, read_S8, read_C0, read_C1, read_C2, read_C3, read_C4, read_C5, read_C6, read_C7, read_C8, read_C9, read_C10, read_C11, read_C12, read_C13, read_C14, read_C15, keep_S0, keep_S1, keep_S2, keep_S3, keep_S4, keep_S5, keep_S6, keep_S7, keep_S8, keep_C0, keep_C1, keep_C2, keep_C3, keep_C4, keep_C5, keep_C6, keep_C7, keep_C8, keep_C9, keep_C10, keep_C11, keep_C12, keep_C13, keep_C14, keep_C15, keep_FIN]
    try simp only [raw0_apply, raw1_apply, raw2_apply]
    rfl
  | ⟨5, hk⟩ =>
    rw [pick16_at_5]
    refine (col_apply _ p).trans ?_
    simp (disch := decide) only [rdv, rd, read_S0, read_S1, read_S2, read_S3, read_S4, read_S5, read_S6, read_S7, read_S8, read_C0, read_C1, read_C2, read_C3, read_C4, read_C5, read_C6, read_C7, read_C8, read_C9, read_C10, read_C11, read_C12, read_C13, read_C14, read_C15, keep_S0, keep_S1, keep_S2, keep_S3, keep_S4, keep_S5, keep_S6, keep_S7, keep_S8, keep_C0, keep_C1, keep_C2, keep_C3, keep_C4, keep_C5, keep_C6, keep_C7, keep_C8, keep_C9, keep_C10, keep_C11, keep_C12, keep_C13, keep_C14, keep_C15, keep_FIN]
    try simp only [raw0_apply, raw1_apply, raw2_apply]
    rfl
  | ⟨6, hk⟩ =>
    rw [pick16_at_6]
    refine (col_apply _ p).trans ?_
    simp (disch := decide) only [rdv, rd, read_S0, read_S1, read_S2, read_S3, read_S4, read_S5, read_S6, read_S7, read_S8, read_C0, read_C1, read_C2, read_C3, read_C4, read_C5, read_C6, read_C7, read_C8, read_C9, read_C10, read_C11, read_C12, read_C13, read_C14, read_C15, keep_S0, keep_S1, keep_S2, keep_S3, keep_S4, keep_S5, keep_S6, keep_S7, keep_S8, keep_C0, keep_C1, keep_C2, keep_C3, keep_C4, keep_C5, keep_C6, keep_C7, keep_C8, keep_C9, keep_C10, keep_C11, keep_C12, keep_C13, keep_C14, keep_C15, keep_FIN]
    try simp only [raw0_apply, raw1_apply, raw2_apply]
    rfl
  | ⟨7, hk⟩ =>
    rw [pick16_at_7]
    refine (col_apply _ p).trans ?_
    simp (disch := decide) only [rdv, rd, read_S0, read_S1, read_S2, read_S3, read_S4, read_S5, read_S6, read_S7, read_S8, read_C0, read_C1, read_C2, read_C3, read_C4, read_C5, read_C6, read_C7, read_C8, read_C9, read_C10, read_C11, read_C12, read_C13, read_C14, read_C15, keep_S0, keep_S1, keep_S2, keep_S3, keep_S4, keep_S5, keep_S6, keep_S7, keep_S8, keep_C0, keep_C1, keep_C2, keep_C3, keep_C4, keep_C5, keep_C6, keep_C7, keep_C8, keep_C9, keep_C10, keep_C11, keep_C12, keep_C13, keep_C14, keep_C15, keep_FIN]
    try simp only [raw0_apply, raw1_apply, raw2_apply]
    rfl
  | ⟨8, hk⟩ =>
    rw [pick16_at_8]
    refine (col_apply _ p).trans ?_
    simp (disch := decide) only [rdv, rd, read_S0, read_S1, read_S2, read_S3, read_S4, read_S5, read_S6, read_S7, read_S8, read_C0, read_C1, read_C2, read_C3, read_C4, read_C5, read_C6, read_C7, read_C8, read_C9, read_C10, read_C11, read_C12, read_C13, read_C14, read_C15, keep_S0, keep_S1, keep_S2, keep_S3, keep_S4, keep_S5, keep_S6, keep_S7, keep_S8, keep_C0, keep_C1, keep_C2, keep_C3, keep_C4, keep_C5, keep_C6, keep_C7, keep_C8, keep_C9, keep_C10, keep_C11, keep_C12, keep_C13, keep_C14, keep_C15, keep_FIN]
    try simp only [raw0_apply, raw1_apply, raw2_apply]
    rfl
  | ⟨9, hk⟩ =>
    rw [pick16_at_9]
    refine (col_apply _ p).trans ?_
    simp (disch := decide) only [rdv, rd, read_S0, read_S1, read_S2, read_S3, read_S4, read_S5, read_S6, read_S7, read_S8, read_C0, read_C1, read_C2, read_C3, read_C4, read_C5, read_C6, read_C7, read_C8, read_C9, read_C10, read_C11, read_C12, read_C13, read_C14, read_C15, keep_S0, keep_S1, keep_S2, keep_S3, keep_S4, keep_S5, keep_S6, keep_S7, keep_S8, keep_C0, keep_C1, keep_C2, keep_C3, keep_C4, keep_C5, keep_C6, keep_C7, keep_C8, keep_C9, keep_C10, keep_C11, keep_C12, keep_C13, keep_C14, keep_C15, keep_FIN]
    try simp only [raw0_apply, raw1_apply, raw2_apply]
    rfl
  | ⟨10, hk⟩ =>
    rw [pick16_at_10]
    refine (col_apply _ p).trans ?_
    simp (disch := decide) only [rdv, rd, read_S0, read_S1, read_S2, read_S3, read_S4, read_S5, read_S6, read_S7, read_S8, read_C0, read_C1, read_C2, read_C3, read_C4, read_C5, read_C6, read_C7, read_C8, read_C9, read_C10, read_C11, read_C12, read_C13, read_C14, read_C15, keep_S0, keep_S1, keep_S2, keep_S3, keep_S4, keep_S5, keep_S6, keep_S7, keep_S8, keep_C0, keep_C1, keep_C2, keep_C3, keep_C4, keep_C5, keep_C6, keep_C7, keep_C8, keep_C9, keep_C10, keep_C11, keep_C12, keep_C13, keep_C14, keep_C15, keep_FIN]
    try simp only [raw0_apply, raw1_apply, raw2_apply]
    rfl
  | ⟨11, hk⟩ =>
    rw [pick16_at_11]
    refine (col_apply _ p).trans ?_
    simp (disch := decide) only [rdv, rd, read_S0, read_S1, read_S2, read_S3, read_S4, read_S5, read_S6, read_S7, read_S8, read_C0, read_C1, read_C2, read_C3, read_C4, read_C5, read_C6, read_C7, read_C8, read_C9, read_C10, read_C11, read_C12, read_C13, read_C14, read_C15, keep_S0, keep_S1, keep_S2, keep_S3, keep_S4, keep_S5, keep_S6, keep_S7, keep_S8, keep_C0, keep_C1, keep_C2, keep_C3, keep_C4, keep_C5, keep_C6, keep_C7, keep_C8, keep_C9, keep_C10, keep_C11, keep_C12, keep_C13, keep_C14, keep_C15, keep_FIN]
    try simp only [raw0_apply, raw1_apply, raw2_apply]
    rfl
  | ⟨12, hk⟩ =>
    rw [pick16_at_12]
    refine (col_apply _ p).trans ?_
    simp (disch := decide) only [rdv, rd, read_S0, read_S1, read_S2, read_S3, read_S4, read_S5, read_S6, read_S7, read_S8, read_C0, read_C1, read_C2, read_C3, read_C4, read_C5, read_C6, read_C7, read_C8, read_C9, read_C10, read_C11, read_C12, read_C13, read_C14, read_C15, keep_S0, keep_S1, keep_S2, keep_S3, keep_S4, keep_S5, keep_S6, keep_S7, keep_S8, keep_C0, keep_C1, keep_C2, keep_C3, keep_C4, keep_C5, keep_C6, keep_C7, keep_C8, keep_C9, keep_C10, keep_C11, keep_C12, keep_C13, keep_C14, keep_C15, keep_FIN]
    try simp only [raw0_apply, raw1_apply, raw2_apply]
    rfl
  | ⟨13, hk⟩ =>
    rw [pick16_at_13]
    refine (col_apply _ p).trans ?_
    simp (disch := decide) only [rdv, rd, read_S0, read_S1, read_S2, read_S3, read_S4, read_S5, read_S6, read_S7, read_S8, read_C0, read_C1, read_C2, read_C3, read_C4, read_C5, read_C6, read_C7, read_C8, read_C9, read_C10, read_C11, read_C12, read_C13, read_C14, read_C15, keep_S0, keep_S1, keep_S2, keep_S3, keep_S4, keep_S5, keep_S6, keep_S7, keep_S8, keep_C0, keep_C1, keep_C2, keep_C3, keep_C4, keep_C5, keep_C6, keep_C7, keep_C8, keep_C9, keep_C10, keep_C11, keep_C12, keep_C13, keep_C14, keep_C15, keep_FIN]
    try simp only [raw0_apply, raw1_apply, raw2_apply]
    rfl
  | ⟨14, hk⟩ =>
    rw [pick16_at_14]
    refine (col_apply _ p).trans ?_
    simp (disch := decide) only [rdv, rd, read_S0, read_S1, read_S2, read_S3, read_S4, read_S5, read_S6, read_S7, read_S8, read_C0, read_C1, read_C2, read_C3, read_C4, read_C5, read_C6, read_C7, read_C8, read_C9, read_C10, read_C11, read_C12, read_C13, read_C14, read_C15, keep_S0, keep_S1, keep_S2, keep_S3, keep_S4, keep_S5, keep_S6, keep_S7, keep_S8, keep_C0, keep_C1, keep_C2, keep_C3, keep_C4, keep_C5, keep_C6, keep_C7, keep_C8, keep_C9, keep_C10, keep_C11, keep_C12, keep_C13, keep_C14, keep_C15, keep_FIN]
    try simp only [raw0_apply, raw1_apply, raw2_apply]
    rfl
  | ⟨15, hk⟩ =>
    rw [pick16_at_15]
    refine (col_apply _ p).trans ?_
    simp (disch := decide) only [rdv, rd, read_S0, read_S1, read_S2, read_S3, read_S4, read_S5, read_S6, read_S7, read_S8, read_C0, read_C1, read_C2, read_C3, read_C4, read_C5, read_C6, read_C7, read_C8, read_C9, read_C10, read_C11, read_C12, read_C13, read_C14, read_C15, keep_S0, keep_S1, keep_S2, keep_S3, keep_S4, keep_S5, keep_S6, keep_S7, keep_S8, keep_C0, keep_C1, keep_C2, keep_C3, keep_C4, keep_C5, keep_C6, keep_C7, keep_C8, keep_C9, keep_C10, keep_C11, keep_C12, keep_C13, keep_C14, keep_C15, keep_FIN]
    try simp only [raw0_apply, raw1_apply, raw2_apply]
    rfl
  | ⟨n + 16, hk⟩ => exact absurd hk (by omega)

/-- The two spellings of the columns give one array. -/
theorem G_colR_eq_colK (a : (⟨2, ![4000000, 3]⟩ : Shape).Idx → EReal) : G colR a = G colK a :=
  funext fun i => colR_eq_colK _ _ _ _

/-- Every weakly fair execution of the reference terminates with the result buffer at the specification's array of the
    input array, and the input array unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v459) = G colK (m ((c.tc : Thread nD τ).loc main_arg0))
      ∧ r.2.mem ((c.tc : Thread nD τ).loc main_arg0) = m ((c.tc : Thread nD τ).loc main_arg0) :=
  (θ_run defs _ _).mono (fun _ h c => ⟨(h c main_v459).trans ((ref_value _).trans (G_colR_eq_colK _)),
      (h c main_arg0).trans (arg_kept _)⟩)
    (run_seq scopedRefs_eq scopedSems_eq defs main (fun _ => ops) main_eq (fun _ => ops_sub) m ρ (fun _ => ops_fresh))

end Cert.QSH.Ref

end
-- ==== Proof.lean ====
/-
  The quantized spherical-harmonics kernel against its reference.

  Both programs take an array of four million rows (a, b, c) and return, per row, sixteen numbers: with x = q(2a - 1),
  y = q(2b - 1), z = q(2c - 1) the quantized coordinates — q multiplies by 1024, rounds to the nearest integer with ties
  to even, divides by 1024 and clamps to [-64, 64 - 1/1024] — the sixteen real spherical harmonics of degree below four
  in (x, y, z), every product, sum and coefficient quantized again. On the extended reals every operation of either
  program is the exact one, so both compute this one function of the input array (Proof/Spec.lean):

  * the kernel works on blocks of 2000 rows; one block's result at (p, k) is column k of the coordinates of row p of the
    block (Proof/KBlock.lean), block t covers rows 2000·t to 2000·t + 1999, and the 2000 blocks cover the array
    (Proof/KArray.lean);
  * the reference is a straight line of host operations, read back stretch by stretch (Proof/RefSegs.lean,
    Proof/RefReadA.lean to RefReadC.lean, Proof/RefKeep.lean, Proof/RefSide.lean, Proof/RefRun.lean);
  * the kernel carries each coefficient already quantized, the reference quantizes the unquantized single-precision
    coefficient: q(c) is that quantized number for each of the thirteen coefficients (Proof/Coeffs.lean).

  The idealization rewrote nothing, so its conjunct is trivial; the three programs' runs and unchanged arguments come
  from the generated frames and, for the reference, from its run read back.
-/
import proofs.«106742_j70918499992406_2_alg».proof.Defs
import proofs.«106742_j70918499992406_2_alg».proof.Proof.Gen.Kernel
import proofs.«106742_j70918499992406_2_alg».proof.Proof.Gen.Kernel.Frame
import proofs.«106742_j70918499992406_2_alg».proof.Proof.Gen.KernelIdeal
import proofs.«106742_j70918499992406_2_alg».proof.Proof.Gen.KernelIdeal.Frame
import proofs.«106742_j70918499992406_2_alg».proof.Proof.Gen.ReferenceIdeal
import proofs.«106742_j70918499992406_2_alg».proof.Proof.Gen.Pre_finite_inputs
import proofs.«106742_j70918499992406_2_alg».proof.Proof.KArray
import proofs.«106742_j70918499992406_2_alg».proof.Proof.RefRun
import Idealize.ShloMosaic.Adequacy
import Idealize.ShloMosaic.Init

noncomputable section

namespace Cert.Proof

open Idealize.ShloMosaic Idealize.SL.Sem

/-- The word-level kernel runs and leaves its argument unchanged. -/
theorem frame_kernel : Cert.frame_Kernel :=
  fun m ρ _ => Cert.Kernel.Gen.frame m ρ

/-- The idealized kernel runs and leaves its argument unchanged. -/
theorem frame_kernelIdeal : Cert.frame_KernelIdeal :=
  fun m ρ _ => Cert.KernelIdeal.Gen.frame m ρ

/-- The reference runs and leaves its argument unchanged: its run, with the result dropped. -/
theorem frame_reference : Cert.frame_ReferenceIdeal :=
  fun m ρ _ => (θ_run Cert.ReferenceIdeal.defs _ _).mono (fun _ h c => (h c).2) (Cert.QSH.Ref.ref_run m ρ)

/-- From memories agreeing on the input array both programs end with the specification's array of it. -/
theorem algebraic : Cert.algebraic_KernelIdeal_ReferenceIdeal := by
  intro m ρ m' ρ' _ hagree
  refine ⟨fun c => Cert.QSH.G Cert.QSH.colK (m ((c.tc : Thread Cert.KernelIdeal.nD Cert.KernelIdeal.τ).loc Cert.KernelIdeal.main_arg0)),
    Cert.QSH.kernel_run m ρ, ?_⟩
  refine (θ_run Cert.ReferenceIdeal.defs _ _).mono (fun _ h c => ⟨(h c).1.trans ?_, (h c).2⟩) (Cert.QSH.Ref.ref_run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
